-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v137)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x40 : Shape := ⟨2, ![128, 40]⟩
abbrev S40 : Shape := ⟨1, ![40]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg11 : FVec F S40 .f32) (main_v48 : IVec S_ 1) (main_v49 : FVec F S128x40 .f32) (main_v50 : FVec F S128x40 .f32) : IVec S_ 1 :=
  let main_v51 : IVec S128x40 1 := cmpf .olt main_v49 main_v50
  let main_c_19 : IVec S_ 1 := constantI S_ 1 1#1
  let main_v52 : IVec S_ 1 := (fun x v => Host.reduce IntOp.andi x v reducesTo_S128x40_S_d0_1 h_S_) main_v51 main_c_19
  let main_v53 : IVec S_ 1 := andi main_v48 main_v52
  let main_v54 : FVec F S40 .f32 := Host.absf main_arg11
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  main_v58

def fn_part2 {F : FTy → Type} [FloatOps F] (main_arg7 : FVec F S4x128x128 .f32) (main_arg8 : FVec F S4x128 .f32) (main_arg9 : FVec F S4x128 .f32) (main_arg10 : FVec F S128x40 .f32) (main_arg11 : FVec F S40 .f32) (main_v33 : IVec S_ 1) : IVec S_ 1 :=
  let main_v34 : FVec F S4x128x128 .f32 := Host.absf main_arg7
  let main_cst_12 : FVec F S_ .f32 := constant S_ .f32 0x7F800000#32
  let main_v35 : FVec F S4x128x128 .f32 := broadcastInDim S4x128x128 ![] bcast_S_S4x128x128 main_cst_12
  let main_v36 : IVec S4x128x128 1 := cmpf .olt main_v34 main_v35
  let main_c_13 : IVec S_ 1 := constantI S_ 1 1#1
  let main_v37 : IVec S_ 1 := (fun x v => Host.reduce IntOp.andi x v reducesTo_S4x128x128_S_d0_1_2 h_S_) main_v36 main_c_13
  let main_v38 : IVec S_ 1 := andi main_v33 main_v37
  let main_v39 : FVec F S4x128 .f32 := Host.absf main_arg8
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S4x128 .f32 := Host.absf main_arg9
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S128x40 .f32 := Host.absf main_arg10
  let main_cst_18 : FVec F S_ .f32 := constant S_ .f32 0x7F800000#32
  let main_v50 : FVec F S128x40 .f32 := broadcastInDim S128x40 ![] bcast_S_S128x40 main_cst_18
  fn_part3 (F := F) main_arg11 main_v48 main_v49 main_v50

def fn_part1 {F : FTy → Type} [FloatOps F] (main_arg4 : FVec F S128 .f32) (main_arg5 : FVec F S4x128x128 .f32) (main_arg6 : FVec F S4x128 .f32) (main_arg7 : FVec F S4x128x128 .f32) (main_arg8 : FVec F S4x128 .f32) (main_arg9 : FVec F S4x128 .f32) (main_arg10 : FVec F S128x40 .f32) (main_arg11 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S4x128x128 .f32 := Host.absf main_arg5
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S4x128 .f32 := Host.absf main_arg6
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x128 .f32) (main_arg1 : FVec F S128x128 .f32) (main_arg2 : FVec F S128 .f32) (main_arg3 : FVec F S128 .f32) (main_arg4 : FVec F S128 .f32) (main_arg5 : FVec F S4x128x128 .f32) (main_arg6 : FVec F S4x128 .f32) (main_arg7 : FVec F S4x128x128 .f32) (main_arg8 : FVec F S4x128 .f32) (main_arg9 : FVec F S4x128 .f32) (main_arg10 : FVec F S128x40 .f32) (main_arg11 : FVec F S40 .f32) (main_arg12 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S100000x128 : Shape := ⟨2, ![100000, 128]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x40 : Shape := ⟨2, ![128, 40]⟩
abbrev S40 : Shape := ⟨1, ![40]⟩
abbrev S2x1600000 : Shape := ⟨2, ![2, 1600000]⟩
abbrev S1x1600000 : Shape := ⟨2, ![1, 1600000]⟩
abbrev S1600000 : Shape := ⟨1, ![1600000]⟩
abbrev S1x128 : Shape := ⟨2, ![1, 128]⟩
abbrev S5000x128 : Shape := ⟨2, ![5000, 128]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 266
  | .vmem => 80
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128, .f32⟩
  | 4 => ⟨S128, .f32⟩
  | 5 => ⟨S4x128x128, .f32⟩
  | 6 => ⟨S4x128, .f32⟩
  | 7 => ⟨S4x128x128, .f32⟩
  | 8 => ⟨S4x128, .f32⟩
  | 9 => ⟨S4x128, .f32⟩
  | 10 => ⟨S128x40, .f32⟩
  | 11 => ⟨S40, .f32⟩
  | 12 => ⟨S2x1600000, .i32⟩
  | 13 => ⟨S1x1600000, .i32⟩
  | 14 => ⟨S1600000, .i32⟩
  | 15 => ⟨S1x1600000, .i32⟩
  | 16 => ⟨S1600000, .i32⟩
  | 17 => ⟨S1x128, .f32⟩
  | 18 => ⟨S100000x128, .f32⟩
  | 19 => ⟨S_, .f32⟩
  | 20 => ⟨S128, .f32⟩
  | 21 => ⟨S1x128, .f32⟩
  | 22 => ⟨S_, .f32⟩
  | 23 => ⟨S1x128, .f32⟩
  | 24 => ⟨S1x128, .f32⟩
  | 25 => ⟨S_, .i32⟩
  | 26 => ⟨S_, .f32⟩
  | 27 => ⟨S128, .f32⟩
  | 28 => ⟨S1x128, .f32⟩
  | 29 => ⟨S_, .f32⟩
  | 30 => ⟨S1x128, .f32⟩
  | 31 => ⟨S1x128, .f32⟩
  | 32 => ⟨S100000x128, .f32⟩
  | 33 => ⟨S100000x128, .f32⟩
  | 34 => ⟨S100000x128, .f32⟩
  | 35 => ⟨S_, .f32⟩
  | 36 => ⟨S_, .f32⟩
  | 37 => ⟨S_, .f32⟩
  | 38 => ⟨S_, .f32⟩
  | 39 => ⟨S128, .f32⟩
  | 40 => ⟨S1x128, .f32⟩
  | 41 => ⟨S1x128, .f32⟩
  | 42 => ⟨S1x128, .f32⟩
  | 43 => ⟨S_, .f32⟩
  | 44 => ⟨S_, .i1⟩
  | 45 => ⟨S_, .f32⟩
  | 46 => ⟨S_, .f32⟩
  | 47 => ⟨S1x128, .f32⟩
  | 48 => ⟨S1x128, .f32⟩
  | 49 => ⟨S1x128, .f32⟩
  | 50 => ⟨S1x128, .f32⟩
  | 51 => ⟨S100000x128, .f32⟩
  | 52 => ⟨S_, .f32⟩
  | 53 => ⟨S1600000x1, .f32⟩
  | 54 => ⟨S_, .f32⟩
  | 55 => ⟨S100000x1, .f32⟩
  | 56 => ⟨S1600000x1, .i32⟩
  | 57 => ⟨S100000x1, .f32⟩
  | 58 => ⟨S_, .f32⟩
  | 59 => ⟨S100000x1, .f32⟩
  | 60 => ⟨S100000x1, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S_, .f32⟩
  | 71 => ⟨S100000x128, .f32⟩
  | 72 => ⟨S1600000x1, .i32⟩
  | 73 => ⟨S100000x128, .f32⟩
  | 74 => ⟨S100000x128, .f32⟩
  | 75 => ⟨S100000x128, .f32⟩
  | 76 => ⟨S1x128x128, .f32⟩
  | 77 => ⟨S128x128, .f32⟩
  | 78 => ⟨S1x128x128, .f32⟩
  | 79 => ⟨S128x128, .f32⟩
  | 80 => ⟨S1x128, .f32⟩
  | 81 => ⟨S128, .f32⟩
  | 82 => ⟨S1x128, .f32⟩
  | 83 => ⟨S100000x128, .f32⟩
  | 84 => ⟨S_, .f32⟩
  | 85 => ⟨S128, .f32⟩
  | 86 => ⟨S1x128, .f32⟩
  | 87 => ⟨S_, .f32⟩
  | 88 => ⟨S1x128, .f32⟩
  | 89 => ⟨S1x128, .f32⟩
  | 90 => ⟨S_, .i32⟩
  | 91 => ⟨S_, .f32⟩
  | 92 => ⟨S128, .f32⟩
  | 93 => ⟨S1x128, .f32⟩
  | 94 => ⟨S_, .f32⟩
  | 95 => ⟨S1x128, .f32⟩
  | 96 => ⟨S1x128, .f32⟩
  | 97 => ⟨S100000x128, .f32⟩
  | 98 => ⟨S100000x128, .f32⟩
  | 99 => ⟨S100000x128, .f32⟩
  | 100 => ⟨S_, .f32⟩
  | 101 => ⟨S_, .f32⟩
  | 102 => ⟨S_, .f32⟩
  | 103 => ⟨S_, .f32⟩
  | 104 => ⟨S128, .f32⟩
  | 105 => ⟨S1x128, .f32⟩
  | 106 => ⟨S1x128, .f32⟩
  | 107 => ⟨S1x128, .f32⟩
  | 108 => ⟨S_, .f32⟩
  | 109 => ⟨S_, .i1⟩
  | 110 => ⟨S_, .f32⟩
  | 111 => ⟨S_, .f32⟩
  | 112 => ⟨S1x128, .f32⟩
  | 113 => ⟨S1x128, .f32⟩
  | 114 => ⟨S1x128, .f32⟩
  | 115 => ⟨S128, .f32⟩
  | 116 => ⟨S1x128, .f32⟩
  | 117 => ⟨S128, .f32⟩
  | 118 => ⟨S1x128, .f32⟩
  | 119 => ⟨S1x128, .f32⟩
  | 120 => ⟨S100000x128, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x128, .f32⟩

abbrev hbmTy0_1 (i : Nat) : BufTy := match i % 128 with
  | 0 => ⟨S1600000x1, .i32⟩
  | 1 => ⟨S1600000x128, .f32⟩
  | 2 => ⟨S_, .f32⟩
  | 3 => ⟨S100000x128, .f32⟩
  | 4 => ⟨S1600000x1, .i32⟩
  | 5 => ⟨S100000x128, .f32⟩
  | 6 => ⟨S100000x128, .f32⟩
  | 7 => ⟨S100000x128, .f32⟩
  | 8 => ⟨S1x128x128, .f32⟩
  | 9 => ⟨S128x128, .f32⟩
  | 10 => ⟨S1x128x128, .f32⟩
  | 11 => ⟨S128x128, .f32⟩
  | 12 => ⟨S1x128, .f32⟩
  | 13 => ⟨S128, .f32⟩
  | 14 => ⟨S1x128, .f32⟩
  | 15 => ⟨S100000x128, .f32⟩
  | 16 => ⟨S_, .f32⟩
  | 17 => ⟨S128, .f32⟩
  | 18 => ⟨S1x128, .f32⟩
  | 19 => ⟨S_, .f32⟩
  | 20 => ⟨S1x128, .f32⟩
  | 21 => ⟨S1x128, .f32⟩
  | 22 => ⟨S_, .i32⟩
  | 23 => ⟨S_, .f32⟩
  | 24 => ⟨S128, .f32⟩
  | 25 => ⟨S1x128, .f32⟩
  | 26 => ⟨S_, .f32⟩
  | 27 => ⟨S1x128, .f32⟩
  | 28 => ⟨S1x128, .f32⟩
  | 29 => ⟨S100000x128, .f32⟩
  | 30 => ⟨S100000x128, .f32⟩
  | 31 => ⟨S100000x128, .f32⟩
  | 32 => ⟨S_, .f32⟩
  | 33 => ⟨S_, .f32⟩
  | 34 => ⟨S_, .f32⟩
  | 35 => ⟨S_, .f32⟩
  | 36 => ⟨S128, .f32⟩
  | 37 => ⟨S1x128, .f32⟩
  | 38 => ⟨S1x128, .f32⟩
  | 39 => ⟨S1x128, .f32⟩
  | 40 => ⟨S_, .f32⟩
  | 41 => ⟨S_, .i1⟩
  | 42 => ⟨S_, .f32⟩
  | 43 => ⟨S_, .f32⟩
  | 44 => ⟨S1x128, .f32⟩
  | 45 => ⟨S1x128, .f32⟩
  | 46 => ⟨S1x128, .f32⟩
  | 47 => ⟨S128, .f32⟩
  | 48 => ⟨S1x128, .f32⟩
  | 49 => ⟨S128, .f32⟩
  | 50 => ⟨S1x128, .f32⟩
  | 51 => ⟨S1x128, .f32⟩
  | 52 => ⟨S100000x128, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x128, .f32⟩
  | 62 => ⟨S_, .f32⟩
  | 63 => ⟨S100000x128, .f32⟩
  | 64 => ⟨S1600000x1, .i32⟩
  | 65 => ⟨S100000x128, .f32⟩
  | 66 => ⟨S100000x128, .f32⟩
  | 67 => ⟨S100000x128, .f32⟩
  | 68 => ⟨S1x128x128, .f32⟩
  | 69 => ⟨S128x128, .f32⟩
  | 70 => ⟨S1x128x128, .f32⟩
  | 71 => ⟨S128x128, .f32⟩
  | 72 => ⟨S1x128, .f32⟩
  | 73 => ⟨S128, .f32⟩
  | 74 => ⟨S1x128, .f32⟩
  | 75 => ⟨S100000x128, .f32⟩
  | 76 => ⟨S_, .f32⟩
  | 77 => ⟨S128, .f32⟩
  | 78 => ⟨S1x128, .f32⟩
  | 79 => ⟨S_, .f32⟩
  | 80 => ⟨S1x128, .f32⟩
  | 81 => ⟨S1x128, .f32⟩
  | 82 => ⟨S_, .i32⟩
  | 83 => ⟨S_, .f32⟩
  | 84 => ⟨S128, .f32⟩
  | 85 => ⟨S1x128, .f32⟩
  | 86 => ⟨S_, .f32⟩
  | 87 => ⟨S1x128, .f32⟩
  | 88 => ⟨S1x128, .f32⟩
  | 89 => ⟨S100000x128, .f32⟩
  | 90 => ⟨S100000x128, .f32⟩
  | 91 => ⟨S100000x128, .f32⟩
  | 92 => ⟨S_, .f32⟩
  | 93 => ⟨S_, .f32⟩
  | 94 => ⟨S_, .f32⟩
  | 95 => ⟨S_, .f32⟩
  | 96 => ⟨S128, .f32⟩
  | 97 => ⟨S1x128, .f32⟩
  | 98 => ⟨S1x128, .f32⟩
  | 99 => ⟨S1x128, .f32⟩
  | 100 => ⟨S_, .f32⟩
  | 101 => ⟨S_, .i1⟩
  | 102 => ⟨S_, .f32⟩
  | 103 => ⟨S_, .f32⟩
  | 104 => ⟨S1x128, .f32⟩
  | 105 => ⟨S1x128, .f32⟩
  | 106 => ⟨S1x128, .f32⟩
  | 107 => ⟨S128, .f32⟩
  | 108 => ⟨S1x128, .f32⟩
  | 109 => ⟨S128, .f32⟩
  | 110 => ⟨S1x128, .f32⟩
  | 111 => ⟨S1x128, .f32⟩
  | 112 => ⟨S100000x128, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x128, .f32⟩
  | 122 => ⟨S_, .f32⟩
  | 123 => ⟨S100000x128, .f32⟩
  | 124 => ⟨S1600000x1, .i32⟩
  | 125 => ⟨S100000x128, .f32⟩
  | 126 => ⟨S100000x128, .f32⟩
  | 127 => ⟨S100000x128, .f32⟩
  | _ => ⟨S100000x128, .f32⟩

abbrev hbmTy0_2 (i : Nat) : BufTy := match i % 128 with
  | 0 => ⟨S1x128x128, .f32⟩
  | 1 => ⟨S128x128, .f32⟩
  | 2 => ⟨S1x128x128, .f32⟩
  | 3 => ⟨S128x128, .f32⟩
  | 4 => ⟨S1x128, .f32⟩
  | 5 => ⟨S128, .f32⟩
  | 6 => ⟨S1x128, .f32⟩
  | 7 => ⟨S100000x128, .f32⟩
  | 8 => ⟨S1x40, .f32⟩
  | 9 => ⟨S100000x40, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S128x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S128x128, .f32⟩
  | .local _ .vmem, ⟨53, _⟩ => ⟨S128x128, .f32⟩
  | .local _ .vmem, ⟨54, _⟩ => ⟨S1x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S128x128, .f32⟩
  | .local _ .vmem, ⟨70, _⟩ => ⟨S128x128, .f32⟩
  | .local _ .vmem, ⟨71, _⟩ => ⟨S1x128, .f32⟩
  | .local _ .vmem, ⟨72, _⟩ => ⟨S5000x128, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | .local _ .vmem, ⟨76, _⟩ => ⟨S128x40, .f32⟩
  | .local _ .vmem, ⟨77, _⟩ => ⟨S1x40, .f32⟩
  | .local _ .vmem, ⟨78, _⟩ => ⟨S5000x40, .f32⟩
  | .local _ .vmem, ⟨79, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_cst_3 : Ref sig .tc := ⟨.hbm, 43, rfl⟩
abbrev main_call0_v13 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_cst_1 : Ref sig .tc := ⟨.hbm, 52, rfl⟩
abbrev main_v14 : Ref sig .tc := ⟨.hbm, 53, rfl⟩
abbrev main_cst_2 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_3 : Ref sig .tc := ⟨.hbm, 58, rfl⟩
abbrev main_v18 : Ref sig .tc := ⟨.hbm, 59, rfl⟩
abbrev main_v19 : Ref sig .tc := ⟨.hbm, 60, rfl⟩
abbrev main_c_4 : Ref sig .tc := ⟨.hbm, 61, rfl⟩
abbrev main_v20 : Ref sig .tc := ⟨.hbm, 62, rfl⟩
abbrev main_v21 : Ref sig .tc := ⟨.hbm, 63, rfl⟩
abbrev main_c_5 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_cst_6 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_cst_7 : Ref sig .tc := ⟨.hbm, 84, rfl⟩
abbrev main_v40 : Ref sig .tc := ⟨.hbm, 85, rfl⟩
abbrev main_v41 : Ref sig .tc := ⟨.hbm, 86, rfl⟩
abbrev main_cst_8 : Ref sig .tc := ⟨.hbm, 87, rfl⟩
abbrev main_v42 : Ref sig .tc := ⟨.hbm, 88, rfl⟩
abbrev main_v43 : Ref sig .tc := ⟨.hbm, 89, rfl⟩
abbrev main_c_9 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_cst_0 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_v6 : Ref sig .tc := ⟨.hbm, 99, rfl⟩
abbrev main_call1_v7 : Ref sig .tc := ⟨.hbm, 100, rfl⟩
abbrev main_call1_cst_1 : Ref sig .tc := ⟨.hbm, 101, rfl⟩
abbrev main_call1_v8 : Ref sig .tc := ⟨.hbm, 102, rfl⟩
abbrev main_call1_cst_2 : Ref sig .tc := ⟨.hbm, 103, rfl⟩
abbrev main_call1_v9 : Ref sig .tc := ⟨.hbm, 104, rfl⟩
abbrev main_call1_v10 : Ref sig .tc := ⟨.hbm, 105, rfl⟩
abbrev main_call1_v11 : Ref sig .tc := ⟨.hbm, 106, rfl⟩
abbrev main_call1_v12 : Ref sig .tc := ⟨.hbm, 107, rfl⟩
abbrev main_call1_cst_3 : Ref sig .tc := ⟨.hbm, 108, rfl⟩
abbrev main_call1_v13 : Ref sig .tc := ⟨.hbm, 109, rfl⟩
abbrev main_call1_cst_4 : Ref sig .tc := ⟨.hbm, 110, rfl⟩
abbrev main_call1_call0_v0 : Ref sig .tc := ⟨.hbm, 111, rfl⟩
abbrev main_call1_call0_v1 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_c_10 : Ref sig .tc := ⟨.hbm, 121, rfl⟩
abbrev main_v52 : Ref sig .tc := ⟨.hbm, 122, rfl⟩
abbrev main_v53 : Ref sig .tc := ⟨.hbm, 123, rfl⟩
abbrev main_c_11 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_cst_12 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_cst_13 : Ref sig .tc := ⟨.hbm, 144, rfl⟩
abbrev main_v72 : Ref sig .tc := ⟨.hbm, 145, rfl⟩
abbrev main_v73 : Ref sig .tc := ⟨.hbm, 146, rfl⟩
abbrev main_cst_14 : Ref sig .tc := ⟨.hbm, 147, rfl⟩
abbrev main_v74 : Ref sig .tc := ⟨.hbm, 148, rfl⟩
abbrev main_v75 : Ref sig .tc := ⟨.hbm, 149, rfl⟩
abbrev main_c_15 : Ref sig .tc := ⟨.hbm, 150, rfl⟩
abbrev main_call2_cst : Ref sig .tc := ⟨.hbm, 151, rfl⟩
abbrev main_call2_v0 : Ref sig .tc := ⟨.hbm, 152, rfl⟩
abbrev main_call2_v1 : Ref sig .tc := ⟨.hbm, 153, rfl⟩
abbrev main_call2_cst_0 : Ref sig .tc := ⟨.hbm, 154, rfl⟩
abbrev main_call2_v2 : Ref sig .tc := ⟨.hbm, 155, rfl⟩
abbrev main_call2_v3 : Ref sig .tc := ⟨.hbm, 156, rfl⟩
abbrev main_call2_v4 : Ref sig .tc := ⟨.hbm, 157, rfl⟩
abbrev main_call2_v5 : Ref sig .tc := ⟨.hbm, 158, rfl⟩
abbrev main_call2_v6 : Ref sig .tc := ⟨.hbm, 159, rfl⟩
abbrev main_call2_v7 : Ref sig .tc := ⟨.hbm, 160, rfl⟩
abbrev main_call2_cst_1 : Ref sig .tc := ⟨.hbm, 161, rfl⟩
abbrev main_call2_v8 : Ref sig .tc := ⟨.hbm, 162, rfl⟩
abbrev main_call2_cst_2 : Ref sig .tc := ⟨.hbm, 163, rfl⟩
abbrev main_call2_v9 : Ref sig .tc := ⟨.hbm, 164, rfl⟩
abbrev main_call2_v10 : Ref sig .tc := ⟨.hbm, 165, rfl⟩
abbrev main_call2_v11 : Ref sig .tc := ⟨.hbm, 166, rfl⟩
abbrev main_call2_v12 : Ref sig .tc := ⟨.hbm, 167, rfl⟩
abbrev main_call2_cst_3 : Ref sig .tc := ⟨.hbm, 168, rfl⟩
abbrev main_call2_v13 : Ref sig .tc := ⟨.hbm, 169, rfl⟩
abbrev main_call2_cst_4 : Ref sig .tc := ⟨.hbm, 170, rfl⟩
abbrev main_call2_call0_v0 : Ref sig .tc := ⟨.hbm, 171, rfl⟩
abbrev main_call2_call0_v1 : Ref sig .tc := ⟨.hbm, 172, rfl⟩
abbrev main_v76 : Ref sig .tc := ⟨.hbm, 173, rfl⟩
abbrev main_v77 : Ref sig .tc := ⟨.hbm, 174, rfl⟩
abbrev main_v78 : Ref sig .tc := ⟨.hbm, 175, rfl⟩
abbrev main_v79 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_c_16 : Ref sig .tc := ⟨.hbm, 181, rfl⟩
abbrev main_v84 : Ref sig .tc := ⟨.hbm, 182, rfl⟩
abbrev main_v85 : Ref sig .tc := ⟨.hbm, 183, rfl⟩
abbrev main_c_17 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_v89 : Ref sig .tc := ⟨.hbm, 188, rfl⟩
abbrev main_v90 : Ref sig .tc := ⟨.hbm, 189, rfl⟩
abbrev main_cst_18 : Ref sig .tc := ⟨.hbm, 190, rfl⟩
abbrev main_v91 : Ref sig .tc := ⟨.hbm, 191, rfl⟩
abbrev main_v92 : Ref sig .tc := ⟨.hbm, 192, rfl⟩
abbrev main_v93 : Ref sig .tc := ⟨.hbm, 193, rfl⟩
abbrev main_v94 : Ref sig .tc := ⟨.hbm, 194, rfl⟩
abbrev main_v95 : Ref sig .tc := ⟨.hbm, 195, rfl⟩
abbrev main_v96 : Ref sig .tc := ⟨.hbm, 196, rfl⟩
abbrev main_v97 : Ref sig .tc := ⟨.hbm, 197, rfl⟩
abbrev main_v98 : Ref sig .tc := ⟨.hbm, 198, rfl⟩
abbrev main_v99 : Ref sig .tc := ⟨.hbm, 199, rfl⟩
abbrev main_v100 : Ref sig .tc := ⟨.hbm, 200, rfl⟩
abbrev main_v101 : Ref sig .tc := ⟨.hbm, 201, rfl⟩
abbrev main_v102 : Ref sig .tc := ⟨.hbm, 202, rfl⟩
abbrev main_v103 : Ref sig .tc := ⟨.hbm, 203, rfl⟩
abbrev main_cst_19 : Ref sig .tc := ⟨.hbm, 204, rfl⟩
abbrev main_v104 : Ref sig .tc := ⟨.hbm, 205, rfl⟩
abbrev main_v105 : Ref sig .tc := ⟨.hbm, 206, rfl⟩
abbrev main_cst_20 : Ref sig .tc := ⟨.hbm, 207, rfl⟩
abbrev main_v106 : Ref sig .tc := ⟨.hbm, 208, rfl⟩
abbrev main_v107 : Ref sig .tc := ⟨.hbm, 209, rfl⟩
abbrev main_c_21 : Ref sig .tc := ⟨.hbm, 210, rfl⟩
abbrev main_call3_cst : Ref sig .tc := ⟨.hbm, 211, rfl⟩
abbrev main_call3_v0 : Ref sig .tc := ⟨.hbm, 212, rfl⟩
abbrev main_call3_v1 : Ref sig .tc := ⟨.hbm, 213, rfl⟩
abbrev main_call3_cst_0 : Ref sig .tc := ⟨.hbm, 214, rfl⟩
abbrev main_call3_v2 : Ref sig .tc := ⟨.hbm, 215, rfl⟩
abbrev main_call3_v3 : Ref sig .tc := ⟨.hbm, 216, rfl⟩
abbrev main_call3_v4 : Ref sig .tc := ⟨.hbm, 217, rfl⟩
abbrev main_call3_v5 : Ref sig .tc := ⟨.hbm, 218, rfl⟩
abbrev main_call3_v6 : Ref sig .tc := ⟨.hbm, 219, rfl⟩
abbrev main_call3_v7 : Ref sig .tc := ⟨.hbm, 220, rfl⟩
abbrev main_call3_cst_1 : Ref sig .tc := ⟨.hbm, 221, rfl⟩
abbrev main_call3_v8 : Ref sig .tc := ⟨.hbm, 222, rfl⟩
abbrev main_call3_cst_2 : Ref sig .tc := ⟨.hbm, 223, rfl⟩
abbrev main_call3_v9 : Ref sig .tc := ⟨.hbm, 224, rfl⟩
abbrev main_call3_v10 : Ref sig .tc := ⟨.hbm, 225, rfl⟩
abbrev main_call3_v11 : Ref sig .tc := ⟨.hbm, 226, rfl⟩
abbrev main_call3_v12 : Ref sig .tc := ⟨.hbm, 227, rfl⟩
abbrev main_call3_cst_3 : Ref sig .tc := ⟨.hbm, 228, rfl⟩
abbrev main_call3_v13 : Ref sig .tc := ⟨.hbm, 229, rfl⟩
abbrev main_call3_cst_4 : Ref sig .tc := ⟨.hbm, 230, rfl⟩
abbrev main_call3_call0_v0 : Ref sig .tc := ⟨.hbm, 231, rfl⟩
abbrev main_call3_call0_v1 : Ref sig .tc := ⟨.hbm, 232, rfl⟩
abbrev main_v108 : Ref sig .tc := ⟨.hbm, 233, rfl⟩
abbrev main_v109 : Ref sig .tc := ⟨.hbm, 234, rfl⟩
abbrev main_v110 : Ref sig .tc := ⟨.hbm, 235, rfl⟩
abbrev main_v111 : Ref sig .tc := ⟨.hbm, 236, rfl⟩
abbrev main_v112 : Ref sig .tc := ⟨.hbm, 237, rfl⟩
abbrev main_v113 : Ref sig .tc := ⟨.hbm, 238, rfl⟩
abbrev main_v114 : Ref sig .tc := ⟨.hbm, 239, rfl⟩
abbrev main_v115 : Ref sig .tc := ⟨.hbm, 240, rfl⟩
abbrev main_c_22 : Ref sig .tc := ⟨.hbm, 241, rfl⟩
abbrev main_v116 : Ref sig .tc := ⟨.hbm, 242, rfl⟩
abbrev main_v117 : Ref sig .tc := ⟨.hbm, 243, rfl⟩
abbrev main_c_23 : Ref sig .tc := ⟨.hbm, 244, rfl⟩
abbrev main_v118 : Ref sig .tc := ⟨.hbm, 245, rfl⟩
abbrev main_v119 : Ref sig .tc := ⟨.hbm, 246, rfl⟩
abbrev main_v120 : Ref sig .tc := ⟨.hbm, 247, rfl⟩
abbrev main_v121 : Ref sig .tc := ⟨.hbm, 248, rfl⟩
abbrev main_v122 : Ref sig .tc := ⟨.hbm, 249, rfl⟩
abbrev main_cst_24 : Ref sig .tc := ⟨.hbm, 250, rfl⟩
abbrev main_v123 : Ref sig .tc := ⟨.hbm, 251, rfl⟩
abbrev main_v124 : Ref sig .tc := ⟨.hbm, 252, rfl⟩
abbrev main_v125 : Ref sig .tc := ⟨.hbm, 253, rfl⟩
abbrev main_v126 : Ref sig .tc := ⟨.hbm, 254, rfl⟩
abbrev main_v127 : Ref sig .tc := ⟨.hbm, 255, rfl⟩
abbrev main_v128 : Ref sig .tc := ⟨.hbm, 256, rfl⟩
abbrev main_v129 : Ref sig .tc := ⟨.hbm, 257, rfl⟩
abbrev main_v130 : Ref sig .tc := ⟨.hbm, 258, rfl⟩
abbrev main_v131 : Ref sig .tc := ⟨.hbm, 259, rfl⟩
abbrev main_v132 : Ref sig .tc := ⟨.hbm, 260, rfl⟩
abbrev main_v133 : Ref sig .tc := ⟨.hbm, 261, rfl⟩
abbrev main_v134 : Ref sig .tc := ⟨.hbm, 262, rfl⟩
abbrev main_v135 : Ref sig .tc := ⟨.hbm, 263, rfl⟩
abbrev main_v136 : Ref sig .tc := ⟨.hbm, 264, rfl⟩
abbrev main_v137 : Ref sig .tc := ⟨.hbm, 265, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg5_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg5_0 : Ref sig .tc := ⟨.vmem, 55, rfl⟩
abbrev cc6_stg5_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg2_0 : Ref sig .tc := ⟨.vmem, 60, rfl⟩
abbrev cc7_stg3_0 : Ref sig .tc := ⟨.vmem, 61, rfl⟩
abbrev cc7_stg4_0 : Ref sig .tc := ⟨.vmem, 62, rfl⟩
abbrev cc7_stg5_0 : Ref sig .tc := ⟨.vmem, 63, rfl⟩
abbrev cc7_stg5_1 : Ref sig .tc := ⟨.vmem, 64, rfl⟩
abbrev cc8_stg0_0 : Ref sig .tc := ⟨.vmem, 65, rfl⟩
abbrev cc8_stg0_1 : Ref sig .tc := ⟨.vmem, 66, rfl⟩
abbrev cc8_stg1_0 : Ref sig .tc := ⟨.vmem, 67, rfl⟩
abbrev cc8_stg1_1 : Ref sig .tc := ⟨.vmem, 68, rfl⟩
abbrev cc8_stg2_0 : Ref sig .tc := ⟨.vmem, 69, rfl⟩
abbrev cc8_stg3_0 : Ref sig .tc := ⟨.vmem, 70, rfl⟩
abbrev cc8_stg4_0 : Ref sig .tc := ⟨.vmem, 71, rfl⟩
abbrev cc8_stg5_0 : Ref sig .tc := ⟨.vmem, 72, rfl⟩
abbrev cc8_stg5_1 : Ref sig .tc := ⟨.vmem, 73, rfl⟩
abbrev cc9_stg0_0 : Ref sig .tc := ⟨.vmem, 74, rfl⟩
abbrev cc9_stg0_1 : Ref sig .tc := ⟨.vmem, 75, rfl⟩
abbrev cc9_stg1_0 : Ref sig .tc := ⟨.vmem, 76, rfl⟩
abbrev cc9_stg2_0 : Ref sig .tc := ⟨.vmem, 77, rfl⟩
abbrev cc9_stg3_0 : Ref sig .tc := ⟨.vmem, 78, rfl⟩
abbrev cc9_stg3_1 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem5_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem5_0 : DmaSem sig := 55
abbrev cc6_sem5_1 : DmaSem sig := 56
abbrev cc7_sem0_0 : DmaSem sig := 57
abbrev cc7_sem0_1 : DmaSem sig := 58
abbrev cc7_sem1_0 : DmaSem sig := 59
abbrev cc7_sem2_0 : DmaSem sig := 60
abbrev cc7_sem3_0 : DmaSem sig := 61
abbrev cc7_sem4_0 : DmaSem sig := 62
abbrev cc7_sem5_0 : DmaSem sig := 63
abbrev cc7_sem5_1 : DmaSem sig := 64
abbrev cc8_sem0_0 : DmaSem sig := 65
abbrev cc8_sem0_1 : DmaSem sig := 66
abbrev cc8_sem1_0 : DmaSem sig := 67
abbrev cc8_sem1_1 : DmaSem sig := 68
abbrev cc8_sem2_0 : DmaSem sig := 69
abbrev cc8_sem3_0 : DmaSem sig := 70
abbrev cc8_sem4_0 : DmaSem sig := 71
abbrev cc8_sem5_0 : DmaSem sig := 72
abbrev cc8_sem5_1 : DmaSem sig := 73
abbrev cc9_sem0_0 : DmaSem sig := 74
abbrev cc9_sem0_1 : DmaSem sig := 75
abbrev cc9_sem1_0 : DmaSem sig := 76
abbrev cc9_sem2_0 : DmaSem sig := 77
abbrev cc9_sem3_0 : DmaSem sig := 78
abbrev cc9_sem3_1 : DmaSem sig := 79

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x40 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x40 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x40 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S100000x128_S128_d0 : S100000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  shapeCasts_S5000x128_S5000x128 : S5000x128.ShapeCasts S5000x128
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128x128_S128x128 : S128x128.ShapeCasts S128x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  dot_S5000x128_S128x128_S5000x128_1_0_0_1_n_n_wf : DotDims.WF S5000x128 S128x128 S5000x128 [1] [0] [0] [1] [] []
  scatter_S100000x1_S1600000x1_S1600000x1_1_0_0_1_wf : ScatterDims.WF S100000x1 S1600000x1 S1600000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S100000x128.size a
  hwx6_5 : ∀ i : grid6.Coords, EltTy.bits .f32 = 32 ∨ (Rect.block (s := S100000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S100000x128.size a
  hwx7_5 : ∀ i : grid7.Coords, EltTy.bits .f32 = 32 ∨ (Rect.block (s := S100000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S100000x128.size a
  hwx8_1 : ∀ i : grid8.Coords, EltTy.bits .f32 = 32 ∨ (Rect.block (s := S100000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S100000x128.size a
  hwx8_5 : ∀ i : grid8.Coords, EltTy.bits .f32 = 32 ∨ (Rect.block (s := S100000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x40.size a ≤ S128x40.size a
  hwx9_1 : ∀ i : grid9.Coords, EltTy.bits .f32 = 32 ∨ (Rect.block (s := S128x40) S128x40.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x40.size a ≤ S1x40.size a
  hwx9_2 : ∀ i : grid9.Coords, EltTy.bits .f32 = 32 ∨ (Rect.block (s := S1x40) S1x40.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x40.size a ≤ S100000x40.size a
  hwx9_3 : ∀ i : grid9.Coords, EltTy.bits .f32 = 32 ∨ (Rect.block (s := S100000x40) S5000x40.size (cc9_transform_3 i) (hinb9_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v31) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v39) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v65) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v70) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v71) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v71) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v81) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v82) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v75) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v76) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v83) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v95) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v83) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v97) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v99) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v102) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v103) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v103) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v113) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v114) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v107) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v108) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v115) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v127) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v115) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v129) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v131) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v134) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v135) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v135) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg10) S128x40.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v136) S1x40.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v137) S5000x40.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x40 : Shape := ⟨2, ![128, 40]⟩
abbrev S40 : Shape := ⟨1, ![40]⟩
abbrev S2x1600000 : Shape := ⟨2, ![2, 1600000]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1x128x128 : Shape := ⟨3, ![1, 128, 128]⟩
abbrev S1600000x1 : Shape := ⟨2, ![1600000, 1]⟩
abbrev S1600000x128 : Shape := ⟨2, ![1600000, 128]⟩
abbrev S100000x1 : Shape := ⟨2, ![100000, 1]⟩
abbrev S100000x40 : Shape := ⟨2, ![100000, 40]⟩
abbrev S1x40 : Shape := ⟨2, ![1, 40]⟩

abbrev nBuf : Space → Nat
  | .hbm => 369
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128, .f32⟩
  | 4 => ⟨S128, .f32⟩
  | 5 => ⟨S4x128x128, .f32⟩
  | 6 => ⟨S4x128, .f32⟩
  | 7 => ⟨S4x128x128, .f32⟩
  | 8 => ⟨S4x128, .f32⟩
  | 9 => ⟨S4x128, .f32⟩
  | 10 => ⟨S128x40, .f32⟩
  | 11 => ⟨S40, .f32⟩
  | 12 => ⟨S2x1600000, .i32⟩
  | 13 => ⟨S1x1600000, .i32⟩
  | 14 => ⟨S1600000, .i32⟩
  | 15 => ⟨S1x1600000, .i32⟩
  | 16 => ⟨S1600000, .i32⟩
  | 17 => ⟨S100000x128, .f32⟩
  | 18 => ⟨S1x128, .f32⟩
  | 19 => ⟨S100000x128, .f32⟩
  | 20 => ⟨S100000x128, .f32⟩
  | 21 => ⟨S_, .f32⟩
  | 22 => ⟨S128, .f32⟩
  | 23 => ⟨S_, .f32⟩
  | 24 => ⟨S128, .f32⟩
  | 25 => ⟨S128, .f32⟩
  | 26 => ⟨S_, .i32⟩
  | 27 => ⟨S_, .f32⟩
  | 28 => ⟨S128, .f32⟩
  | 29 => ⟨S1x128, .f32⟩
  | 30 => ⟨S_, .f32⟩
  | 31 => ⟨S1x128, .f32⟩
  | 32 => ⟨S1x128, .f32⟩
  | 33 => ⟨S100000x128, .f32⟩
  | 34 => ⟨S100000x128, .f32⟩
  | 35 => ⟨S100000x128, .f32⟩
  | 36 => ⟨S_, .f32⟩
  | 37 => ⟨S_, .f32⟩
  | 38 => ⟨S_, .f32⟩
  | 39 => ⟨S_, .f32⟩
  | 40 => ⟨S128, .f32⟩
  | 41 => ⟨S128, .f32⟩
  | 42 => ⟨S128, .f32⟩
  | 43 => ⟨S_, .f32⟩
  | 44 => ⟨S_, .i1⟩
  | 45 => ⟨S_, .f32⟩
  | 46 => ⟨S_, .f32⟩
  | 47 => ⟨S128, .f32⟩
  | 48 => ⟨S128, .f32⟩
  | 49 => ⟨S1x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S128, .f32⟩
  | 57 => ⟨S128, .f32⟩
  | 58 => ⟨S128, .f32⟩
  | 59 => ⟨S1x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S1x128x128, .f32⟩
  | 69 => ⟨S128x128, .f32⟩
  | 70 => ⟨S1x128, .f32⟩
  | 71 => ⟨S128, .f32⟩
  | 72 => ⟨S1x128x128, .f32⟩
  | 73 => ⟨S128x128, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S_, .f32⟩
  | 88 => ⟨S1600000x1, .f32⟩
  | 89 => ⟨S_, .f32⟩
  | 90 => ⟨S100000x1, .f32⟩
  | 91 => ⟨S1600000x1, .i32⟩
  | 92 => ⟨S100000x1, .f32⟩
  | 93 => ⟨S_, .f32⟩
  | 94 => ⟨S100000x1, .f32⟩
  | 95 => ⟨S100000x1, .f32⟩
  | 96 => ⟨S100000x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S100000x128, .f32⟩
  | 103 => ⟨S100000x128, .f32⟩
  | 104 => ⟨S1x128, .f32⟩
  | 105 => ⟨S128, .f32⟩
  | 106 => ⟨S1x128, .f32⟩
  | 107 => ⟨S128, .f32⟩
  | 108 => ⟨S_, .f32⟩
  | 109 => ⟨S128, .f32⟩
  | 110 => ⟨S_, .f32⟩
  | 111 => ⟨S128, .f32⟩
  | 112 => ⟨S128, .f32⟩
  | 113 => ⟨S_, .i32⟩
  | 114 => ⟨S_, .f32⟩
  | 115 => ⟨S128, .f32⟩
  | 116 => ⟨S1x128, .f32⟩
  | 117 => ⟨S_, .f32⟩
  | 118 => ⟨S1x128, .f32⟩
  | 119 => ⟨S1x128, .f32⟩
  | 120 => ⟨S100000x128, .f32⟩
  | 121 => ⟨S100000x128, .f32⟩
  | 122 => ⟨S100000x128, .f32⟩
  | 123 => ⟨S_, .f32⟩
  | 124 => ⟨S_, .f32⟩
  | 125 => ⟨S_, .f32⟩
  | 126 => ⟨S_, .f32⟩
  | 127 => ⟨S128, .f32⟩
  | _ => ⟨S100000x128, .f32⟩

abbrev hbmTy0_1 (i : Nat) : BufTy := match i % 128 with
  | 0 => ⟨S128, .f32⟩
  | 1 => ⟨S128, .f32⟩
  | 2 => ⟨S_, .f32⟩
  | 3 => ⟨S_, .i1⟩
  | 4 => ⟨S_, .f32⟩
  | 5 => ⟨S_, .f32⟩
  | 6 => ⟨S128, .f32⟩
  | 7 => ⟨S128, .f32⟩
  | 8 => ⟨S1x128, .f32⟩
  | 9 => ⟨S100000x128, .f32⟩
  | 10 => ⟨S100000x128, .f32⟩
  | 11 => ⟨S1x128, .f32⟩
  | 12 => ⟨S100000x128, .f32⟩
  | 13 => ⟨S100000x128, .f32⟩
  | 14 => ⟨S_, .f32⟩
  | 15 => ⟨S128, .f32⟩
  | 16 => ⟨S128, .f32⟩
  | 17 => ⟨S128, .f32⟩
  | 18 => ⟨S1x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S1x128x128, .f32⟩
  | 28 => ⟨S128x128, .f32⟩
  | 29 => ⟨S1x128, .f32⟩
  | 30 => ⟨S128, .f32⟩
  | 31 => ⟨S1x128x128, .f32⟩
  | 32 => ⟨S128x128, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x128, .f32⟩
  | 42 => ⟨S_, .f32⟩
  | 43 => ⟨S100000x128, .f32⟩
  | 44 => ⟨S1600000x1, .i32⟩
  | 45 => ⟨S100000x128, .f32⟩
  | 46 => ⟨S_, .f32⟩
  | 47 => ⟨S1600000x1, .f32⟩
  | 48 => ⟨S_, .f32⟩
  | 49 => ⟨S100000x1, .f32⟩
  | 50 => ⟨S1600000x1, .i32⟩
  | 51 => ⟨S100000x1, .f32⟩
  | 52 => ⟨S_, .f32⟩
  | 53 => ⟨S100000x1, .f32⟩
  | 54 => ⟨S100000x1, .f32⟩
  | 55 => ⟨S100000x128, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S100000x128, .f32⟩
  | 62 => ⟨S100000x128, .f32⟩
  | 63 => ⟨S1x128, .f32⟩
  | 64 => ⟨S128, .f32⟩
  | 65 => ⟨S1x128, .f32⟩
  | 66 => ⟨S128, .f32⟩
  | 67 => ⟨S_, .f32⟩
  | 68 => ⟨S128, .f32⟩
  | 69 => ⟨S_, .f32⟩
  | 70 => ⟨S128, .f32⟩
  | 71 => ⟨S128, .f32⟩
  | 72 => ⟨S_, .i32⟩
  | 73 => ⟨S_, .f32⟩
  | 74 => ⟨S128, .f32⟩
  | 75 => ⟨S1x128, .f32⟩
  | 76 => ⟨S_, .f32⟩
  | 77 => ⟨S1x128, .f32⟩
  | 78 => ⟨S1x128, .f32⟩
  | 79 => ⟨S100000x128, .f32⟩
  | 80 => ⟨S100000x128, .f32⟩
  | 81 => ⟨S100000x128, .f32⟩
  | 82 => ⟨S_, .f32⟩
  | 83 => ⟨S_, .f32⟩
  | 84 => ⟨S_, .f32⟩
  | 85 => ⟨S_, .f32⟩
  | 86 => ⟨S128, .f32⟩
  | 87 => ⟨S128, .f32⟩
  | 88 => ⟨S128, .f32⟩
  | 89 => ⟨S_, .f32⟩
  | 90 => ⟨S_, .i1⟩
  | 91 => ⟨S_, .f32⟩
  | 92 => ⟨S_, .f32⟩
  | 93 => ⟨S128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S128, .f32⟩
  | 103 => ⟨S128, .f32⟩
  | 104 => ⟨S128, .f32⟩
  | 105 => ⟨S1x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S1x128x128, .f32⟩
  | 115 => ⟨S128x128, .f32⟩
  | 116 => ⟨S1x128, .f32⟩
  | 117 => ⟨S128, .f32⟩
  | 118 => ⟨S1x128x128, .f32⟩
  | 119 => ⟨S128x128, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_2 (i : Nat) : BufTy := match i % 128 with
  | 0 => ⟨S1600000x128, .f32⟩
  | 1 => ⟨S_, .f32⟩
  | 2 => ⟨S100000x128, .f32⟩
  | 3 => ⟨S1600000x1, .i32⟩
  | 4 => ⟨S100000x128, .f32⟩
  | 5 => ⟨S_, .f32⟩
  | 6 => ⟨S1600000x1, .f32⟩
  | 7 => ⟨S_, .f32⟩
  | 8 => ⟨S100000x1, .f32⟩
  | 9 => ⟨S1600000x1, .i32⟩
  | 10 => ⟨S100000x1, .f32⟩
  | 11 => ⟨S_, .f32⟩
  | 12 => ⟨S100000x1, .f32⟩
  | 13 => ⟨S100000x1, .f32⟩
  | 14 => ⟨S100000x128, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S100000x128, .f32⟩
  | 21 => ⟨S100000x128, .f32⟩
  | 22 => ⟨S1x128, .f32⟩
  | 23 => ⟨S128, .f32⟩
  | 24 => ⟨S1x128, .f32⟩
  | 25 => ⟨S128, .f32⟩
  | 26 => ⟨S_, .f32⟩
  | 27 => ⟨S128, .f32⟩
  | 28 => ⟨S_, .f32⟩
  | 29 => ⟨S128, .f32⟩
  | 30 => ⟨S128, .f32⟩
  | 31 => ⟨S_, .i32⟩
  | 32 => ⟨S_, .f32⟩
  | 33 => ⟨S128, .f32⟩
  | 34 => ⟨S1x128, .f32⟩
  | 35 => ⟨S_, .f32⟩
  | 36 => ⟨S1x128, .f32⟩
  | 37 => ⟨S1x128, .f32⟩
  | 38 => ⟨S100000x128, .f32⟩
  | 39 => ⟨S100000x128, .f32⟩
  | 40 => ⟨S100000x128, .f32⟩
  | 41 => ⟨S_, .f32⟩
  | 42 => ⟨S_, .f32⟩
  | 43 => ⟨S_, .f32⟩
  | 44 => ⟨S_, .f32⟩
  | 45 => ⟨S128, .f32⟩
  | 46 => ⟨S128, .f32⟩
  | 47 => ⟨S128, .f32⟩
  | 48 => ⟨S_, .f32⟩
  | 49 => ⟨S_, .i1⟩
  | 50 => ⟨S_, .f32⟩
  | 51 => ⟨S_, .f32⟩
  | 52 => ⟨S128, .f32⟩
  | 53 => ⟨S128, .f32⟩
  | 54 => ⟨S1x128, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S_, .f32⟩
  | 61 => ⟨S128, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S1x128x128, .f32⟩
  | 74 => ⟨S128x128, .f32⟩
  | 75 => ⟨S1x128, .f32⟩
  | 76 => ⟨S128, .f32⟩
  | 77 => ⟨S1x128x128, .f32⟩
  | 78 => ⟨S128x128, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S_, .f32⟩
  | 89 => ⟨S100000x128, .f32⟩
  | 90 => ⟨S1600000x1, .i32⟩
  | 91 => ⟨S100000x128, .f32⟩
  | 92 => ⟨S_, .f32⟩
  | 93 => ⟨S1600000x1, .f32⟩
  | 94 => ⟨S_, .f32⟩
  | 95 => ⟨S100000x1, .f32⟩
  | 96 => ⟨S1600000x1, .i32⟩
  | 97 => ⟨S100000x1, .f32⟩
  | 98 => ⟨S_, .f32⟩
  | 99 => ⟨S100000x1, .f32⟩
  | 100 => ⟨S100000x1, .f32⟩
  | 101 => ⟨S100000x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S100000x128, .f32⟩
  | 108 => ⟨S100000x128, .f32⟩
  | 109 => ⟨S100000x40, .f32⟩
  | 110 => ⟨S1x40, .f32⟩
  | 111 => ⟨S100000x40, .f32⟩
  | 112 => ⟨S100000x40, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_cst_3 : Ref sig .tc := ⟨.hbm, 43, rfl⟩
abbrev main_call0_v12 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_cst_1 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_call1_cst : Ref sig .tc := ⟨.hbm, 65, rfl⟩
abbrev main_call1_v0 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_c_2 : Ref sig .tc := ⟨.hbm, 74, rfl⟩
abbrev main_v34 : Ref sig .tc := ⟨.hbm, 75, rfl⟩
abbrev main_v35 : Ref sig .tc := ⟨.hbm, 76, rfl⟩
abbrev main_c_3 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_cst_4 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_5 : Ref sig .tc := ⟨.hbm, 87, rfl⟩
abbrev main_v44 : Ref sig .tc := ⟨.hbm, 88, rfl⟩
abbrev main_cst_6 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_cst_7 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_8 : Ref sig .tc := ⟨.hbm, 108, rfl⟩
abbrev main_v62 : Ref sig .tc := ⟨.hbm, 109, rfl⟩
abbrev main_cst_9 : Ref sig .tc := ⟨.hbm, 110, rfl⟩
abbrev main_v63 : Ref sig .tc := ⟨.hbm, 111, rfl⟩
abbrev main_v64 : Ref sig .tc := ⟨.hbm, 112, rfl⟩
abbrev main_c_10 : Ref sig .tc := ⟨.hbm, 113, rfl⟩
abbrev main_call2_cst : Ref sig .tc := ⟨.hbm, 114, rfl⟩
abbrev main_call2_v0 : Ref sig .tc := ⟨.hbm, 115, rfl⟩
abbrev main_call2_v1 : Ref sig .tc := ⟨.hbm, 116, rfl⟩
abbrev main_call2_cst_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_v7 : Ref sig .tc := ⟨.hbm, 123, rfl⟩
abbrev main_call2_cst_1 : Ref sig .tc := ⟨.hbm, 124, rfl⟩
abbrev main_call2_v8 : Ref sig .tc := ⟨.hbm, 125, rfl⟩
abbrev main_call2_cst_2 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_cst_3 : Ref sig .tc := ⟨.hbm, 130, rfl⟩
abbrev main_call2_v12 : Ref sig .tc := ⟨.hbm, 131, rfl⟩
abbrev main_call2_cst_4 : Ref sig .tc := ⟨.hbm, 132, rfl⟩
abbrev main_call2_call0_v0 : Ref sig .tc := ⟨.hbm, 133, rfl⟩
abbrev main_call2_call0_v1 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_cst_11 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_call3_cst : Ref sig .tc := ⟨.hbm, 152, rfl⟩
abbrev main_call3_v0 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_c_12 : Ref sig .tc := ⟨.hbm, 161, rfl⟩
abbrev main_v88 : Ref sig .tc := ⟨.hbm, 162, rfl⟩
abbrev main_v89 : Ref sig .tc := ⟨.hbm, 163, rfl⟩
abbrev main_c_13 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_cst_14 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_cst_15 : Ref sig .tc := ⟨.hbm, 174, rfl⟩
abbrev main_v98 : Ref sig .tc := ⟨.hbm, 175, rfl⟩
abbrev main_cst_16 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_cst_17 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_cst_18 : Ref sig .tc := ⟨.hbm, 195, rfl⟩
abbrev main_v116 : Ref sig .tc := ⟨.hbm, 196, rfl⟩
abbrev main_cst_19 : Ref sig .tc := ⟨.hbm, 197, rfl⟩
abbrev main_v117 : Ref sig .tc := ⟨.hbm, 198, rfl⟩
abbrev main_v118 : Ref sig .tc := ⟨.hbm, 199, rfl⟩
abbrev main_c_20 : Ref sig .tc := ⟨.hbm, 200, rfl⟩
abbrev main_call4_cst : Ref sig .tc := ⟨.hbm, 201, rfl⟩
abbrev main_call4_v0 : Ref sig .tc := ⟨.hbm, 202, rfl⟩
abbrev main_call4_v1 : Ref sig .tc := ⟨.hbm, 203, rfl⟩
abbrev main_call4_cst_0 : Ref sig .tc := ⟨.hbm, 204, rfl⟩
abbrev main_call4_v2 : Ref sig .tc := ⟨.hbm, 205, rfl⟩
abbrev main_call4_v3 : Ref sig .tc := ⟨.hbm, 206, rfl⟩
abbrev main_call4_v4 : Ref sig .tc := ⟨.hbm, 207, rfl⟩
abbrev main_call4_v5 : Ref sig .tc := ⟨.hbm, 208, rfl⟩
abbrev main_call4_v6 : Ref sig .tc := ⟨.hbm, 209, rfl⟩
abbrev main_call4_v7 : Ref sig .tc := ⟨.hbm, 210, rfl⟩
abbrev main_call4_cst_1 : Ref sig .tc := ⟨.hbm, 211, rfl⟩
abbrev main_call4_v8 : Ref sig .tc := ⟨.hbm, 212, rfl⟩
abbrev main_call4_cst_2 : Ref sig .tc := ⟨.hbm, 213, rfl⟩
abbrev main_call4_v9 : Ref sig .tc := ⟨.hbm, 214, rfl⟩
abbrev main_call4_v10 : Ref sig .tc := ⟨.hbm, 215, rfl⟩
abbrev main_call4_v11 : Ref sig .tc := ⟨.hbm, 216, rfl⟩
abbrev main_call4_cst_3 : Ref sig .tc := ⟨.hbm, 217, rfl⟩
abbrev main_call4_v12 : Ref sig .tc := ⟨.hbm, 218, rfl⟩
abbrev main_call4_cst_4 : Ref sig .tc := ⟨.hbm, 219, rfl⟩
abbrev main_call4_call0_v0 : Ref sig .tc := ⟨.hbm, 220, rfl⟩
abbrev main_call4_call0_v1 : Ref sig .tc := ⟨.hbm, 221, rfl⟩
abbrev main_v119 : Ref sig .tc := ⟨.hbm, 222, rfl⟩
abbrev main_v120 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_cst_21 : Ref sig .tc := ⟨.hbm, 229, rfl⟩
abbrev main_v126 : Ref sig .tc := ⟨.hbm, 230, rfl⟩
abbrev main_v127 : Ref sig .tc := ⟨.hbm, 231, rfl⟩
abbrev main_v128 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_v133 : Ref sig .tc := ⟨.hbm, 237, rfl⟩
abbrev main_v134 : Ref sig .tc := ⟨.hbm, 238, rfl⟩
abbrev main_call5_cst : Ref sig .tc := ⟨.hbm, 239, rfl⟩
abbrev main_call5_v0 : Ref sig .tc := ⟨.hbm, 240, rfl⟩
abbrev main_v135 : Ref sig .tc := ⟨.hbm, 241, rfl⟩
abbrev main_v136 : Ref sig .tc := ⟨.hbm, 242, rfl⟩
abbrev main_v137 : Ref sig .tc := ⟨.hbm, 243, rfl⟩
abbrev main_v138 : Ref sig .tc := ⟨.hbm, 244, rfl⟩
abbrev main_v139 : Ref sig .tc := ⟨.hbm, 245, rfl⟩
abbrev main_v140 : Ref sig .tc := ⟨.hbm, 246, rfl⟩
abbrev main_v141 : Ref sig .tc := ⟨.hbm, 247, rfl⟩
abbrev main_c_22 : Ref sig .tc := ⟨.hbm, 248, rfl⟩
abbrev main_v142 : Ref sig .tc := ⟨.hbm, 249, rfl⟩
abbrev main_v143 : Ref sig .tc := ⟨.hbm, 250, rfl⟩
abbrev main_c_23 : Ref sig .tc := ⟨.hbm, 251, rfl⟩
abbrev main_v144 : Ref sig .tc := ⟨.hbm, 252, rfl⟩
abbrev main_v145 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_cst_24 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_cst_25 : Ref sig .tc := ⟨.hbm, 261, rfl⟩
abbrev main_v152 : Ref sig .tc := ⟨.hbm, 262, rfl⟩
abbrev main_cst_26 : Ref sig .tc := ⟨.hbm, 263, rfl⟩
abbrev main_v153 : Ref sig .tc := ⟨.hbm, 264, rfl⟩
abbrev main_v154 : Ref sig .tc := ⟨.hbm, 265, rfl⟩
abbrev main_v155 : Ref sig .tc := ⟨.hbm, 266, rfl⟩
abbrev main_cst_27 : Ref sig .tc := ⟨.hbm, 267, rfl⟩
abbrev main_v156 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_v160 : Ref sig .tc := ⟨.hbm, 272, rfl⟩
abbrev main_v161 : Ref sig .tc := ⟨.hbm, 273, rfl⟩
abbrev main_v162 : Ref sig .tc := ⟨.hbm, 274, rfl⟩
abbrev main_v163 : Ref sig .tc := ⟨.hbm, 275, rfl⟩
abbrev main_v164 : Ref sig .tc := ⟨.hbm, 276, rfl⟩
abbrev main_v165 : Ref sig .tc := ⟨.hbm, 277, rfl⟩
abbrev main_v166 : Ref sig .tc := ⟨.hbm, 278, rfl⟩
abbrev main_v167 : Ref sig .tc := ⟨.hbm, 279, rfl⟩
abbrev main_v168 : Ref sig .tc := ⟨.hbm, 280, rfl⟩
abbrev main_v169 : Ref sig .tc := ⟨.hbm, 281, rfl⟩
abbrev main_cst_28 : Ref sig .tc := ⟨.hbm, 282, rfl⟩
abbrev main_v170 : Ref sig .tc := ⟨.hbm, 283, rfl⟩
abbrev main_cst_29 : Ref sig .tc := ⟨.hbm, 284, rfl⟩
abbrev main_v171 : Ref sig .tc := ⟨.hbm, 285, rfl⟩
abbrev main_v172 : Ref sig .tc := ⟨.hbm, 286, rfl⟩
abbrev main_c_30 : Ref sig .tc := ⟨.hbm, 287, rfl⟩
abbrev main_call6_cst : Ref sig .tc := ⟨.hbm, 288, rfl⟩
abbrev main_call6_v0 : Ref sig .tc := ⟨.hbm, 289, rfl⟩
abbrev main_call6_v1 : Ref sig .tc := ⟨.hbm, 290, rfl⟩
abbrev main_call6_cst_0 : Ref sig .tc := ⟨.hbm, 291, rfl⟩
abbrev main_call6_v2 : Ref sig .tc := ⟨.hbm, 292, rfl⟩
abbrev main_call6_v3 : Ref sig .tc := ⟨.hbm, 293, rfl⟩
abbrev main_call6_v4 : Ref sig .tc := ⟨.hbm, 294, rfl⟩
abbrev main_call6_v5 : Ref sig .tc := ⟨.hbm, 295, rfl⟩
abbrev main_call6_v6 : Ref sig .tc := ⟨.hbm, 296, rfl⟩
abbrev main_call6_v7 : Ref sig .tc := ⟨.hbm, 297, rfl⟩
abbrev main_call6_cst_1 : Ref sig .tc := ⟨.hbm, 298, rfl⟩
abbrev main_call6_v8 : Ref sig .tc := ⟨.hbm, 299, rfl⟩
abbrev main_call6_cst_2 : Ref sig .tc := ⟨.hbm, 300, rfl⟩
abbrev main_call6_v9 : Ref sig .tc := ⟨.hbm, 301, rfl⟩
abbrev main_call6_v10 : Ref sig .tc := ⟨.hbm, 302, rfl⟩
abbrev main_call6_v11 : Ref sig .tc := ⟨.hbm, 303, rfl⟩
abbrev main_call6_cst_3 : Ref sig .tc := ⟨.hbm, 304, rfl⟩
abbrev main_call6_v12 : Ref sig .tc := ⟨.hbm, 305, rfl⟩
abbrev main_call6_cst_4 : Ref sig .tc := ⟨.hbm, 306, rfl⟩
abbrev main_call6_call0_v0 : Ref sig .tc := ⟨.hbm, 307, rfl⟩
abbrev main_call6_call0_v1 : Ref sig .tc := ⟨.hbm, 308, rfl⟩
abbrev main_v173 : Ref sig .tc := ⟨.hbm, 309, rfl⟩
abbrev main_v174 : Ref sig .tc := ⟨.hbm, 310, rfl⟩
abbrev main_v175 : Ref sig .tc := ⟨.hbm, 311, rfl⟩
abbrev main_v176 : Ref sig .tc := ⟨.hbm, 312, rfl⟩
abbrev main_v177 : Ref sig .tc := ⟨.hbm, 313, rfl⟩
abbrev main_v178 : Ref sig .tc := ⟨.hbm, 314, rfl⟩
abbrev main_v179 : Ref sig .tc := ⟨.hbm, 315, rfl⟩
abbrev main_cst_31 : Ref sig .tc := ⟨.hbm, 316, rfl⟩
abbrev main_v180 : Ref sig .tc := ⟨.hbm, 317, rfl⟩
abbrev main_v181 : Ref sig .tc := ⟨.hbm, 318, rfl⟩
abbrev main_v182 : Ref sig .tc := ⟨.hbm, 319, rfl⟩
abbrev main_v183 : Ref sig .tc := ⟨.hbm, 320, rfl⟩
abbrev main_v184 : Ref sig .tc := ⟨.hbm, 321, rfl⟩
abbrev main_v185 : Ref sig .tc := ⟨.hbm, 322, rfl⟩
abbrev main_v186 : Ref sig .tc := ⟨.hbm, 323, rfl⟩
abbrev main_v187 : Ref sig .tc := ⟨.hbm, 324, rfl⟩
abbrev main_v188 : Ref sig .tc := ⟨.hbm, 325, rfl⟩
abbrev main_call7_cst : Ref sig .tc := ⟨.hbm, 326, rfl⟩
abbrev main_call7_v0 : Ref sig .tc := ⟨.hbm, 327, rfl⟩
abbrev main_v189 : Ref sig .tc := ⟨.hbm, 328, rfl⟩
abbrev main_v190 : Ref sig .tc := ⟨.hbm, 329, rfl⟩
abbrev main_v191 : Ref sig .tc := ⟨.hbm, 330, rfl⟩
abbrev main_v192 : Ref sig .tc := ⟨.hbm, 331, rfl⟩
abbrev main_v193 : Ref sig .tc := ⟨.hbm, 332, rfl⟩
abbrev main_v194 : Ref sig .tc := ⟨.hbm, 333, rfl⟩
abbrev main_v195 : Ref sig .tc := ⟨.hbm, 334, rfl⟩
abbrev main_c_32 : Ref sig .tc := ⟨.hbm, 335, rfl⟩
abbrev main_v196 : Ref sig .tc := ⟨.hbm, 336, rfl⟩
abbrev main_v197 : Ref sig .tc := ⟨.hbm, 337, rfl⟩
abbrev main_c_33 : Ref sig .tc := ⟨.hbm, 338, rfl⟩
abbrev main_v198 : Ref sig .tc := ⟨.hbm, 339, rfl⟩
abbrev main_v199 : Ref sig .tc := ⟨.hbm, 340, rfl⟩
abbrev main_v200 : Ref sig .tc := ⟨.hbm, 341, rfl⟩
abbrev main_v201 : Ref sig .tc := ⟨.hbm, 342, rfl⟩
abbrev main_v202 : Ref sig .tc := ⟨.hbm, 343, rfl⟩
abbrev main_cst_34 : Ref sig .tc := ⟨.hbm, 344, rfl⟩
abbrev main_v203 : Ref sig .tc := ⟨.hbm, 345, rfl⟩
abbrev main_v204 : Ref sig .tc := ⟨.hbm, 346, rfl⟩
abbrev main_v205 : Ref sig .tc := ⟨.hbm, 347, rfl⟩
abbrev main_cst_35 : Ref sig .tc := ⟨.hbm, 348, rfl⟩
abbrev main_v206 : Ref sig .tc := ⟨.hbm, 349, rfl⟩
abbrev main_cst_36 : Ref sig .tc := ⟨.hbm, 350, rfl⟩
abbrev main_v207 : Ref sig .tc := ⟨.hbm, 351, rfl⟩
abbrev main_v208 : Ref sig .tc := ⟨.hbm, 352, rfl⟩
abbrev main_v209 : Ref sig .tc := ⟨.hbm, 353, rfl⟩
abbrev main_cst_37 : Ref sig .tc := ⟨.hbm, 354, rfl⟩
abbrev main_v210 : Ref sig .tc := ⟨.hbm, 355, rfl⟩
abbrev main_v211 : Ref sig .tc := ⟨.hbm, 356, rfl⟩
abbrev main_v212 : Ref sig .tc := ⟨.hbm, 357, rfl⟩
abbrev main_v213 : Ref sig .tc := ⟨.hbm, 358, rfl⟩
abbrev main_v214 : Ref sig .tc := ⟨.hbm, 359, rfl⟩
abbrev main_v215 : Ref sig .tc := ⟨.hbm, 360, rfl⟩
abbrev main_v216 : Ref sig .tc := ⟨.hbm, 361, rfl⟩
abbrev main_v217 : Ref sig .tc := ⟨.hbm, 362, rfl⟩
abbrev main_v218 : Ref sig .tc := ⟨.hbm, 363, rfl⟩
abbrev main_v219 : Ref sig .tc := ⟨.hbm, 364, rfl⟩
abbrev main_v220 : Ref sig .tc := ⟨.hbm, 365, rfl⟩
abbrev main_v221 : Ref sig .tc := ⟨.hbm, 366, rfl⟩
abbrev main_v222 : Ref sig .tc := ⟨.hbm, 367, rfl⟩
abbrev main_v223 : Ref sig .tc := ⟨.hbm, 368, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x40_S100000x40_1_0_0_1_n_n_wf : DotDims.WF S100000x128 S128x40 S100000x40 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
import proofs.«119291_j39402029973518_1_alg».proof.Proof.Gen.KernelIdeal.Frame

/-! The run of the idealized kernel program with its result named: from any launch memory, every weakly fair
execution on the TensorCores terminates without a fault, the result buffer holds the last boundary valuation's
contents, and the thirteen argument arrays end as launched. -/

set_option maxRecDepth 16384

noncomputable section

namespace Cert.KernelIdeal.RunVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from the memory `m` terminates, nothing faulting; the result buffer
    ends at the last boundary valuation's contents and every argument array ends as launched. The unscoped buffers
    all end at the last boundary valuation; the result buffer is one of them. -/
theorem run : θ_run defs (onTc (τ := τ) (main (F := F))) ⟨m, fun _ => 0, ρ⟩ (fun r => ∀ c : Dev nD,
      r.2.mem ((c.tc : Thread nD τ).loc main_v137) = Gen.W28 m ρ c (Proc.devRef .tc main_v137)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m ρ c b)
    (hfin := fun c s' => by
      iintro ⟨⟨Hh, -⟩, HSI⟩
      unfold StableHlo.held
      imodintro
      iapply (pointsTo_read_all (Pipeline.ucRefs τ sig) (fun b => (((c : Thread nD τ)).1, b)) (W28 m ρ c) s')
      isplitl [Hh] <;> iassumption)
    (hQ := fun s h c =>
      ⟨h c _ (mem_uc main_v137 (by decide)),
       (h c _ (mem_uc main_arg0 (by decide))).trans (W28_main_arg0 m ρ c),
       (h c _ (mem_uc main_arg1 (by decide))).trans (W28_main_arg1 m ρ c),
       (h c _ (mem_uc main_arg2 (by decide))).trans (W28_main_arg2 m ρ c),
       (h c _ (mem_uc main_arg3 (by decide))).trans (W28_main_arg3 m ρ c),
       (h c _ (mem_uc main_arg4 (by decide))).trans (W28_main_arg4 m ρ c),
       (h c _ (mem_uc main_arg5 (by decide))).trans (W28_main_arg5 m ρ c),
       (h c _ (mem_uc main_arg6 (by decide))).trans (W28_main_arg6 m ρ c),
       (h c _ (mem_uc main_arg7 (by decide))).trans (W28_main_arg7 m ρ c),
       (h c _ (mem_uc main_arg8 (by decide))).trans (W28_main_arg8 m ρ c),
       (h c _ (mem_uc main_arg9 (by decide))).trans (W28_main_arg9 m ρ c),
       (h c _ (mem_uc main_arg10 (by decide))).trans (W28_main_arg10 m ρ c),
       (h c _ (mem_uc main_arg11 (by decide))).trans (W28_main_arg11 m ρ c),
       (h c _ (mem_uc main_arg12 (by decide))).trans (W28_main_arg12 m ρ c)⟩)

end Cert.KernelIdeal.RunVal

end
-- ==== Proof.RefRun0.lean ====
/- Window 0 of the reference program's @main as the list of its 83 host operations, in program order,
   every call of an outlined function replaced by the callee's operations over that call's own buffers;
   the window is the straight line of that list, each operation touches TensorCore references only, and
   none allocates. -/
import proofs.«119291_j39402029973518_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements of window 0 of @main, calls inlined: 83 operations. -/
abbrev ops0 : List (HloOp τ sig (Elt F)) :=
  [ StableHlo.unary main_arg12 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg12 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg0 main_arg1 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg2 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S100000x128 ![0, 1] bcast_S1x128_S100000x128_0_1 : (⟨S1x128, .f32⟩ : BufTy).Contents (Elt F) → (⟨S100000x128, .f32⟩ : BufTy).Contents (Elt F)),
    StableHlo.binary main_v4 main_v6 main_v7 (addf : (⟨S100000x128, .f32⟩ : BufTy).Contents (Elt F) → (⟨S100000x128, .f32⟩ : BufTy).Contents (Elt F) → (⟨S100000x128, .f32⟩ : BufTy).Contents (Elt F)),
    StableHlo.nullary main_cst (constant S_ .f32 0x00000000#32),
    StableHlo.binary main_v7 main_cst main_v8 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_0 (constant S_ .f32 0x47C35000#32),
    StableHlo.unary main_cst_0 main_v9 (broadcastInDim S128 ![] bcast_S_S128 : (⟨S_, .f32⟩ : BufTy).Contents (Elt F) → (⟨S128, .f32⟩ : BufTy).Contents (Elt F)),
    StableHlo.binary main_v8 main_v9 main_v10 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary (.of main_call0_cst : StableHlo.TRef sig ⟨S_, .f32⟩) (constant S_ .f32 0x00000000#32),
    StableHlo.TRef.binary (.of main_v7 : StableHlo.TRef sig ⟨S100000x128, .f32⟩) (.of main_call0_cst : StableHlo.TRef sig ⟨S_, .f32⟩) (.of main_call0_v0 : StableHlo.TRef sig ⟨S128, .f32⟩) (fun x v => Host.reduceAdd x v reducesTo_S100000x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x47C35000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S100000x128, .f32⟩) (broadcastInDim S100000x128 ![0, 1] bcast_S1x128_S100000x128_0_1),
    StableHlo.TRef.binary (.of main_v7 : StableHlo.TRef sig ⟨S100000x128, .f32⟩) (.of main_call0_v4 : StableHlo.TRef sig ⟨S100000x128, .f32⟩) (.of main_call0_v5 : StableHlo.TRef sig ⟨S100000x128, .f32⟩) subf,
    StableHlo.TRef.binary (.of main_call0_v5 : StableHlo.TRef sig ⟨S100000x128, .f32⟩) (.of main_call0_v5 : StableHlo.TRef sig ⟨S100000x128, .f32⟩) (.of main_call0_v6 : StableHlo.TRef sig ⟨S100000x128, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47C35000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S100000x128, .f32⟩) (.of main_call0_cst_2 : StableHlo.TRef sig ⟨S_, .f32⟩) (.of main_call0_v9 : StableHlo.TRef sig ⟨S128, .f32⟩) (fun x v => Host.reduceAdd x v reducesTo_S100000x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v11 : StableHlo.TRef sig ⟨S128, .f32⟩) (fun p a b => select (broadcastInDim S128 ![] bcast_S_S128 p) a b),
    StableHlo.unary main_v10 main_v12 (broadcastInDim S1x128 ![1] bcast_S128_S1x128_1 : (⟨S128, .f32⟩ : BufTy).Contents (Elt F) → (⟨S1x128, .f32⟩ : BufTy).Contents (Elt F)),
    StableHlo.unary main_v12 main_v13 (broadcastInDim S100000x128 ![0, 1] bcast_S1x128_S100000x128_0_1 : (⟨S1x128, .f32⟩ : BufTy).Contents (Elt F) → (⟨S100000x128, .f32⟩ : BufTy).Contents (Elt F)),
    StableHlo.binary main_v7 main_v13 main_v14 (subf : (⟨S100000x128, .f32⟩ : BufTy).Contents (Elt F) → (⟨S100000x128, .f32⟩ : BufTy).Contents (Elt F) → (⟨S100000x128, .f32⟩ : BufTy).Contents (Elt F)),
    StableHlo.unary main_arg3 main_v15 (broadcastInDim S1x128 ![1] bcast_S128_S1x128_1 : (⟨S128, .f32⟩ : BufTy).Contents (Elt F) → (⟨S1x128, .f32⟩ : BufTy).Contents (Elt F)),
    StableHlo.unary main_v15 main_v16 (broadcastInDim S100000x128 ![0, 1] bcast_S1x128_S100000x128_0_1 : (⟨S1x128, .f32⟩ : BufTy).Contents (Elt F) → (⟨S100000x128, .f32⟩ : BufTy).Contents (Elt F)),
    StableHlo.binary main_v16 main_v14 main_v17 (mulf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x3727C5AC#32),
    StableHlo.unary main_cst_1 main_v18 (broadcastInDim S128 ![] bcast_S_S128 : (⟨S_, .f32⟩ : BufTy).Contents (Elt F) → (⟨S128, .f32⟩ : BufTy).Contents (Elt F)),
    StableHlo.binary main_v11 main_v18 main_v19 (addf : (⟨S128, .f32⟩ : BufTy).Contents (Elt F) → (⟨S128, .f32⟩ : BufTy).Contents (Elt F) → (⟨S128, .f32⟩ : BufTy).Contents (Elt F)),
    StableHlo.unary main_v19 main_v20 (Host.rsqrt : (⟨S128, .f32⟩ : BufTy).Contents (Elt F) → (⟨S128, .f32⟩ : BufTy).Contents (Elt F)),
    StableHlo.unary main_v20 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S100000x128 ![0, 1] bcast_S1x128_S100000x128_0_1 : (⟨S1x128, .f32⟩ : BufTy).Contents (Elt F) → (⟨S100000x128, .f32⟩ : BufTy).Contents (Elt F)),
    StableHlo.binary main_v17 main_v22 main_v23 (mulf : (⟨S100000x128, .f32⟩ : BufTy).Contents (Elt F) → (⟨S100000x128, .f32⟩ : BufTy).Contents (Elt F) → (⟨S100000x128, .f32⟩ : BufTy).Contents (Elt F)),
    StableHlo.unary main_arg4 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S100000x128 ![0, 1] bcast_S1x128_S100000x128_0_1 : (⟨S1x128, .f32⟩ : BufTy).Contents (Elt F) → (⟨S100000x128, .f32⟩ : BufTy).Contents (Elt F)),
    StableHlo.binary main_v23 main_v25 main_v26 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x128, .f32⟩) (broadcastInDim S100000x128 ![] bcast_S_S100000x128),
    StableHlo.TRef.binary (.of main_v26 : StableHlo.TRef sig ⟨S100000x128, .f32⟩) (.of main_call1_v0 : StableHlo.TRef sig ⟨S100000x128, .f32⟩) (.of main_v27 : StableHlo.TRef sig ⟨S100000x128, .f32⟩) maximumf,
    StableHlo.unary main_arg5 main_v28 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v28 main_v29 rfl shapeCasts_S1x128x128_S128x128,
    StableHlo.unary main_arg6 main_v30 ((extractStridedSlice S1x128 ![0, 0] · slices_S4x128_S1x128_0_0) : (⟨S4x128, .f32⟩ : BufTy).Contents (Elt F) → (⟨S1x128, .f32⟩ : BufTy).Contents (Elt F)),
    StableHlo.reshape main_v30 main_v31 rfl shapeCasts_S1x128_S128,
    StableHlo.unary main_arg7 main_v32 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v32 main_v33 rfl shapeCasts_S1x128x128_S128x128,
    StableHlo.nullary main_c_2 (constantI S_ 32 0#32),
    StableHlo.unary main_c_2 main_v34 (broadcastInDim S1600000 ![] bcast_S_S1600000 : (⟨S_, .i32⟩ : BufTy).Contents (Elt F) → (⟨S1600000, .i32⟩ : BufTy).Contents (Elt F)),
    StableHlo.binary main_v1 main_v34 main_v35 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v36 (broadcastInDim S1600000 ![] bcast_S_S1600000 : (⟨S_, .i32⟩ : BufTy).Contents (Elt F) → (⟨S1600000, .i32⟩ : BufTy).Contents (Elt F)),
    StableHlo.binary main_v1 main_v36 main_v37 (addi : (⟨S1600000, .i32⟩ : BufTy).Contents (Elt F) → (⟨S1600000, .i32⟩ : BufTy).Contents (Elt F) → (⟨S1600000, .i32⟩ : BufTy).Contents (Elt F)),
    StableHlo.ternary main_v35 main_v37 main_v1 main_v38 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v38 main_v39 (broadcastInDim S1600000x1 ![0] bcast_S1600000_S1600000x1_0 : (⟨S1600000, .i32⟩ : BufTy).Contents (Elt F) → (⟨S1600000x1, .i32⟩ : BufTy).Contents (Elt F)),
    StableHlo.binary main_v27 main_v39 main_v40 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_4 (constant S_ .f32 0x00000000#32),
    StableHlo.unary main_cst_4 main_v41 (broadcastInDim S100000x128 ![] bcast_S_S100000x128 : (⟨S_, .f32⟩ : BufTy).Contents (Elt F) → (⟨S100000x128, .f32⟩ : BufTy).Contents (Elt F)),
    StableHlo.unary main_v3 main_v42 (broadcastInDim S1600000x1 ![0] bcast_S1600000_S1600000x1_0 : (⟨S1600000, .i32⟩ : BufTy).Contents (Elt F) → (⟨S1600000x1, .i32⟩ : BufTy).Contents (Elt F)),
    StableHlo.ternary main_v41 main_v42 main_v40 main_v43 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_5 (constant S_ .f32 0x3F800000#32),
    StableHlo.unary main_cst_5 main_v44 (broadcastInDim S1600000x1 ![] bcast_S_S1600000x1 : (⟨S_, .f32⟩ : BufTy).Contents (Elt F) → (⟨S1600000x1, .f32⟩ : BufTy).Contents (Elt F)),
    StableHlo.nullary main_cst_6 (constant S_ .f32 0x00000000#32),
    StableHlo.unary main_cst_6 main_v45 (broadcastInDim S100000x1 ![] bcast_S_S100000x1 : (⟨S_, .f32⟩ : BufTy).Contents (Elt F) → (⟨S100000x1, .f32⟩ : BufTy).Contents (Elt F)),
    StableHlo.unary main_v3 main_v46 (broadcastInDim S1600000x1 ![0] bcast_S1600000_S1600000x1_0 : (⟨S1600000, .i32⟩ : BufTy).Contents (Elt F) → (⟨S1600000x1, .i32⟩ : BufTy).Contents (Elt F)),
    StableHlo.ternary main_v45 main_v46 main_v44 main_v47 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    StableHlo.nullary main_cst_7 (constant S_ .f32 0x3F800000#32),
    StableHlo.unary main_cst_7 main_v48 (broadcastInDim S100000x1 ![] bcast_S_S100000x1 : (⟨S_, .f32⟩ : BufTy).Contents (Elt F) → (⟨S100000x1, .f32⟩ : BufTy).Contents (Elt F)),
    StableHlo.binary main_v47 main_v48 main_v49 (maximumf : (⟨S100000x1, .f32⟩ : BufTy).Contents (Elt F) → (⟨S100000x1, .f32⟩ : BufTy).Contents (Elt F) → (⟨S100000x1, .f32⟩ : BufTy).Contents (Elt F)) ]

set_option maxRecDepth 8192 in
/-- The window is that straight line: the callees' definitions unfolded at their calls, sequencing reassociated. -/
theorem part0_eq (d : Dev nD) : main_part0 (F := F) d = seq ops0 := by
  simp only [main_part0, fn_var.body, fn_where.body, fn_relu.body, seq, bind_assoc, pure_bind]
  all_goals rfl

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., binary_bufs_sub .., unary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., reshape_bufs_sub .., unary_bufs_sub .., reshape_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub ..⟩

set_option maxRecDepth 8192 in
theorem ops0_fresh : ∀ op ∈ (ops0 : List (HloOp τ sig (Elt F))), op.fresh = ∅ := by
  intro _ h; (repeat (cases h with | head => rfl | tail _ h => ?_)); exact nomatch h

end Cert.ReferenceIdeal.RefRun

end
-- ==== Proof.RefRun1.lean ====
/- Window 1 of the reference program's @main as the list of its 83 host operations, in program order,
   every call of an outlined function replaced by the callee's operations over that call's own buffers;
   the window is the straight line of that list, each operation touches TensorCore references only, and
   none allocates. -/
import proofs.«119291_j39402029973518_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements of window 1 of @main, calls inlined: 83 operations. -/
abbrev ops1 : List (HloOp τ sig (Elt F)) :=
  [ StableHlo.unary main_v49 main_v50 (broadcastInDim S100000x128 ![0, 1] bcast_S100000x1_S100000x128_0_1 : (⟨S100000x1, .f32⟩ : BufTy).Contents (Elt F) → (⟨S100000x128, .f32⟩ : BufTy).Contents (Elt F)),
    StableHlo.binary main_v43 main_v50 main_v51 (Host.divf : (⟨S100000x128, .f32⟩ : BufTy).Contents (Elt F) → (⟨S100000x128, .f32⟩ : BufTy).Contents (Elt F) → (⟨S100000x128, .f32⟩ : BufTy).Contents (Elt F)),
    StableHlo.binary main_v51 main_v29 main_v52 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v31 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v52 main_v54 main_v55 (addf : (⟨S100000x128, .f32⟩ : BufTy).Contents (Elt F) → (⟨S100000x128, .f32⟩ : BufTy).Contents (Elt F) → (⟨S100000x128, .f32⟩ : BufTy).Contents (Elt F)),
    StableHlo.binary main_v27 main_v33 main_v56 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v55 main_v56 main_v57 (addf : (⟨S100000x128, .f32⟩ : BufTy).Contents (Elt F) → (⟨S100000x128, .f32⟩ : BufTy).Contents (Elt F) → (⟨S100000x128, .f32⟩ : BufTy).Contents (Elt F)),
    StableHlo.unary main_arg8 main_v58 ((extractStridedSlice S1x128 ![0, 0] · slices_S4x128_S1x128_0_0) : (⟨S4x128, .f32⟩ : BufTy).Contents (Elt F) → (⟨S1x128, .f32⟩ : BufTy).Contents (Elt F)),
    StableHlo.reshape main_v58 main_v59 rfl shapeCasts_S1x128_S128,
    StableHlo.unary main_arg9 main_v60 ((extractStridedSlice S1x128 ![0, 0] · slices_S4x128_S1x128_0_0) : (⟨S4x128, .f32⟩ : BufTy).Contents (Elt F) → (⟨S1x128, .f32⟩ : BufTy).Contents (Elt F)),
    StableHlo.reshape main_v60 main_v61 rfl shapeCasts_S1x128_S128,
    StableHlo.nullary main_cst_8 (constant S_ .f32 0x00000000#32),
    StableHlo.binary main_v57 main_cst_8 main_v62 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v63 (broadcastInDim S128 ![] bcast_S_S128 : (⟨S_, .f32⟩ : BufTy).Contents (Elt F) → (⟨S128, .f32⟩ : BufTy).Contents (Elt F)),
    StableHlo.binary main_v62 main_v63 main_v64 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary (.of main_call2_cst : StableHlo.TRef sig ⟨S_, .f32⟩) (constant S_ .f32 0x00000000#32),
    StableHlo.TRef.binary (.of main_v57 : StableHlo.TRef sig ⟨S100000x128, .f32⟩) (.of main_call2_cst : StableHlo.TRef sig ⟨S_, .f32⟩) (.of main_call2_v0 : StableHlo.TRef sig ⟨S128, .f32⟩) (fun x v => Host.reduceAdd x v reducesTo_S100000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S100000x128, .f32⟩) (broadcastInDim S100000x128 ![0, 1] bcast_S1x128_S100000x128_0_1),
    StableHlo.TRef.binary (.of main_v57 : StableHlo.TRef sig ⟨S100000x128, .f32⟩) (.of main_call2_v4 : StableHlo.TRef sig ⟨S100000x128, .f32⟩) (.of main_call2_v5 : StableHlo.TRef sig ⟨S100000x128, .f32⟩) subf,
    StableHlo.TRef.binary (.of main_call2_v5 : StableHlo.TRef sig ⟨S100000x128, .f32⟩) (.of main_call2_v5 : StableHlo.TRef sig ⟨S100000x128, .f32⟩) (.of main_call2_v6 : StableHlo.TRef sig ⟨S100000x128, .f32⟩) mulf,
    StableHlo.TRef.unary (.of main_c_10 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x128, .f32⟩) (.of main_call2_cst_2 : StableHlo.TRef sig ⟨S_, .f32⟩) (.of main_call2_v9 : StableHlo.TRef sig ⟨S128, .f32⟩) (fun x v => Host.reduceAdd x v reducesTo_S100000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v65 : StableHlo.TRef sig ⟨S128, .f32⟩) (fun p a b => select (broadcastInDim S128 ![] bcast_S_S128 p) a b),
    StableHlo.unary main_v64 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S100000x128 ![0, 1] bcast_S1x128_S100000x128_0_1 : (⟨S1x128, .f32⟩ : BufTy).Contents (Elt F) → (⟨S100000x128, .f32⟩ : BufTy).Contents (Elt F)),
    StableHlo.binary main_v57 main_v67 main_v68 (subf : (⟨S100000x128, .f32⟩ : BufTy).Contents (Elt F) → (⟨S100000x128, .f32⟩ : BufTy).Contents (Elt F) → (⟨S100000x128, .f32⟩ : BufTy).Contents (Elt F)),
    StableHlo.unary main_v59 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v70 main_v68 main_v71 (mulf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v72 (broadcastInDim S128 ![] bcast_S_S128 : (⟨S_, .f32⟩ : BufTy).Contents (Elt F) → (⟨S128, .f32⟩ : BufTy).Contents (Elt F)),
    StableHlo.binary main_v65 main_v72 main_v73 (addf : (⟨S128, .f32⟩ : BufTy).Contents (Elt F) → (⟨S128, .f32⟩ : BufTy).Contents (Elt F) → (⟨S128, .f32⟩ : BufTy).Contents (Elt F)),
    StableHlo.unary main_v73 main_v74 (Host.rsqrt : (⟨S128, .f32⟩ : BufTy).Contents (Elt F) → (⟨S128, .f32⟩ : BufTy).Contents (Elt F)),
    StableHlo.unary main_v74 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S100000x128 ![0, 1] bcast_S1x128_S100000x128_0_1 : (⟨S1x128, .f32⟩ : BufTy).Contents (Elt F) → (⟨S100000x128, .f32⟩ : BufTy).Contents (Elt F)),
    StableHlo.binary main_v71 main_v76 main_v77 (mulf : (⟨S100000x128, .f32⟩ : BufTy).Contents (Elt F) → (⟨S100000x128, .f32⟩ : BufTy).Contents (Elt F) → (⟨S100000x128, .f32⟩ : BufTy).Contents (Elt F)),
    StableHlo.unary main_v61 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S100000x128 ![0, 1] bcast_S1x128_S100000x128_0_1 : (⟨S1x128, .f32⟩ : BufTy).Contents (Elt F) → (⟨S100000x128, .f32⟩ : BufTy).Contents (Elt F)),
    StableHlo.binary main_v77 main_v79 main_v80 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x128, .f32⟩) (broadcastInDim S100000x128 ![] bcast_S_S100000x128),
    StableHlo.TRef.binary (.of main_v80 : StableHlo.TRef sig ⟨S100000x128, .f32⟩) (.of main_call3_v0 : StableHlo.TRef sig ⟨S100000x128, .f32⟩) (.of main_v81 : StableHlo.TRef sig ⟨S100000x128, .f32⟩) maximumf,
    StableHlo.unary main_arg5 main_v82 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v82 main_v83 rfl shapeCasts_S1x128x128_S128x128,
    StableHlo.unary main_arg6 main_v84 ((extractStridedSlice S1x128 ![1, 0] · slices_S4x128_S1x128_1_0) : (⟨S4x128, .f32⟩ : BufTy).Contents (Elt F) → (⟨S1x128, .f32⟩ : BufTy).Contents (Elt F)),
    StableHlo.reshape main_v84 main_v85 rfl shapeCasts_S1x128_S128,
    StableHlo.unary main_arg7 main_v86 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v86 main_v87 rfl shapeCasts_S1x128x128_S128x128,
    StableHlo.nullary main_c_12 (constantI S_ 32 0#32),
    StableHlo.unary main_c_12 main_v88 (broadcastInDim S1600000 ![] bcast_S_S1600000 : (⟨S_, .i32⟩ : BufTy).Contents (Elt F) → (⟨S1600000, .i32⟩ : BufTy).Contents (Elt F)),
    StableHlo.binary main_v1 main_v88 main_v89 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v90 (broadcastInDim S1600000 ![] bcast_S_S1600000 : (⟨S_, .i32⟩ : BufTy).Contents (Elt F) → (⟨S1600000, .i32⟩ : BufTy).Contents (Elt F)),
    StableHlo.binary main_v1 main_v90 main_v91 (addi : (⟨S1600000, .i32⟩ : BufTy).Contents (Elt F) → (⟨S1600000, .i32⟩ : BufTy).Contents (Elt F) → (⟨S1600000, .i32⟩ : BufTy).Contents (Elt F)),
    StableHlo.ternary main_v89 main_v91 main_v1 main_v92 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v92 main_v93 (broadcastInDim S1600000x1 ![0] bcast_S1600000_S1600000x1_0 : (⟨S1600000, .i32⟩ : BufTy).Contents (Elt F) → (⟨S1600000x1, .i32⟩ : BufTy).Contents (Elt F)),
    StableHlo.binary main_v81 main_v93 main_v94 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_14 (constant S_ .f32 0x00000000#32),
    StableHlo.unary main_cst_14 main_v95 (broadcastInDim S100000x128 ![] bcast_S_S100000x128 : (⟨S_, .f32⟩ : BufTy).Contents (Elt F) → (⟨S100000x128, .f32⟩ : BufTy).Contents (Elt F)),
    StableHlo.unary main_v3 main_v96 (broadcastInDim S1600000x1 ![0] bcast_S1600000_S1600000x1_0 : (⟨S1600000, .i32⟩ : BufTy).Contents (Elt F) → (⟨S1600000x1, .i32⟩ : BufTy).Contents (Elt F)),
    StableHlo.ternary main_v95 main_v96 main_v94 main_v97 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_15 (constant S_ .f32 0x3F800000#32),
    StableHlo.unary main_cst_15 main_v98 (broadcastInDim S1600000x1 ![] bcast_S_S1600000x1 : (⟨S_, .f32⟩ : BufTy).Contents (Elt F) → (⟨S1600000x1, .f32⟩ : BufTy).Contents (Elt F)),
    StableHlo.nullary main_cst_16 (constant S_ .f32 0x00000000#32),
    StableHlo.unary main_cst_16 main_v99 (broadcastInDim S100000x1 ![] bcast_S_S100000x1 : (⟨S_, .f32⟩ : BufTy).Contents (Elt F) → (⟨S100000x1, .f32⟩ : BufTy).Contents (Elt F)),
    StableHlo.unary main_v3 main_v100 (broadcastInDim S1600000x1 ![0] bcast_S1600000_S1600000x1_0 : (⟨S1600000, .i32⟩ : BufTy).Contents (Elt F) → (⟨S1600000x1, .i32⟩ : BufTy).Contents (Elt F)) ]

set_option maxRecDepth 8192 in
/-- The window is that straight line: the callees' definitions unfolded at their calls, sequencing reassociated. -/
theorem part1_eq (d : Dev nD) : main_part1 (F := F) d = seq ops1 := by
  simp only [main_part1, fn_var.body, fn_where.body, fn_relu.body, seq, bind_assoc, pure_bind]
  all_goals rfl

set_option maxRecDepth 8192 in
theorem ops1_sub : (ops1 : List (HloOp τ sig (Elt F))).Forall fun op => op.bufs ⊆ tcRefs τ sig :=
  ⟨unary_bufs_sub .., binary_bufs_sub .., binary_bufs_sub .., unary_bufs_sub .., unary_bufs_sub .., binary_bufs_sub ..,
    binary_bufs_sub .., binary_bufs_sub .., unary_bufs_sub .., reshape_bufs_sub .., unary_bufs_sub .., reshape_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    reshape_bufs_sub .., unary_bufs_sub .., reshape_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    nullary_bufs_sub .., unary_bufs_sub .., nullary_bufs_sub .., unary_bufs_sub .., unary_bufs_sub ..⟩

set_option maxRecDepth 8192 in
theorem ops1_fresh : ∀ op ∈ (ops1 : List (HloOp τ sig (Elt F))), op.fresh = ∅ := by
  intro _ h; (repeat (cases h with | head => rfl | tail _ h => ?_)); exact nomatch h

end Cert.ReferenceIdeal.RefRun

end
-- ==== Proof.RefRun2.lean ====
/- Window 2 of the reference program's @main as the list of its 83 host operations, in program order,
   every call of an outlined function replaced by the callee's operations over that call's own buffers;
   the window is the straight line of that list, each operation touches TensorCore references only, and
   none allocates. -/
import proofs.«119291_j39402029973518_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements of window 2 of @main, calls inlined: 83 operations. -/
abbrev ops2 : List (HloOp τ sig (Elt F)) :=
  [ StableHlo.ternary main_v99 main_v100 main_v98 main_v101 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    StableHlo.nullary main_cst_17 (constant S_ .f32 0x3F800000#32),
    StableHlo.unary main_cst_17 main_v102 (broadcastInDim S100000x1 ![] bcast_S_S100000x1 : (⟨S_, .f32⟩ : BufTy).Contents (Elt F) → (⟨S100000x1, .f32⟩ : BufTy).Contents (Elt F)),
    StableHlo.binary main_v101 main_v102 main_v103 (maximumf : (⟨S100000x1, .f32⟩ : BufTy).Contents (Elt F) → (⟨S100000x1, .f32⟩ : BufTy).Contents (Elt F) → (⟨S100000x1, .f32⟩ : BufTy).Contents (Elt F)),
    StableHlo.unary main_v103 main_v104 (broadcastInDim S100000x128 ![0, 1] bcast_S100000x1_S100000x128_0_1 : (⟨S100000x1, .f32⟩ : BufTy).Contents (Elt F) → (⟨S100000x128, .f32⟩ : BufTy).Contents (Elt F)),
    StableHlo.binary main_v97 main_v104 main_v105 (Host.divf : (⟨S100000x128, .f32⟩ : BufTy).Contents (Elt F) → (⟨S100000x128, .f32⟩ : BufTy).Contents (Elt F) → (⟨S100000x128, .f32⟩ : BufTy).Contents (Elt F)),
    StableHlo.binary main_v105 main_v83 main_v106 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v85 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S100000x128 ![0, 1] bcast_S1x128_S100000x128_0_1 : (⟨S1x128, .f32⟩ : BufTy).Contents (Elt F) → (⟨S100000x128, .f32⟩ : BufTy).Contents (Elt F)),
    StableHlo.binary main_v106 main_v108 main_v109 (addf : (⟨S100000x128, .f32⟩ : BufTy).Contents (Elt F) → (⟨S100000x128, .f32⟩ : BufTy).Contents (Elt F) → (⟨S100000x128, .f32⟩ : BufTy).Contents (Elt F)),
    StableHlo.binary main_v81 main_v87 main_v110 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v109 main_v110 main_v111 (addf : (⟨S100000x128, .f32⟩ : BufTy).Contents (Elt F) → (⟨S100000x128, .f32⟩ : BufTy).Contents (Elt F) → (⟨S100000x128, .f32⟩ : BufTy).Contents (Elt F)),
    StableHlo.unary main_arg8 main_v112 ((extractStridedSlice S1x128 ![1, 0] · slices_S4x128_S1x128_1_0) : (⟨S4x128, .f32⟩ : BufTy).Contents (Elt F) → (⟨S1x128, .f32⟩ : BufTy).Contents (Elt F)),
    StableHlo.reshape main_v112 main_v113 rfl shapeCasts_S1x128_S128,
    StableHlo.unary main_arg9 main_v114 ((extractStridedSlice S1x128 ![1, 0] · slices_S4x128_S1x128_1_0) : (⟨S4x128, .f32⟩ : BufTy).Contents (Elt F) → (⟨S1x128, .f32⟩ : BufTy).Contents (Elt F)),
    StableHlo.reshape main_v114 main_v115 rfl shapeCasts_S1x128_S128,
    StableHlo.nullary main_cst_18 (constant S_ .f32 0x00000000#32),
    StableHlo.binary main_v111 main_cst_18 main_v116 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_19 (constant S_ .f32 0x47C35000#32),
    StableHlo.unary main_cst_19 main_v117 (broadcastInDim S128 ![] bcast_S_S128 : (⟨S_, .f32⟩ : BufTy).Contents (Elt F) → (⟨S128, .f32⟩ : BufTy).Contents (Elt F)),
    StableHlo.binary main_v116 main_v117 main_v118 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary (.of main_call4_cst : StableHlo.TRef sig ⟨S_, .f32⟩) (constant S_ .f32 0x00000000#32),
    StableHlo.TRef.binary (.of main_v111 : StableHlo.TRef sig ⟨S100000x128, .f32⟩) (.of main_call4_cst : StableHlo.TRef sig ⟨S_, .f32⟩) (.of main_call4_v0 : StableHlo.TRef sig ⟨S128, .f32⟩) (fun x v => Host.reduceAdd x v reducesTo_S100000x128_S128_d0 h_S_),
    StableHlo.TRef.unary (.of main_call4_v0 : StableHlo.TRef sig ⟨S128, .f32⟩) (.of main_call4_v1 : StableHlo.TRef sig ⟨S1x128, .f32⟩) (broadcastInDim S1x128 ![1] bcast_S128_S1x128_1),
    StableHlo.TRef.nullary (.of main_call4_cst_0 : StableHlo.TRef sig ⟨S_, .f32⟩) (constant S_ .f32 0x47C35000#32),
    StableHlo.TRef.unary (.of main_call4_cst_0 : StableHlo.TRef sig ⟨S_, .f32⟩) (.of main_call4_v2 : StableHlo.TRef sig ⟨S1x128, .f32⟩) (broadcastInDim S1x128 ![] bcast_S_S1x128),
    StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf,
    StableHlo.TRef.unary (.of main_call4_v3 : StableHlo.TRef sig ⟨S1x128, .f32⟩) (.of main_call4_v4 : StableHlo.TRef sig ⟨S100000x128, .f32⟩) (broadcastInDim S100000x128 ![0, 1] bcast_S1x128_S100000x128_0_1),
    StableHlo.TRef.binary (.of main_v111 : StableHlo.TRef sig ⟨S100000x128, .f32⟩) (.of main_call4_v4 : StableHlo.TRef sig ⟨S100000x128, .f32⟩) (.of main_call4_v5 : StableHlo.TRef sig ⟨S100000x128, .f32⟩) subf,
    StableHlo.TRef.binary (.of main_call4_v5 : StableHlo.TRef sig ⟨S100000x128, .f32⟩) (.of main_call4_v5 : StableHlo.TRef sig ⟨S100000x128, .f32⟩) (.of main_call4_v6 : StableHlo.TRef sig ⟨S100000x128, .f32⟩) mulf,
    StableHlo.TRef.unary (.of main_c_20 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47C35000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S100000x128, .f32⟩) (.of main_call4_cst_2 : StableHlo.TRef sig ⟨S_, .f32⟩) (.of main_call4_v9 : StableHlo.TRef sig ⟨S128, .f32⟩) (fun x v => Host.reduceAdd x v reducesTo_S100000x128_S128_d0 h_S_),
    StableHlo.TRef.unary (.of main_call4_v8 : StableHlo.TRef sig ⟨S_, .f32⟩) (.of main_call4_v10 : StableHlo.TRef sig ⟨S128, .f32⟩) (broadcastInDim S128 ![] bcast_S_S128),
    StableHlo.TRef.binary (.of main_call4_v9 : StableHlo.TRef sig ⟨S128, .f32⟩) (.of main_call4_v10 : StableHlo.TRef sig ⟨S128, .f32⟩) (.of main_call4_v11 : StableHlo.TRef sig ⟨S128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S128, .f32⟩) (broadcastInDim S128 ![] bcast_S_S128),
    StableHlo.TRef.ternary (.of main_call4_v12 : StableHlo.TRef sig ⟨S_, .i1⟩) (.of main_call4_v11 : StableHlo.TRef sig ⟨S128, .f32⟩) (.of main_call4_call0_v1 : StableHlo.TRef sig ⟨S128, .f32⟩) (.of main_v119 : StableHlo.TRef sig ⟨S128, .f32⟩) (fun p a b => select (broadcastInDim S128 ![] bcast_S_S128 p) a b),
    StableHlo.unary main_v118 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S100000x128 ![0, 1] bcast_S1x128_S100000x128_0_1 : (⟨S1x128, .f32⟩ : BufTy).Contents (Elt F) → (⟨S100000x128, .f32⟩ : BufTy).Contents (Elt F)),
    StableHlo.binary main_v111 main_v121 main_v122 (subf : (⟨S100000x128, .f32⟩ : BufTy).Contents (Elt F) → (⟨S100000x128, .f32⟩ : BufTy).Contents (Elt F) → (⟨S100000x128, .f32⟩ : BufTy).Contents (Elt F)),
    StableHlo.unary main_v113 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S100000x128 ![0, 1] bcast_S1x128_S100000x128_0_1 : (⟨S1x128, .f32⟩ : BufTy).Contents (Elt F) → (⟨S100000x128, .f32⟩ : BufTy).Contents (Elt F)),
    StableHlo.binary main_v124 main_v122 main_v125 (mulf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x3727C5AC#32),
    StableHlo.unary main_cst_21 main_v126 (broadcastInDim S128 ![] bcast_S_S128 : (⟨S_, .f32⟩ : BufTy).Contents (Elt F) → (⟨S128, .f32⟩ : BufTy).Contents (Elt F)),
    StableHlo.binary main_v119 main_v126 main_v127 (addf : (⟨S128, .f32⟩ : BufTy).Contents (Elt F) → (⟨S128, .f32⟩ : BufTy).Contents (Elt F) → (⟨S128, .f32⟩ : BufTy).Contents (Elt F)),
    StableHlo.unary main_v127 main_v128 (Host.rsqrt : (⟨S128, .f32⟩ : BufTy).Contents (Elt F) → (⟨S128, .f32⟩ : BufTy).Contents (Elt F)),
    StableHlo.unary main_v128 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S100000x128 ![0, 1] bcast_S1x128_S100000x128_0_1 : (⟨S1x128, .f32⟩ : BufTy).Contents (Elt F) → (⟨S100000x128, .f32⟩ : BufTy).Contents (Elt F)),
    StableHlo.binary main_v125 main_v130 main_v131 (mulf : (⟨S100000x128, .f32⟩ : BufTy).Contents (Elt F) → (⟨S100000x128, .f32⟩ : BufTy).Contents (Elt F) → (⟨S100000x128, .f32⟩ : BufTy).Contents (Elt F)),
    StableHlo.unary main_v115 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S100000x128 ![0, 1] bcast_S1x128_S100000x128_0_1 : (⟨S1x128, .f32⟩ : BufTy).Contents (Elt F) → (⟨S100000x128, .f32⟩ : BufTy).Contents (Elt F)),
    StableHlo.binary main_v131 main_v133 main_v134 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S100000x128, .f32⟩) (broadcastInDim S100000x128 ![] bcast_S_S100000x128),
    StableHlo.TRef.binary (.of main_v134 : StableHlo.TRef sig ⟨S100000x128, .f32⟩) (.of main_call5_v0 : StableHlo.TRef sig ⟨S100000x128, .f32⟩) (.of main_v135 : StableHlo.TRef sig ⟨S100000x128, .f32⟩) maximumf,
    StableHlo.unary main_arg5 main_v136 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v136 main_v137 rfl shapeCasts_S1x128x128_S128x128,
    StableHlo.unary main_arg6 main_v138 ((extractStridedSlice S1x128 ![2, 0] · slices_S4x128_S1x128_2_0) : (⟨S4x128, .f32⟩ : BufTy).Contents (Elt F) → (⟨S1x128, .f32⟩ : BufTy).Contents (Elt F)),
    StableHlo.reshape main_v138 main_v139 rfl shapeCasts_S1x128_S128,
    StableHlo.unary main_arg7 main_v140 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v140 main_v141 rfl shapeCasts_S1x128x128_S128x128,
    StableHlo.nullary main_c_22 (constantI S_ 32 0#32),
    StableHlo.unary main_c_22 main_v142 (broadcastInDim S1600000 ![] bcast_S_S1600000 : (⟨S_, .i32⟩ : BufTy).Contents (Elt F) → (⟨S1600000, .i32⟩ : BufTy).Contents (Elt F)),
    StableHlo.binary main_v1 main_v142 main_v143 (cmpi .slt : (⟨S1600000, .i32⟩ : BufTy).Contents (Elt F) → (⟨S1600000, .i32⟩ : BufTy).Contents (Elt F) → (⟨S1600000, .i1⟩ : BufTy).Contents (Elt F)),
    StableHlo.nullary main_c_23 (constantI S_ 32 100000#32),
    StableHlo.unary main_c_23 main_v144 (broadcastInDim S1600000 ![] bcast_S_S1600000 : (⟨S_, .i32⟩ : BufTy).Contents (Elt F) → (⟨S1600000, .i32⟩ : BufTy).Contents (Elt F)),
    StableHlo.binary main_v1 main_v144 main_v145 (addi : (⟨S1600000, .i32⟩ : BufTy).Contents (Elt F) → (⟨S1600000, .i32⟩ : BufTy).Contents (Elt F) → (⟨S1600000, .i32⟩ : BufTy).Contents (Elt F)),
    StableHlo.ternary main_v143 main_v145 main_v1 main_v146 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v146 main_v147 (broadcastInDim S1600000x1 ![0] bcast_S1600000_S1600000x1_0 : (⟨S1600000, .i32⟩ : BufTy).Contents (Elt F) → (⟨S1600000x1, .i32⟩ : BufTy).Contents (Elt F)),
    StableHlo.binary main_v135 main_v147 main_v148 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_24 (constant S_ .f32 0x00000000#32),
    StableHlo.unary main_cst_24 main_v149 (broadcastInDim S100000x128 ![] bcast_S_S100000x128 : (⟨S_, .f32⟩ : BufTy).Contents (Elt F) → (⟨S100000x128, .f32⟩ : BufTy).Contents (Elt F)),
    StableHlo.unary main_v3 main_v150 (broadcastInDim S1600000x1 ![0] bcast_S1600000_S1600000x1_0 : (⟨S1600000, .i32⟩ : BufTy).Contents (Elt F) → (⟨S1600000x1, .i32⟩ : BufTy).Contents (Elt F)),
    StableHlo.ternary main_v149 main_v150 main_v148 main_v151 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_25 (constant S_ .f32 0x3F800000#32) ]

set_option maxRecDepth 8192 in
/-- The window is that straight line: the callees' definitions unfolded at their calls, sequencing reassociated. -/
theorem part2_eq (d : Dev nD) : main_part2 (F := F) d = seq ops2 := by
  simp only [main_part2, fn_var.body, fn_where.body, fn_relu.body, seq, bind_assoc, pure_bind]
  all_goals rfl

set_option maxRecDepth 8192 in
theorem ops2_sub : (ops2 : List (HloOp τ sig (Elt F))).Forall fun op => op.bufs ⊆ tcRefs τ sig :=
  ⟨ternary_bufs_sub .., nullary_bufs_sub .., unary_bufs_sub .., binary_bufs_sub .., unary_bufs_sub .., binary_bufs_sub ..,
    binary_bufs_sub .., unary_bufs_sub .., unary_bufs_sub .., binary_bufs_sub .., binary_bufs_sub .., binary_bufs_sub ..,
    unary_bufs_sub .., reshape_bufs_sub .., unary_bufs_sub .., reshape_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., reshape_bufs_sub .., unary_bufs_sub ..,
    reshape_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., nullary_bufs_sub ..⟩

set_option maxRecDepth 8192 in
theorem ops2_fresh : ∀ op ∈ (ops2 : List (HloOp τ sig (Elt F))), op.fresh = ∅ := by
  intro _ h; (repeat (cases h with | head => rfl | tail _ h => ?_)); exact nomatch h

end Cert.ReferenceIdeal.RefRun

end
-- ==== Proof.RefRun3.lean ====
/- Window 3 of the reference program's @main as the list of its 83 host operations, in program order,
   every call of an outlined function replaced by the callee's operations over that call's own buffers;
   the window is the straight line of that list, each operation touches TensorCore references only, and
   none allocates. -/
import proofs.«119291_j39402029973518_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements of window 3 of @main, calls inlined: 83 operations. -/
abbrev ops3 : List (HloOp τ sig (Elt F)) :=
  [ StableHlo.unary main_cst_25 main_v152 (broadcastInDim S1600000x1 ![] bcast_S_S1600000x1 : (⟨S_, .f32⟩ : BufTy).Contents (Elt F) → (⟨S1600000x1, .f32⟩ : BufTy).Contents (Elt F)),
    StableHlo.nullary main_cst_26 (constant S_ .f32 0x00000000#32),
    StableHlo.unary main_cst_26 main_v153 (broadcastInDim S100000x1 ![] bcast_S_S100000x1 : (⟨S_, .f32⟩ : BufTy).Contents (Elt F) → (⟨S100000x1, .f32⟩ : BufTy).Contents (Elt F)),
    StableHlo.unary main_v3 main_v154 (broadcastInDim S1600000x1 ![0] bcast_S1600000_S1600000x1_0 : (⟨S1600000, .i32⟩ : BufTy).Contents (Elt F) → (⟨S1600000x1, .i32⟩ : BufTy).Contents (Elt F)),
    StableHlo.ternary main_v153 main_v154 main_v152 main_v155 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    StableHlo.nullary main_cst_27 (constant S_ .f32 0x3F800000#32),
    StableHlo.unary main_cst_27 main_v156 (broadcastInDim S100000x1 ![] bcast_S_S100000x1 : (⟨S_, .f32⟩ : BufTy).Contents (Elt F) → (⟨S100000x1, .f32⟩ : BufTy).Contents (Elt F)),
    StableHlo.binary main_v155 main_v156 main_v157 (maximumf : (⟨S100000x1, .f32⟩ : BufTy).Contents (Elt F) → (⟨S100000x1, .f32⟩ : BufTy).Contents (Elt F) → (⟨S100000x1, .f32⟩ : BufTy).Contents (Elt F)),
    StableHlo.unary main_v157 main_v158 (broadcastInDim S100000x128 ![0, 1] bcast_S100000x1_S100000x128_0_1 : (⟨S100000x1, .f32⟩ : BufTy).Contents (Elt F) → (⟨S100000x128, .f32⟩ : BufTy).Contents (Elt F)),
    StableHlo.binary main_v151 main_v158 main_v159 (Host.divf : (⟨S100000x128, .f32⟩ : BufTy).Contents (Elt F) → (⟨S100000x128, .f32⟩ : BufTy).Contents (Elt F) → (⟨S100000x128, .f32⟩ : BufTy).Contents (Elt F)),
    StableHlo.binary main_v159 main_v137 main_v160 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v139 main_v161 (broadcastInDim S1x128 ![1] bcast_S128_S1x128_1 : (⟨S128, .f32⟩ : BufTy).Contents (Elt F) → (⟨S1x128, .f32⟩ : BufTy).Contents (Elt F)),
    StableHlo.unary main_v161 main_v162 (broadcastInDim S100000x128 ![0, 1] bcast_S1x128_S100000x128_0_1 : (⟨S1x128, .f32⟩ : BufTy).Contents (Elt F) → (⟨S100000x128, .f32⟩ : BufTy).Contents (Elt F)),
    StableHlo.binary main_v160 main_v162 main_v163 (addf : (⟨S100000x128, .f32⟩ : BufTy).Contents (Elt F) → (⟨S100000x128, .f32⟩ : BufTy).Contents (Elt F) → (⟨S100000x128, .f32⟩ : BufTy).Contents (Elt F)),
    StableHlo.binary main_v135 main_v141 main_v164 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v163 main_v164 main_v165 (addf : (⟨S100000x128, .f32⟩ : BufTy).Contents (Elt F) → (⟨S100000x128, .f32⟩ : BufTy).Contents (Elt F) → (⟨S100000x128, .f32⟩ : BufTy).Contents (Elt F)),
    StableHlo.unary main_arg8 main_v166 ((extractStridedSlice S1x128 ![2, 0] · slices_S4x128_S1x128_2_0) : (⟨S4x128, .f32⟩ : BufTy).Contents (Elt F) → (⟨S1x128, .f32⟩ : BufTy).Contents (Elt F)),
    StableHlo.reshape main_v166 main_v167 rfl shapeCasts_S1x128_S128,
    StableHlo.unary main_arg9 main_v168 ((extractStridedSlice S1x128 ![2, 0] · slices_S4x128_S1x128_2_0) : (⟨S4x128, .f32⟩ : BufTy).Contents (Elt F) → (⟨S1x128, .f32⟩ : BufTy).Contents (Elt F)),
    StableHlo.reshape main_v168 main_v169 rfl shapeCasts_S1x128_S128,
    StableHlo.nullary main_cst_28 (constant S_ .f32 0x00000000#32),
    StableHlo.binary main_v165 main_cst_28 main_v170 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_29 (constant S_ .f32 0x47C35000#32),
    StableHlo.unary main_cst_29 main_v171 (broadcastInDim S128 ![] bcast_S_S128 : (⟨S_, .f32⟩ : BufTy).Contents (Elt F) → (⟨S128, .f32⟩ : BufTy).Contents (Elt F)),
    StableHlo.binary main_v170 main_v171 main_v172 (Host.divf : (⟨S128, .f32⟩ : BufTy).Contents (Elt F) → (⟨S128, .f32⟩ : BufTy).Contents (Elt F) → (⟨S128, .f32⟩ : BufTy).Contents (Elt F)),
    StableHlo.nullary main_c_30 (constantI S_ 32 0#32),
    StableHlo.TRef.nullary (.of main_call6_cst : StableHlo.TRef sig ⟨S_, .f32⟩) (constant S_ .f32 0x00000000#32),
    StableHlo.TRef.binary (.of main_v165 : StableHlo.TRef sig ⟨S100000x128, .f32⟩) (.of main_call6_cst : StableHlo.TRef sig ⟨S_, .f32⟩) (.of main_call6_v0 : StableHlo.TRef sig ⟨S128, .f32⟩) (fun x v => Host.reduceAdd x v reducesTo_S100000x128_S128_d0 h_S_),
    StableHlo.TRef.unary (.of main_call6_v0 : StableHlo.TRef sig ⟨S128, .f32⟩) (.of main_call6_v1 : StableHlo.TRef sig ⟨S1x128, .f32⟩) (broadcastInDim S1x128 ![1] bcast_S128_S1x128_1),
    StableHlo.TRef.nullary (.of main_call6_cst_0 : StableHlo.TRef sig ⟨S_, .f32⟩) (constant S_ .f32 0x47C35000#32),
    StableHlo.TRef.unary (.of main_call6_cst_0 : StableHlo.TRef sig ⟨S_, .f32⟩) (.of main_call6_v2 : StableHlo.TRef sig ⟨S1x128, .f32⟩) (broadcastInDim S1x128 ![] bcast_S_S1x128),
    StableHlo.TRef.binary (.of main_call6_v1 : StableHlo.TRef sig ⟨S1x128, .f32⟩) (.of main_call6_v2 : StableHlo.TRef sig ⟨S1x128, .f32⟩) (.of main_call6_v3 : StableHlo.TRef sig ⟨S1x128, .f32⟩) Host.divf,
    StableHlo.TRef.unary (.of main_call6_v3 : StableHlo.TRef sig ⟨S1x128, .f32⟩) (.of main_call6_v4 : StableHlo.TRef sig ⟨S100000x128, .f32⟩) (broadcastInDim S100000x128 ![0, 1] bcast_S1x128_S100000x128_0_1),
    StableHlo.TRef.binary (.of main_v165 : StableHlo.TRef sig ⟨S100000x128, .f32⟩) (.of main_call6_v4 : StableHlo.TRef sig ⟨S100000x128, .f32⟩) (.of main_call6_v5 : StableHlo.TRef sig ⟨S100000x128, .f32⟩) subf,
    StableHlo.TRef.binary (.of main_call6_v5 : StableHlo.TRef sig ⟨S100000x128, .f32⟩) (.of main_call6_v5 : StableHlo.TRef sig ⟨S100000x128, .f32⟩) (.of main_call6_v6 : StableHlo.TRef sig ⟨S100000x128, .f32⟩) mulf,
    StableHlo.TRef.unary (.of main_c_30 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x47C35000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S100000x128, .f32⟩) (.of main_call6_cst_2 : StableHlo.TRef sig ⟨S_, .f32⟩) (.of main_call6_v9 : StableHlo.TRef sig ⟨S128, .f32⟩) (fun x v => Host.reduceAdd x v reducesTo_S100000x128_S128_d0 h_S_),
    StableHlo.TRef.unary (.of main_call6_v8 : StableHlo.TRef sig ⟨S_, .f32⟩) (.of main_call6_v10 : StableHlo.TRef sig ⟨S128, .f32⟩) (broadcastInDim S128 ![] bcast_S_S128),
    StableHlo.TRef.binary (.of main_call6_v9 : StableHlo.TRef sig ⟨S128, .f32⟩) (.of main_call6_v10 : StableHlo.TRef sig ⟨S128, .f32⟩) (.of main_call6_v11 : StableHlo.TRef sig ⟨S128, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S128, .f32⟩) (broadcastInDim S128 ![] bcast_S_S128),
    StableHlo.TRef.ternary (.of main_call6_v12 : StableHlo.TRef sig ⟨S_, .i1⟩) (.of main_call6_v11 : StableHlo.TRef sig ⟨S128, .f32⟩) (.of main_call6_call0_v1 : StableHlo.TRef sig ⟨S128, .f32⟩) (.of main_v173 : StableHlo.TRef sig ⟨S128, .f32⟩) (fun p a b => select (broadcastInDim S128 ![] bcast_S_S128 p) a b),
    StableHlo.unary main_v172 main_v174 (broadcastInDim S1x128 ![1] bcast_S128_S1x128_1 : (⟨S128, .f32⟩ : BufTy).Contents (Elt F) → (⟨S1x128, .f32⟩ : BufTy).Contents (Elt F)),
    StableHlo.unary main_v174 main_v175 (broadcastInDim S100000x128 ![0, 1] bcast_S1x128_S100000x128_0_1 : (⟨S1x128, .f32⟩ : BufTy).Contents (Elt F) → (⟨S100000x128, .f32⟩ : BufTy).Contents (Elt F)),
    StableHlo.binary main_v165 main_v175 main_v176 (subf : (⟨S100000x128, .f32⟩ : BufTy).Contents (Elt F) → (⟨S100000x128, .f32⟩ : BufTy).Contents (Elt F) → (⟨S100000x128, .f32⟩ : BufTy).Contents (Elt F)),
    StableHlo.unary main_v167 main_v177 (broadcastInDim S1x128 ![1] bcast_S128_S1x128_1 : (⟨S128, .f32⟩ : BufTy).Contents (Elt F) → (⟨S1x128, .f32⟩ : BufTy).Contents (Elt F)),
    StableHlo.unary main_v177 main_v178 (broadcastInDim S100000x128 ![0, 1] bcast_S1x128_S100000x128_0_1 : (⟨S1x128, .f32⟩ : BufTy).Contents (Elt F) → (⟨S100000x128, .f32⟩ : BufTy).Contents (Elt F)),
    StableHlo.binary main_v178 main_v176 main_v179 (mulf : (⟨S100000x128, .f32⟩ : BufTy).Contents (Elt F) → (⟨S100000x128, .f32⟩ : BufTy).Contents (Elt F) → (⟨S100000x128, .f32⟩ : BufTy).Contents (Elt F)),
    StableHlo.nullary main_cst_31 (constant S_ .f32 0x3727C5AC#32),
    StableHlo.unary main_cst_31 main_v180 (broadcastInDim S128 ![] bcast_S_S128 : (⟨S_, .f32⟩ : BufTy).Contents (Elt F) → (⟨S128, .f32⟩ : BufTy).Contents (Elt F)),
    StableHlo.binary main_v173 main_v180 main_v181 (addf : (⟨S128, .f32⟩ : BufTy).Contents (Elt F) → (⟨S128, .f32⟩ : BufTy).Contents (Elt F) → (⟨S128, .f32⟩ : BufTy).Contents (Elt F)),
    StableHlo.unary main_v181 main_v182 (Host.rsqrt : (⟨S128, .f32⟩ : BufTy).Contents (Elt F) → (⟨S128, .f32⟩ : BufTy).Contents (Elt F)),
    StableHlo.unary main_v182 main_v183 (broadcastInDim S1x128 ![1] bcast_S128_S1x128_1 : (⟨S128, .f32⟩ : BufTy).Contents (Elt F) → (⟨S1x128, .f32⟩ : BufTy).Contents (Elt F)),
    StableHlo.unary main_v183 main_v184 (broadcastInDim S100000x128 ![0, 1] bcast_S1x128_S100000x128_0_1 : (⟨S1x128, .f32⟩ : BufTy).Contents (Elt F) → (⟨S100000x128, .f32⟩ : BufTy).Contents (Elt F)),
    StableHlo.binary main_v179 main_v184 main_v185 (mulf : (⟨S100000x128, .f32⟩ : BufTy).Contents (Elt F) → (⟨S100000x128, .f32⟩ : BufTy).Contents (Elt F) → (⟨S100000x128, .f32⟩ : BufTy).Contents (Elt F)),
    StableHlo.unary main_v169 main_v186 (broadcastInDim S1x128 ![1] bcast_S128_S1x128_1 : (⟨S128, .f32⟩ : BufTy).Contents (Elt F) → (⟨S1x128, .f32⟩ : BufTy).Contents (Elt F)),
    StableHlo.unary main_v186 main_v187 (broadcastInDim S100000x128 ![0, 1] bcast_S1x128_S100000x128_0_1 : (⟨S1x128, .f32⟩ : BufTy).Contents (Elt F) → (⟨S100000x128, .f32⟩ : BufTy).Contents (Elt F)),
    StableHlo.binary main_v185 main_v187 main_v188 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S100000x128, .f32⟩) (broadcastInDim S100000x128 ![] bcast_S_S100000x128),
    StableHlo.TRef.binary (.of main_v188 : StableHlo.TRef sig ⟨S100000x128, .f32⟩) (.of main_call7_v0 : StableHlo.TRef sig ⟨S100000x128, .f32⟩) (.of main_v189 : StableHlo.TRef sig ⟨S100000x128, .f32⟩) maximumf,
    StableHlo.unary main_arg5 main_v190 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v190 main_v191 rfl shapeCasts_S1x128x128_S128x128,
    StableHlo.unary main_arg6 main_v192 ((extractStridedSlice S1x128 ![3, 0] · slices_S4x128_S1x128_3_0) : (⟨S4x128, .f32⟩ : BufTy).Contents (Elt F) → (⟨S1x128, .f32⟩ : BufTy).Contents (Elt F)),
    StableHlo.reshape main_v192 main_v193 rfl shapeCasts_S1x128_S128,
    StableHlo.unary main_arg7 main_v194 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v194 main_v195 rfl shapeCasts_S1x128x128_S128x128,
    StableHlo.nullary main_c_32 (constantI S_ 32 0#32),
    StableHlo.unary main_c_32 main_v196 (broadcastInDim S1600000 ![] bcast_S_S1600000 : (⟨S_, .i32⟩ : BufTy).Contents (Elt F) → (⟨S1600000, .i32⟩ : BufTy).Contents (Elt F)),
    StableHlo.binary main_v1 main_v196 main_v197 (cmpi .slt : (⟨S1600000, .i32⟩ : BufTy).Contents (Elt F) → (⟨S1600000, .i32⟩ : BufTy).Contents (Elt F) → (⟨S1600000, .i1⟩ : BufTy).Contents (Elt F)),
    StableHlo.nullary main_c_33 (constantI S_ 32 100000#32),
    StableHlo.unary main_c_33 main_v198 (broadcastInDim S1600000 ![] bcast_S_S1600000 : (⟨S_, .i32⟩ : BufTy).Contents (Elt F) → (⟨S1600000, .i32⟩ : BufTy).Contents (Elt F)),
    StableHlo.binary main_v1 main_v198 main_v199 (addi : (⟨S1600000, .i32⟩ : BufTy).Contents (Elt F) → (⟨S1600000, .i32⟩ : BufTy).Contents (Elt F) → (⟨S1600000, .i32⟩ : BufTy).Contents (Elt F)),
    StableHlo.ternary main_v197 main_v199 main_v1 main_v200 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v200 main_v201 (broadcastInDim S1600000x1 ![0] bcast_S1600000_S1600000x1_0 : (⟨S1600000, .i32⟩ : BufTy).Contents (Elt F) → (⟨S1600000x1, .i32⟩ : BufTy).Contents (Elt F)),
    StableHlo.binary main_v189 main_v201 main_v202 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_34 (constant S_ .f32 0x00000000#32) ]

set_option maxRecDepth 8192 in
/-- The window is that straight line: the callees' definitions unfolded at their calls, sequencing reassociated. -/
theorem part3_eq (d : Dev nD) : main_part3 (F := F) d = seq ops3 := by
  simp only [main_part3, fn_var.body, fn_where.body, fn_relu.body, seq, bind_assoc, pure_bind]
  all_goals rfl

set_option maxRecDepth 8192 in
theorem ops3_sub : (ops3 : List (HloOp τ sig (Elt F))).Forall fun op => op.bufs ⊆ tcRefs τ sig :=
  ⟨unary_bufs_sub .., nullary_bufs_sub .., unary_bufs_sub .., unary_bufs_sub .., ternary_bufs_sub .., nullary_bufs_sub ..,
    unary_bufs_sub .., binary_bufs_sub .., unary_bufs_sub .., binary_bufs_sub .., binary_bufs_sub .., unary_bufs_sub ..,
    unary_bufs_sub .., binary_bufs_sub .., binary_bufs_sub .., binary_bufs_sub .., unary_bufs_sub .., reshape_bufs_sub ..,
    unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., reshape_bufs_sub .., unary_bufs_sub .., reshape_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., nullary_bufs_sub ..⟩

set_option maxRecDepth 8192 in
theorem ops3_fresh : ∀ op ∈ (ops3 : List (HloOp τ sig (Elt F))), op.fresh = ∅ := by
  intro _ h; (repeat (cases h with | head => rfl | tail _ h => ?_)); exact nomatch h

end Cert.ReferenceIdeal.RefRun

end
-- ==== Proof.RefRun4.lean ====
/- Window 4 of the reference program's @main as the list of its 24 host operations, in program order,
   every call of an outlined function replaced by the callee's operations over that call's own buffers;
   the window is the straight line of that list, each operation touches TensorCore references only, and
   none allocates. -/
import proofs.«119291_j39402029973518_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements of window 4 of @main, calls inlined: 24 operations. -/
abbrev ops4 : List (HloOp τ sig (Elt F)) :=
  [ StableHlo.unary main_cst_34 main_v203 (broadcastInDim S100000x128 ![] bcast_S_S100000x128 : (⟨S_, .f32⟩ : BufTy).Contents (Elt F) → (⟨S100000x128, .f32⟩ : BufTy).Contents (Elt F)),
    StableHlo.unary main_v3 main_v204 (broadcastInDim S1600000x1 ![0] bcast_S1600000_S1600000x1_0 : (⟨S1600000, .i32⟩ : BufTy).Contents (Elt F) → (⟨S1600000x1, .i32⟩ : BufTy).Contents (Elt F)),
    StableHlo.ternary main_v203 main_v204 main_v202 main_v205 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_35 (constant S_ .f32 0x3F800000#32),
    StableHlo.unary main_cst_35 main_v206 (broadcastInDim S1600000x1 ![] bcast_S_S1600000x1 : (⟨S_, .f32⟩ : BufTy).Contents (Elt F) → (⟨S1600000x1, .f32⟩ : BufTy).Contents (Elt F)),
    StableHlo.nullary main_cst_36 (constant S_ .f32 0x00000000#32),
    StableHlo.unary main_cst_36 main_v207 (broadcastInDim S100000x1 ![] bcast_S_S100000x1 : (⟨S_, .f32⟩ : BufTy).Contents (Elt F) → (⟨S100000x1, .f32⟩ : BufTy).Contents (Elt F)),
    StableHlo.unary main_v3 main_v208 (broadcastInDim S1600000x1 ![0] bcast_S1600000_S1600000x1_0 : (⟨S1600000, .i32⟩ : BufTy).Contents (Elt F) → (⟨S1600000x1, .i32⟩ : BufTy).Contents (Elt F)),
    StableHlo.ternary main_v207 main_v208 main_v206 main_v209 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    StableHlo.nullary main_cst_37 (constant S_ .f32 0x3F800000#32),
    StableHlo.unary main_cst_37 main_v210 (broadcastInDim S100000x1 ![] bcast_S_S100000x1 : (⟨S_, .f32⟩ : BufTy).Contents (Elt F) → (⟨S100000x1, .f32⟩ : BufTy).Contents (Elt F)),
    StableHlo.binary main_v209 main_v210 main_v211 (maximumf : (⟨S100000x1, .f32⟩ : BufTy).Contents (Elt F) → (⟨S100000x1, .f32⟩ : BufTy).Contents (Elt F) → (⟨S100000x1, .f32⟩ : BufTy).Contents (Elt F)),
    StableHlo.unary main_v211 main_v212 (broadcastInDim S100000x128 ![0, 1] bcast_S100000x1_S100000x128_0_1 : (⟨S100000x1, .f32⟩ : BufTy).Contents (Elt F) → (⟨S100000x128, .f32⟩ : BufTy).Contents (Elt F)),
    StableHlo.binary main_v205 main_v212 main_v213 (Host.divf : (⟨S100000x128, .f32⟩ : BufTy).Contents (Elt F) → (⟨S100000x128, .f32⟩ : BufTy).Contents (Elt F) → (⟨S100000x128, .f32⟩ : BufTy).Contents (Elt F)),
    StableHlo.binary main_v213 main_v191 main_v214 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v193 main_v215 (broadcastInDim S1x128 ![1] bcast_S128_S1x128_1 : (⟨S128, .f32⟩ : BufTy).Contents (Elt F) → (⟨S1x128, .f32⟩ : BufTy).Contents (Elt F)),
    StableHlo.unary main_v215 main_v216 (broadcastInDim S100000x128 ![0, 1] bcast_S1x128_S100000x128_0_1 : (⟨S1x128, .f32⟩ : BufTy).Contents (Elt F) → (⟨S100000x128, .f32⟩ : BufTy).Contents (Elt F)),
    StableHlo.binary main_v214 main_v216 main_v217 (addf : (⟨S100000x128, .f32⟩ : BufTy).Contents (Elt F) → (⟨S100000x128, .f32⟩ : BufTy).Contents (Elt F) → (⟨S100000x128, .f32⟩ : BufTy).Contents (Elt F)),
    StableHlo.binary main_v189 main_v195 main_v218 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v217 main_v218 main_v219 (addf : (⟨S100000x128, .f32⟩ : BufTy).Contents (Elt F) → (⟨S100000x128, .f32⟩ : BufTy).Contents (Elt F) → (⟨S100000x128, .f32⟩ : BufTy).Contents (Elt F)),
    StableHlo.binary main_v219 main_arg10 main_v220 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.unary main_arg11 main_v221 (broadcastInDim S1x40 ![1] bcast_S40_S1x40_1 : (⟨S40, .f32⟩ : BufTy).Contents (Elt F) → (⟨S1x40, .f32⟩ : BufTy).Contents (Elt F)),
    StableHlo.unary main_v221 main_v222 (broadcastInDim S100000x40 ![0, 1] bcast_S1x40_S100000x40_0_1 : (⟨S1x40, .f32⟩ : BufTy).Contents (Elt F) → (⟨S100000x40, .f32⟩ : BufTy).Contents (Elt F)),
    StableHlo.binary main_v220 main_v222 main_v223 (addf : (⟨S100000x40, .f32⟩ : BufTy).Contents (Elt F) → (⟨S100000x40, .f32⟩ : BufTy).Contents (Elt F) → (⟨S100000x40, .f32⟩ : BufTy).Contents (Elt F)) ]

set_option maxRecDepth 8192 in
/-- The window is that straight line: the callees' definitions unfolded at their calls, sequencing reassociated. -/
theorem part4_eq (d : Dev nD) : main_part4 (F := F) d = seq ops4 := by
  simp only [main_part4, seq, bind_assoc, pure_bind]
  all_goals rfl

set_option maxRecDepth 8192 in
theorem ops4_sub : (ops4 : List (HloOp τ sig (Elt F))).Forall fun op => op.bufs ⊆ tcRefs τ sig :=
  ⟨unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., binary_bufs_sub .., binary_bufs_sub .., unary_bufs_sub .., unary_bufs_sub .., binary_bufs_sub ..,
    binary_bufs_sub .., binary_bufs_sub .., binary_bufs_sub .., unary_bufs_sub .., unary_bufs_sub .., binary_bufs_sub ..⟩

set_option maxRecDepth 8192 in
theorem ops4_fresh : ∀ op ∈ (ops4 : List (HloOp τ sig (Elt F))), op.fresh = ∅ := by
  intro _ h; (repeat (cases h with | head => rfl | tail _ h => ?_)); exact nomatch h

end Cert.ReferenceIdeal.RefRun

end
-- ==== Proof.RefRun.lean ====
/- The reference program's @main as ONE list of host operations — its five windows' lists, in order, every call of an
   outlined function inlined — and its run: from any memory with zero counters every weakly fair execution of @main
   terminates, and each TensorCore buffer ends at the fold of the operations' results over its launch contents. -/
import proofs.«119291_j39402029973518_1_alg».proof.Proof.RefRun0
import proofs.«119291_j39402029973518_1_alg».proof.Proof.RefRun1
import proofs.«119291_j39402029973518_1_alg».proof.Proof.RefRun2
import proofs.«119291_j39402029973518_1_alg».proof.Proof.RefRun3
import proofs.«119291_j39402029973518_1_alg».proof.Proof.RefRun4
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in program order, calls inlined: the five windows' lists one after the other. -/
abbrev ops : List (HloOp τ sig (Elt F)) := ops0 ++ (ops1 ++ (ops2 ++ (ops3 ++ ops4)))

/-- @main is the straight line of its operations: window by window, two lines run one after the other being
    their concatenation run as one. -/
theorem main_eq (d : Dev nD) : main (F := F) d = seq ops := by
  unfold ops
  rw [seq_append, seq_append, seq_append, seq_append,
    ← part0_eq d, ← part1_eq d, ← part2_eq d, ← part3_eq d, ← part4_eq d]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h]

/-- No operation allocates: each determines its results. -/
theorem ops_fresh : ∀ op ∈ (ops : List (HloOp τ sig (Elt F))), op.fresh = ∅ := by
  intro op h
  simp only [ops, List.mem_append] at h
  rcases h with h | h | h | h | h
  exacts [ops0_fresh op h, ops1_fresh op h, ops2_fresh op h, ops3_fresh op h, ops4_fresh op h]

/-- On every device, for any float values, from any memory with zero counters: every weakly fair execution of
    @main terminates, and each TensorCore buffer ends at the operations' fold over the device's launch contents. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = StableHlo.after ops (launchContents m d) (Proc.devRef .tc b) :=
  run_seq scopedRefs_eq scopedSems_eq defs main (fun _ => ops) main_eq (fun _ => ops_sub) m ρ (fun _ => ops_fresh)

end Cert.ReferenceIdeal.RefRun

end
-- ==== Proof.RefSeg.lean ====
/- The reference program's operation list cut at the boundaries of its stages: thirty consecutive stretches (the edge
   list's two rows, the input layer, then per layer the mean, the variance, the normalisation with its rectifier, the
   layer's weight slices, the neighbourhood mean, the two products, the next normalisation's rows, and the output
   layer), each with the list of buffers it writes; the list's tails from each boundary on with what they write; and the
   device's contents at each boundary, so that what the whole list leaves in a buffer is what the stretch that
   writes it leaves there (no later stretch writes it). -/
import proofs.«119291_j39402029973518_1_alg».proof.Proof.RefRun
import Idealize.ShloMosaic.Lib.StableHlo.Run
import Idealize.ShloMosaic.Lib.Pipeline.Frame

noncomputable section

namespace Cert.ReferenceIdeal.RefStages

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- What two lines write, listed, is what their concatenation writes. -/
theorem writes_append {l₁ l₂ : List (HloOp τ sig (Elt F))} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset := by
  rw [List.forall_iff_forall_mem] at h₁ h₂ ⊢
  intro op hop
  rw [List.map_append, List.toFinset_append]
  rcases List.mem_append.mp hop with h | h
  · exact (h₁ op h).trans Finset.subset_union_left
  · exact (h₂ op h).trans Finset.subset_union_right

/-! ## The stretches -/

/-- Operations 0 … 3 of the list (4). -/
abbrev sE : List (HloOp τ sig (Elt F)) :=
  [ StableHlo.unary main_arg12 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg12 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]
/-- The buffers they write. -/
abbrev sE_W : List (Ref sig .tc) := [main_v0, main_v1, main_v2, main_v3]
theorem sE_writes : (sE : List (HloOp τ sig (Elt F))).Forall fun op => op.writes ⊆ (sE_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 4 … 7 of the list (4). -/
abbrev sD : List (HloOp τ sig (Elt F)) :=
  [ StableHlo.binary main_arg0 main_arg1 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg2 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S100000x128 ![0, 1] bcast_S1x128_S100000x128_0_1 : (⟨S1x128, .f32⟩ : BufTy).Contents (Elt F) → (⟨S100000x128, .f32⟩ : BufTy).Contents (Elt F)),
    StableHlo.binary main_v4 main_v6 main_v7 (addf : (⟨S100000x128, .f32⟩ : BufTy).Contents (Elt F) → (⟨S100000x128, .f32⟩ : BufTy).Contents (Elt F) → (⟨S100000x128, .f32⟩ : BufTy).Contents (Elt F)) ]
/-- The buffers they write. -/
abbrev sD_W : List (Ref sig .tc) := [main_v4, main_v5, main_v6, main_v7]
theorem sD_writes : (sD : List (HloOp τ sig (Elt F))).Forall fun op => op.writes ⊆ (sD_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 8 … 12 of the list (5). -/
abbrev sM0 : List (HloOp τ sig (Elt F)) :=
  [ StableHlo.nullary main_cst (constant S_ .f32 0x00000000#32),
    StableHlo.binary main_v7 main_cst main_v8 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_0 (constant S_ .f32 0x47C35000#32),
    StableHlo.unary main_cst_0 main_v9 (broadcastInDim S128 ![] bcast_S_S128 : (⟨S_, .f32⟩ : BufTy).Contents (Elt F) → (⟨S128, .f32⟩ : BufTy).Contents (Elt F)),
    StableHlo.binary main_v8 main_v9 main_v10 (Host.divf : (⟨S128, .f32⟩ : BufTy).Contents (Elt F) → (⟨S128, .f32⟩ : BufTy).Contents (Elt F) → (⟨S128, .f32⟩ : BufTy).Contents (Elt F)) ]
/-- The buffers they write. -/
abbrev sM0_W : List (Ref sig .tc) := [main_cst, main_v8, main_cst_0, main_v9, main_v10]
theorem sM0_writes : (sM0 : List (HloOp τ sig (Elt F))).Forall fun op => op.writes ⊆ (sM0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 13 … 35 of the list (23). -/
abbrev sV0 : List (HloOp τ sig (Elt F)) :=
  [ StableHlo.nullary main_c (constantI S_ 32 0#32),
    StableHlo.TRef.nullary (.of main_call0_cst : StableHlo.TRef sig ⟨S_, .f32⟩) (constant S_ .f32 0x00000000#32),
    StableHlo.TRef.binary (.of main_v7 : StableHlo.TRef sig ⟨S100000x128, .f32⟩) (.of main_call0_cst : StableHlo.TRef sig ⟨S_, .f32⟩) (.of main_call0_v0 : StableHlo.TRef sig ⟨S128, .f32⟩) (fun x v => Host.reduceAdd x v reducesTo_S100000x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x47C35000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S100000x128, .f32⟩) (broadcastInDim S100000x128 ![0, 1] bcast_S1x128_S100000x128_0_1),
    StableHlo.TRef.binary (.of main_v7 : StableHlo.TRef sig ⟨S100000x128, .f32⟩) (.of main_call0_v4 : StableHlo.TRef sig ⟨S100000x128, .f32⟩) (.of main_call0_v5 : StableHlo.TRef sig ⟨S100000x128, .f32⟩) subf,
    StableHlo.TRef.binary (.of main_call0_v5 : StableHlo.TRef sig ⟨S100000x128, .f32⟩) (.of main_call0_v5 : StableHlo.TRef sig ⟨S100000x128, .f32⟩) (.of main_call0_v6 : StableHlo.TRef sig ⟨S100000x128, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47C35000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S100000x128, .f32⟩) (.of main_call0_cst_2 : StableHlo.TRef sig ⟨S_, .f32⟩) (.of main_call0_v9 : StableHlo.TRef sig ⟨S128, .f32⟩) (fun x v => Host.reduceAdd x v reducesTo_S100000x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v11 : StableHlo.TRef sig ⟨S128, .f32⟩) (fun p a b => select (broadcastInDim S128 ![] bcast_S_S128 p) a b) ]
/-- The buffers they write. -/
abbrev sV0_W : List (Ref sig .tc) := [main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v11]
theorem sV0_writes : (sV0 : List (HloOp τ sig (Elt F))).Forall fun op => op.writes ⊆ (sV0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 36 … 54 of the list (19). -/
abbrev sB0 : List (HloOp τ sig (Elt F)) :=
  [ StableHlo.unary main_v10 main_v12 (broadcastInDim S1x128 ![1] bcast_S128_S1x128_1 : (⟨S128, .f32⟩ : BufTy).Contents (Elt F) → (⟨S1x128, .f32⟩ : BufTy).Contents (Elt F)),
    StableHlo.unary main_v12 main_v13 (broadcastInDim S100000x128 ![0, 1] bcast_S1x128_S100000x128_0_1 : (⟨S1x128, .f32⟩ : BufTy).Contents (Elt F) → (⟨S100000x128, .f32⟩ : BufTy).Contents (Elt F)),
    StableHlo.binary main_v7 main_v13 main_v14 (subf : (⟨S100000x128, .f32⟩ : BufTy).Contents (Elt F) → (⟨S100000x128, .f32⟩ : BufTy).Contents (Elt F) → (⟨S100000x128, .f32⟩ : BufTy).Contents (Elt F)),
    StableHlo.unary main_arg3 main_v15 (broadcastInDim S1x128 ![1] bcast_S128_S1x128_1 : (⟨S128, .f32⟩ : BufTy).Contents (Elt F) → (⟨S1x128, .f32⟩ : BufTy).Contents (Elt F)),
    StableHlo.unary main_v15 main_v16 (broadcastInDim S100000x128 ![0, 1] bcast_S1x128_S100000x128_0_1 : (⟨S1x128, .f32⟩ : BufTy).Contents (Elt F) → (⟨S100000x128, .f32⟩ : BufTy).Contents (Elt F)),
    StableHlo.binary main_v16 main_v14 main_v17 (mulf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x3727C5AC#32),
    StableHlo.unary main_cst_1 main_v18 (broadcastInDim S128 ![] bcast_S_S128 : (⟨S_, .f32⟩ : BufTy).Contents (Elt F) → (⟨S128, .f32⟩ : BufTy).Contents (Elt F)),
    StableHlo.binary main_v11 main_v18 main_v19 (addf : (⟨S128, .f32⟩ : BufTy).Contents (Elt F) → (⟨S128, .f32⟩ : BufTy).Contents (Elt F) → (⟨S128, .f32⟩ : BufTy).Contents (Elt F)),
    StableHlo.unary main_v19 main_v20 (Host.rsqrt : (⟨S128, .f32⟩ : BufTy).Contents (Elt F) → (⟨S128, .f32⟩ : BufTy).Contents (Elt F)),
    StableHlo.unary main_v20 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S100000x128 ![0, 1] bcast_S1x128_S100000x128_0_1 : (⟨S1x128, .f32⟩ : BufTy).Contents (Elt F) → (⟨S100000x128, .f32⟩ : BufTy).Contents (Elt F)),
    StableHlo.binary main_v17 main_v22 main_v23 (mulf : (⟨S100000x128, .f32⟩ : BufTy).Contents (Elt F) → (⟨S100000x128, .f32⟩ : BufTy).Contents (Elt F) → (⟨S100000x128, .f32⟩ : BufTy).Contents (Elt F)),
    StableHlo.unary main_arg4 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S100000x128 ![0, 1] bcast_S1x128_S100000x128_0_1 : (⟨S1x128, .f32⟩ : BufTy).Contents (Elt F) → (⟨S100000x128, .f32⟩ : BufTy).Contents (Elt F)),
    StableHlo.binary main_v23 main_v25 main_v26 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x128, .f32⟩) (broadcastInDim S100000x128 ![] bcast_S_S100000x128),
    StableHlo.TRef.binary (.of main_v26 : StableHlo.TRef sig ⟨S100000x128, .f32⟩) (.of main_call1_v0 : StableHlo.TRef sig ⟨S100000x128, .f32⟩) (.of main_v27 : StableHlo.TRef sig ⟨S100000x128, .f32⟩) maximumf ]
/-- The buffers they write. -/
abbrev sB0_W : List (Ref sig .tc) := [main_v12, main_v13, main_v14, main_v15, main_v16, main_v17, main_cst_1, main_v18, main_v19, main_v20, main_v21, main_v22, main_v23, main_v24, main_v25, main_v26, main_call1_cst, main_call1_v0, main_v27]
theorem sB0_writes : (sB0 : List (HloOp τ sig (Elt F))).Forall fun op => op.writes ⊆ (sB0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 55 … 60 of the list (6). -/
abbrev sW0 : List (HloOp τ sig (Elt F)) :=
  [ StableHlo.unary main_arg5 main_v28 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v28 main_v29 rfl shapeCasts_S1x128x128_S128x128,
    StableHlo.unary main_arg6 main_v30 ((extractStridedSlice S1x128 ![0, 0] · slices_S4x128_S1x128_0_0) : (⟨S4x128, .f32⟩ : BufTy).Contents (Elt F) → (⟨S1x128, .f32⟩ : BufTy).Contents (Elt F)),
    StableHlo.reshape main_v30 main_v31 rfl shapeCasts_S1x128_S128,
    StableHlo.unary main_arg7 main_v32 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v32 main_v33 rfl shapeCasts_S1x128x128_S128x128 ]
/-- The buffers they write. -/
abbrev sW0_W : List (Ref sig .tc) := [main_v28, main_v29, main_v30, main_v31, main_v32, main_v33]
theorem sW0_writes : (sW0 : List (HloOp τ sig (Elt F))).Forall fun op => op.writes ⊆ (sW0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 61 … 84 of the list (24). -/
abbrev sG0 : List (HloOp τ sig (Elt F)) :=
  [ StableHlo.nullary main_c_2 (constantI S_ 32 0#32),
    StableHlo.unary main_c_2 main_v34 (broadcastInDim S1600000 ![] bcast_S_S1600000 : (⟨S_, .i32⟩ : BufTy).Contents (Elt F) → (⟨S1600000, .i32⟩ : BufTy).Contents (Elt F)),
    StableHlo.binary main_v1 main_v34 main_v35 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v36 (broadcastInDim S1600000 ![] bcast_S_S1600000 : (⟨S_, .i32⟩ : BufTy).Contents (Elt F) → (⟨S1600000, .i32⟩ : BufTy).Contents (Elt F)),
    StableHlo.binary main_v1 main_v36 main_v37 (addi : (⟨S1600000, .i32⟩ : BufTy).Contents (Elt F) → (⟨S1600000, .i32⟩ : BufTy).Contents (Elt F) → (⟨S1600000, .i32⟩ : BufTy).Contents (Elt F)),
    StableHlo.ternary main_v35 main_v37 main_v1 main_v38 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v38 main_v39 (broadcastInDim S1600000x1 ![0] bcast_S1600000_S1600000x1_0 : (⟨S1600000, .i32⟩ : BufTy).Contents (Elt F) → (⟨S1600000x1, .i32⟩ : BufTy).Contents (Elt F)),
    StableHlo.binary main_v27 main_v39 main_v40 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_4 (constant S_ .f32 0x00000000#32),
    StableHlo.unary main_cst_4 main_v41 (broadcastInDim S100000x128 ![] bcast_S_S100000x128 : (⟨S_, .f32⟩ : BufTy).Contents (Elt F) → (⟨S100000x128, .f32⟩ : BufTy).Contents (Elt F)),
    StableHlo.unary main_v3 main_v42 (broadcastInDim S1600000x1 ![0] bcast_S1600000_S1600000x1_0 : (⟨S1600000, .i32⟩ : BufTy).Contents (Elt F) → (⟨S1600000x1, .i32⟩ : BufTy).Contents (Elt F)),
    StableHlo.ternary main_v41 main_v42 main_v40 main_v43 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_5 (constant S_ .f32 0x3F800000#32),
    StableHlo.unary main_cst_5 main_v44 (broadcastInDim S1600000x1 ![] bcast_S_S1600000x1 : (⟨S_, .f32⟩ : BufTy).Contents (Elt F) → (⟨S1600000x1, .f32⟩ : BufTy).Contents (Elt F)),
    StableHlo.nullary main_cst_6 (constant S_ .f32 0x00000000#32),
    StableHlo.unary main_cst_6 main_v45 (broadcastInDim S100000x1 ![] bcast_S_S100000x1 : (⟨S_, .f32⟩ : BufTy).Contents (Elt F) → (⟨S100000x1, .f32⟩ : BufTy).Contents (Elt F)),
    StableHlo.unary main_v3 main_v46 (broadcastInDim S1600000x1 ![0] bcast_S1600000_S1600000x1_0 : (⟨S1600000, .i32⟩ : BufTy).Contents (Elt F) → (⟨S1600000x1, .i32⟩ : BufTy).Contents (Elt F)),
    StableHlo.ternary main_v45 main_v46 main_v44 main_v47 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    StableHlo.nullary main_cst_7 (constant S_ .f32 0x3F800000#32),
    StableHlo.unary main_cst_7 main_v48 (broadcastInDim S100000x1 ![] bcast_S_S100000x1 : (⟨S_, .f32⟩ : BufTy).Contents (Elt F) → (⟨S100000x1, .f32⟩ : BufTy).Contents (Elt F)),
    StableHlo.binary main_v47 main_v48 main_v49 (maximumf : (⟨S100000x1, .f32⟩ : BufTy).Contents (Elt F) → (⟨S100000x1, .f32⟩ : BufTy).Contents (Elt F) → (⟨S100000x1, .f32⟩ : BufTy).Contents (Elt F)),
    StableHlo.unary main_v49 main_v50 (broadcastInDim S100000x128 ![0, 1] bcast_S100000x1_S100000x128_0_1 : (⟨S100000x1, .f32⟩ : BufTy).Contents (Elt F) → (⟨S100000x128, .f32⟩ : BufTy).Contents (Elt F)),
    StableHlo.binary main_v43 main_v50 main_v51 (Host.divf : (⟨S100000x128, .f32⟩ : BufTy).Contents (Elt F) → (⟨S100000x128, .f32⟩ : BufTy).Contents (Elt F) → (⟨S100000x128, .f32⟩ : BufTy).Contents (Elt F)) ]
/-- The buffers they write. -/
abbrev sG0_W : List (Ref sig .tc) := [main_c_2, main_v34, main_v35, main_c_3, main_v36, main_v37, main_v38, main_v39, main_v40, main_cst_4, main_v41, main_v42, main_v43, main_cst_5, main_v44, main_cst_6, main_v45, main_v46, main_v47, main_cst_7, main_v48, main_v49, main_v50, main_v51]
theorem sG0_writes : (sG0 : List (HloOp τ sig (Elt F))).Forall fun op => op.writes ⊆ (sG0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 85 … 90 of the list (6). -/
abbrev sS0 : List (HloOp τ sig (Elt F)) :=
  [ StableHlo.binary main_v51 main_v29 main_v52 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v31 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v52 main_v54 main_v55 (addf : (⟨S100000x128, .f32⟩ : BufTy).Contents (Elt F) → (⟨S100000x128, .f32⟩ : BufTy).Contents (Elt F) → (⟨S100000x128, .f32⟩ : BufTy).Contents (Elt F)),
    StableHlo.binary main_v27 main_v33 main_v56 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v55 main_v56 main_v57 (addf : (⟨S100000x128, .f32⟩ : BufTy).Contents (Elt F) → (⟨S100000x128, .f32⟩ : BufTy).Contents (Elt F) → (⟨S100000x128, .f32⟩ : BufTy).Contents (Elt F)) ]
/-- The buffers they write. -/
abbrev sS0_W : List (Ref sig .tc) := [main_v52, main_v53, main_v54, main_v55, main_v56, main_v57]
theorem sS0_writes : (sS0 : List (HloOp τ sig (Elt F))).Forall fun op => op.writes ⊆ (sS0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 91 … 94 of the list (4). -/
abbrev sR0 : List (HloOp τ sig (Elt F)) :=
  [ StableHlo.unary main_arg8 main_v58 ((extractStridedSlice S1x128 ![0, 0] · slices_S4x128_S1x128_0_0) : (⟨S4x128, .f32⟩ : BufTy).Contents (Elt F) → (⟨S1x128, .f32⟩ : BufTy).Contents (Elt F)),
    StableHlo.reshape main_v58 main_v59 rfl shapeCasts_S1x128_S128,
    StableHlo.unary main_arg9 main_v60 ((extractStridedSlice S1x128 ![0, 0] · slices_S4x128_S1x128_0_0) : (⟨S4x128, .f32⟩ : BufTy).Contents (Elt F) → (⟨S1x128, .f32⟩ : BufTy).Contents (Elt F)),
    StableHlo.reshape main_v60 main_v61 rfl shapeCasts_S1x128_S128 ]
/-- The buffers they write. -/
abbrev sR0_W : List (Ref sig .tc) := [main_v58, main_v59, main_v60, main_v61]
theorem sR0_writes : (sR0 : List (HloOp τ sig (Elt F))).Forall fun op => op.writes ⊆ (sR0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 95 … 99 of the list (5). -/
abbrev sM1 : List (HloOp τ sig (Elt F)) :=
  [ StableHlo.nullary main_cst_8 (constant S_ .f32 0x00000000#32),
    StableHlo.binary main_v57 main_cst_8 main_v62 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v63 (broadcastInDim S128 ![] bcast_S_S128 : (⟨S_, .f32⟩ : BufTy).Contents (Elt F) → (⟨S128, .f32⟩ : BufTy).Contents (Elt F)),
    StableHlo.binary main_v62 main_v63 main_v64 (Host.divf : (⟨S128, .f32⟩ : BufTy).Contents (Elt F) → (⟨S128, .f32⟩ : BufTy).Contents (Elt F) → (⟨S128, .f32⟩ : BufTy).Contents (Elt F)) ]
/-- The buffers they write. -/
abbrev sM1_W : List (Ref sig .tc) := [main_cst_8, main_v62, main_cst_9, main_v63, main_v64]
theorem sM1_writes : (sM1 : List (HloOp τ sig (Elt F))).Forall fun op => op.writes ⊆ (sM1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 100 … 122 of the list (23). -/
abbrev sV1 : List (HloOp τ sig (Elt F)) :=
  [ StableHlo.nullary main_c_10 (constantI S_ 32 0#32),
    StableHlo.TRef.nullary (.of main_call2_cst : StableHlo.TRef sig ⟨S_, .f32⟩) (constant S_ .f32 0x00000000#32),
    StableHlo.TRef.binary (.of main_v57 : StableHlo.TRef sig ⟨S100000x128, .f32⟩) (.of main_call2_cst : StableHlo.TRef sig ⟨S_, .f32⟩) (.of main_call2_v0 : StableHlo.TRef sig ⟨S128, .f32⟩) (fun x v => Host.reduceAdd x v reducesTo_S100000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S100000x128, .f32⟩) (broadcastInDim S100000x128 ![0, 1] bcast_S1x128_S100000x128_0_1),
    StableHlo.TRef.binary (.of main_v57 : StableHlo.TRef sig ⟨S100000x128, .f32⟩) (.of main_call2_v4 : StableHlo.TRef sig ⟨S100000x128, .f32⟩) (.of main_call2_v5 : StableHlo.TRef sig ⟨S100000x128, .f32⟩) subf,
    StableHlo.TRef.binary (.of main_call2_v5 : StableHlo.TRef sig ⟨S100000x128, .f32⟩) (.of main_call2_v5 : StableHlo.TRef sig ⟨S100000x128, .f32⟩) (.of main_call2_v6 : StableHlo.TRef sig ⟨S100000x128, .f32⟩) mulf,
    StableHlo.TRef.unary (.of main_c_10 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x128, .f32⟩) (.of main_call2_cst_2 : StableHlo.TRef sig ⟨S_, .f32⟩) (.of main_call2_v9 : StableHlo.TRef sig ⟨S128, .f32⟩) (fun x v => Host.reduceAdd x v reducesTo_S100000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v65 : StableHlo.TRef sig ⟨S128, .f32⟩) (fun p a b => select (broadcastInDim S128 ![] bcast_S_S128 p) a b) ]
/-- The buffers they write. -/
abbrev sV1_W : List (Ref sig .tc) := [main_c_10, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v65]
theorem sV1_writes : (sV1 : List (HloOp τ sig (Elt F))).Forall fun op => op.writes ⊆ (sV1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 123 … 141 of the list (19). -/
abbrev sB1 : List (HloOp τ sig (Elt F)) :=
  [ StableHlo.unary main_v64 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S100000x128 ![0, 1] bcast_S1x128_S100000x128_0_1 : (⟨S1x128, .f32⟩ : BufTy).Contents (Elt F) → (⟨S100000x128, .f32⟩ : BufTy).Contents (Elt F)),
    StableHlo.binary main_v57 main_v67 main_v68 (subf : (⟨S100000x128, .f32⟩ : BufTy).Contents (Elt F) → (⟨S100000x128, .f32⟩ : BufTy).Contents (Elt F) → (⟨S100000x128, .f32⟩ : BufTy).Contents (Elt F)),
    StableHlo.unary main_v59 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v70 main_v68 main_v71 (mulf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v72 (broadcastInDim S128 ![] bcast_S_S128 : (⟨S_, .f32⟩ : BufTy).Contents (Elt F) → (⟨S128, .f32⟩ : BufTy).Contents (Elt F)),
    StableHlo.binary main_v65 main_v72 main_v73 (addf : (⟨S128, .f32⟩ : BufTy).Contents (Elt F) → (⟨S128, .f32⟩ : BufTy).Contents (Elt F) → (⟨S128, .f32⟩ : BufTy).Contents (Elt F)),
    StableHlo.unary main_v73 main_v74 (Host.rsqrt : (⟨S128, .f32⟩ : BufTy).Contents (Elt F) → (⟨S128, .f32⟩ : BufTy).Contents (Elt F)),
    StableHlo.unary main_v74 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S100000x128 ![0, 1] bcast_S1x128_S100000x128_0_1 : (⟨S1x128, .f32⟩ : BufTy).Contents (Elt F) → (⟨S100000x128, .f32⟩ : BufTy).Contents (Elt F)),
    StableHlo.binary main_v71 main_v76 main_v77 (mulf : (⟨S100000x128, .f32⟩ : BufTy).Contents (Elt F) → (⟨S100000x128, .f32⟩ : BufTy).Contents (Elt F) → (⟨S100000x128, .f32⟩ : BufTy).Contents (Elt F)),
    StableHlo.unary main_v61 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S100000x128 ![0, 1] bcast_S1x128_S100000x128_0_1 : (⟨S1x128, .f32⟩ : BufTy).Contents (Elt F) → (⟨S100000x128, .f32⟩ : BufTy).Contents (Elt F)),
    StableHlo.binary main_v77 main_v79 main_v80 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x128, .f32⟩) (broadcastInDim S100000x128 ![] bcast_S_S100000x128),
    StableHlo.TRef.binary (.of main_v80 : StableHlo.TRef sig ⟨S100000x128, .f32⟩) (.of main_call3_v0 : StableHlo.TRef sig ⟨S100000x128, .f32⟩) (.of main_v81 : StableHlo.TRef sig ⟨S100000x128, .f32⟩) maximumf ]
/-- The buffers they write. -/
abbrev sB1_W : List (Ref sig .tc) := [main_v66, main_v67, main_v68, main_v69, main_v70, main_v71, main_cst_11, main_v72, main_v73, main_v74, main_v75, main_v76, main_v77, main_v78, main_v79, main_v80, main_call3_cst, main_call3_v0, main_v81]
theorem sB1_writes : (sB1 : List (HloOp τ sig (Elt F))).Forall fun op => op.writes ⊆ (sB1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 142 … 147 of the list (6). -/
abbrev sW1 : List (HloOp τ sig (Elt F)) :=
  [ StableHlo.unary main_arg5 main_v82 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v82 main_v83 rfl shapeCasts_S1x128x128_S128x128,
    StableHlo.unary main_arg6 main_v84 ((extractStridedSlice S1x128 ![1, 0] · slices_S4x128_S1x128_1_0) : (⟨S4x128, .f32⟩ : BufTy).Contents (Elt F) → (⟨S1x128, .f32⟩ : BufTy).Contents (Elt F)),
    StableHlo.reshape main_v84 main_v85 rfl shapeCasts_S1x128_S128,
    StableHlo.unary main_arg7 main_v86 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v86 main_v87 rfl shapeCasts_S1x128x128_S128x128 ]
/-- The buffers they write. -/
abbrev sW1_W : List (Ref sig .tc) := [main_v82, main_v83, main_v84, main_v85, main_v86, main_v87]
theorem sW1_writes : (sW1 : List (HloOp τ sig (Elt F))).Forall fun op => op.writes ⊆ (sW1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 148 … 171 of the list (24). -/
abbrev sG1 : List (HloOp τ sig (Elt F)) :=
  [ StableHlo.nullary main_c_12 (constantI S_ 32 0#32),
    StableHlo.unary main_c_12 main_v88 (broadcastInDim S1600000 ![] bcast_S_S1600000 : (⟨S_, .i32⟩ : BufTy).Contents (Elt F) → (⟨S1600000, .i32⟩ : BufTy).Contents (Elt F)),
    StableHlo.binary main_v1 main_v88 main_v89 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v90 (broadcastInDim S1600000 ![] bcast_S_S1600000 : (⟨S_, .i32⟩ : BufTy).Contents (Elt F) → (⟨S1600000, .i32⟩ : BufTy).Contents (Elt F)),
    StableHlo.binary main_v1 main_v90 main_v91 (addi : (⟨S1600000, .i32⟩ : BufTy).Contents (Elt F) → (⟨S1600000, .i32⟩ : BufTy).Contents (Elt F) → (⟨S1600000, .i32⟩ : BufTy).Contents (Elt F)),
    StableHlo.ternary main_v89 main_v91 main_v1 main_v92 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v92 main_v93 (broadcastInDim S1600000x1 ![0] bcast_S1600000_S1600000x1_0 : (⟨S1600000, .i32⟩ : BufTy).Contents (Elt F) → (⟨S1600000x1, .i32⟩ : BufTy).Contents (Elt F)),
    StableHlo.binary main_v81 main_v93 main_v94 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_14 (constant S_ .f32 0x00000000#32),
    StableHlo.unary main_cst_14 main_v95 (broadcastInDim S100000x128 ![] bcast_S_S100000x128 : (⟨S_, .f32⟩ : BufTy).Contents (Elt F) → (⟨S100000x128, .f32⟩ : BufTy).Contents (Elt F)),
    StableHlo.unary main_v3 main_v96 (broadcastInDim S1600000x1 ![0] bcast_S1600000_S1600000x1_0 : (⟨S1600000, .i32⟩ : BufTy).Contents (Elt F) → (⟨S1600000x1, .i32⟩ : BufTy).Contents (Elt F)),
    StableHlo.ternary main_v95 main_v96 main_v94 main_v97 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_15 (constant S_ .f32 0x3F800000#32),
    StableHlo.unary main_cst_15 main_v98 (broadcastInDim S1600000x1 ![] bcast_S_S1600000x1 : (⟨S_, .f32⟩ : BufTy).Contents (Elt F) → (⟨S1600000x1, .f32⟩ : BufTy).Contents (Elt F)),
    StableHlo.nullary main_cst_16 (constant S_ .f32 0x00000000#32),
    StableHlo.unary main_cst_16 main_v99 (broadcastInDim S100000x1 ![] bcast_S_S100000x1 : (⟨S_, .f32⟩ : BufTy).Contents (Elt F) → (⟨S100000x1, .f32⟩ : BufTy).Contents (Elt F)),
    StableHlo.unary main_v3 main_v100 (broadcastInDim S1600000x1 ![0] bcast_S1600000_S1600000x1_0 : (⟨S1600000, .i32⟩ : BufTy).Contents (Elt F) → (⟨S1600000x1, .i32⟩ : BufTy).Contents (Elt F)),
    StableHlo.ternary main_v99 main_v100 main_v98 main_v101 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    StableHlo.nullary main_cst_17 (constant S_ .f32 0x3F800000#32),
    StableHlo.unary main_cst_17 main_v102 (broadcastInDim S100000x1 ![] bcast_S_S100000x1 : (⟨S_, .f32⟩ : BufTy).Contents (Elt F) → (⟨S100000x1, .f32⟩ : BufTy).Contents (Elt F)),
    StableHlo.binary main_v101 main_v102 main_v103 (maximumf : (⟨S100000x1, .f32⟩ : BufTy).Contents (Elt F) → (⟨S100000x1, .f32⟩ : BufTy).Contents (Elt F) → (⟨S100000x1, .f32⟩ : BufTy).Contents (Elt F)),
    StableHlo.unary main_v103 main_v104 (broadcastInDim S100000x128 ![0, 1] bcast_S100000x1_S100000x128_0_1 : (⟨S100000x1, .f32⟩ : BufTy).Contents (Elt F) → (⟨S100000x128, .f32⟩ : BufTy).Contents (Elt F)),
    StableHlo.binary main_v97 main_v104 main_v105 (Host.divf : (⟨S100000x128, .f32⟩ : BufTy).Contents (Elt F) → (⟨S100000x128, .f32⟩ : BufTy).Contents (Elt F) → (⟨S100000x128, .f32⟩ : BufTy).Contents (Elt F)) ]
/-- The buffers they write. -/
abbrev sG1_W : List (Ref sig .tc) := [main_c_12, main_v88, main_v89, main_c_13, main_v90, main_v91, main_v92, main_v93, main_v94, main_cst_14, main_v95, main_v96, main_v97, main_cst_15, main_v98, main_cst_16, main_v99, main_v100, main_v101, main_cst_17, main_v102, main_v103, main_v104, main_v105]
theorem sG1_writes : (sG1 : List (HloOp τ sig (Elt F))).Forall fun op => op.writes ⊆ (sG1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 172 … 177 of the list (6). -/
abbrev sS1 : List (HloOp τ sig (Elt F)) :=
  [ StableHlo.binary main_v105 main_v83 main_v106 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v85 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S100000x128 ![0, 1] bcast_S1x128_S100000x128_0_1 : (⟨S1x128, .f32⟩ : BufTy).Contents (Elt F) → (⟨S100000x128, .f32⟩ : BufTy).Contents (Elt F)),
    StableHlo.binary main_v106 main_v108 main_v109 (addf : (⟨S100000x128, .f32⟩ : BufTy).Contents (Elt F) → (⟨S100000x128, .f32⟩ : BufTy).Contents (Elt F) → (⟨S100000x128, .f32⟩ : BufTy).Contents (Elt F)),
    StableHlo.binary main_v81 main_v87 main_v110 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v109 main_v110 main_v111 (addf : (⟨S100000x128, .f32⟩ : BufTy).Contents (Elt F) → (⟨S100000x128, .f32⟩ : BufTy).Contents (Elt F) → (⟨S100000x128, .f32⟩ : BufTy).Contents (Elt F)) ]
/-- The buffers they write. -/
abbrev sS1_W : List (Ref sig .tc) := [main_v106, main_v107, main_v108, main_v109, main_v110, main_v111]
theorem sS1_writes : (sS1 : List (HloOp τ sig (Elt F))).Forall fun op => op.writes ⊆ (sS1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 178 … 181 of the list (4). -/
abbrev sR1 : List (HloOp τ sig (Elt F)) :=
  [ StableHlo.unary main_arg8 main_v112 ((extractStridedSlice S1x128 ![1, 0] · slices_S4x128_S1x128_1_0) : (⟨S4x128, .f32⟩ : BufTy).Contents (Elt F) → (⟨S1x128, .f32⟩ : BufTy).Contents (Elt F)),
    StableHlo.reshape main_v112 main_v113 rfl shapeCasts_S1x128_S128,
    StableHlo.unary main_arg9 main_v114 ((extractStridedSlice S1x128 ![1, 0] · slices_S4x128_S1x128_1_0) : (⟨S4x128, .f32⟩ : BufTy).Contents (Elt F) → (⟨S1x128, .f32⟩ : BufTy).Contents (Elt F)),
    StableHlo.reshape main_v114 main_v115 rfl shapeCasts_S1x128_S128 ]
/-- The buffers they write. -/
abbrev sR1_W : List (Ref sig .tc) := [main_v112, main_v113, main_v114, main_v115]
theorem sR1_writes : (sR1 : List (HloOp τ sig (Elt F))).Forall fun op => op.writes ⊆ (sR1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 182 … 186 of the list (5). -/
abbrev sM2 : List (HloOp τ sig (Elt F)) :=
  [ StableHlo.nullary main_cst_18 (constant S_ .f32 0x00000000#32),
    StableHlo.binary main_v111 main_cst_18 main_v116 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_19 (constant S_ .f32 0x47C35000#32),
    StableHlo.unary main_cst_19 main_v117 (broadcastInDim S128 ![] bcast_S_S128 : (⟨S_, .f32⟩ : BufTy).Contents (Elt F) → (⟨S128, .f32⟩ : BufTy).Contents (Elt F)),
    StableHlo.binary main_v116 main_v117 main_v118 (Host.divf : (⟨S128, .f32⟩ : BufTy).Contents (Elt F) → (⟨S128, .f32⟩ : BufTy).Contents (Elt F) → (⟨S128, .f32⟩ : BufTy).Contents (Elt F)) ]
/-- The buffers they write. -/
abbrev sM2_W : List (Ref sig .tc) := [main_cst_18, main_v116, main_cst_19, main_v117, main_v118]
theorem sM2_writes : (sM2 : List (HloOp τ sig (Elt F))).Forall fun op => op.writes ⊆ (sM2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 187 … 209 of the list (23). -/
abbrev sV2 : List (HloOp τ sig (Elt F)) :=
  [ StableHlo.nullary main_c_20 (constantI S_ 32 0#32),
    StableHlo.TRef.nullary (.of main_call4_cst : StableHlo.TRef sig ⟨S_, .f32⟩) (constant S_ .f32 0x00000000#32),
    StableHlo.TRef.binary (.of main_v111 : StableHlo.TRef sig ⟨S100000x128, .f32⟩) (.of main_call4_cst : StableHlo.TRef sig ⟨S_, .f32⟩) (.of main_call4_v0 : StableHlo.TRef sig ⟨S128, .f32⟩) (fun x v => Host.reduceAdd x v reducesTo_S100000x128_S128_d0 h_S_),
    StableHlo.TRef.unary (.of main_call4_v0 : StableHlo.TRef sig ⟨S128, .f32⟩) (.of main_call4_v1 : StableHlo.TRef sig ⟨S1x128, .f32⟩) (broadcastInDim S1x128 ![1] bcast_S128_S1x128_1),
    StableHlo.TRef.nullary (.of main_call4_cst_0 : StableHlo.TRef sig ⟨S_, .f32⟩) (constant S_ .f32 0x47C35000#32),
    StableHlo.TRef.unary (.of main_call4_cst_0 : StableHlo.TRef sig ⟨S_, .f32⟩) (.of main_call4_v2 : StableHlo.TRef sig ⟨S1x128, .f32⟩) (broadcastInDim S1x128 ![] bcast_S_S1x128),
    StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf,
    StableHlo.TRef.unary (.of main_call4_v3 : StableHlo.TRef sig ⟨S1x128, .f32⟩) (.of main_call4_v4 : StableHlo.TRef sig ⟨S100000x128, .f32⟩) (broadcastInDim S100000x128 ![0, 1] bcast_S1x128_S100000x128_0_1),
    StableHlo.TRef.binary (.of main_v111 : StableHlo.TRef sig ⟨S100000x128, .f32⟩) (.of main_call4_v4 : StableHlo.TRef sig ⟨S100000x128, .f32⟩) (.of main_call4_v5 : StableHlo.TRef sig ⟨S100000x128, .f32⟩) subf,
    StableHlo.TRef.binary (.of main_call4_v5 : StableHlo.TRef sig ⟨S100000x128, .f32⟩) (.of main_call4_v5 : StableHlo.TRef sig ⟨S100000x128, .f32⟩) (.of main_call4_v6 : StableHlo.TRef sig ⟨S100000x128, .f32⟩) mulf,
    StableHlo.TRef.unary (.of main_c_20 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47C35000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S100000x128, .f32⟩) (.of main_call4_cst_2 : StableHlo.TRef sig ⟨S_, .f32⟩) (.of main_call4_v9 : StableHlo.TRef sig ⟨S128, .f32⟩) (fun x v => Host.reduceAdd x v reducesTo_S100000x128_S128_d0 h_S_),
    StableHlo.TRef.unary (.of main_call4_v8 : StableHlo.TRef sig ⟨S_, .f32⟩) (.of main_call4_v10 : StableHlo.TRef sig ⟨S128, .f32⟩) (broadcastInDim S128 ![] bcast_S_S128),
    StableHlo.TRef.binary (.of main_call4_v9 : StableHlo.TRef sig ⟨S128, .f32⟩) (.of main_call4_v10 : StableHlo.TRef sig ⟨S128, .f32⟩) (.of main_call4_v11 : StableHlo.TRef sig ⟨S128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S128, .f32⟩) (broadcastInDim S128 ![] bcast_S_S128),
    StableHlo.TRef.ternary (.of main_call4_v12 : StableHlo.TRef sig ⟨S_, .i1⟩) (.of main_call4_v11 : StableHlo.TRef sig ⟨S128, .f32⟩) (.of main_call4_call0_v1 : StableHlo.TRef sig ⟨S128, .f32⟩) (.of main_v119 : StableHlo.TRef sig ⟨S128, .f32⟩) (fun p a b => select (broadcastInDim S128 ![] bcast_S_S128 p) a b) ]
/-- The buffers they write. -/
abbrev sV2_W : List (Ref sig .tc) := [main_c_20, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v119]
theorem sV2_writes : (sV2 : List (HloOp τ sig (Elt F))).Forall fun op => op.writes ⊆ (sV2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 210 … 228 of the list (19). -/
abbrev sB2 : List (HloOp τ sig (Elt F)) :=
  [ StableHlo.unary main_v118 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S100000x128 ![0, 1] bcast_S1x128_S100000x128_0_1 : (⟨S1x128, .f32⟩ : BufTy).Contents (Elt F) → (⟨S100000x128, .f32⟩ : BufTy).Contents (Elt F)),
    StableHlo.binary main_v111 main_v121 main_v122 (subf : (⟨S100000x128, .f32⟩ : BufTy).Contents (Elt F) → (⟨S100000x128, .f32⟩ : BufTy).Contents (Elt F) → (⟨S100000x128, .f32⟩ : BufTy).Contents (Elt F)),
    StableHlo.unary main_v113 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S100000x128 ![0, 1] bcast_S1x128_S100000x128_0_1 : (⟨S1x128, .f32⟩ : BufTy).Contents (Elt F) → (⟨S100000x128, .f32⟩ : BufTy).Contents (Elt F)),
    StableHlo.binary main_v124 main_v122 main_v125 (mulf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x3727C5AC#32),
    StableHlo.unary main_cst_21 main_v126 (broadcastInDim S128 ![] bcast_S_S128 : (⟨S_, .f32⟩ : BufTy).Contents (Elt F) → (⟨S128, .f32⟩ : BufTy).Contents (Elt F)),
    StableHlo.binary main_v119 main_v126 main_v127 (addf : (⟨S128, .f32⟩ : BufTy).Contents (Elt F) → (⟨S128, .f32⟩ : BufTy).Contents (Elt F) → (⟨S128, .f32⟩ : BufTy).Contents (Elt F)),
    StableHlo.unary main_v127 main_v128 (Host.rsqrt : (⟨S128, .f32⟩ : BufTy).Contents (Elt F) → (⟨S128, .f32⟩ : BufTy).Contents (Elt F)),
    StableHlo.unary main_v128 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S100000x128 ![0, 1] bcast_S1x128_S100000x128_0_1 : (⟨S1x128, .f32⟩ : BufTy).Contents (Elt F) → (⟨S100000x128, .f32⟩ : BufTy).Contents (Elt F)),
    StableHlo.binary main_v125 main_v130 main_v131 (mulf : (⟨S100000x128, .f32⟩ : BufTy).Contents (Elt F) → (⟨S100000x128, .f32⟩ : BufTy).Contents (Elt F) → (⟨S100000x128, .f32⟩ : BufTy).Contents (Elt F)),
    StableHlo.unary main_v115 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S100000x128 ![0, 1] bcast_S1x128_S100000x128_0_1 : (⟨S1x128, .f32⟩ : BufTy).Contents (Elt F) → (⟨S100000x128, .f32⟩ : BufTy).Contents (Elt F)),
    StableHlo.binary main_v131 main_v133 main_v134 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S100000x128, .f32⟩) (broadcastInDim S100000x128 ![] bcast_S_S100000x128),
    StableHlo.TRef.binary (.of main_v134 : StableHlo.TRef sig ⟨S100000x128, .f32⟩) (.of main_call5_v0 : StableHlo.TRef sig ⟨S100000x128, .f32⟩) (.of main_v135 : StableHlo.TRef sig ⟨S100000x128, .f32⟩) maximumf ]
/-- The buffers they write. -/
abbrev sB2_W : List (Ref sig .tc) := [main_v120, main_v121, main_v122, main_v123, main_v124, main_v125, main_cst_21, main_v126, main_v127, main_v128, main_v129, main_v130, main_v131, main_v132, main_v133, main_v134, main_call5_cst, main_call5_v0, main_v135]
theorem sB2_writes : (sB2 : List (HloOp τ sig (Elt F))).Forall fun op => op.writes ⊆ (sB2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 229 … 234 of the list (6). -/
abbrev sW2 : List (HloOp τ sig (Elt F)) :=
  [ StableHlo.unary main_arg5 main_v136 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v136 main_v137 rfl shapeCasts_S1x128x128_S128x128,
    StableHlo.unary main_arg6 main_v138 ((extractStridedSlice S1x128 ![2, 0] · slices_S4x128_S1x128_2_0) : (⟨S4x128, .f32⟩ : BufTy).Contents (Elt F) → (⟨S1x128, .f32⟩ : BufTy).Contents (Elt F)),
    StableHlo.reshape main_v138 main_v139 rfl shapeCasts_S1x128_S128,
    StableHlo.unary main_arg7 main_v140 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v140 main_v141 rfl shapeCasts_S1x128x128_S128x128 ]
/-- The buffers they write. -/
abbrev sW2_W : List (Ref sig .tc) := [main_v136, main_v137, main_v138, main_v139, main_v140, main_v141]
theorem sW2_writes : (sW2 : List (HloOp τ sig (Elt F))).Forall fun op => op.writes ⊆ (sW2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 235 … 258 of the list (24). -/
abbrev sG2 : List (HloOp τ sig (Elt F)) :=
  [ StableHlo.nullary main_c_22 (constantI S_ 32 0#32),
    StableHlo.unary main_c_22 main_v142 (broadcastInDim S1600000 ![] bcast_S_S1600000 : (⟨S_, .i32⟩ : BufTy).Contents (Elt F) → (⟨S1600000, .i32⟩ : BufTy).Contents (Elt F)),
    StableHlo.binary main_v1 main_v142 main_v143 (cmpi .slt : (⟨S1600000, .i32⟩ : BufTy).Contents (Elt F) → (⟨S1600000, .i32⟩ : BufTy).Contents (Elt F) → (⟨S1600000, .i1⟩ : BufTy).Contents (Elt F)),
    StableHlo.nullary main_c_23 (constantI S_ 32 100000#32),
    StableHlo.unary main_c_23 main_v144 (broadcastInDim S1600000 ![] bcast_S_S1600000 : (⟨S_, .i32⟩ : BufTy).Contents (Elt F) → (⟨S1600000, .i32⟩ : BufTy).Contents (Elt F)),
    StableHlo.binary main_v1 main_v144 main_v145 (addi : (⟨S1600000, .i32⟩ : BufTy).Contents (Elt F) → (⟨S1600000, .i32⟩ : BufTy).Contents (Elt F) → (⟨S1600000, .i32⟩ : BufTy).Contents (Elt F)),
    StableHlo.ternary main_v143 main_v145 main_v1 main_v146 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v146 main_v147 (broadcastInDim S1600000x1 ![0] bcast_S1600000_S1600000x1_0 : (⟨S1600000, .i32⟩ : BufTy).Contents (Elt F) → (⟨S1600000x1, .i32⟩ : BufTy).Contents (Elt F)),
    StableHlo.binary main_v135 main_v147 main_v148 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_24 (constant S_ .f32 0x00000000#32),
    StableHlo.unary main_cst_24 main_v149 (broadcastInDim S100000x128 ![] bcast_S_S100000x128 : (⟨S_, .f32⟩ : BufTy).Contents (Elt F) → (⟨S100000x128, .f32⟩ : BufTy).Contents (Elt F)),
    StableHlo.unary main_v3 main_v150 (broadcastInDim S1600000x1 ![0] bcast_S1600000_S1600000x1_0 : (⟨S1600000, .i32⟩ : BufTy).Contents (Elt F) → (⟨S1600000x1, .i32⟩ : BufTy).Contents (Elt F)),
    StableHlo.ternary main_v149 main_v150 main_v148 main_v151 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_25 (constant S_ .f32 0x3F800000#32),
    StableHlo.unary main_cst_25 main_v152 (broadcastInDim S1600000x1 ![] bcast_S_S1600000x1 : (⟨S_, .f32⟩ : BufTy).Contents (Elt F) → (⟨S1600000x1, .f32⟩ : BufTy).Contents (Elt F)),
    StableHlo.nullary main_cst_26 (constant S_ .f32 0x00000000#32),
    StableHlo.unary main_cst_26 main_v153 (broadcastInDim S100000x1 ![] bcast_S_S100000x1 : (⟨S_, .f32⟩ : BufTy).Contents (Elt F) → (⟨S100000x1, .f32⟩ : BufTy).Contents (Elt F)),
    StableHlo.unary main_v3 main_v154 (broadcastInDim S1600000x1 ![0] bcast_S1600000_S1600000x1_0 : (⟨S1600000, .i32⟩ : BufTy).Contents (Elt F) → (⟨S1600000x1, .i32⟩ : BufTy).Contents (Elt F)),
    StableHlo.ternary main_v153 main_v154 main_v152 main_v155 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    StableHlo.nullary main_cst_27 (constant S_ .f32 0x3F800000#32),
    StableHlo.unary main_cst_27 main_v156 (broadcastInDim S100000x1 ![] bcast_S_S100000x1 : (⟨S_, .f32⟩ : BufTy).Contents (Elt F) → (⟨S100000x1, .f32⟩ : BufTy).Contents (Elt F)),
    StableHlo.binary main_v155 main_v156 main_v157 (maximumf : (⟨S100000x1, .f32⟩ : BufTy).Contents (Elt F) → (⟨S100000x1, .f32⟩ : BufTy).Contents (Elt F) → (⟨S100000x1, .f32⟩ : BufTy).Contents (Elt F)),
    StableHlo.unary main_v157 main_v158 (broadcastInDim S100000x128 ![0, 1] bcast_S100000x1_S100000x128_0_1 : (⟨S100000x1, .f32⟩ : BufTy).Contents (Elt F) → (⟨S100000x128, .f32⟩ : BufTy).Contents (Elt F)),
    StableHlo.binary main_v151 main_v158 main_v159 (Host.divf : (⟨S100000x128, .f32⟩ : BufTy).Contents (Elt F) → (⟨S100000x128, .f32⟩ : BufTy).Contents (Elt F) → (⟨S100000x128, .f32⟩ : BufTy).Contents (Elt F)) ]
/-- The buffers they write. -/
abbrev sG2_W : List (Ref sig .tc) := [main_c_22, main_v142, main_v143, main_c_23, main_v144, main_v145, main_v146, main_v147, main_v148, main_cst_24, main_v149, main_v150, main_v151, main_cst_25, main_v152, main_cst_26, main_v153, main_v154, main_v155, main_cst_27, main_v156, main_v157, main_v158, main_v159]
theorem sG2_writes : (sG2 : List (HloOp τ sig (Elt F))).Forall fun op => op.writes ⊆ (sG2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 259 … 264 of the list (6). -/
abbrev sS2 : List (HloOp τ sig (Elt F)) :=
  [ StableHlo.binary main_v159 main_v137 main_v160 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v139 main_v161 (broadcastInDim S1x128 ![1] bcast_S128_S1x128_1 : (⟨S128, .f32⟩ : BufTy).Contents (Elt F) → (⟨S1x128, .f32⟩ : BufTy).Contents (Elt F)),
    StableHlo.unary main_v161 main_v162 (broadcastInDim S100000x128 ![0, 1] bcast_S1x128_S100000x128_0_1 : (⟨S1x128, .f32⟩ : BufTy).Contents (Elt F) → (⟨S100000x128, .f32⟩ : BufTy).Contents (Elt F)),
    StableHlo.binary main_v160 main_v162 main_v163 (addf : (⟨S100000x128, .f32⟩ : BufTy).Contents (Elt F) → (⟨S100000x128, .f32⟩ : BufTy).Contents (Elt F) → (⟨S100000x128, .f32⟩ : BufTy).Contents (Elt F)),
    StableHlo.binary main_v135 main_v141 main_v164 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v163 main_v164 main_v165 (addf : (⟨S100000x128, .f32⟩ : BufTy).Contents (Elt F) → (⟨S100000x128, .f32⟩ : BufTy).Contents (Elt F) → (⟨S100000x128, .f32⟩ : BufTy).Contents (Elt F)) ]
/-- The buffers they write. -/
abbrev sS2_W : List (Ref sig .tc) := [main_v160, main_v161, main_v162, main_v163, main_v164, main_v165]
theorem sS2_writes : (sS2 : List (HloOp τ sig (Elt F))).Forall fun op => op.writes ⊆ (sS2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 265 … 268 of the list (4). -/
abbrev sR2 : List (HloOp τ sig (Elt F)) :=
  [ StableHlo.unary main_arg8 main_v166 ((extractStridedSlice S1x128 ![2, 0] · slices_S4x128_S1x128_2_0) : (⟨S4x128, .f32⟩ : BufTy).Contents (Elt F) → (⟨S1x128, .f32⟩ : BufTy).Contents (Elt F)),
    StableHlo.reshape main_v166 main_v167 rfl shapeCasts_S1x128_S128,
    StableHlo.unary main_arg9 main_v168 ((extractStridedSlice S1x128 ![2, 0] · slices_S4x128_S1x128_2_0) : (⟨S4x128, .f32⟩ : BufTy).Contents (Elt F) → (⟨S1x128, .f32⟩ : BufTy).Contents (Elt F)),
    StableHlo.reshape main_v168 main_v169 rfl shapeCasts_S1x128_S128 ]
/-- The buffers they write. -/
abbrev sR2_W : List (Ref sig .tc) := [main_v166, main_v167, main_v168, main_v169]
theorem sR2_writes : (sR2 : List (HloOp τ sig (Elt F))).Forall fun op => op.writes ⊆ (sR2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 269 … 273 of the list (5). -/
abbrev sM3 : List (HloOp τ sig (Elt F)) :=
  [ StableHlo.nullary main_cst_28 (constant S_ .f32 0x00000000#32),
    StableHlo.binary main_v165 main_cst_28 main_v170 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_29 (constant S_ .f32 0x47C35000#32),
    StableHlo.unary main_cst_29 main_v171 (broadcastInDim S128 ![] bcast_S_S128 : (⟨S_, .f32⟩ : BufTy).Contents (Elt F) → (⟨S128, .f32⟩ : BufTy).Contents (Elt F)),
    StableHlo.binary main_v170 main_v171 main_v172 (Host.divf : (⟨S128, .f32⟩ : BufTy).Contents (Elt F) → (⟨S128, .f32⟩ : BufTy).Contents (Elt F) → (⟨S128, .f32⟩ : BufTy).Contents (Elt F)) ]
/-- The buffers they write. -/
abbrev sM3_W : List (Ref sig .tc) := [main_cst_28, main_v170, main_cst_29, main_v171, main_v172]
theorem sM3_writes : (sM3 : List (HloOp τ sig (Elt F))).Forall fun op => op.writes ⊆ (sM3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 274 … 296 of the list (23). -/
abbrev sV3 : List (HloOp τ sig (Elt F)) :=
  [ StableHlo.nullary main_c_30 (constantI S_ 32 0#32),
    StableHlo.TRef.nullary (.of main_call6_cst : StableHlo.TRef sig ⟨S_, .f32⟩) (constant S_ .f32 0x00000000#32),
    StableHlo.TRef.binary (.of main_v165 : StableHlo.TRef sig ⟨S100000x128, .f32⟩) (.of main_call6_cst : StableHlo.TRef sig ⟨S_, .f32⟩) (.of main_call6_v0 : StableHlo.TRef sig ⟨S128, .f32⟩) (fun x v => Host.reduceAdd x v reducesTo_S100000x128_S128_d0 h_S_),
    StableHlo.TRef.unary (.of main_call6_v0 : StableHlo.TRef sig ⟨S128, .f32⟩) (.of main_call6_v1 : StableHlo.TRef sig ⟨S1x128, .f32⟩) (broadcastInDim S1x128 ![1] bcast_S128_S1x128_1),
    StableHlo.TRef.nullary (.of main_call6_cst_0 : StableHlo.TRef sig ⟨S_, .f32⟩) (constant S_ .f32 0x47C35000#32),
    StableHlo.TRef.unary (.of main_call6_cst_0 : StableHlo.TRef sig ⟨S_, .f32⟩) (.of main_call6_v2 : StableHlo.TRef sig ⟨S1x128, .f32⟩) (broadcastInDim S1x128 ![] bcast_S_S1x128),
    StableHlo.TRef.binary (.of main_call6_v1 : StableHlo.TRef sig ⟨S1x128, .f32⟩) (.of main_call6_v2 : StableHlo.TRef sig ⟨S1x128, .f32⟩) (.of main_call6_v3 : StableHlo.TRef sig ⟨S1x128, .f32⟩) Host.divf,
    StableHlo.TRef.unary (.of main_call6_v3 : StableHlo.TRef sig ⟨S1x128, .f32⟩) (.of main_call6_v4 : StableHlo.TRef sig ⟨S100000x128, .f32⟩) (broadcastInDim S100000x128 ![0, 1] bcast_S1x128_S100000x128_0_1),
    StableHlo.TRef.binary (.of main_v165 : StableHlo.TRef sig ⟨S100000x128, .f32⟩) (.of main_call6_v4 : StableHlo.TRef sig ⟨S100000x128, .f32⟩) (.of main_call6_v5 : StableHlo.TRef sig ⟨S100000x128, .f32⟩) subf,
    StableHlo.TRef.binary (.of main_call6_v5 : StableHlo.TRef sig ⟨S100000x128, .f32⟩) (.of main_call6_v5 : StableHlo.TRef sig ⟨S100000x128, .f32⟩) (.of main_call6_v6 : StableHlo.TRef sig ⟨S100000x128, .f32⟩) mulf,
    StableHlo.TRef.unary (.of main_c_30 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x47C35000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S100000x128, .f32⟩) (.of main_call6_cst_2 : StableHlo.TRef sig ⟨S_, .f32⟩) (.of main_call6_v9 : StableHlo.TRef sig ⟨S128, .f32⟩) (fun x v => Host.reduceAdd x v reducesTo_S100000x128_S128_d0 h_S_),
    StableHlo.TRef.unary (.of main_call6_v8 : StableHlo.TRef sig ⟨S_, .f32⟩) (.of main_call6_v10 : StableHlo.TRef sig ⟨S128, .f32⟩) (broadcastInDim S128 ![] bcast_S_S128),
    StableHlo.TRef.binary (.of main_call6_v9 : StableHlo.TRef sig ⟨S128, .f32⟩) (.of main_call6_v10 : StableHlo.TRef sig ⟨S128, .f32⟩) (.of main_call6_v11 : StableHlo.TRef sig ⟨S128, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S128, .f32⟩) (broadcastInDim S128 ![] bcast_S_S128),
    StableHlo.TRef.ternary (.of main_call6_v12 : StableHlo.TRef sig ⟨S_, .i1⟩) (.of main_call6_v11 : StableHlo.TRef sig ⟨S128, .f32⟩) (.of main_call6_call0_v1 : StableHlo.TRef sig ⟨S128, .f32⟩) (.of main_v173 : StableHlo.TRef sig ⟨S128, .f32⟩) (fun p a b => select (broadcastInDim S128 ![] bcast_S_S128 p) a b) ]
/-- The buffers they write. -/
abbrev sV3_W : List (Ref sig .tc) := [main_c_30, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v173]
theorem sV3_writes : (sV3 : List (HloOp τ sig (Elt F))).Forall fun op => op.writes ⊆ (sV3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 297 … 315 of the list (19). -/
abbrev sB3 : List (HloOp τ sig (Elt F)) :=
  [ StableHlo.unary main_v172 main_v174 (broadcastInDim S1x128 ![1] bcast_S128_S1x128_1 : (⟨S128, .f32⟩ : BufTy).Contents (Elt F) → (⟨S1x128, .f32⟩ : BufTy).Contents (Elt F)),
    StableHlo.unary main_v174 main_v175 (broadcastInDim S100000x128 ![0, 1] bcast_S1x128_S100000x128_0_1 : (⟨S1x128, .f32⟩ : BufTy).Contents (Elt F) → (⟨S100000x128, .f32⟩ : BufTy).Contents (Elt F)),
    StableHlo.binary main_v165 main_v175 main_v176 (subf : (⟨S100000x128, .f32⟩ : BufTy).Contents (Elt F) → (⟨S100000x128, .f32⟩ : BufTy).Contents (Elt F) → (⟨S100000x128, .f32⟩ : BufTy).Contents (Elt F)),
    StableHlo.unary main_v167 main_v177 (broadcastInDim S1x128 ![1] bcast_S128_S1x128_1 : (⟨S128, .f32⟩ : BufTy).Contents (Elt F) → (⟨S1x128, .f32⟩ : BufTy).Contents (Elt F)),
    StableHlo.unary main_v177 main_v178 (broadcastInDim S100000x128 ![0, 1] bcast_S1x128_S100000x128_0_1 : (⟨S1x128, .f32⟩ : BufTy).Contents (Elt F) → (⟨S100000x128, .f32⟩ : BufTy).Contents (Elt F)),
    StableHlo.binary main_v178 main_v176 main_v179 (mulf : (⟨S100000x128, .f32⟩ : BufTy).Contents (Elt F) → (⟨S100000x128, .f32⟩ : BufTy).Contents (Elt F) → (⟨S100000x128, .f32⟩ : BufTy).Contents (Elt F)),
    StableHlo.nullary main_cst_31 (constant S_ .f32 0x3727C5AC#32),
    StableHlo.unary main_cst_31 main_v180 (broadcastInDim S128 ![] bcast_S_S128 : (⟨S_, .f32⟩ : BufTy).Contents (Elt F) → (⟨S128, .f32⟩ : BufTy).Contents (Elt F)),
    StableHlo.binary main_v173 main_v180 main_v181 (addf : (⟨S128, .f32⟩ : BufTy).Contents (Elt F) → (⟨S128, .f32⟩ : BufTy).Contents (Elt F) → (⟨S128, .f32⟩ : BufTy).Contents (Elt F)),
    StableHlo.unary main_v181 main_v182 (Host.rsqrt : (⟨S128, .f32⟩ : BufTy).Contents (Elt F) → (⟨S128, .f32⟩ : BufTy).Contents (Elt F)),
    StableHlo.unary main_v182 main_v183 (broadcastInDim S1x128 ![1] bcast_S128_S1x128_1 : (⟨S128, .f32⟩ : BufTy).Contents (Elt F) → (⟨S1x128, .f32⟩ : BufTy).Contents (Elt F)),
    StableHlo.unary main_v183 main_v184 (broadcastInDim S100000x128 ![0, 1] bcast_S1x128_S100000x128_0_1 : (⟨S1x128, .f32⟩ : BufTy).Contents (Elt F) → (⟨S100000x128, .f32⟩ : BufTy).Contents (Elt F)),
    StableHlo.binary main_v179 main_v184 main_v185 (mulf : (⟨S100000x128, .f32⟩ : BufTy).Contents (Elt F) → (⟨S100000x128, .f32⟩ : BufTy).Contents (Elt F) → (⟨S100000x128, .f32⟩ : BufTy).Contents (Elt F)),
    StableHlo.unary main_v169 main_v186 (broadcastInDim S1x128 ![1] bcast_S128_S1x128_1 : (⟨S128, .f32⟩ : BufTy).Contents (Elt F) → (⟨S1x128, .f32⟩ : BufTy).Contents (Elt F)),
    StableHlo.unary main_v186 main_v187 (broadcastInDim S100000x128 ![0, 1] bcast_S1x128_S100000x128_0_1 : (⟨S1x128, .f32⟩ : BufTy).Contents (Elt F) → (⟨S100000x128, .f32⟩ : BufTy).Contents (Elt F)),
    StableHlo.binary main_v185 main_v187 main_v188 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S100000x128, .f32⟩) (broadcastInDim S100000x128 ![] bcast_S_S100000x128),
    StableHlo.TRef.binary (.of main_v188 : StableHlo.TRef sig ⟨S100000x128, .f32⟩) (.of main_call7_v0 : StableHlo.TRef sig ⟨S100000x128, .f32⟩) (.of main_v189 : StableHlo.TRef sig ⟨S100000x128, .f32⟩) maximumf ]
/-- The buffers they write. -/
abbrev sB3_W : List (Ref sig .tc) := [main_v174, main_v175, main_v176, main_v177, main_v178, main_v179, main_cst_31, main_v180, main_v181, main_v182, main_v183, main_v184, main_v185, main_v186, main_v187, main_v188, main_call7_cst, main_call7_v0, main_v189]
theorem sB3_writes : (sB3 : List (HloOp τ sig (Elt F))).Forall fun op => op.writes ⊆ (sB3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 316 … 321 of the list (6). -/
abbrev sW3 : List (HloOp τ sig (Elt F)) :=
  [ StableHlo.unary main_arg5 main_v190 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v190 main_v191 rfl shapeCasts_S1x128x128_S128x128,
    StableHlo.unary main_arg6 main_v192 ((extractStridedSlice S1x128 ![3, 0] · slices_S4x128_S1x128_3_0) : (⟨S4x128, .f32⟩ : BufTy).Contents (Elt F) → (⟨S1x128, .f32⟩ : BufTy).Contents (Elt F)),
    StableHlo.reshape main_v192 main_v193 rfl shapeCasts_S1x128_S128,
    StableHlo.unary main_arg7 main_v194 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v194 main_v195 rfl shapeCasts_S1x128x128_S128x128 ]
/-- The buffers they write. -/
abbrev sW3_W : List (Ref sig .tc) := [main_v190, main_v191, main_v192, main_v193, main_v194, main_v195]
theorem sW3_writes : (sW3 : List (HloOp τ sig (Elt F))).Forall fun op => op.writes ⊆ (sW3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 322 … 345 of the list (24). -/
abbrev sG3 : List (HloOp τ sig (Elt F)) :=
  [ StableHlo.nullary main_c_32 (constantI S_ 32 0#32),
    StableHlo.unary main_c_32 main_v196 (broadcastInDim S1600000 ![] bcast_S_S1600000 : (⟨S_, .i32⟩ : BufTy).Contents (Elt F) → (⟨S1600000, .i32⟩ : BufTy).Contents (Elt F)),
    StableHlo.binary main_v1 main_v196 main_v197 (cmpi .slt : (⟨S1600000, .i32⟩ : BufTy).Contents (Elt F) → (⟨S1600000, .i32⟩ : BufTy).Contents (Elt F) → (⟨S1600000, .i1⟩ : BufTy).Contents (Elt F)),
    StableHlo.nullary main_c_33 (constantI S_ 32 100000#32),
    StableHlo.unary main_c_33 main_v198 (broadcastInDim S1600000 ![] bcast_S_S1600000 : (⟨S_, .i32⟩ : BufTy).Contents (Elt F) → (⟨S1600000, .i32⟩ : BufTy).Contents (Elt F)),
    StableHlo.binary main_v1 main_v198 main_v199 (addi : (⟨S1600000, .i32⟩ : BufTy).Contents (Elt F) → (⟨S1600000, .i32⟩ : BufTy).Contents (Elt F) → (⟨S1600000, .i32⟩ : BufTy).Contents (Elt F)),
    StableHlo.ternary main_v197 main_v199 main_v1 main_v200 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v200 main_v201 (broadcastInDim S1600000x1 ![0] bcast_S1600000_S1600000x1_0 : (⟨S1600000, .i32⟩ : BufTy).Contents (Elt F) → (⟨S1600000x1, .i32⟩ : BufTy).Contents (Elt F)),
    StableHlo.binary main_v189 main_v201 main_v202 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_34 (constant S_ .f32 0x00000000#32),
    StableHlo.unary main_cst_34 main_v203 (broadcastInDim S100000x128 ![] bcast_S_S100000x128 : (⟨S_, .f32⟩ : BufTy).Contents (Elt F) → (⟨S100000x128, .f32⟩ : BufTy).Contents (Elt F)),
    StableHlo.unary main_v3 main_v204 (broadcastInDim S1600000x1 ![0] bcast_S1600000_S1600000x1_0 : (⟨S1600000, .i32⟩ : BufTy).Contents (Elt F) → (⟨S1600000x1, .i32⟩ : BufTy).Contents (Elt F)),
    StableHlo.ternary main_v203 main_v204 main_v202 main_v205 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_35 (constant S_ .f32 0x3F800000#32),
    StableHlo.unary main_cst_35 main_v206 (broadcastInDim S1600000x1 ![] bcast_S_S1600000x1 : (⟨S_, .f32⟩ : BufTy).Contents (Elt F) → (⟨S1600000x1, .f32⟩ : BufTy).Contents (Elt F)),
    StableHlo.nullary main_cst_36 (constant S_ .f32 0x00000000#32),
    StableHlo.unary main_cst_36 main_v207 (broadcastInDim S100000x1 ![] bcast_S_S100000x1 : (⟨S_, .f32⟩ : BufTy).Contents (Elt F) → (⟨S100000x1, .f32⟩ : BufTy).Contents (Elt F)),
    StableHlo.unary main_v3 main_v208 (broadcastInDim S1600000x1 ![0] bcast_S1600000_S1600000x1_0 : (⟨S1600000, .i32⟩ : BufTy).Contents (Elt F) → (⟨S1600000x1, .i32⟩ : BufTy).Contents (Elt F)),
    StableHlo.ternary main_v207 main_v208 main_v206 main_v209 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    StableHlo.nullary main_cst_37 (constant S_ .f32 0x3F800000#32),
    StableHlo.unary main_cst_37 main_v210 (broadcastInDim S100000x1 ![] bcast_S_S100000x1 : (⟨S_, .f32⟩ : BufTy).Contents (Elt F) → (⟨S100000x1, .f32⟩ : BufTy).Contents (Elt F)),
    StableHlo.binary main_v209 main_v210 main_v211 (maximumf : (⟨S100000x1, .f32⟩ : BufTy).Contents (Elt F) → (⟨S100000x1, .f32⟩ : BufTy).Contents (Elt F) → (⟨S100000x1, .f32⟩ : BufTy).Contents (Elt F)),
    StableHlo.unary main_v211 main_v212 (broadcastInDim S100000x128 ![0, 1] bcast_S100000x1_S100000x128_0_1 : (⟨S100000x1, .f32⟩ : BufTy).Contents (Elt F) → (⟨S100000x128, .f32⟩ : BufTy).Contents (Elt F)),
    StableHlo.binary main_v205 main_v212 main_v213 (Host.divf : (⟨S100000x128, .f32⟩ : BufTy).Contents (Elt F) → (⟨S100000x128, .f32⟩ : BufTy).Contents (Elt F) → (⟨S100000x128, .f32⟩ : BufTy).Contents (Elt F)) ]
/-- The buffers they write. -/
abbrev sG3_W : List (Ref sig .tc) := [main_c_32, main_v196, main_v197, main_c_33, main_v198, main_v199, main_v200, main_v201, main_v202, main_cst_34, main_v203, main_v204, main_v205, main_cst_35, main_v206, main_cst_36, main_v207, main_v208, main_v209, main_cst_37, main_v210, main_v211, main_v212, main_v213]
theorem sG3_writes : (sG3 : List (HloOp τ sig (Elt F))).Forall fun op => op.writes ⊆ (sG3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 346 … 351 of the list (6). -/
abbrev sS3 : List (HloOp τ sig (Elt F)) :=
  [ StableHlo.binary main_v213 main_v191 main_v214 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v193 main_v215 (broadcastInDim S1x128 ![1] bcast_S128_S1x128_1 : (⟨S128, .f32⟩ : BufTy).Contents (Elt F) → (⟨S1x128, .f32⟩ : BufTy).Contents (Elt F)),
    StableHlo.unary main_v215 main_v216 (broadcastInDim S100000x128 ![0, 1] bcast_S1x128_S100000x128_0_1 : (⟨S1x128, .f32⟩ : BufTy).Contents (Elt F) → (⟨S100000x128, .f32⟩ : BufTy).Contents (Elt F)),
    StableHlo.binary main_v214 main_v216 main_v217 (addf : (⟨S100000x128, .f32⟩ : BufTy).Contents (Elt F) → (⟨S100000x128, .f32⟩ : BufTy).Contents (Elt F) → (⟨S100000x128, .f32⟩ : BufTy).Contents (Elt F)),
    StableHlo.binary main_v189 main_v195 main_v218 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v217 main_v218 main_v219 (addf : (⟨S100000x128, .f32⟩ : BufTy).Contents (Elt F) → (⟨S100000x128, .f32⟩ : BufTy).Contents (Elt F) → (⟨S100000x128, .f32⟩ : BufTy).Contents (Elt F)) ]
/-- The buffers they write. -/
abbrev sS3_W : List (Ref sig .tc) := [main_v214, main_v215, main_v216, main_v217, main_v218, main_v219]
theorem sS3_writes : (sS3 : List (HloOp τ sig (Elt F))).Forall fun op => op.writes ⊆ (sS3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 352 … 355 of the list (4). -/
abbrev sO : List (HloOp τ sig (Elt F)) :=
  [ StableHlo.binary main_v219 main_arg10 main_v220 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.unary main_arg11 main_v221 (broadcastInDim S1x40 ![1] bcast_S40_S1x40_1 : (⟨S40, .f32⟩ : BufTy).Contents (Elt F) → (⟨S1x40, .f32⟩ : BufTy).Contents (Elt F)),
    StableHlo.unary main_v221 main_v222 (broadcastInDim S100000x40 ![0, 1] bcast_S1x40_S100000x40_0_1 : (⟨S1x40, .f32⟩ : BufTy).Contents (Elt F) → (⟨S100000x40, .f32⟩ : BufTy).Contents (Elt F)),
    StableHlo.binary main_v220 main_v222 main_v223 (addf : (⟨S100000x40, .f32⟩ : BufTy).Contents (Elt F) → (⟨S100000x40, .f32⟩ : BufTy).Contents (Elt F) → (⟨S100000x40, .f32⟩ : BufTy).Contents (Elt F)) ]
/-- The buffers they write. -/
abbrev sO_W : List (Ref sig .tc) := [main_v220, main_v221, main_v222, main_v223]
theorem sO_writes : (sO : List (HloOp τ sig (Elt F))).Forall fun op => op.writes ⊆ (sO_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-! ## The tails -/

/-- The list from operation 352 on. -/
abbrev tO : List (HloOp τ sig (Elt F)) := sO
abbrev tO_W : List (Ref sig .tc) := sO_W
theorem tO_writes : (tO : List (HloOp τ sig (Elt F))).Forall fun op => op.writes ⊆ (tO_W.map (Proc.devRef (τ := τ) .tc)).toFinset :=
  sO_writes

/-- The list from operation 346 on. -/
abbrev tS3 : List (HloOp τ sig (Elt F)) := sS3 ++ tO
abbrev tS3_W : List (Ref sig .tc) := sS3_W ++ tO_W
theorem tS3_writes : (tS3 : List (HloOp τ sig (Elt F))).Forall fun op => op.writes ⊆ (tS3_W.map (Proc.devRef (τ := τ) .tc)).toFinset :=
  writes_append sS3_writes tO_writes

/-- The list from operation 322 on. -/
abbrev tG3 : List (HloOp τ sig (Elt F)) := sG3 ++ tS3
abbrev tG3_W : List (Ref sig .tc) := sG3_W ++ tS3_W
theorem tG3_writes : (tG3 : List (HloOp τ sig (Elt F))).Forall fun op => op.writes ⊆ (tG3_W.map (Proc.devRef (τ := τ) .tc)).toFinset :=
  writes_append sG3_writes tS3_writes

/-- The list from operation 316 on. -/
abbrev tW3 : List (HloOp τ sig (Elt F)) := sW3 ++ tG3
abbrev tW3_W : List (Ref sig .tc) := sW3_W ++ tG3_W
theorem tW3_writes : (tW3 : List (HloOp τ sig (Elt F))).Forall fun op => op.writes ⊆ (tW3_W.map (Proc.devRef (τ := τ) .tc)).toFinset :=
  writes_append sW3_writes tG3_writes

/-- The list from operation 297 on. -/
abbrev tB3 : List (HloOp τ sig (Elt F)) := sB3 ++ tW3
abbrev tB3_W : List (Ref sig .tc) := sB3_W ++ tW3_W
theorem tB3_writes : (tB3 : List (HloOp τ sig (Elt F))).Forall fun op => op.writes ⊆ (tB3_W.map (Proc.devRef (τ := τ) .tc)).toFinset :=
  writes_append sB3_writes tW3_writes

/-- The list from operation 274 on. -/
abbrev tV3 : List (HloOp τ sig (Elt F)) := sV3 ++ tB3
abbrev tV3_W : List (Ref sig .tc) := sV3_W ++ tB3_W
theorem tV3_writes : (tV3 : List (HloOp τ sig (Elt F))).Forall fun op => op.writes ⊆ (tV3_W.map (Proc.devRef (τ := τ) .tc)).toFinset :=
  writes_append sV3_writes tB3_writes

/-- The list from operation 269 on. -/
abbrev tM3 : List (HloOp τ sig (Elt F)) := sM3 ++ tV3
abbrev tM3_W : List (Ref sig .tc) := sM3_W ++ tV3_W
theorem tM3_writes : (tM3 : List (HloOp τ sig (Elt F))).Forall fun op => op.writes ⊆ (tM3_W.map (Proc.devRef (τ := τ) .tc)).toFinset :=
  writes_append sM3_writes tV3_writes

/-- The list from operation 265 on. -/
abbrev tR2 : List (HloOp τ sig (Elt F)) := sR2 ++ tM3
abbrev tR2_W : List (Ref sig .tc) := sR2_W ++ tM3_W
theorem tR2_writes : (tR2 : List (HloOp τ sig (Elt F))).Forall fun op => op.writes ⊆ (tR2_W.map (Proc.devRef (τ := τ) .tc)).toFinset :=
  writes_append sR2_writes tM3_writes

/-- The list from operation 259 on. -/
abbrev tS2 : List (HloOp τ sig (Elt F)) := sS2 ++ tR2
abbrev tS2_W : List (Ref sig .tc) := sS2_W ++ tR2_W
theorem tS2_writes : (tS2 : List (HloOp τ sig (Elt F))).Forall fun op => op.writes ⊆ (tS2_W.map (Proc.devRef (τ := τ) .tc)).toFinset :=
  writes_append sS2_writes tR2_writes

/-- The list from operation 235 on. -/
abbrev tG2 : List (HloOp τ sig (Elt F)) := sG2 ++ tS2
abbrev tG2_W : List (Ref sig .tc) := sG2_W ++ tS2_W
theorem tG2_writes : (tG2 : List (HloOp τ sig (Elt F))).Forall fun op => op.writes ⊆ (tG2_W.map (Proc.devRef (τ := τ) .tc)).toFinset :=
  writes_append sG2_writes tS2_writes

/-- The list from operation 229 on. -/
abbrev tW2 : List (HloOp τ sig (Elt F)) := sW2 ++ tG2
abbrev tW2_W : List (Ref sig .tc) := sW2_W ++ tG2_W
theorem tW2_writes : (tW2 : List (HloOp τ sig (Elt F))).Forall fun op => op.writes ⊆ (tW2_W.map (Proc.devRef (τ := τ) .tc)).toFinset :=
  writes_append sW2_writes tG2_writes

/-- The list from operation 210 on. -/
abbrev tB2 : List (HloOp τ sig (Elt F)) := sB2 ++ tW2
abbrev tB2_W : List (Ref sig .tc) := sB2_W ++ tW2_W
theorem tB2_writes : (tB2 : List (HloOp τ sig (Elt F))).Forall fun op => op.writes ⊆ (tB2_W.map (Proc.devRef (τ := τ) .tc)).toFinset :=
  writes_append sB2_writes tW2_writes

/-- The list from operation 187 on. -/
abbrev tV2 : List (HloOp τ sig (Elt F)) := sV2 ++ tB2
abbrev tV2_W : List (Ref sig .tc) := sV2_W ++ tB2_W
theorem tV2_writes : (tV2 : List (HloOp τ sig (Elt F))).Forall fun op => op.writes ⊆ (tV2_W.map (Proc.devRef (τ := τ) .tc)).toFinset :=
  writes_append sV2_writes tB2_writes

/-- The list from operation 182 on. -/
abbrev tM2 : List (HloOp τ sig (Elt F)) := sM2 ++ tV2
abbrev tM2_W : List (Ref sig .tc) := sM2_W ++ tV2_W
theorem tM2_writes : (tM2 : List (HloOp τ sig (Elt F))).Forall fun op => op.writes ⊆ (tM2_W.map (Proc.devRef (τ := τ) .tc)).toFinset :=
  writes_append sM2_writes tV2_writes

/-- The list from operation 178 on. -/
abbrev tR1 : List (HloOp τ sig (Elt F)) := sR1 ++ tM2
abbrev tR1_W : List (Ref sig .tc) := sR1_W ++ tM2_W
theorem tR1_writes : (tR1 : List (HloOp τ sig (Elt F))).Forall fun op => op.writes ⊆ (tR1_W.map (Proc.devRef (τ := τ) .tc)).toFinset :=
  writes_append sR1_writes tM2_writes

/-- The list from operation 172 on. -/
abbrev tS1 : List (HloOp τ sig (Elt F)) := sS1 ++ tR1
abbrev tS1_W : List (Ref sig .tc) := sS1_W ++ tR1_W
theorem tS1_writes : (tS1 : List (HloOp τ sig (Elt F))).Forall fun op => op.writes ⊆ (tS1_W.map (Proc.devRef (τ := τ) .tc)).toFinset :=
  writes_append sS1_writes tR1_writes

/-- The list from operation 148 on. -/
abbrev tG1 : List (HloOp τ sig (Elt F)) := sG1 ++ tS1
abbrev tG1_W : List (Ref sig .tc) := sG1_W ++ tS1_W
theorem tG1_writes : (tG1 : List (HloOp τ sig (Elt F))).Forall fun op => op.writes ⊆ (tG1_W.map (Proc.devRef (τ := τ) .tc)).toFinset :=
  writes_append sG1_writes tS1_writes

/-- The list from operation 142 on. -/
abbrev tW1 : List (HloOp τ sig (Elt F)) := sW1 ++ tG1
abbrev tW1_W : List (Ref sig .tc) := sW1_W ++ tG1_W
theorem tW1_writes : (tW1 : List (HloOp τ sig (Elt F))).Forall fun op => op.writes ⊆ (tW1_W.map (Proc.devRef (τ := τ) .tc)).toFinset :=
  writes_append sW1_writes tG1_writes

/-- The list from operation 123 on. -/
abbrev tB1 : List (HloOp τ sig (Elt F)) := sB1 ++ tW1
abbrev tB1_W : List (Ref sig .tc) := sB1_W ++ tW1_W
theorem tB1_writes : (tB1 : List (HloOp τ sig (Elt F))).Forall fun op => op.writes ⊆ (tB1_W.map (Proc.devRef (τ := τ) .tc)).toFinset :=
  writes_append sB1_writes tW1_writes

/-- The list from operation 100 on. -/
abbrev tV1 : List (HloOp τ sig (Elt F)) := sV1 ++ tB1
abbrev tV1_W : List (Ref sig .tc) := sV1_W ++ tB1_W
theorem tV1_writes : (tV1 : List (HloOp τ sig (Elt F))).Forall fun op => op.writes ⊆ (tV1_W.map (Proc.devRef (τ := τ) .tc)).toFinset :=
  writes_append sV1_writes tB1_writes

/-- The list from operation 95 on. -/
abbrev tM1 : List (HloOp τ sig (Elt F)) := sM1 ++ tV1
abbrev tM1_W : List (Ref sig .tc) := sM1_W ++ tV1_W
theorem tM1_writes : (tM1 : List (HloOp τ sig (Elt F))).Forall fun op => op.writes ⊆ (tM1_W.map (Proc.devRef (τ := τ) .tc)).toFinset :=
  writes_append sM1_writes tV1_writes

/-- The list from operation 91 on. -/
abbrev tR0 : List (HloOp τ sig (Elt F)) := sR0 ++ tM1
abbrev tR0_W : List (Ref sig .tc) := sR0_W ++ tM1_W
theorem tR0_writes : (tR0 : List (HloOp τ sig (Elt F))).Forall fun op => op.writes ⊆ (tR0_W.map (Proc.devRef (τ := τ) .tc)).toFinset :=
  writes_append sR0_writes tM1_writes

/-- The list from operation 85 on. -/
abbrev tS0 : List (HloOp τ sig (Elt F)) := sS0 ++ tR0
abbrev tS0_W : List (Ref sig .tc) := sS0_W ++ tR0_W
theorem tS0_writes : (tS0 : List (HloOp τ sig (Elt F))).Forall fun op => op.writes ⊆ (tS0_W.map (Proc.devRef (τ := τ) .tc)).toFinset :=
  writes_append sS0_writes tR0_writes

/-- The list from operation 61 on. -/
abbrev tG0 : List (HloOp τ sig (Elt F)) := sG0 ++ tS0
abbrev tG0_W : List (Ref sig .tc) := sG0_W ++ tS0_W
theorem tG0_writes : (tG0 : List (HloOp τ sig (Elt F))).Forall fun op => op.writes ⊆ (tG0_W.map (Proc.devRef (τ := τ) .tc)).toFinset :=
  writes_append sG0_writes tS0_writes

/-- The list from operation 55 on. -/
abbrev tW0 : List (HloOp τ sig (Elt F)) := sW0 ++ tG0
abbrev tW0_W : List (Ref sig .tc) := sW0_W ++ tG0_W
theorem tW0_writes : (tW0 : List (HloOp τ sig (Elt F))).Forall fun op => op.writes ⊆ (tW0_W.map (Proc.devRef (τ := τ) .tc)).toFinset :=
  writes_append sW0_writes tG0_writes

/-- The list from operation 36 on. -/
abbrev tB0 : List (HloOp τ sig (Elt F)) := sB0 ++ tW0
abbrev tB0_W : List (Ref sig .tc) := sB0_W ++ tW0_W
theorem tB0_writes : (tB0 : List (HloOp τ sig (Elt F))).Forall fun op => op.writes ⊆ (tB0_W.map (Proc.devRef (τ := τ) .tc)).toFinset :=
  writes_append sB0_writes tW0_writes

/-- The list from operation 13 on. -/
abbrev tV0 : List (HloOp τ sig (Elt F)) := sV0 ++ tB0
abbrev tV0_W : List (Ref sig .tc) := sV0_W ++ tB0_W
theorem tV0_writes : (tV0 : List (HloOp τ sig (Elt F))).Forall fun op => op.writes ⊆ (tV0_W.map (Proc.devRef (τ := τ) .tc)).toFinset :=
  writes_append sV0_writes tB0_writes

/-- The list from operation 8 on. -/
abbrev tM0 : List (HloOp τ sig (Elt F)) := sM0 ++ tV0
abbrev tM0_W : List (Ref sig .tc) := sM0_W ++ tV0_W
theorem tM0_writes : (tM0 : List (HloOp τ sig (Elt F))).Forall fun op => op.writes ⊆ (tM0_W.map (Proc.devRef (τ := τ) .tc)).toFinset :=
  writes_append sM0_writes tV0_writes

/-- The list from operation 4 on. -/
abbrev tD : List (HloOp τ sig (Elt F)) := sD ++ tM0
abbrev tD_W : List (Ref sig .tc) := sD_W ++ tM0_W
theorem tD_writes : (tD : List (HloOp τ sig (Elt F))).Forall fun op => op.writes ⊆ (tD_W.map (Proc.devRef (τ := τ) .tc)).toFinset :=
  writes_append sD_writes tM0_writes

/-- The list from operation 0 on. -/
abbrev tE : List (HloOp τ sig (Elt F)) := sE ++ tD
abbrev tE_W : List (Ref sig .tc) := sE_W ++ tD_W
theorem tE_writes : (tE : List (HloOp τ sig (Elt F))).Forall fun op => op.writes ⊆ (tE_W.map (Proc.devRef (τ := τ) .tc)).toFinset :=
  writes_append sE_writes tD_writes

set_option maxRecDepth 65536 in
/-- The whole list is its stretches one after the other. -/
theorem ops_eq : (ops : List (HloOp τ sig (Elt F))) = tE := rfl

/-! ## The device's contents at each boundary -/

/-- The device's contents after operation 3. -/
def pE (V0 : Valuation τ sig (Elt F)) : Valuation τ sig (Elt F) := after sE V0
theorem after_ops_E (V0 : Valuation τ sig (Elt F)) : after ops V0 = after tD (pE V0) :=
  (congrArg (fun l => after l V0) ops_eq).trans (StableHlo.after_append sE tD V0)
/-- A buffer that no operation after 3 writes ends at what it holds after operation 3. -/
theorem final_E (V0 : Valuation τ sig (Elt F)) (r : Ref sig .tc) (h : r ∉ tD_W) :
    after ops V0 (Proc.devRef .tc r) = pE V0 (Proc.devRef .tc r) := by
  rw [after_ops_E]; exact after_of_writes_sub tD _ tD_writes h

/-- The device's contents after operation 7. -/
def pD (V0 : Valuation τ sig (Elt F)) : Valuation τ sig (Elt F) := after sD (pE V0)
theorem after_ops_D (V0 : Valuation τ sig (Elt F)) : after ops V0 = after tM0 (pD V0) :=
  (after_ops_E V0).trans (StableHlo.after_append sD tM0 (pE V0))
/-- A buffer that no operation after 7 writes ends at what it holds after operation 7. -/
theorem final_D (V0 : Valuation τ sig (Elt F)) (r : Ref sig .tc) (h : r ∉ tM0_W) :
    after ops V0 (Proc.devRef .tc r) = pD V0 (Proc.devRef .tc r) := by
  rw [after_ops_D]; exact after_of_writes_sub tM0 _ tM0_writes h

/-- The device's contents after operation 12. -/
def pM0 (V0 : Valuation τ sig (Elt F)) : Valuation τ sig (Elt F) := after sM0 (pD V0)
theorem after_ops_M0 (V0 : Valuation τ sig (Elt F)) : after ops V0 = after tV0 (pM0 V0) :=
  (after_ops_D V0).trans (StableHlo.after_append sM0 tV0 (pD V0))
/-- A buffer that no operation after 12 writes ends at what it holds after operation 12. -/
theorem final_M0 (V0 : Valuation τ sig (Elt F)) (r : Ref sig .tc) (h : r ∉ tV0_W) :
    after ops V0 (Proc.devRef .tc r) = pM0 V0 (Proc.devRef .tc r) := by
  rw [after_ops_M0]; exact after_of_writes_sub tV0 _ tV0_writes h

/-- The device's contents after operation 35. -/
def pV0 (V0 : Valuation τ sig (Elt F)) : Valuation τ sig (Elt F) := after sV0 (pM0 V0)
theorem after_ops_V0 (V0 : Valuation τ sig (Elt F)) : after ops V0 = after tB0 (pV0 V0) :=
  (after_ops_M0 V0).trans (StableHlo.after_append sV0 tB0 (pM0 V0))
/-- A buffer that no operation after 35 writes ends at what it holds after operation 35. -/
theorem final_V0 (V0 : Valuation τ sig (Elt F)) (r : Ref sig .tc) (h : r ∉ tB0_W) :
    after ops V0 (Proc.devRef .tc r) = pV0 V0 (Proc.devRef .tc r) := by
  rw [after_ops_V0]; exact after_of_writes_sub tB0 _ tB0_writes h

/-- The device's contents after operation 54. -/
def pB0 (V0 : Valuation τ sig (Elt F)) : Valuation τ sig (Elt F) := after sB0 (pV0 V0)
theorem after_ops_B0 (V0 : Valuation τ sig (Elt F)) : after ops V0 = after tW0 (pB0 V0) :=
  (after_ops_V0 V0).trans (StableHlo.after_append sB0 tW0 (pV0 V0))
/-- A buffer that no operation after 54 writes ends at what it holds after operation 54. -/
theorem final_B0 (V0 : Valuation τ sig (Elt F)) (r : Ref sig .tc) (h : r ∉ tW0_W) :
    after ops V0 (Proc.devRef .tc r) = pB0 V0 (Proc.devRef .tc r) := by
  rw [after_ops_B0]; exact after_of_writes_sub tW0 _ tW0_writes h

/-- The device's contents after operation 60. -/
def pW0 (V0 : Valuation τ sig (Elt F)) : Valuation τ sig (Elt F) := after sW0 (pB0 V0)
theorem after_ops_W0 (V0 : Valuation τ sig (Elt F)) : after ops V0 = after tG0 (pW0 V0) :=
  (after_ops_B0 V0).trans (StableHlo.after_append sW0 tG0 (pB0 V0))
/-- A buffer that no operation after 60 writes ends at what it holds after operation 60. -/
theorem final_W0 (V0 : Valuation τ sig (Elt F)) (r : Ref sig .tc) (h : r ∉ tG0_W) :
    after ops V0 (Proc.devRef .tc r) = pW0 V0 (Proc.devRef .tc r) := by
  rw [after_ops_W0]; exact after_of_writes_sub tG0 _ tG0_writes h

/-- The device's contents after operation 84. -/
def pG0 (V0 : Valuation τ sig (Elt F)) : Valuation τ sig (Elt F) := after sG0 (pW0 V0)
theorem after_ops_G0 (V0 : Valuation τ sig (Elt F)) : after ops V0 = after tS0 (pG0 V0) :=
  (after_ops_W0 V0).trans (StableHlo.after_append sG0 tS0 (pW0 V0))
/-- A buffer that no operation after 84 writes ends at what it holds after operation 84. -/
theorem final_G0 (V0 : Valuation τ sig (Elt F)) (r : Ref sig .tc) (h : r ∉ tS0_W) :
    after ops V0 (Proc.devRef .tc r) = pG0 V0 (Proc.devRef .tc r) := by
  rw [after_ops_G0]; exact after_of_writes_sub tS0 _ tS0_writes h

/-- The device's contents after operation 90. -/
def pS0 (V0 : Valuation τ sig (Elt F)) : Valuation τ sig (Elt F) := after sS0 (pG0 V0)
theorem after_ops_S0 (V0 : Valuation τ sig (Elt F)) : after ops V0 = after tR0 (pS0 V0) :=
  (after_ops_G0 V0).trans (StableHlo.after_append sS0 tR0 (pG0 V0))
/-- A buffer that no operation after 90 writes ends at what it holds after operation 90. -/
theorem final_S0 (V0 : Valuation τ sig (Elt F)) (r : Ref sig .tc) (h : r ∉ tR0_W) :
    after ops V0 (Proc.devRef .tc r) = pS0 V0 (Proc.devRef .tc r) := by
  rw [after_ops_S0]; exact after_of_writes_sub tR0 _ tR0_writes h

/-- The device's contents after operation 94. -/
def pR0 (V0 : Valuation τ sig (Elt F)) : Valuation τ sig (Elt F) := after sR0 (pS0 V0)
theorem after_ops_R0 (V0 : Valuation τ sig (Elt F)) : after ops V0 = after tM1 (pR0 V0) :=
  (after_ops_S0 V0).trans (StableHlo.after_append sR0 tM1 (pS0 V0))
/-- A buffer that no operation after 94 writes ends at what it holds after operation 94. -/
theorem final_R0 (V0 : Valuation τ sig (Elt F)) (r : Ref sig .tc) (h : r ∉ tM1_W) :
    after ops V0 (Proc.devRef .tc r) = pR0 V0 (Proc.devRef .tc r) := by
  rw [after_ops_R0]; exact after_of_writes_sub tM1 _ tM1_writes h

/-- The device's contents after operation 99. -/
def pM1 (V0 : Valuation τ sig (Elt F)) : Valuation τ sig (Elt F) := after sM1 (pR0 V0)
theorem after_ops_M1 (V0 : Valuation τ sig (Elt F)) : after ops V0 = after tV1 (pM1 V0) :=
  (after_ops_R0 V0).trans (StableHlo.after_append sM1 tV1 (pR0 V0))
/-- A buffer that no operation after 99 writes ends at what it holds after operation 99. -/
theorem final_M1 (V0 : Valuation τ sig (Elt F)) (r : Ref sig .tc) (h : r ∉ tV1_W) :
    after ops V0 (Proc.devRef .tc r) = pM1 V0 (Proc.devRef .tc r) := by
  rw [after_ops_M1]; exact after_of_writes_sub tV1 _ tV1_writes h

/-- The device's contents after operation 122. -/
def pV1 (V0 : Valuation τ sig (Elt F)) : Valuation τ sig (Elt F) := after sV1 (pM1 V0)
theorem after_ops_V1 (V0 : Valuation τ sig (Elt F)) : after ops V0 = after tB1 (pV1 V0) :=
  (after_ops_M1 V0).trans (StableHlo.after_append sV1 tB1 (pM1 V0))
/-- A buffer that no operation after 122 writes ends at what it holds after operation 122. -/
theorem final_V1 (V0 : Valuation τ sig (Elt F)) (r : Ref sig .tc) (h : r ∉ tB1_W) :
    after ops V0 (Proc.devRef .tc r) = pV1 V0 (Proc.devRef .tc r) := by
  rw [after_ops_V1]; exact after_of_writes_sub tB1 _ tB1_writes h

/-- The device's contents after operation 141. -/
def pB1 (V0 : Valuation τ sig (Elt F)) : Valuation τ sig (Elt F) := after sB1 (pV1 V0)
theorem after_ops_B1 (V0 : Valuation τ sig (Elt F)) : after ops V0 = after tW1 (pB1 V0) :=
  (after_ops_V1 V0).trans (StableHlo.after_append sB1 tW1 (pV1 V0))
/-- A buffer that no operation after 141 writes ends at what it holds after operation 141. -/
theorem final_B1 (V0 : Valuation τ sig (Elt F)) (r : Ref sig .tc) (h : r ∉ tW1_W) :
    after ops V0 (Proc.devRef .tc r) = pB1 V0 (Proc.devRef .tc r) := by
  rw [after_ops_B1]; exact after_of_writes_sub tW1 _ tW1_writes h

/-- The device's contents after operation 147. -/
def pW1 (V0 : Valuation τ sig (Elt F)) : Valuation τ sig (Elt F) := after sW1 (pB1 V0)
theorem after_ops_W1 (V0 : Valuation τ sig (Elt F)) : after ops V0 = after tG1 (pW1 V0) :=
  (after_ops_B1 V0).trans (StableHlo.after_append sW1 tG1 (pB1 V0))
/-- A buffer that no operation after 147 writes ends at what it holds after operation 147. -/
theorem final_W1 (V0 : Valuation τ sig (Elt F)) (r : Ref sig .tc) (h : r ∉ tG1_W) :
    after ops V0 (Proc.devRef .tc r) = pW1 V0 (Proc.devRef .tc r) := by
  rw [after_ops_W1]; exact after_of_writes_sub tG1 _ tG1_writes h

/-- The device's contents after operation 171. -/
def pG1 (V0 : Valuation τ sig (Elt F)) : Valuation τ sig (Elt F) := after sG1 (pW1 V0)
theorem after_ops_G1 (V0 : Valuation τ sig (Elt F)) : after ops V0 = after tS1 (pG1 V0) :=
  (after_ops_W1 V0).trans (StableHlo.after_append sG1 tS1 (pW1 V0))
/-- A buffer that no operation after 171 writes ends at what it holds after operation 171. -/
theorem final_G1 (V0 : Valuation τ sig (Elt F)) (r : Ref sig .tc) (h : r ∉ tS1_W) :
    after ops V0 (Proc.devRef .tc r) = pG1 V0 (Proc.devRef .tc r) := by
  rw [after_ops_G1]; exact after_of_writes_sub tS1 _ tS1_writes h

/-- The device's contents after operation 177. -/
def pS1 (V0 : Valuation τ sig (Elt F)) : Valuation τ sig (Elt F) := after sS1 (pG1 V0)
theorem after_ops_S1 (V0 : Valuation τ sig (Elt F)) : after ops V0 = after tR1 (pS1 V0) :=
  (after_ops_G1 V0).trans (StableHlo.after_append sS1 tR1 (pG1 V0))
/-- A buffer that no operation after 177 writes ends at what it holds after operation 177. -/
theorem final_S1 (V0 : Valuation τ sig (Elt F)) (r : Ref sig .tc) (h : r ∉ tR1_W) :
    after ops V0 (Proc.devRef .tc r) = pS1 V0 (Proc.devRef .tc r) := by
  rw [after_ops_S1]; exact after_of_writes_sub tR1 _ tR1_writes h

/-- The device's contents after operation 181. -/
def pR1 (V0 : Valuation τ sig (Elt F)) : Valuation τ sig (Elt F) := after sR1 (pS1 V0)
theorem after_ops_R1 (V0 : Valuation τ sig (Elt F)) : after ops V0 = after tM2 (pR1 V0) :=
  (after_ops_S1 V0).trans (StableHlo.after_append sR1 tM2 (pS1 V0))
/-- A buffer that no operation after 181 writes ends at what it holds after operation 181. -/
theorem final_R1 (V0 : Valuation τ sig (Elt F)) (r : Ref sig .tc) (h : r ∉ tM2_W) :
    after ops V0 (Proc.devRef .tc r) = pR1 V0 (Proc.devRef .tc r) := by
  rw [after_ops_R1]; exact after_of_writes_sub tM2 _ tM2_writes h

/-- The device's contents after operation 186. -/
def pM2 (V0 : Valuation τ sig (Elt F)) : Valuation τ sig (Elt F) := after sM2 (pR1 V0)
theorem after_ops_M2 (V0 : Valuation τ sig (Elt F)) : after ops V0 = after tV2 (pM2 V0) :=
  (after_ops_R1 V0).trans (StableHlo.after_append sM2 tV2 (pR1 V0))
/-- A buffer that no operation after 186 writes ends at what it holds after operation 186. -/
theorem final_M2 (V0 : Valuation τ sig (Elt F)) (r : Ref sig .tc) (h : r ∉ tV2_W) :
    after ops V0 (Proc.devRef .tc r) = pM2 V0 (Proc.devRef .tc r) := by
  rw [after_ops_M2]; exact after_of_writes_sub tV2 _ tV2_writes h

/-- The device's contents after operation 209. -/
def pV2 (V0 : Valuation τ sig (Elt F)) : Valuation τ sig (Elt F) := after sV2 (pM2 V0)
theorem after_ops_V2 (V0 : Valuation τ sig (Elt F)) : after ops V0 = after tB2 (pV2 V0) :=
  (after_ops_M2 V0).trans (StableHlo.after_append sV2 tB2 (pM2 V0))
/-- A buffer that no operation after 209 writes ends at what it holds after operation 209. -/
theorem final_V2 (V0 : Valuation τ sig (Elt F)) (r : Ref sig .tc) (h : r ∉ tB2_W) :
    after ops V0 (Proc.devRef .tc r) = pV2 V0 (Proc.devRef .tc r) := by
  rw [after_ops_V2]; exact after_of_writes_sub tB2 _ tB2_writes h

/-- The device's contents after operation 228. -/
def pB2 (V0 : Valuation τ sig (Elt F)) : Valuation τ sig (Elt F) := after sB2 (pV2 V0)
theorem after_ops_B2 (V0 : Valuation τ sig (Elt F)) : after ops V0 = after tW2 (pB2 V0) :=
  (after_ops_V2 V0).trans (StableHlo.after_append sB2 tW2 (pV2 V0))
/-- A buffer that no operation after 228 writes ends at what it holds after operation 228. -/
theorem final_B2 (V0 : Valuation τ sig (Elt F)) (r : Ref sig .tc) (h : r ∉ tW2_W) :
    after ops V0 (Proc.devRef .tc r) = pB2 V0 (Proc.devRef .tc r) := by
  rw [after_ops_B2]; exact after_of_writes_sub tW2 _ tW2_writes h

/-- The device's contents after operation 234. -/
def pW2 (V0 : Valuation τ sig (Elt F)) : Valuation τ sig (Elt F) := after sW2 (pB2 V0)
theorem after_ops_W2 (V0 : Valuation τ sig (Elt F)) : after ops V0 = after tG2 (pW2 V0) :=
  (after_ops_B2 V0).trans (StableHlo.after_append sW2 tG2 (pB2 V0))
/-- A buffer that no operation after 234 writes ends at what it holds after operation 234. -/
theorem final_W2 (V0 : Valuation τ sig (Elt F)) (r : Ref sig .tc) (h : r ∉ tG2_W) :
    after ops V0 (Proc.devRef .tc r) = pW2 V0 (Proc.devRef .tc r) := by
  rw [after_ops_W2]; exact after_of_writes_sub tG2 _ tG2_writes h

/-- The device's contents after operation 258. -/
def pG2 (V0 : Valuation τ sig (Elt F)) : Valuation τ sig (Elt F) := after sG2 (pW2 V0)
theorem after_ops_G2 (V0 : Valuation τ sig (Elt F)) : after ops V0 = after tS2 (pG2 V0) :=
  (after_ops_W2 V0).trans (StableHlo.after_append sG2 tS2 (pW2 V0))
/-- A buffer that no operation after 258 writes ends at what it holds after operation 258. -/
theorem final_G2 (V0 : Valuation τ sig (Elt F)) (r : Ref sig .tc) (h : r ∉ tS2_W) :
    after ops V0 (Proc.devRef .tc r) = pG2 V0 (Proc.devRef .tc r) := by
  rw [after_ops_G2]; exact after_of_writes_sub tS2 _ tS2_writes h

/-- The device's contents after operation 264. -/
def pS2 (V0 : Valuation τ sig (Elt F)) : Valuation τ sig (Elt F) := after sS2 (pG2 V0)
theorem after_ops_S2 (V0 : Valuation τ sig (Elt F)) : after ops V0 = after tR2 (pS2 V0) :=
  (after_ops_G2 V0).trans (StableHlo.after_append sS2 tR2 (pG2 V0))
/-- A buffer that no operation after 264 writes ends at what it holds after operation 264. -/
theorem final_S2 (V0 : Valuation τ sig (Elt F)) (r : Ref sig .tc) (h : r ∉ tR2_W) :
    after ops V0 (Proc.devRef .tc r) = pS2 V0 (Proc.devRef .tc r) := by
  rw [after_ops_S2]; exact after_of_writes_sub tR2 _ tR2_writes h

/-- The device's contents after operation 268. -/
def pR2 (V0 : Valuation τ sig (Elt F)) : Valuation τ sig (Elt F) := after sR2 (pS2 V0)
theorem after_ops_R2 (V0 : Valuation τ sig (Elt F)) : after ops V0 = after tM3 (pR2 V0) :=
  (after_ops_S2 V0).trans (StableHlo.after_append sR2 tM3 (pS2 V0))
/-- A buffer that no operation after 268 writes ends at what it holds after operation 268. -/
theorem final_R2 (V0 : Valuation τ sig (Elt F)) (r : Ref sig .tc) (h : r ∉ tM3_W) :
    after ops V0 (Proc.devRef .tc r) = pR2 V0 (Proc.devRef .tc r) := by
  rw [after_ops_R2]; exact after_of_writes_sub tM3 _ tM3_writes h

/-- The device's contents after operation 273. -/
def pM3 (V0 : Valuation τ sig (Elt F)) : Valuation τ sig (Elt F) := after sM3 (pR2 V0)
theorem after_ops_M3 (V0 : Valuation τ sig (Elt F)) : after ops V0 = after tV3 (pM3 V0) :=
  (after_ops_R2 V0).trans (StableHlo.after_append sM3 tV3 (pR2 V0))
/-- A buffer that no operation after 273 writes ends at what it holds after operation 273. -/
theorem final_M3 (V0 : Valuation τ sig (Elt F)) (r : Ref sig .tc) (h : r ∉ tV3_W) :
    after ops V0 (Proc.devRef .tc r) = pM3 V0 (Proc.devRef .tc r) := by
  rw [after_ops_M3]; exact after_of_writes_sub tV3 _ tV3_writes h

/-- The device's contents after operation 296. -/
def pV3 (V0 : Valuation τ sig (Elt F)) : Valuation τ sig (Elt F) := after sV3 (pM3 V0)
theorem after_ops_V3 (V0 : Valuation τ sig (Elt F)) : after ops V0 = after tB3 (pV3 V0) :=
  (after_ops_M3 V0).trans (StableHlo.after_append sV3 tB3 (pM3 V0))
/-- A buffer that no operation after 296 writes ends at what it holds after operation 296. -/
theorem final_V3 (V0 : Valuation τ sig (Elt F)) (r : Ref sig .tc) (h : r ∉ tB3_W) :
    after ops V0 (Proc.devRef .tc r) = pV3 V0 (Proc.devRef .tc r) := by
  rw [after_ops_V3]; exact after_of_writes_sub tB3 _ tB3_writes h

/-- The device's contents after operation 315. -/
def pB3 (V0 : Valuation τ sig (Elt F)) : Valuation τ sig (Elt F) := after sB3 (pV3 V0)
theorem after_ops_B3 (V0 : Valuation τ sig (Elt F)) : after ops V0 = after tW3 (pB3 V0) :=
  (after_ops_V3 V0).trans (StableHlo.after_append sB3 tW3 (pV3 V0))
/-- A buffer that no operation after 315 writes ends at what it holds after operation 315. -/
theorem final_B3 (V0 : Valuation τ sig (Elt F)) (r : Ref sig .tc) (h : r ∉ tW3_W) :
    after ops V0 (Proc.devRef .tc r) = pB3 V0 (Proc.devRef .tc r) := by
  rw [after_ops_B3]; exact after_of_writes_sub tW3 _ tW3_writes h

/-- The device's contents after operation 321. -/
def pW3 (V0 : Valuation τ sig (Elt F)) : Valuation τ sig (Elt F) := after sW3 (pB3 V0)
theorem after_ops_W3 (V0 : Valuation τ sig (Elt F)) : after ops V0 = after tG3 (pW3 V0) :=
  (after_ops_B3 V0).trans (StableHlo.after_append sW3 tG3 (pB3 V0))
/-- A buffer that no operation after 321 writes ends at what it holds after operation 321. -/
theorem final_W3 (V0 : Valuation τ sig (Elt F)) (r : Ref sig .tc) (h : r ∉ tG3_W) :
    after ops V0 (Proc.devRef .tc r) = pW3 V0 (Proc.devRef .tc r) := by
  rw [after_ops_W3]; exact after_of_writes_sub tG3 _ tG3_writes h

/-- The device's contents after operation 345. -/
def pG3 (V0 : Valuation τ sig (Elt F)) : Valuation τ sig (Elt F) := after sG3 (pW3 V0)
theorem after_ops_G3 (V0 : Valuation τ sig (Elt F)) : after ops V0 = after tS3 (pG3 V0) :=
  (after_ops_W3 V0).trans (StableHlo.after_append sG3 tS3 (pW3 V0))
/-- A buffer that no operation after 345 writes ends at what it holds after operation 345. -/
theorem final_G3 (V0 : Valuation τ sig (Elt F)) (r : Ref sig .tc) (h : r ∉ tS3_W) :
    after ops V0 (Proc.devRef .tc r) = pG3 V0 (Proc.devRef .tc r) := by
  rw [after_ops_G3]; exact after_of_writes_sub tS3 _ tS3_writes h

/-- The device's contents after operation 351. -/
def pS3 (V0 : Valuation τ sig (Elt F)) : Valuation τ sig (Elt F) := after sS3 (pG3 V0)
theorem after_ops_S3 (V0 : Valuation τ sig (Elt F)) : after ops V0 = after tO (pS3 V0) :=
  (after_ops_G3 V0).trans (StableHlo.after_append sS3 tO (pG3 V0))
/-- A buffer that no operation after 351 writes ends at what it holds after operation 351. -/
theorem final_S3 (V0 : Valuation τ sig (Elt F)) (r : Ref sig .tc) (h : r ∉ tO_W) :
    after ops V0 (Proc.devRef .tc r) = pS3 V0 (Proc.devRef .tc r) := by
  rw [after_ops_S3]; exact after_of_writes_sub tO _ tO_writes h

/-- The device's contents after operation 355. -/
def pO (V0 : Valuation τ sig (Elt F)) : Valuation τ sig (Elt F) := after sO (pS3 V0)
theorem after_ops_O (V0 : Valuation τ sig (Elt F)) : after ops V0 = pO V0 :=
  after_ops_S3 V0
theorem final_O (V0 : Valuation τ sig (Elt F)) (r : Ref sig .tc) :
    after ops V0 (Proc.devRef .tc r) = pO V0 (Proc.devRef .tc r) := by
  rw [after_ops_O]

/-- A buffer that no operation writes ends at what it held at launch. -/
theorem final_arg (V0 : Valuation τ sig (Elt F)) (r : Ref sig .tc) (h : r ∉ tE_W) :
    after ops V0 (Proc.devRef .tc r) = V0 (Proc.devRef .tc r) := by
  rw [ops_eq]; exact after_of_writes_sub tE _ tE_writes h

end Cert.ReferenceIdeal.RefStages

end
-- ==== Proof.RefStageDefs.lean ====
/- The reference program's stages at the exact extended reals: each stage's composed host term as one definition
   over the stage's input arrays, in the program's own operations. -/
import proofs.«119291_j39402029973518_1_alg».proof.Proof.RefSeg
import Idealize.ShloMosaic.PureOps.Ideal

noncomputable section

namespace Cert.ReferenceIdeal.RefStages

open Cert.ReferenceIdeal Cert.ReferenceIdeal.Gen Cert.ReferenceIdeal.RefRun Idealize.ShloMosaic Idealize.ShloMosaic.TcCoe Idealize.SL.Sem Idealize.ShloMosaic.StableHlo

/-- What the operation list leaves in buffer `b` of device `d`, from the launch contents `m`. -/
abbrev R (m : (ℓ : Loc nD τ sig) → Buf (Elt Ideal) ℓ) (d : Dev nD) (b : Ref sig .tc) :=
  StableHlo.after (RefRun.ops (F := Ideal)) (launchContents m d) (Proc.devRef .tc b)

/-! ## The stages' terms -/

/-- Row 0 of the edge list as a vector: the source node of each edge. -/
def stSrc (e : IVec S2x1600000 32) :
    IVec S1600000 32 :=
  shapeCast S1600000 (extractStridedSlice S1x1600000 ![0, 0] e slices_S2x1600000_S1x1600000_0_0) shapeCasts_S1x1600000_S1600000

/-- Row 1 of the edge list as a vector: the target node of each edge. -/
def stDst (e : IVec S2x1600000 32) :
    IVec S1600000 32 :=
  shapeCast S1600000 (extractStridedSlice S1x1600000 ![1, 0] e slices_S2x1600000_S1x1600000_1_0) shapeCasts_S1x1600000_S1600000

/-- The input layer: the product with the weights plus the bias along rows. -/
def stDense (x : FVec Ideal S100000x128 .f32) (W : FVec Ideal S128x128 .f32) (b : FVec Ideal S128 .f32) :
    FVec Ideal S100000x128 .f32 :=
  addf (F := Ideal) (Host.dotGeneral (F := Ideal) dot_S100000x128_S128x128_S100000x128_1_0_0_1_n_n none x W) (broadcastInDim S100000x128 ![0, 1] bcast_S1x128_S100000x128_0_1 (broadcastInDim S1x128 ![1] bcast_S128_S1x128_1 b))

/-- The column means over the 100000 rows. -/
def stMean (z : FVec Ideal S100000x128 .f32) :
    FVec Ideal S128 .f32 :=
  Host.divf (F := Ideal) (Host.reduceAdd (F := Ideal) z (constant (F := Ideal) S_ .f32 0x00000000#32) reducesTo_S100000x128_S128_d0 h_S_) (broadcastInDim S128 ![] bcast_S_S128 (constant (F := Ideal) S_ .f32 0x47C35000#32))

/-- The column variances over the 100000 rows (the outlined variance with its zero correction and its guarded division). -/
def stVar (z : FVec Ideal S100000x128 .f32) :
    FVec Ideal S128 .f32 :=
  select (broadcastInDim S128 ![] bcast_S_S128 (cmpf (F := Ideal) .ogt (subf (F := Ideal) (constant (F := Ideal) S_ .f32 0x47C35000#32) (sitofp (F := Ideal) .f32 (constantI S_ 32 0#32))) (constant (F := Ideal) S_ .f32 0x00000000#32))) (Host.divf (F := Ideal) (Host.reduceAdd (F := Ideal) (mulf (F := Ideal) (subf (F := Ideal) z (broadcastInDim S100000x128 ![0, 1] bcast_S1x128_S100000x128_0_1 (Host.divf (F := Ideal) (broadcastInDim S1x128 ![1] bcast_S128_S1x128_1 (Host.reduceAdd (F := Ideal) z (constant (F := Ideal) S_ .f32 0x00000000#32) reducesTo_S100000x128_S128_d0 h_S_)) (broadcastInDim S1x128 ![] bcast_S_S1x128 (constant (F := Ideal) S_ .f32 0x47C35000#32))))) (subf (F := Ideal) z (broadcastInDim S100000x128 ![0, 1] bcast_S1x128_S100000x128_0_1 (Host.divf (F := Ideal) (broadcastInDim S1x128 ![1] bcast_S128_S1x128_1 (Host.reduceAdd (F := Ideal) z (constant (F := Ideal) S_ .f32 0x00000000#32) reducesTo_S100000x128_S128_d0 h_S_)) (broadcastInDim S1x128 ![] bcast_S_S1x128 (constant (F := Ideal) S_ .f32 0x47C35000#32)))))) (constant (F := Ideal) S_ .f32 0x00000000#32) reducesTo_S100000x128_S128_d0 h_S_) (broadcastInDim S128 ![] bcast_S_S128 (subf (F := Ideal) (constant (F := Ideal) S_ .f32 0x47C35000#32) (sitofp (F := Ideal) .f32 (constantI S_ 32 0#32))))) (broadcastInDim S128 ![] bcast_S_S128 (constant (F := Ideal) S_ .f32 0x7FC00000#32))

/-- The normalisation by the column mean and variance, scaled and shifted per column, then the rectifier. -/
def stBnRelu (z : FVec Ideal S100000x128 .f32) (g : FVec Ideal S128 .f32) (beta : FVec Ideal S128 .f32) (mean : FVec Ideal S128 .f32) (var : FVec Ideal S128 .f32) :
    FVec Ideal S100000x128 .f32 :=
  maximumf (F := Ideal) (addf (F := Ideal) (mulf (F := Ideal) (mulf (F := Ideal) (broadcastInDim S100000x128 ![0, 1] bcast_S1x128_S100000x128_0_1 (broadcastInDim S1x128 ![1] bcast_S128_S1x128_1 g)) (subf (F := Ideal) z (broadcastInDim S100000x128 ![0, 1] bcast_S1x128_S100000x128_0_1 (broadcastInDim S1x128 ![1] bcast_S128_S1x128_1 mean)))) (broadcastInDim S100000x128 ![0, 1] bcast_S1x128_S100000x128_0_1 (broadcastInDim S1x128 ![1] bcast_S128_S1x128_1 (Host.rsqrt (F := Ideal) (addf (F := Ideal) var (broadcastInDim S128 ![] bcast_S_S128 (constant (F := Ideal) S_ .f32 0x3727C5AC#32))))))) (broadcastInDim S100000x128 ![0, 1] bcast_S1x128_S100000x128_0_1 (broadcastInDim S1x128 ![1] bcast_S128_S1x128_1 beta))) (broadcastInDim S100000x128 ![] bcast_S_S100000x128 (constant (F := Ideal) S_ .f32 0x00000000#32))

/-- Slab 0 of a stack of four 128×128 matrices. -/
def stMat0 (W : FVec Ideal S4x128x128 .f32) :
    FVec Ideal S128x128 .f32 :=
  shapeCast S128x128 (extractStridedSlice S1x128x128 ![0, 0, 0] W slices_S4x128x128_S1x128x128_0_0_0) shapeCasts_S1x128x128_S128x128

/-- Row 0 of a 4×128 array as a vector. -/
def stRow0 (B : FVec Ideal S4x128 .f32) :
    FVec Ideal S128 .f32 :=
  shapeCast S128 (extractStridedSlice S1x128 ![0, 0] B slices_S4x128_S1x128_0_0) shapeCasts_S1x128_S128

/-- The neighbourhood mean from the two index vectors: the rows gathered at the normalised sources, summed at the targets, divided by the clamped in-degree. -/
def aggCore (h : FVec Ideal S100000x128 .f32) (src : IVec S1600000 32) (dst : IVec S1600000 32) :
    FVec Ideal S100000x128 .f32 :=
  Host.divf (F := Ideal) (Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (maximumf (F := Ideal) (Host.scatterAdd (F := Ideal) scatter_S100000x1_S1600000x1_S1600000x1_1_0_0_1 (broadcastInDim S100000x1 ![] bcast_S_S100000x1 (constant (F := Ideal) S_ .f32 0x00000000#32)) (broadcastInDim S1600000x1 ![0] bcast_S1600000_S1600000x1_0 dst) (broadcastInDim S1600000x1 ![] bcast_S_S1600000x1 (constant (F := Ideal) S_ .f32 0x3F800000#32))) (broadcastInDim S100000x1 ![] bcast_S_S100000x1 (constant (F := Ideal) S_ .f32 0x3F800000#32))))

/-- One layer's two products: the aggregated rows through the left weights plus its bias, plus the rows through the right weights. -/
def stSage (agg : FVec Ideal S100000x128 .f32) (h : FVec Ideal S100000x128 .f32) (Wl : FVec Ideal S128x128 .f32) (bl : FVec Ideal S128 .f32) (Wr : FVec Ideal S128x128 .f32) :
    FVec Ideal S100000x128 .f32 :=
  addf (F := Ideal) (addf (F := Ideal) (Host.dotGeneral (F := Ideal) dot_S100000x128_S128x128_S100000x128_1_0_0_1_n_n none agg Wl) (broadcastInDim S100000x128 ![0, 1] bcast_S1x128_S100000x128_0_1 (broadcastInDim S1x128 ![1] bcast_S128_S1x128_1 bl))) (Host.dotGeneral (F := Ideal) dot_S100000x128_S128x128_S100000x128_1_0_0_1_n_n none h Wr)

/-- Slab 1 of a stack of four 128×128 matrices. -/
def stMat1 (W : FVec Ideal S4x128x128 .f32) :
    FVec Ideal S128x128 .f32 :=
  shapeCast S128x128 (extractStridedSlice S1x128x128 ![1, 0, 0] W slices_S4x128x128_S1x128x128_1_0_0) shapeCasts_S1x128x128_S128x128

/-- Row 1 of a 4×128 array as a vector. -/
def stRow1 (B : FVec Ideal S4x128 .f32) :
    FVec Ideal S128 .f32 :=
  shapeCast S128 (extractStridedSlice S1x128 ![1, 0] B slices_S4x128_S1x128_1_0) shapeCasts_S1x128_S128

/-- Slab 2 of a stack of four 128×128 matrices. -/
def stMat2 (W : FVec Ideal S4x128x128 .f32) :
    FVec Ideal S128x128 .f32 :=
  shapeCast S128x128 (extractStridedSlice S1x128x128 ![2, 0, 0] W slices_S4x128x128_S1x128x128_2_0_0) shapeCasts_S1x128x128_S128x128

/-- Row 2 of a 4×128 array as a vector. -/
def stRow2 (B : FVec Ideal S4x128 .f32) :
    FVec Ideal S128 .f32 :=
  shapeCast S128 (extractStridedSlice S1x128 ![2, 0] B slices_S4x128_S1x128_2_0) shapeCasts_S1x128_S128

/-- Slab 3 of a stack of four 128×128 matrices. -/
def stMat3 (W : FVec Ideal S4x128x128 .f32) :
    FVec Ideal S128x128 .f32 :=
  shapeCast S128x128 (extractStridedSlice S1x128x128 ![3, 0, 0] W slices_S4x128x128_S1x128x128_3_0_0) shapeCasts_S1x128x128_S128x128

/-- Row 3 of a 4×128 array as a vector. -/
def stRow3 (B : FVec Ideal S4x128 .f32) :
    FVec Ideal S128 .f32 :=
  shapeCast S128 (extractStridedSlice S1x128 ![3, 0] B slices_S4x128_S1x128_3_0) shapeCasts_S1x128_S128

/-- The output layer: the product with the weights plus the bias along rows. -/
def stDenseOut (h : FVec Ideal S100000x128 .f32) (W : FVec Ideal S128x40 .f32) (b : FVec Ideal S40 .f32) :
    FVec Ideal S100000x40 .f32 :=
  addf (F := Ideal) (Host.dotGeneral (F := Ideal) dot_S100000x128_S128x40_S100000x40_1_0_0_1_n_n none h W) (broadcastInDim S100000x40 ![0, 1] bcast_S1x40_S100000x40_0_1 (broadcastInDim S1x40 ![1] bcast_S40_S1x40_1 b))

/-- The neighbourhood mean of the rows `h` along the edge list `e`. -/
def stAgg (h : FVec Ideal S100000x128 .f32) (e : IVec S2x1600000 32) : FVec Ideal S100000x128 .f32 :=
  aggCore h (stSrc e) (stDst e)

/-! ## A typed reference's two conversions cancel -/

/-- Contents carried to a typed reference's buffer type and back are the contents. -/
theorem ofBuf_toBuf {Val : EltTy → Type} {T : BufTy} (x : TRef sig T) (v : T.Contents Val) :
    x.ofBuf (x.toBuf (Val := Val) v) = v := by
  obtain ⟨r, h, _, _⟩ := x
  subst h
  rfl

end Cert.ReferenceIdeal.RefStages

end
-- ==== Proof.RefStageP0.lean ====
/- The reference program's operation list read stretch by stretch at the exact extended reals, part 0 of 4: what
   each stretch leaves in its result buffer is the stage's term of what the device held in the stage's input buffers
   before the stretch. -/
import proofs.«119291_j39402029973518_1_alg».proof.Proof.RefStageDefs

set_option Elab.async false

noncomputable section

namespace Cert.ReferenceIdeal.RefStages

open Cert.ReferenceIdeal Cert.ReferenceIdeal.Gen Cert.ReferenceIdeal.RefRun Idealize.ShloMosaic Idealize.ShloMosaic.TcCoe Idealize.SL.Sem Idealize.ShloMosaic.StableHlo

/-! ## Each stretch's result from the contents before it -/

theorem pE_main_v1 (V0 : Valuation τ sig (Elt Ideal)) :
    pE V0 (Proc.devRef .tc main_v1) = stSrc (V0 (Proc.devRef .tc main_arg12)) := by
  show after sE (V0) _ = _
  simp only [sE]
  after_results_simp
  unfold stSrc
  rfl

theorem pE_main_v3 (V0 : Valuation τ sig (Elt Ideal)) :
    pE V0 (Proc.devRef .tc main_v3) = stDst (V0 (Proc.devRef .tc main_arg12)) := by
  show after sE (V0) _ = _
  simp only [sE]
  after_results_simp
  unfold stDst
  rfl

theorem pD_main_v7 (V0 : Valuation τ sig (Elt Ideal)) :
    pD V0 (Proc.devRef .tc main_v7) = stDense (pE V0 (Proc.devRef .tc main_arg0)) (pE V0 (Proc.devRef .tc main_arg1)) (pE V0 (Proc.devRef .tc main_arg2)) := by
  show after sD (pE V0) _ = _
  generalize pE V0 = W
  simp only [sD]
  after_results_simp
  unfold stDense
  rfl

theorem pM0_main_v10 (V0 : Valuation τ sig (Elt Ideal)) :
    pM0 V0 (Proc.devRef .tc main_v10) = stMean (pD V0 (Proc.devRef .tc main_v7)) := by
  show after sM0 (pD V0) _ = _
  generalize pD V0 = W
  simp only [sM0]
  after_results_simp
  unfold stMean
  rfl

set_option maxRecDepth 8192 in
theorem pV0_main_v11 (V0 : Valuation τ sig (Elt Ideal)) :
    pV0 V0 (Proc.devRef .tc main_v11) = stVar (pM0 V0 (Proc.devRef .tc main_v7)) := by
  show after sV0 (pM0 V0) _ = _
  generalize pM0 V0 = W
  simp only [sV0]
  after_results_simp
  simp only [ofBuf_toBuf]
  unfold stVar
  rfl

set_option maxRecDepth 8192 in
theorem pB0_main_v27 (V0 : Valuation τ sig (Elt Ideal)) :
    pB0 V0 (Proc.devRef .tc main_v27) = stBnRelu (pV0 V0 (Proc.devRef .tc main_v7)) (pV0 V0 (Proc.devRef .tc main_arg3)) (pV0 V0 (Proc.devRef .tc main_arg4)) (pV0 V0 (Proc.devRef .tc main_v10)) (pV0 V0 (Proc.devRef .tc main_v11)) := by
  show after sB0 (pV0 V0) _ = _
  generalize pV0 V0 = W
  simp only [sB0]
  after_results_simp
  simp only [ofBuf_toBuf]
  unfold stBnRelu
  rfl

theorem pW0_main_v29 (V0 : Valuation τ sig (Elt Ideal)) :
    pW0 V0 (Proc.devRef .tc main_v29) = stMat0 (pB0 V0 (Proc.devRef .tc main_arg5)) := by
  show after sW0 (pB0 V0) _ = _
  generalize pB0 V0 = W
  simp only [sW0]
  after_results_simp
  unfold stMat0
  rfl

theorem pW0_main_v31 (V0 : Valuation τ sig (Elt Ideal)) :
    pW0 V0 (Proc.devRef .tc main_v31) = stRow0 (pB0 V0 (Proc.devRef .tc main_arg6)) := by
  show after sW0 (pB0 V0) _ = _
  generalize pB0 V0 = W
  simp only [sW0]
  after_results_simp
  unfold stRow0
  rfl

theorem pW0_main_v33 (V0 : Valuation τ sig (Elt Ideal)) :
    pW0 V0 (Proc.devRef .tc main_v33) = stMat0 (pB0 V0 (Proc.devRef .tc main_arg7)) := by
  show after sW0 (pB0 V0) _ = _
  generalize pB0 V0 = W
  simp only [sW0]
  after_results_simp
  unfold stMat0
  rfl

set_option maxRecDepth 8192 in
theorem pG0_main_v51 (V0 : Valuation τ sig (Elt Ideal)) :
    pG0 V0 (Proc.devRef .tc main_v51) = aggCore (pW0 V0 (Proc.devRef .tc main_v27)) (pW0 V0 (Proc.devRef .tc main_v1)) (pW0 V0 (Proc.devRef .tc main_v3)) := by
  show after sG0 (pW0 V0) _ = _
  generalize pW0 V0 = W
  simp only [sG0]
  after_results_simp
  unfold aggCore
  rfl

theorem pS0_main_v57 (V0 : Valuation τ sig (Elt Ideal)) :
    pS0 V0 (Proc.devRef .tc main_v57) = stSage (pG0 V0 (Proc.devRef .tc main_v51)) (pG0 V0 (Proc.devRef .tc main_v27)) (pG0 V0 (Proc.devRef .tc main_v29)) (pG0 V0 (Proc.devRef .tc main_v31)) (pG0 V0 (Proc.devRef .tc main_v33)) := by
  show after sS0 (pG0 V0) _ = _
  generalize pG0 V0 = W
  simp only [sS0]
  after_results_simp
  unfold stSage
  rfl

theorem pR0_main_v59 (V0 : Valuation τ sig (Elt Ideal)) :
    pR0 V0 (Proc.devRef .tc main_v59) = stRow0 (pS0 V0 (Proc.devRef .tc main_arg8)) := by
  show after sR0 (pS0 V0) _ = _
  generalize pS0 V0 = W
  simp only [sR0]
  after_results_simp
  unfold stRow0
  rfl

theorem pR0_main_v61 (V0 : Valuation τ sig (Elt Ideal)) :
    pR0 V0 (Proc.devRef .tc main_v61) = stRow0 (pS0 V0 (Proc.devRef .tc main_arg9)) := by
  show after sR0 (pS0 V0) _ = _
  generalize pS0 V0 = W
  simp only [sR0]
  after_results_simp
  unfold stRow0
  rfl

end Cert.ReferenceIdeal.RefStages

end
-- ==== Proof.RefStageP1.lean ====
/- The reference program's operation list read stretch by stretch at the exact extended reals, part 1 of 4: what
   each stretch leaves in its result buffer is the stage's term of what the device held in the stage's input buffers
   before the stretch. -/
import proofs.«119291_j39402029973518_1_alg».proof.Proof.RefStageDefs

set_option Elab.async false

noncomputable section

namespace Cert.ReferenceIdeal.RefStages

open Cert.ReferenceIdeal Cert.ReferenceIdeal.Gen Cert.ReferenceIdeal.RefRun Idealize.ShloMosaic Idealize.ShloMosaic.TcCoe Idealize.SL.Sem Idealize.ShloMosaic.StableHlo

/-! ## Each stretch's result from the contents before it -/

theorem pM1_main_v64 (V0 : Valuation τ sig (Elt Ideal)) :
    pM1 V0 (Proc.devRef .tc main_v64) = stMean (pR0 V0 (Proc.devRef .tc main_v57)) := by
  show after sM1 (pR0 V0) _ = _
  generalize pR0 V0 = W
  simp only [sM1]
  after_results_simp
  unfold stMean
  rfl

set_option maxRecDepth 8192 in
theorem pV1_main_v65 (V0 : Valuation τ sig (Elt Ideal)) :
    pV1 V0 (Proc.devRef .tc main_v65) = stVar (pM1 V0 (Proc.devRef .tc main_v57)) := by
  show after sV1 (pM1 V0) _ = _
  generalize pM1 V0 = W
  simp only [sV1]
  after_results_simp
  simp only [ofBuf_toBuf]
  unfold stVar
  rfl

set_option maxRecDepth 8192 in
theorem pB1_main_v81 (V0 : Valuation τ sig (Elt Ideal)) :
    pB1 V0 (Proc.devRef .tc main_v81) = stBnRelu (pV1 V0 (Proc.devRef .tc main_v57)) (pV1 V0 (Proc.devRef .tc main_v59)) (pV1 V0 (Proc.devRef .tc main_v61)) (pV1 V0 (Proc.devRef .tc main_v64)) (pV1 V0 (Proc.devRef .tc main_v65)) := by
  show after sB1 (pV1 V0) _ = _
  generalize pV1 V0 = W
  simp only [sB1]
  after_results_simp
  simp only [ofBuf_toBuf]
  unfold stBnRelu
  rfl

theorem pW1_main_v83 (V0 : Valuation τ sig (Elt Ideal)) :
    pW1 V0 (Proc.devRef .tc main_v83) = stMat1 (pB1 V0 (Proc.devRef .tc main_arg5)) := by
  show after sW1 (pB1 V0) _ = _
  generalize pB1 V0 = W
  simp only [sW1]
  after_results_simp
  unfold stMat1
  rfl

theorem pW1_main_v85 (V0 : Valuation τ sig (Elt Ideal)) :
    pW1 V0 (Proc.devRef .tc main_v85) = stRow1 (pB1 V0 (Proc.devRef .tc main_arg6)) := by
  show after sW1 (pB1 V0) _ = _
  generalize pB1 V0 = W
  simp only [sW1]
  after_results_simp
  unfold stRow1
  rfl

theorem pW1_main_v87 (V0 : Valuation τ sig (Elt Ideal)) :
    pW1 V0 (Proc.devRef .tc main_v87) = stMat1 (pB1 V0 (Proc.devRef .tc main_arg7)) := by
  show after sW1 (pB1 V0) _ = _
  generalize pB1 V0 = W
  simp only [sW1]
  after_results_simp
  unfold stMat1
  rfl

set_option maxRecDepth 8192 in
theorem pG1_main_v105 (V0 : Valuation τ sig (Elt Ideal)) :
    pG1 V0 (Proc.devRef .tc main_v105) = aggCore (pW1 V0 (Proc.devRef .tc main_v81)) (pW1 V0 (Proc.devRef .tc main_v1)) (pW1 V0 (Proc.devRef .tc main_v3)) := by
  show after sG1 (pW1 V0) _ = _
  generalize pW1 V0 = W
  simp only [sG1]
  after_results_simp
  unfold aggCore
  rfl

theorem pS1_main_v111 (V0 : Valuation τ sig (Elt Ideal)) :
    pS1 V0 (Proc.devRef .tc main_v111) = stSage (pG1 V0 (Proc.devRef .tc main_v105)) (pG1 V0 (Proc.devRef .tc main_v81)) (pG1 V0 (Proc.devRef .tc main_v83)) (pG1 V0 (Proc.devRef .tc main_v85)) (pG1 V0 (Proc.devRef .tc main_v87)) := by
  show after sS1 (pG1 V0) _ = _
  generalize pG1 V0 = W
  simp only [sS1]
  after_results_simp
  unfold stSage
  rfl

theorem pR1_main_v113 (V0 : Valuation τ sig (Elt Ideal)) :
    pR1 V0 (Proc.devRef .tc main_v113) = stRow1 (pS1 V0 (Proc.devRef .tc main_arg8)) := by
  show after sR1 (pS1 V0) _ = _
  generalize pS1 V0 = W
  simp only [sR1]
  after_results_simp
  unfold stRow1
  rfl

theorem pR1_main_v115 (V0 : Valuation τ sig (Elt Ideal)) :
    pR1 V0 (Proc.devRef .tc main_v115) = stRow1 (pS1 V0 (Proc.devRef .tc main_arg9)) := by
  show after sR1 (pS1 V0) _ = _
  generalize pS1 V0 = W
  simp only [sR1]
  after_results_simp
  unfold stRow1
  rfl

end Cert.ReferenceIdeal.RefStages

end
-- ==== Proof.RefStageP2.lean ====
/- The reference program's operation list read stretch by stretch at the exact extended reals, part 2 of 4: what
   each stretch leaves in its result buffer is the stage's term of what the device held in the stage's input buffers
   before the stretch. -/
import proofs.«119291_j39402029973518_1_alg».proof.Proof.RefStageDefs

set_option Elab.async false

noncomputable section

namespace Cert.ReferenceIdeal.RefStages

open Cert.ReferenceIdeal Cert.ReferenceIdeal.Gen Cert.ReferenceIdeal.RefRun Idealize.ShloMosaic Idealize.ShloMosaic.TcCoe Idealize.SL.Sem Idealize.ShloMosaic.StableHlo

/-! ## Each stretch's result from the contents before it -/

theorem pM2_main_v118 (V0 : Valuation τ sig (Elt Ideal)) :
    pM2 V0 (Proc.devRef .tc main_v118) = stMean (pR1 V0 (Proc.devRef .tc main_v111)) := by
  show after sM2 (pR1 V0) _ = _
  generalize pR1 V0 = W
  simp only [sM2]
  after_results_simp
  unfold stMean
  rfl

set_option maxRecDepth 8192 in
theorem pV2_main_v119 (V0 : Valuation τ sig (Elt Ideal)) :
    pV2 V0 (Proc.devRef .tc main_v119) = stVar (pM2 V0 (Proc.devRef .tc main_v111)) := by
  show after sV2 (pM2 V0) _ = _
  generalize pM2 V0 = W
  simp only [sV2]
  after_results_simp
  simp only [ofBuf_toBuf]
  unfold stVar
  rfl

set_option maxRecDepth 8192 in
theorem pB2_main_v135 (V0 : Valuation τ sig (Elt Ideal)) :
    pB2 V0 (Proc.devRef .tc main_v135) = stBnRelu (pV2 V0 (Proc.devRef .tc main_v111)) (pV2 V0 (Proc.devRef .tc main_v113)) (pV2 V0 (Proc.devRef .tc main_v115)) (pV2 V0 (Proc.devRef .tc main_v118)) (pV2 V0 (Proc.devRef .tc main_v119)) := by
  show after sB2 (pV2 V0) _ = _
  generalize pV2 V0 = W
  simp only [sB2]
  after_results_simp
  simp only [ofBuf_toBuf]
  unfold stBnRelu
  rfl

theorem pW2_main_v137 (V0 : Valuation τ sig (Elt Ideal)) :
    pW2 V0 (Proc.devRef .tc main_v137) = stMat2 (pB2 V0 (Proc.devRef .tc main_arg5)) := by
  show after sW2 (pB2 V0) _ = _
  generalize pB2 V0 = W
  simp only [sW2]
  after_results_simp
  unfold stMat2
  rfl

theorem pW2_main_v139 (V0 : Valuation τ sig (Elt Ideal)) :
    pW2 V0 (Proc.devRef .tc main_v139) = stRow2 (pB2 V0 (Proc.devRef .tc main_arg6)) := by
  show after sW2 (pB2 V0) _ = _
  generalize pB2 V0 = W
  simp only [sW2]
  after_results_simp
  unfold stRow2
  rfl

theorem pW2_main_v141 (V0 : Valuation τ sig (Elt Ideal)) :
    pW2 V0 (Proc.devRef .tc main_v141) = stMat2 (pB2 V0 (Proc.devRef .tc main_arg7)) := by
  show after sW2 (pB2 V0) _ = _
  generalize pB2 V0 = W
  simp only [sW2]
  after_results_simp
  unfold stMat2
  rfl

set_option maxRecDepth 8192 in
theorem pG2_main_v159 (V0 : Valuation τ sig (Elt Ideal)) :
    pG2 V0 (Proc.devRef .tc main_v159) = aggCore (pW2 V0 (Proc.devRef .tc main_v135)) (pW2 V0 (Proc.devRef .tc main_v1)) (pW2 V0 (Proc.devRef .tc main_v3)) := by
  show after sG2 (pW2 V0) _ = _
  generalize pW2 V0 = W
  simp only [sG2]
  after_results_simp
  unfold aggCore
  rfl

theorem pS2_main_v165 (V0 : Valuation τ sig (Elt Ideal)) :
    pS2 V0 (Proc.devRef .tc main_v165) = stSage (pG2 V0 (Proc.devRef .tc main_v159)) (pG2 V0 (Proc.devRef .tc main_v135)) (pG2 V0 (Proc.devRef .tc main_v137)) (pG2 V0 (Proc.devRef .tc main_v139)) (pG2 V0 (Proc.devRef .tc main_v141)) := by
  show after sS2 (pG2 V0) _ = _
  generalize pG2 V0 = W
  simp only [sS2]
  after_results_simp
  unfold stSage
  rfl

theorem pR2_main_v167 (V0 : Valuation τ sig (Elt Ideal)) :
    pR2 V0 (Proc.devRef .tc main_v167) = stRow2 (pS2 V0 (Proc.devRef .tc main_arg8)) := by
  show after sR2 (pS2 V0) _ = _
  generalize pS2 V0 = W
  simp only [sR2]
  after_results_simp
  unfold stRow2
  rfl

theorem pR2_main_v169 (V0 : Valuation τ sig (Elt Ideal)) :
    pR2 V0 (Proc.devRef .tc main_v169) = stRow2 (pS2 V0 (Proc.devRef .tc main_arg9)) := by
  show after sR2 (pS2 V0) _ = _
  generalize pS2 V0 = W
  simp only [sR2]
  after_results_simp
  unfold stRow2
  rfl

end Cert.ReferenceIdeal.RefStages

end
-- ==== Proof.RefStageP3.lean ====
/- The reference program's operation list read stretch by stretch at the exact extended reals, part 3 of 4: what
   each stretch leaves in its result buffer is the stage's term of what the device held in the stage's input buffers
   before the stretch. -/
import proofs.«119291_j39402029973518_1_alg».proof.Proof.RefStageDefs

set_option Elab.async false

noncomputable section

namespace Cert.ReferenceIdeal.RefStages

open Cert.ReferenceIdeal Cert.ReferenceIdeal.Gen Cert.ReferenceIdeal.RefRun Idealize.ShloMosaic Idealize.ShloMosaic.TcCoe Idealize.SL.Sem Idealize.ShloMosaic.StableHlo

/-! ## Each stretch's result from the contents before it -/

theorem pM3_main_v172 (V0 : Valuation τ sig (Elt Ideal)) :
    pM3 V0 (Proc.devRef .tc main_v172) = stMean (pR2 V0 (Proc.devRef .tc main_v165)) := by
  show after sM3 (pR2 V0) _ = _
  generalize pR2 V0 = W
  simp only [sM3]
  after_results_simp
  unfold stMean
  rfl

set_option maxRecDepth 8192 in
theorem pV3_main_v173 (V0 : Valuation τ sig (Elt Ideal)) :
    pV3 V0 (Proc.devRef .tc main_v173) = stVar (pM3 V0 (Proc.devRef .tc main_v165)) := by
  show after sV3 (pM3 V0) _ = _
  generalize pM3 V0 = W
  simp only [sV3]
  after_results_simp
  simp only [ofBuf_toBuf]
  unfold stVar
  rfl

set_option maxRecDepth 8192 in
theorem pB3_main_v189 (V0 : Valuation τ sig (Elt Ideal)) :
    pB3 V0 (Proc.devRef .tc main_v189) = stBnRelu (pV3 V0 (Proc.devRef .tc main_v165)) (pV3 V0 (Proc.devRef .tc main_v167)) (pV3 V0 (Proc.devRef .tc main_v169)) (pV3 V0 (Proc.devRef .tc main_v172)) (pV3 V0 (Proc.devRef .tc main_v173)) := by
  show after sB3 (pV3 V0) _ = _
  generalize pV3 V0 = W
  simp only [sB3]
  after_results_simp
  simp only [ofBuf_toBuf]
  unfold stBnRelu
  rfl

theorem pW3_main_v191 (V0 : Valuation τ sig (Elt Ideal)) :
    pW3 V0 (Proc.devRef .tc main_v191) = stMat3 (pB3 V0 (Proc.devRef .tc main_arg5)) := by
  show after sW3 (pB3 V0) _ = _
  generalize pB3 V0 = W
  simp only [sW3]
  after_results_simp
  unfold stMat3
  rfl

theorem pW3_main_v193 (V0 : Valuation τ sig (Elt Ideal)) :
    pW3 V0 (Proc.devRef .tc main_v193) = stRow3 (pB3 V0 (Proc.devRef .tc main_arg6)) := by
  show after sW3 (pB3 V0) _ = _
  generalize pB3 V0 = W
  simp only [sW3]
  after_results_simp
  unfold stRow3
  rfl

theorem pW3_main_v195 (V0 : Valuation τ sig (Elt Ideal)) :
    pW3 V0 (Proc.devRef .tc main_v195) = stMat3 (pB3 V0 (Proc.devRef .tc main_arg7)) := by
  show after sW3 (pB3 V0) _ = _
  generalize pB3 V0 = W
  simp only [sW3]
  after_results_simp
  unfold stMat3
  rfl

set_option maxRecDepth 8192 in
theorem pG3_main_v213 (V0 : Valuation τ sig (Elt Ideal)) :
    pG3 V0 (Proc.devRef .tc main_v213) = aggCore (pW3 V0 (Proc.devRef .tc main_v189)) (pW3 V0 (Proc.devRef .tc main_v1)) (pW3 V0 (Proc.devRef .tc main_v3)) := by
  show after sG3 (pW3 V0) _ = _
  generalize pW3 V0 = W
  simp only [sG3]
  after_results_simp
  unfold aggCore
  rfl

theorem pS3_main_v219 (V0 : Valuation τ sig (Elt Ideal)) :
    pS3 V0 (Proc.devRef .tc main_v219) = stSage (pG3 V0 (Proc.devRef .tc main_v213)) (pG3 V0 (Proc.devRef .tc main_v189)) (pG3 V0 (Proc.devRef .tc main_v191)) (pG3 V0 (Proc.devRef .tc main_v193)) (pG3 V0 (Proc.devRef .tc main_v195)) := by
  show after sS3 (pG3 V0) _ = _
  generalize pG3 V0 = W
  simp only [sS3]
  after_results_simp
  unfold stSage
  rfl

theorem pO_main_v223 (V0 : Valuation τ sig (Elt Ideal)) :
    pO V0 (Proc.devRef .tc main_v223) = stDenseOut (pS3 V0 (Proc.devRef .tc main_v219)) (pS3 V0 (Proc.devRef .tc main_arg10)) (pS3 V0 (Proc.devRef .tc main_arg11)) := by
  show after sO (pS3 V0) _ = _
  generalize pS3 V0 = W
  simp only [sO]
  after_results_simp
  unfold stDenseOut
  rfl

end Cert.ReferenceIdeal.RefStages

end
-- ==== Proof.RefStages.lean ====
/- The reference program read stage by stage at the exact extended reals: for every stage, what the whole run leaves in
   the stage's result buffer is the stage's term of what it leaves in the stage's input buffers; the run never writes an
   argument. -/
import proofs.«119291_j39402029973518_1_alg».proof.Proof.RefStageP0
import proofs.«119291_j39402029973518_1_alg».proof.Proof.RefStageP1
import proofs.«119291_j39402029973518_1_alg».proof.Proof.RefStageP2
import proofs.«119291_j39402029973518_1_alg».proof.Proof.RefStageP3

set_option Elab.async false

noncomputable section

namespace Cert.ReferenceIdeal.RefStages

open Cert.ReferenceIdeal Cert.ReferenceIdeal.Gen Cert.ReferenceIdeal.RefRun Idealize.ShloMosaic Idealize.ShloMosaic.TcCoe Idealize.SL.Sem Idealize.ShloMosaic.StableHlo

/-! ## The run's readings -/

variable (m : (ℓ : Loc nD τ sig) → Buf (Elt Ideal) ℓ) (d : Dev nD)

set_option maxRecDepth 65536 in
theorem R_main_arg0 : R m d main_arg0 = m ((d.tc : Thread nD τ).loc main_arg0) :=
  (final_arg (launchContents m d) main_arg0 (by decide)).trans rfl

set_option maxRecDepth 65536 in
theorem R_main_arg1 : R m d main_arg1 = m ((d.tc : Thread nD τ).loc main_arg1) :=
  (final_arg (launchContents m d) main_arg1 (by decide)).trans rfl

set_option maxRecDepth 65536 in
theorem R_main_arg2 : R m d main_arg2 = m ((d.tc : Thread nD τ).loc main_arg2) :=
  (final_arg (launchContents m d) main_arg2 (by decide)).trans rfl

set_option maxRecDepth 65536 in
theorem R_main_arg3 : R m d main_arg3 = m ((d.tc : Thread nD τ).loc main_arg3) :=
  (final_arg (launchContents m d) main_arg3 (by decide)).trans rfl

set_option maxRecDepth 65536 in
theorem R_main_arg4 : R m d main_arg4 = m ((d.tc : Thread nD τ).loc main_arg4) :=
  (final_arg (launchContents m d) main_arg4 (by decide)).trans rfl

set_option maxRecDepth 65536 in
theorem R_main_arg5 : R m d main_arg5 = m ((d.tc : Thread nD τ).loc main_arg5) :=
  (final_arg (launchContents m d) main_arg5 (by decide)).trans rfl

set_option maxRecDepth 65536 in
theorem R_main_arg6 : R m d main_arg6 = m ((d.tc : Thread nD τ).loc main_arg6) :=
  (final_arg (launchContents m d) main_arg6 (by decide)).trans rfl

set_option maxRecDepth 65536 in
theorem R_main_arg7 : R m d main_arg7 = m ((d.tc : Thread nD τ).loc main_arg7) :=
  (final_arg (launchContents m d) main_arg7 (by decide)).trans rfl

set_option maxRecDepth 65536 in
theorem R_main_arg8 : R m d main_arg8 = m ((d.tc : Thread nD τ).loc main_arg8) :=
  (final_arg (launchContents m d) main_arg8 (by decide)).trans rfl

set_option maxRecDepth 65536 in
theorem R_main_arg9 : R m d main_arg9 = m ((d.tc : Thread nD τ).loc main_arg9) :=
  (final_arg (launchContents m d) main_arg9 (by decide)).trans rfl

set_option maxRecDepth 65536 in
theorem R_main_arg10 : R m d main_arg10 = m ((d.tc : Thread nD τ).loc main_arg10) :=
  (final_arg (launchContents m d) main_arg10 (by decide)).trans rfl

set_option maxRecDepth 65536 in
theorem R_main_arg11 : R m d main_arg11 = m ((d.tc : Thread nD τ).loc main_arg11) :=
  (final_arg (launchContents m d) main_arg11 (by decide)).trans rfl

set_option maxRecDepth 65536 in
theorem R_main_arg12 : R m d main_arg12 = m ((d.tc : Thread nD τ).loc main_arg12) :=
  (final_arg (launchContents m d) main_arg12 (by decide)).trans rfl

set_option maxRecDepth 65536 in
theorem R_main_v1 : R m d main_v1 = stSrc (R m d main_arg12) := by
  unfold R
  rw [final_E _ main_v1 (by decide), pE_main_v1, final_arg _ main_arg12 (by decide)]

set_option maxRecDepth 65536 in
theorem R_main_v3 : R m d main_v3 = stDst (R m d main_arg12) := by
  unfold R
  rw [final_E _ main_v3 (by decide), pE_main_v3, final_arg _ main_arg12 (by decide)]

set_option maxRecDepth 65536 in
theorem R_main_v7 : R m d main_v7 = stDense (R m d main_arg0) (R m d main_arg1) (R m d main_arg2) := by
  unfold R
  rw [final_D _ main_v7 (by decide), pD_main_v7, final_E _ main_arg0 (by decide), final_E _ main_arg1 (by decide), final_E _ main_arg2 (by decide)]

set_option maxRecDepth 65536 in
theorem R_main_v10 : R m d main_v10 = stMean (R m d main_v7) := by
  unfold R
  rw [final_M0 _ main_v10 (by decide), pM0_main_v10, final_D _ main_v7 (by decide)]

set_option maxRecDepth 65536 in
theorem R_main_v11 : R m d main_v11 = stVar (R m d main_v7) := by
  unfold R
  rw [final_V0 _ main_v11 (by decide), pV0_main_v11, final_M0 _ main_v7 (by decide)]

set_option maxRecDepth 65536 in
theorem R_main_v27 : R m d main_v27 = stBnRelu (R m d main_v7) (R m d main_arg3) (R m d main_arg4) (R m d main_v10) (R m d main_v11) := by
  unfold R
  rw [final_B0 _ main_v27 (by decide), pB0_main_v27, final_V0 _ main_v7 (by decide), final_V0 _ main_arg3 (by decide), final_V0 _ main_arg4 (by decide), final_V0 _ main_v10 (by decide), final_V0 _ main_v11 (by decide)]

set_option maxRecDepth 65536 in
theorem R_main_v29 : R m d main_v29 = stMat0 (R m d main_arg5) := by
  unfold R
  rw [final_W0 _ main_v29 (by decide), pW0_main_v29, final_B0 _ main_arg5 (by decide)]

set_option maxRecDepth 65536 in
theorem R_main_v31 : R m d main_v31 = stRow0 (R m d main_arg6) := by
  unfold R
  rw [final_W0 _ main_v31 (by decide), pW0_main_v31, final_B0 _ main_arg6 (by decide)]

set_option maxRecDepth 65536 in
theorem R_main_v33 : R m d main_v33 = stMat0 (R m d main_arg7) := by
  unfold R
  rw [final_W0 _ main_v33 (by decide), pW0_main_v33, final_B0 _ main_arg7 (by decide)]

set_option maxRecDepth 65536 in
theorem R_main_v51_core : R m d main_v51 = aggCore (R m d main_v27) (R m d main_v1) (R m d main_v3) := by
  unfold R
  rw [final_G0 _ main_v51 (by decide), pG0_main_v51, final_W0 _ main_v27 (by decide), final_W0 _ main_v1 (by decide), final_W0 _ main_v3 (by decide)]

theorem R_main_v51 : R m d main_v51 = stAgg (R m d main_v27) (R m d main_arg12) := by
  rw [R_main_v51_core, R_main_v1, R_main_v3]; rfl

set_option maxRecDepth 65536 in
theorem R_main_v57 : R m d main_v57 = stSage (R m d main_v51) (R m d main_v27) (R m d main_v29) (R m d main_v31) (R m d main_v33) := by
  unfold R
  rw [final_S0 _ main_v57 (by decide), pS0_main_v57, final_G0 _ main_v51 (by decide), final_G0 _ main_v27 (by decide), final_G0 _ main_v29 (by decide), final_G0 _ main_v31 (by decide), final_G0 _ main_v33 (by decide)]

set_option maxRecDepth 65536 in
theorem R_main_v59 : R m d main_v59 = stRow0 (R m d main_arg8) := by
  unfold R
  rw [final_R0 _ main_v59 (by decide), pR0_main_v59, final_S0 _ main_arg8 (by decide)]

set_option maxRecDepth 65536 in
theorem R_main_v61 : R m d main_v61 = stRow0 (R m d main_arg9) := by
  unfold R
  rw [final_R0 _ main_v61 (by decide), pR0_main_v61, final_S0 _ main_arg9 (by decide)]

set_option maxRecDepth 65536 in
theorem R_main_v64 : R m d main_v64 = stMean (R m d main_v57) := by
  unfold R
  rw [final_M1 _ main_v64 (by decide), pM1_main_v64, final_R0 _ main_v57 (by decide)]

set_option maxRecDepth 65536 in
theorem R_main_v65 : R m d main_v65 = stVar (R m d main_v57) := by
  unfold R
  rw [final_V1 _ main_v65 (by decide), pV1_main_v65, final_M1 _ main_v57 (by decide)]

set_option maxRecDepth 65536 in
theorem R_main_v81 : R m d main_v81 = stBnRelu (R m d main_v57) (R m d main_v59) (R m d main_v61) (R m d main_v64) (R m d main_v65) := by
  unfold R
  rw [final_B1 _ main_v81 (by decide), pB1_main_v81, final_V1 _ main_v57 (by decide), final_V1 _ main_v59 (by decide), final_V1 _ main_v61 (by decide), final_V1 _ main_v64 (by decide), final_V1 _ main_v65 (by decide)]

set_option maxRecDepth 65536 in
theorem R_main_v83 : R m d main_v83 = stMat1 (R m d main_arg5) := by
  unfold R
  rw [final_W1 _ main_v83 (by decide), pW1_main_v83, final_B1 _ main_arg5 (by decide)]

set_option maxRecDepth 65536 in
theorem R_main_v85 : R m d main_v85 = stRow1 (R m d main_arg6) := by
  unfold R
  rw [final_W1 _ main_v85 (by decide), pW1_main_v85, final_B1 _ main_arg6 (by decide)]

set_option maxRecDepth 65536 in
theorem R_main_v87 : R m d main_v87 = stMat1 (R m d main_arg7) := by
  unfold R
  rw [final_W1 _ main_v87 (by decide), pW1_main_v87, final_B1 _ main_arg7 (by decide)]

set_option maxRecDepth 65536 in
theorem R_main_v105_core : R m d main_v105 = aggCore (R m d main_v81) (R m d main_v1) (R m d main_v3) := by
  unfold R
  rw [final_G1 _ main_v105 (by decide), pG1_main_v105, final_W1 _ main_v81 (by decide), final_W1 _ main_v1 (by decide), final_W1 _ main_v3 (by decide)]

theorem R_main_v105 : R m d main_v105 = stAgg (R m d main_v81) (R m d main_arg12) := by
  rw [R_main_v105_core, R_main_v1, R_main_v3]; rfl

set_option maxRecDepth 65536 in
theorem R_main_v111 : R m d main_v111 = stSage (R m d main_v105) (R m d main_v81) (R m d main_v83) (R m d main_v85) (R m d main_v87) := by
  unfold R
  rw [final_S1 _ main_v111 (by decide), pS1_main_v111, final_G1 _ main_v105 (by decide), final_G1 _ main_v81 (by decide), final_G1 _ main_v83 (by decide), final_G1 _ main_v85 (by decide), final_G1 _ main_v87 (by decide)]

set_option maxRecDepth 65536 in
theorem R_main_v113 : R m d main_v113 = stRow1 (R m d main_arg8) := by
  unfold R
  rw [final_R1 _ main_v113 (by decide), pR1_main_v113, final_S1 _ main_arg8 (by decide)]

set_option maxRecDepth 65536 in
theorem R_main_v115 : R m d main_v115 = stRow1 (R m d main_arg9) := by
  unfold R
  rw [final_R1 _ main_v115 (by decide), pR1_main_v115, final_S1 _ main_arg9 (by decide)]

set_option maxRecDepth 65536 in
theorem R_main_v118 : R m d main_v118 = stMean (R m d main_v111) := by
  unfold R
  rw [final_M2 _ main_v118 (by decide), pM2_main_v118, final_R1 _ main_v111 (by decide)]

set_option maxRecDepth 65536 in
theorem R_main_v119 : R m d main_v119 = stVar (R m d main_v111) := by
  unfold R
  rw [final_V2 _ main_v119 (by decide), pV2_main_v119, final_M2 _ main_v111 (by decide)]

set_option maxRecDepth 65536 in
theorem R_main_v135 : R m d main_v135 = stBnRelu (R m d main_v111) (R m d main_v113) (R m d main_v115) (R m d main_v118) (R m d main_v119) := by
  unfold R
  rw [final_B2 _ main_v135 (by decide), pB2_main_v135, final_V2 _ main_v111 (by decide), final_V2 _ main_v113 (by decide), final_V2 _ main_v115 (by decide), final_V2 _ main_v118 (by decide), final_V2 _ main_v119 (by decide)]

set_option maxRecDepth 65536 in
theorem R_main_v137 : R m d main_v137 = stMat2 (R m d main_arg5) := by
  unfold R
  rw [final_W2 _ main_v137 (by decide), pW2_main_v137, final_B2 _ main_arg5 (by decide)]

set_option maxRecDepth 65536 in
theorem R_main_v139 : R m d main_v139 = stRow2 (R m d main_arg6) := by
  unfold R
  rw [final_W2 _ main_v139 (by decide), pW2_main_v139, final_B2 _ main_arg6 (by decide)]

set_option maxRecDepth 65536 in
theorem R_main_v141 : R m d main_v141 = stMat2 (R m d main_arg7) := by
  unfold R
  rw [final_W2 _ main_v141 (by decide), pW2_main_v141, final_B2 _ main_arg7 (by decide)]

set_option maxRecDepth 65536 in
theorem R_main_v159_core : R m d main_v159 = aggCore (R m d main_v135) (R m d main_v1) (R m d main_v3) := by
  unfold R
  rw [final_G2 _ main_v159 (by decide), pG2_main_v159, final_W2 _ main_v135 (by decide), final_W2 _ main_v1 (by decide), final_W2 _ main_v3 (by decide)]

theorem R_main_v159 : R m d main_v159 = stAgg (R m d main_v135) (R m d main_arg12) := by
  rw [R_main_v159_core, R_main_v1, R_main_v3]; rfl

set_option maxRecDepth 65536 in
theorem R_main_v165 : R m d main_v165 = stSage (R m d main_v159) (R m d main_v135) (R m d main_v137) (R m d main_v139) (R m d main_v141) := by
  unfold R
  rw [final_S2 _ main_v165 (by decide), pS2_main_v165, final_G2 _ main_v159 (by decide), final_G2 _ main_v135 (by decide), final_G2 _ main_v137 (by decide), final_G2 _ main_v139 (by decide), final_G2 _ main_v141 (by decide)]

set_option maxRecDepth 65536 in
theorem R_main_v167 : R m d main_v167 = stRow2 (R m d main_arg8) := by
  unfold R
  rw [final_R2 _ main_v167 (by decide), pR2_main_v167, final_S2 _ main_arg8 (by decide)]

set_option maxRecDepth 65536 in
theorem R_main_v169 : R m d main_v169 = stRow2 (R m d main_arg9) := by
  unfold R
  rw [final_R2 _ main_v169 (by decide), pR2_main_v169, final_S2 _ main_arg9 (by decide)]

set_option maxRecDepth 65536 in
theorem R_main_v172 : R m d main_v172 = stMean (R m d main_v165) := by
  unfold R
  rw [final_M3 _ main_v172 (by decide), pM3_main_v172, final_R2 _ main_v165 (by decide)]

set_option maxRecDepth 65536 in
theorem R_main_v173 : R m d main_v173 = stVar (R m d main_v165) := by
  unfold R
  rw [final_V3 _ main_v173 (by decide), pV3_main_v173, final_M3 _ main_v165 (by decide)]

set_option maxRecDepth 65536 in
theorem R_main_v189 : R m d main_v189 = stBnRelu (R m d main_v165) (R m d main_v167) (R m d main_v169) (R m d main_v172) (R m d main_v173) := by
  unfold R
  rw [final_B3 _ main_v189 (by decide), pB3_main_v189, final_V3 _ main_v165 (by decide), final_V3 _ main_v167 (by decide), final_V3 _ main_v169 (by decide), final_V3 _ main_v172 (by decide), final_V3 _ main_v173 (by decide)]

set_option maxRecDepth 65536 in
theorem R_main_v191 : R m d main_v191 = stMat3 (R m d main_arg5) := by
  unfold R
  rw [final_W3 _ main_v191 (by decide), pW3_main_v191, final_B3 _ main_arg5 (by decide)]

set_option maxRecDepth 65536 in
theorem R_main_v193 : R m d main_v193 = stRow3 (R m d main_arg6) := by
  unfold R
  rw [final_W3 _ main_v193 (by decide), pW3_main_v193, final_B3 _ main_arg6 (by decide)]

set_option maxRecDepth 65536 in
theorem R_main_v195 : R m d main_v195 = stMat3 (R m d main_arg7) := by
  unfold R
  rw [final_W3 _ main_v195 (by decide), pW3_main_v195, final_B3 _ main_arg7 (by decide)]

set_option maxRecDepth 65536 in
theorem R_main_v213_core : R m d main_v213 = aggCore (R m d main_v189) (R m d main_v1) (R m d main_v3) := by
  unfold R
  rw [final_G3 _ main_v213 (by decide), pG3_main_v213, final_W3 _ main_v189 (by decide), final_W3 _ main_v1 (by decide), final_W3 _ main_v3 (by decide)]

theorem R_main_v213 : R m d main_v213 = stAgg (R m d main_v189) (R m d main_arg12) := by
  rw [R_main_v213_core, R_main_v1, R_main_v3]; rfl

set_option maxRecDepth 65536 in
theorem R_main_v219 : R m d main_v219 = stSage (R m d main_v213) (R m d main_v189) (R m d main_v191) (R m d main_v193) (R m d main_v195) := by
  unfold R
  rw [final_S3 _ main_v219 (by decide), pS3_main_v219, final_G3 _ main_v213 (by decide), final_G3 _ main_v189 (by decide), final_G3 _ main_v191 (by decide), final_G3 _ main_v193 (by decide), final_G3 _ main_v195 (by decide)]

set_option maxRecDepth 65536 in
theorem R_main_v223 : R m d main_v223 = stDenseOut (R m d main_v219) (R m d main_arg10) (R m d main_arg11) := by
  unfold R
  rw [final_O _ main_v223, pO_main_v223, final_S3 _ main_v219 (by decide), final_S3 _ main_arg10 (by decide), final_S3 _ main_arg11 (by decide)]

end Cert.ReferenceIdeal.RefStages

end
-- ==== Proof.KernelCarry.lean ====
import proofs.«119291_j39402029973518_1_alg».proof.Proof.Gen.KernelIdeal.Frame

/-! What each host stretch writes, and the buffers every segment of the program leaves alone: a reference that a
stretch does not write, or that is not one of a region's arrays, holds at the segment's end what it held at its start. -/

set_option maxRecDepth 16384

noncomputable section

namespace Cert.KernelIdeal.Stages

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable (m : (ℓ : Loc nD τ sig) → Buf (Elt F) ℓ) (ρ : Dev nD → PrngReg) (c : Dev nD)

/-! ## The references each stretch writes -/

/-- The references `hostOps0`'s operations write, in order. -/
abbrev hostOps0_W : List (Ref sig .tc) := [main_v0, main_v1, main_v2, main_v3, main_v4]
theorem hostOps0_writes : (hostOps0 : List (HloOp τ sig (Elt F))).Forall fun op => op.writes ⊆ ((hostOps0_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references `hostOps1`'s operations write, in order. -/
abbrev hostOps1_W : List (Ref sig .tc) := [main_cst, main_v6, main_v7, main_cst_0, main_v8, main_v9, main_c]
theorem hostOps1_writes : (hostOps1 : List (HloOp τ sig (Elt F))).Forall fun op => op.writes ⊆ ((hostOps1_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references `hostOps1_1`'s operations write, in order. -/
abbrev hostOps1_1_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v10]
theorem hostOps1_1_writes : (hostOps1_1 : List (HloOp τ sig (Elt F))).Forall fun op => op.writes ⊆ ((hostOps1_1_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references `hostOps1_2`'s operations write, in order. -/
abbrev hostOps1_2_W : List (Ref sig .tc) := [main_v11, main_v12]
theorem hostOps1_2_writes : (hostOps1_2 : List (HloOp τ sig (Elt F))).Forall fun op => op.writes ⊆ ((hostOps1_2_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references `hostOps2`'s operations write, in order. -/
abbrev hostOps2_W : List (Ref sig .tc) := [main_cst_1, main_v14, main_cst_2, main_v15, main_v16, main_v17, main_cst_3, main_v18, main_v19, main_c_4, main_v20, main_v21, main_c_5, main_v22, main_v23, main_v24, main_v25, main_v26, main_cst_6, main_v27, main_v28, main_v29, main_v30, main_v31, main_v32, main_v33, main_v34, main_v35, main_v36, main_v37, main_v38]
theorem hostOps2_writes : (hostOps2 : List (HloOp τ sig (Elt F))).Forall fun op => op.writes ⊆ ((hostOps2_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references `hostOps3`'s operations write, in order. -/
abbrev hostOps3_W : List (Ref sig .tc) := [main_cst_7, main_v40, main_v41, main_cst_8, main_v42, main_v43, main_c_9]
theorem hostOps3_writes : (hostOps3 : List (HloOp τ sig (Elt F))).Forall fun op => op.writes ⊆ ((hostOps3_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references `hostOps3_1`'s operations write, in order. -/
abbrev hostOps3_1_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v44]
theorem hostOps3_1_writes : (hostOps3_1 : List (HloOp τ sig (Elt F))).Forall fun op => op.writes ⊆ ((hostOps3_1_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references `hostOps3_2`'s operations write, in order. -/
abbrev hostOps3_2_W : List (Ref sig .tc) := [main_v45, main_v46, main_v47, main_v48, main_v49, main_v50]
theorem hostOps3_2_writes : (hostOps3_2 : List (HloOp τ sig (Elt F))).Forall fun op => op.writes ⊆ ((hostOps3_2_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references `hostOps4`'s operations write, in order. -/
abbrev hostOps4_W : List (Ref sig .tc) := [main_c_10, main_v52, main_v53, main_c_11, main_v54, main_v55, main_v56, main_v57, main_v58, main_cst_12, main_v59, main_v60, main_v61, main_v62, main_v63, main_v64, main_v65, main_v66, main_v67, main_v68, main_v69, main_v70]
theorem hostOps4_writes : (hostOps4 : List (HloOp τ sig (Elt F))).Forall fun op => op.writes ⊆ ((hostOps4_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references `hostOps5`'s operations write, in order. -/
abbrev hostOps5_W : List (Ref sig .tc) := [main_cst_13, main_v72, main_v73, main_cst_14, main_v74, main_v75, main_c_15]
theorem hostOps5_writes : (hostOps5 : List (HloOp τ sig (Elt F))).Forall fun op => op.writes ⊆ ((hostOps5_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references `hostOps5_1`'s operations write, in order. -/
abbrev hostOps5_1_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v76]
theorem hostOps5_1_writes : (hostOps5_1 : List (HloOp τ sig (Elt F))).Forall fun op => op.writes ⊆ ((hostOps5_1_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references `hostOps5_2`'s operations write, in order. -/
abbrev hostOps5_2_W : List (Ref sig .tc) := [main_v77, main_v78, main_v79, main_v80, main_v81, main_v82]
theorem hostOps5_2_writes : (hostOps5_2 : List (HloOp τ sig (Elt F))).Forall fun op => op.writes ⊆ ((hostOps5_2_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references `hostOps6`'s operations write, in order. -/
abbrev hostOps6_W : List (Ref sig .tc) := [main_c_16, main_v84, main_v85, main_c_17, main_v86, main_v87, main_v88, main_v89, main_v90, main_cst_18, main_v91, main_v92, main_v93, main_v94, main_v95, main_v96, main_v97, main_v98, main_v99, main_v100, main_v101, main_v102]
theorem hostOps6_writes : (hostOps6 : List (HloOp τ sig (Elt F))).Forall fun op => op.writes ⊆ ((hostOps6_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references `hostOps7`'s operations write, in order. -/
abbrev hostOps7_W : List (Ref sig .tc) := [main_cst_19, main_v104, main_v105, main_cst_20, main_v106, main_v107, main_c_21]
theorem hostOps7_writes : (hostOps7 : List (HloOp τ sig (Elt F))).Forall fun op => op.writes ⊆ ((hostOps7_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references `hostOps7_1`'s operations write, in order. -/
abbrev hostOps7_1_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v108]
theorem hostOps7_1_writes : (hostOps7_1 : List (HloOp τ sig (Elt F))).Forall fun op => op.writes ⊆ ((hostOps7_1_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references `hostOps7_2`'s operations write, in order. -/
abbrev hostOps7_2_W : List (Ref sig .tc) := [main_v109, main_v110, main_v111, main_v112, main_v113, main_v114]
theorem hostOps7_2_writes : (hostOps7_2 : List (HloOp τ sig (Elt F))).Forall fun op => op.writes ⊆ ((hostOps7_2_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references `hostOps8`'s operations write, in order. -/
abbrev hostOps8_W : List (Ref sig .tc) := [main_c_22, main_v116, main_v117, main_c_23, main_v118, main_v119, main_v120, main_v121, main_v122, main_cst_24, main_v123, main_v124, main_v125, main_v126, main_v127, main_v128, main_v129, main_v130, main_v131, main_v132, main_v133, main_v134]
theorem hostOps8_writes : (hostOps8 : List (HloOp τ sig (Elt F))).Forall fun op => op.writes ⊆ ((hostOps8_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references `hostOps9`'s operations write, in order. -/
abbrev hostOps9_W : List (Ref sig .tc) := [main_v136]
theorem hostOps9_writes : (hostOps9 : List (HloOp τ sig (Elt F))).Forall fun op => op.writes ⊆ ((hostOps9_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## One segment at a time -/

theorem W1_of (r : Ref sig .tc) (h : r ∉ (hostOps0_W)) :
    Gen.W1 m ρ c (Proc.devRef .tc r) = Gen.W0 m ρ c (Proc.devRef .tc r) :=
  StableHlo.after_of_writes_sub hostOps0 _ hostOps0_writes h
theorem W2_of (r : Ref sig .tc) (h : ∀ w, Pipeline.arrRef spec0 w ≠ r) :
    Gen.W2 m ρ c (Proc.devRef .tc r) = Gen.W1 m ρ c (Proc.devRef .tc r) :=
  Gen.W2_of_ne m ρ c r h
theorem W3_of (r : Ref sig .tc) (h : r ∉ (hostOps1_W)) :
    Gen.W3 m ρ c (Proc.devRef .tc r) = Gen.W2 m ρ c (Proc.devRef .tc r) :=
  StableHlo.after_of_writes_sub hostOps1 _ hostOps1_writes h
theorem W4_of (r : Ref sig .tc) (h : r ∉ (hostOps1_1_W)) :
    Gen.W4 m ρ c (Proc.devRef .tc r) = Gen.W3 m ρ c (Proc.devRef .tc r) :=
  StableHlo.after_of_writes_sub hostOps1_1 _ hostOps1_1_writes h
theorem W5_of (r : Ref sig .tc) (h : r ∉ (hostOps1_2_W)) :
    Gen.W5 m ρ c (Proc.devRef .tc r) = Gen.W4 m ρ c (Proc.devRef .tc r) :=
  StableHlo.after_of_writes_sub hostOps1_2 _ hostOps1_2_writes h
theorem W6_of (r : Ref sig .tc) (h : ∀ w, Pipeline.arrRef spec1 w ≠ r) :
    Gen.W6 m ρ c (Proc.devRef .tc r) = Gen.W5 m ρ c (Proc.devRef .tc r) :=
  Gen.W6_of_ne m ρ c r h
theorem W7_of (r : Ref sig .tc) (h : r ∉ (hostOps2_W)) :
    Gen.W7 m ρ c (Proc.devRef .tc r) = Gen.W6 m ρ c (Proc.devRef .tc r) :=
  StableHlo.after_of_writes_sub hostOps2 _ hostOps2_writes h
theorem W8_of (r : Ref sig .tc) (h : ∀ w, Pipeline.arrRef spec2 w ≠ r) :
    Gen.W8 m ρ c (Proc.devRef .tc r) = Gen.W7 m ρ c (Proc.devRef .tc r) :=
  Gen.W8_of_ne m ρ c r h
theorem W9_of (r : Ref sig .tc) (h : r ∉ (hostOps3_W)) :
    Gen.W9 m ρ c (Proc.devRef .tc r) = Gen.W8 m ρ c (Proc.devRef .tc r) :=
  StableHlo.after_of_writes_sub hostOps3 _ hostOps3_writes h
theorem W10_of (r : Ref sig .tc) (h : r ∉ (hostOps3_1_W)) :
    Gen.W10 m ρ c (Proc.devRef .tc r) = Gen.W9 m ρ c (Proc.devRef .tc r) :=
  StableHlo.after_of_writes_sub hostOps3_1 _ hostOps3_1_writes h
theorem W11_of (r : Ref sig .tc) (h : r ∉ (hostOps3_2_W)) :
    Gen.W11 m ρ c (Proc.devRef .tc r) = Gen.W10 m ρ c (Proc.devRef .tc r) :=
  StableHlo.after_of_writes_sub hostOps3_2 _ hostOps3_2_writes h
theorem W12_of (r : Ref sig .tc) (h : ∀ w, Pipeline.arrRef spec3 w ≠ r) :
    Gen.W12 m ρ c (Proc.devRef .tc r) = Gen.W11 m ρ c (Proc.devRef .tc r) :=
  Gen.W12_of_ne m ρ c r h
theorem W13_of (r : Ref sig .tc) (h : r ∉ (hostOps4_W)) :
    Gen.W13 m ρ c (Proc.devRef .tc r) = Gen.W12 m ρ c (Proc.devRef .tc r) :=
  StableHlo.after_of_writes_sub hostOps4 _ hostOps4_writes h
theorem W14_of (r : Ref sig .tc) (h : ∀ w, Pipeline.arrRef spec4 w ≠ r) :
    Gen.W14 m ρ c (Proc.devRef .tc r) = Gen.W13 m ρ c (Proc.devRef .tc r) :=
  Gen.W14_of_ne m ρ c r h
theorem W15_of (r : Ref sig .tc) (h : r ∉ (hostOps5_W)) :
    Gen.W15 m ρ c (Proc.devRef .tc r) = Gen.W14 m ρ c (Proc.devRef .tc r) :=
  StableHlo.after_of_writes_sub hostOps5 _ hostOps5_writes h
theorem W16_of (r : Ref sig .tc) (h : r ∉ (hostOps5_1_W)) :
    Gen.W16 m ρ c (Proc.devRef .tc r) = Gen.W15 m ρ c (Proc.devRef .tc r) :=
  StableHlo.after_of_writes_sub hostOps5_1 _ hostOps5_1_writes h
theorem W17_of (r : Ref sig .tc) (h : r ∉ (hostOps5_2_W)) :
    Gen.W17 m ρ c (Proc.devRef .tc r) = Gen.W16 m ρ c (Proc.devRef .tc r) :=
  StableHlo.after_of_writes_sub hostOps5_2 _ hostOps5_2_writes h
theorem W18_of (r : Ref sig .tc) (h : ∀ w, Pipeline.arrRef spec5 w ≠ r) :
    Gen.W18 m ρ c (Proc.devRef .tc r) = Gen.W17 m ρ c (Proc.devRef .tc r) :=
  Gen.W18_of_ne m ρ c r h
theorem W19_of (r : Ref sig .tc) (h : r ∉ (hostOps6_W)) :
    Gen.W19 m ρ c (Proc.devRef .tc r) = Gen.W18 m ρ c (Proc.devRef .tc r) :=
  StableHlo.after_of_writes_sub hostOps6 _ hostOps6_writes h
theorem W20_of (r : Ref sig .tc) (h : ∀ w, Pipeline.arrRef spec6 w ≠ r) :
    Gen.W20 m ρ c (Proc.devRef .tc r) = Gen.W19 m ρ c (Proc.devRef .tc r) :=
  Gen.W20_of_ne m ρ c r h
theorem W21_of (r : Ref sig .tc) (h : r ∉ (hostOps7_W)) :
    Gen.W21 m ρ c (Proc.devRef .tc r) = Gen.W20 m ρ c (Proc.devRef .tc r) :=
  StableHlo.after_of_writes_sub hostOps7 _ hostOps7_writes h
theorem W22_of (r : Ref sig .tc) (h : r ∉ (hostOps7_1_W)) :
    Gen.W22 m ρ c (Proc.devRef .tc r) = Gen.W21 m ρ c (Proc.devRef .tc r) :=
  StableHlo.after_of_writes_sub hostOps7_1 _ hostOps7_1_writes h
theorem W23_of (r : Ref sig .tc) (h : r ∉ (hostOps7_2_W)) :
    Gen.W23 m ρ c (Proc.devRef .tc r) = Gen.W22 m ρ c (Proc.devRef .tc r) :=
  StableHlo.after_of_writes_sub hostOps7_2 _ hostOps7_2_writes h
theorem W24_of (r : Ref sig .tc) (h : ∀ w, Pipeline.arrRef spec7 w ≠ r) :
    Gen.W24 m ρ c (Proc.devRef .tc r) = Gen.W23 m ρ c (Proc.devRef .tc r) :=
  Gen.W24_of_ne m ρ c r h
theorem W25_of (r : Ref sig .tc) (h : r ∉ (hostOps8_W)) :
    Gen.W25 m ρ c (Proc.devRef .tc r) = Gen.W24 m ρ c (Proc.devRef .tc r) :=
  StableHlo.after_of_writes_sub hostOps8 _ hostOps8_writes h
theorem W26_of (r : Ref sig .tc) (h : ∀ w, Pipeline.arrRef spec8 w ≠ r) :
    Gen.W26 m ρ c (Proc.devRef .tc r) = Gen.W25 m ρ c (Proc.devRef .tc r) :=
  Gen.W26_of_ne m ρ c r h
theorem W27_of (r : Ref sig .tc) (h : r ∉ (hostOps9_W)) :
    Gen.W27 m ρ c (Proc.devRef .tc r) = Gen.W26 m ρ c (Proc.devRef .tc r) :=
  StableHlo.after_of_writes_sub hostOps9 _ hostOps9_writes h
theorem W28_of (r : Ref sig .tc) (h : ∀ w, Pipeline.arrRef spec9 w ≠ r) :
    Gen.W28 m ρ c (Proc.devRef .tc r) = Gen.W27 m ρ c (Proc.devRef .tc r) :=
  Gen.W28_of_ne m ρ c r h

end Cert.KernelIdeal.Stages

end
-- ==== Proof.KernelStageTerms.lean ====
import proofs.«119291_j39402029973518_1_alg».proof.Proof.Gen.KernelIdeal.Frame
import Idealize.ShloMosaic.PureOps.Ideal
import Idealize.ShloMosaic.Lib.StableHlo.Run

/-! The host stretches of the idealized kernel program read at the ideal instance: each array a stretch hands to a region, as one term over the arrays the stretch reads. First the terms, in the program's own spelling; then, for a stretch run from any buffer contents `V`, the contents of each such array afterwards. -/

set_option maxRecDepth 16384

noncomputable section

namespace Cert.KernelIdeal.Stages

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.StableHlo

/-! ## The terms -/

/-- A vector of 128 as one row. -/
def kReshapeRow (v : FVec Ideal S128 .f32) : FVec Ideal S1x128 .f32 :=
  (shapeCast S1x128 v shapeCasts_S128_S1x128)

/-- A vector of 40 as one row. -/
def kReshapeRow40 (v : FVec Ideal S40 .f32) : FVec Ideal S1x40 .f32 :=
  (shapeCast S1x40 v shapeCasts_S40_S1x40)

/-- The column means of `z`, as one row: the column sums over the row count. -/
def kMean (z : FVec Ideal S100000x128 .f32) : FVec Ideal S1x128 .f32 :=
  (Host.divf (F := Ideal) (broadcastInDim S1x128 ![1] bcast_S128_S1x128_1 (Host.reduceAdd (F := Ideal) z (constant (F := Ideal) S_ .f32 0x00000000#32) reducesTo_S100000x128_S128_d0 h_S_)) (broadcastInDim S1x128 ![] bcast_S_S1x128 (constant (F := Ideal) S_ .f32 0x47C35000#32)))

/-- The column variances of `z` (no degrees of freedom removed), as one row: the column means of the squared deviations from the column means, kept where the divisor is positive. -/
def kVar (z : FVec Ideal S100000x128 .f32) : FVec Ideal S1x128 .f32 :=
  (select (broadcastInDim S1x128 ![] bcast_S_S1x128 (cmpf (F := Ideal) .ogt (subf (F := Ideal) (constant (F := Ideal) S_ .f32 0x47C35000#32) (sitofp (F := Ideal) .f32 (constantI S_ 32 0#32))) (constant (F := Ideal) S_ .f32 0x00000000#32))) (Host.divf (F := Ideal) (broadcastInDim S1x128 ![1] bcast_S128_S1x128_1 (Host.reduceAdd (F := Ideal) (mulf (F := Ideal) (subf (F := Ideal) z (broadcastInDim S100000x128 ![0, 1] bcast_S1x128_S100000x128_0_1 (Host.divf (F := Ideal) (broadcastInDim S1x128 ![1] bcast_S128_S1x128_1 (Host.reduceAdd (F := Ideal) z (constant (F := Ideal) S_ .f32 0x00000000#32) reducesTo_S100000x128_S128_d0 h_S_)) (broadcastInDim S1x128 ![] bcast_S_S1x128 (constant (F := Ideal) S_ .f32 0x47C35000#32))))) (subf (F := Ideal) z (broadcastInDim S100000x128 ![0, 1] bcast_S1x128_S100000x128_0_1 (Host.divf (F := Ideal) (broadcastInDim S1x128 ![1] bcast_S128_S1x128_1 (Host.reduceAdd (F := Ideal) z (constant (F := Ideal) S_ .f32 0x00000000#32) reducesTo_S100000x128_S128_d0 h_S_)) (broadcastInDim S1x128 ![] bcast_S_S1x128 (constant (F := Ideal) S_ .f32 0x47C35000#32)))))) (constant (F := Ideal) S_ .f32 0x00000000#32) reducesTo_S100000x128_S128_d0 h_S_)) (broadcastInDim S1x128 ![] bcast_S_S1x128 (subf (F := Ideal) (constant (F := Ideal) S_ .f32 0x47C35000#32) (sitofp (F := Ideal) .f32 (constantI S_ 32 0#32))))) (broadcastInDim S1x128 ![] bcast_S_S1x128 (constant (F := Ideal) S_ .f32 0x7FC00000#32)))

/-- Row 0 of the edge list: the source node of every edge. -/
def kSrc (e : IVec S2x1600000 32) : IVec S1600000 32 :=
  (shapeCast S1600000 (extractStridedSlice S1x1600000 ![0, 0] e slices_S2x1600000_S1x1600000_0_0) shapeCasts_S1x1600000_S1600000)

/-- Row 1 of the edge list: the destination node of every edge. -/
def kDst (e : IVec S2x1600000 32) : IVec S1600000 32 :=
  (shapeCast S1600000 (extractStridedSlice S1x1600000 ![1, 0] e slices_S2x1600000_S1x1600000_1_0) shapeCasts_S1x1600000_S1600000)

/-- Source indices, a negative one counted from the end, as a column. -/
def kSrcColOf (src : IVec S1600000 32) : IVec S1600000x1 32 :=
  (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))

/-- Destination indices as a column. -/
def kDstColOf (dst : IVec S1600000 32) : IVec S1600000x1 32 :=
  (broadcastInDim S1600000x1 ![0] bcast_S1600000_S1600000x1_0 dst)

/-- The number of edges into each node, at least one, as a column. -/
def kCntOf (dst : IVec S1600000 32) : FVec Ideal S100000x1 .f32 :=
  (maximumf (F := Ideal) (Host.scatterAdd (F := Ideal) scatter_S100000x1_S1600000x1_S1600000x1_1_0_0_1 (broadcastInDim S100000x1 ![] bcast_S_S100000x1 (constant (F := Ideal) S_ .f32 0x00000000#32)) (kDstColOf dst) (broadcastInDim S1600000x1 ![] bcast_S_S1600000x1 (constant (F := Ideal) S_ .f32 0x3F800000#32))) (broadcastInDim S100000x1 ![] bcast_S_S100000x1 (constant (F := Ideal) S_ .f32 0x3F800000#32)))

/-- The rows of `h` at the edges' sources summed into the edges' destinations, each row over the count `cnt`. -/
def kAggOf (h : FVec Ideal S100000x128 .f32) (src : IVec S1600000 32) (dst : IVec S1600000 32) (cnt : FVec Ideal S100000x1 .f32) : FVec Ideal S100000x128 .f32 :=
  (Host.divf (F := Ideal) (Host.scatterAdd (F := Ideal) scatter_S100000x128_S1600000x1_S1600000x128_1_0_0_1 (broadcastInDim S100000x128 ![] bcast_S_S100000x128 (constant (F := Ideal) S_ .f32 0x00000000#32)) (kDstColOf dst) (Host.gather gather_S100000x128_S1600000x1_S1600000x128_1_0_n_n_0_1_1128 h (kSrcColOf src))) (broadcastInDim S100000x128 ![0, 1] bcast_S100000x1_S100000x128_0_1 cnt))

/-- The edges' source indices as a column. -/
def kSrcCol (e : IVec S2x1600000 32) : IVec S1600000x1 32 :=
  kSrcColOf (kSrc e)

/-- The edges' destination indices as a column. -/
def kDstCol (e : IVec S2x1600000 32) : IVec S1600000x1 32 :=
  kDstColOf (kDst e)

/-- The in-degree of each node, at least one, as a column. -/
def kCnt (e : IVec S2x1600000 32) : FVec Ideal S100000x1 .f32 :=
  kCntOf (kDst e)

/-- The mean of `h`'s rows over each node's incoming edges. -/
def kAgg (h : FVec Ideal S100000x128 .f32) (e : IVec S2x1600000 32) : FVec Ideal S100000x128 .f32 :=
  kAggOf h (kSrc e) (kDst e) (kCnt e)

/-- Matrix 0 of a stack of four. -/
def kMat0 (W : FVec Ideal S4x128x128 .f32) : FVec Ideal S128x128 .f32 :=
  (shapeCast S128x128 (extractStridedSlice S1x128x128 ![0, 0, 0] W slices_S4x128x128_S1x128x128_0_0_0) shapeCasts_S1x128x128_S128x128)

/-- Row 0 of a stack of four, as a vector. -/
def kRow0 (B : FVec Ideal S4x128 .f32) : FVec Ideal S128 .f32 :=
  (shapeCast S128 (extractStridedSlice S1x128 ![0, 0] B slices_S4x128_S1x128_0_0) shapeCasts_S1x128_S128)

/-- Matrix 1 of a stack of four. -/
def kMat1 (W : FVec Ideal S4x128x128 .f32) : FVec Ideal S128x128 .f32 :=
  (shapeCast S128x128 (extractStridedSlice S1x128x128 ![1, 0, 0] W slices_S4x128x128_S1x128x128_1_0_0) shapeCasts_S1x128x128_S128x128)

/-- Row 1 of a stack of four, as a vector. -/
def kRow1 (B : FVec Ideal S4x128 .f32) : FVec Ideal S128 .f32 :=
  (shapeCast S128 (extractStridedSlice S1x128 ![1, 0] B slices_S4x128_S1x128_1_0) shapeCasts_S1x128_S128)

/-- Matrix 2 of a stack of four. -/
def kMat2 (W : FVec Ideal S4x128x128 .f32) : FVec Ideal S128x128 .f32 :=
  (shapeCast S128x128 (extractStridedSlice S1x128x128 ![2, 0, 0] W slices_S4x128x128_S1x128x128_2_0_0) shapeCasts_S1x128x128_S128x128)

/-- Row 2 of a stack of four, as a vector. -/
def kRow2 (B : FVec Ideal S4x128 .f32) : FVec Ideal S128 .f32 :=
  (shapeCast S128 (extractStridedSlice S1x128 ![2, 0] B slices_S4x128_S1x128_2_0) shapeCasts_S1x128_S128)

/-- Matrix 3 of a stack of four. -/
def kMat3 (W : FVec Ideal S4x128x128 .f32) : FVec Ideal S128x128 .f32 :=
  (shapeCast S128x128 (extractStridedSlice S1x128x128 ![3, 0, 0] W slices_S4x128x128_S1x128x128_3_0_0) shapeCasts_S1x128x128_S128x128)

/-- Row 3 of a stack of four, as a vector. -/
def kRow3 (B : FVec Ideal S4x128 .f32) : FVec Ideal S128 .f32 :=
  (shapeCast S128 (extractStridedSlice S1x128 ![3, 0] B slices_S4x128_S1x128_3_0) shapeCasts_S1x128_S128)

/-- The count column, spelt out over the destination column. -/
theorem kCnt_eq (e : IVec S2x1600000 32) : kCnt e = (maximumf (F := Ideal) (Host.scatterAdd (F := Ideal) scatter_S100000x1_S1600000x1_S1600000x1_1_0_0_1 (broadcastInDim S100000x1 ![] bcast_S_S100000x1 (constant (F := Ideal) S_ .f32 0x00000000#32)) (kDstCol e) (broadcastInDim S1600000x1 ![] bcast_S_S1600000x1 (constant (F := Ideal) S_ .f32 0x3F800000#32))) (broadcastInDim S100000x1 ![] bcast_S_S100000x1 (constant (F := Ideal) S_ .f32 0x3F800000#32))) := rfl
/-- The aggregate, spelt out over the source and destination columns and the count column. -/
theorem kAgg_eq (h : FVec Ideal S100000x128 .f32) (e : IVec S2x1600000 32) : kAgg h e = (Host.divf (F := Ideal) (Host.scatterAdd (F := Ideal) scatter_S100000x128_S1600000x1_S1600000x128_1_0_0_1 (broadcastInDim S100000x128 ![] bcast_S_S100000x128 (constant (F := Ideal) S_ .f32 0x00000000#32)) (kDstCol e) (Host.gather gather_S100000x128_S1600000x1_S1600000x128_1_0_n_n_0_1_1128 h (kSrcCol e))) (broadcastInDim S100000x128 ![0, 1] bcast_S100000x1_S100000x128_0_1 (kCnt e))) := rfl

/-! ## Each stretch from any contents -/

theorem hostOps0_v1 (V : Valuation τ sig (Elt Ideal)) {e : IVec S2x1600000 32} (h_e : V (Proc.devRef .tc main_arg12) = e) :
    StableHlo.after hostOps0 V (Proc.devRef .tc main_v1) = kSrc e := by
  subst h_e
  after_results
  rfl
theorem hostOps0_v3 (V : Valuation τ sig (Elt Ideal)) {e : IVec S2x1600000 32} (h_e : V (Proc.devRef .tc main_arg12) = e) :
    StableHlo.after hostOps0 V (Proc.devRef .tc main_v3) = kDst e := by
  subst h_e
  after_results
  rfl
theorem hostOps0_v4 (V : Valuation τ sig (Elt Ideal)) {v : FVec Ideal S128 .f32} (h_v : V (Proc.devRef .tc main_arg2) = v) :
    StableHlo.after hostOps0 V (Proc.devRef .tc main_v4) = kReshapeRow v := by
  subst h_v
  after_results
  rfl
theorem hostOps1_2_v11 (V : Valuation τ sig (Elt Ideal)) {v : FVec Ideal S128 .f32} (h_v : V (Proc.devRef .tc main_arg3) = v) :
    StableHlo.after hostOps1_2 V (Proc.devRef .tc main_v11) = kReshapeRow v := by
  subst h_v
  after_results
  rfl
theorem hostOps1_2_v12 (V : Valuation τ sig (Elt Ideal)) {v : FVec Ideal S128 .f32} (h_v : V (Proc.devRef .tc main_arg4) = v) :
    StableHlo.after hostOps1_2 V (Proc.devRef .tc main_v12) = kReshapeRow v := by
  subst h_v
  after_results
  rfl
theorem hostOps1_v9 (V : Valuation τ sig (Elt Ideal)) {z : FVec Ideal S100000x128 .f32} (h_z : V (Proc.devRef .tc main_v5) = z) :
    StableHlo.after hostOps1 V (Proc.devRef .tc main_v9) = kMean z := by
  subst h_z
  after_results
  rfl
theorem hostOps1_c (V : Valuation τ sig (Elt Ideal))   :
    StableHlo.after hostOps1 V (Proc.devRef .tc main_c) = constantI S_ 32 0#32 := by
  after_results
set_option maxHeartbeats 400000 in
theorem hostOps1_1_v10 (V : Valuation τ sig (Elt Ideal)) {z : FVec Ideal S100000x128 .f32} (h_z : V (Proc.devRef .tc main_v5) = z) (h_k0 : V (Proc.devRef .tc main_c) = constantI S_ 32 0#32) :
    StableHlo.after hostOps1_1 V (Proc.devRef .tc main_v10) = kVar z := by
  subst h_z
  after_results_simp
  rw [h_k0]
  rfl
theorem hostOps3_v43 (V : Valuation τ sig (Elt Ideal)) {z : FVec Ideal S100000x128 .f32} (h_z : V (Proc.devRef .tc main_v39) = z) :
    StableHlo.after hostOps3 V (Proc.devRef .tc main_v43) = kMean z := by
  subst h_z
  after_results
  rfl
theorem hostOps3_c_9 (V : Valuation τ sig (Elt Ideal))   :
    StableHlo.after hostOps3 V (Proc.devRef .tc main_c_9) = constantI S_ 32 0#32 := by
  after_results
set_option maxHeartbeats 400000 in
theorem hostOps3_1_v44 (V : Valuation τ sig (Elt Ideal)) {z : FVec Ideal S100000x128 .f32} (h_z : V (Proc.devRef .tc main_v39) = z) (h_k0 : V (Proc.devRef .tc main_c_9) = constantI S_ 32 0#32) :
    StableHlo.after hostOps3_1 V (Proc.devRef .tc main_v44) = kVar z := by
  subst h_z
  after_results_simp
  rw [h_k0]
  rfl
theorem hostOps5_v75 (V : Valuation τ sig (Elt Ideal)) {z : FVec Ideal S100000x128 .f32} (h_z : V (Proc.devRef .tc main_v71) = z) :
    StableHlo.after hostOps5 V (Proc.devRef .tc main_v75) = kMean z := by
  subst h_z
  after_results
  rfl
theorem hostOps5_c_15 (V : Valuation τ sig (Elt Ideal))   :
    StableHlo.after hostOps5 V (Proc.devRef .tc main_c_15) = constantI S_ 32 0#32 := by
  after_results
set_option maxHeartbeats 400000 in
theorem hostOps5_1_v76 (V : Valuation τ sig (Elt Ideal)) {z : FVec Ideal S100000x128 .f32} (h_z : V (Proc.devRef .tc main_v71) = z) (h_k0 : V (Proc.devRef .tc main_c_15) = constantI S_ 32 0#32) :
    StableHlo.after hostOps5_1 V (Proc.devRef .tc main_v76) = kVar z := by
  subst h_z
  after_results_simp
  rw [h_k0]
  rfl
theorem hostOps7_v107 (V : Valuation τ sig (Elt Ideal)) {z : FVec Ideal S100000x128 .f32} (h_z : V (Proc.devRef .tc main_v103) = z) :
    StableHlo.after hostOps7 V (Proc.devRef .tc main_v107) = kMean z := by
  subst h_z
  after_results
  rfl
theorem hostOps7_c_21 (V : Valuation τ sig (Elt Ideal))   :
    StableHlo.after hostOps7 V (Proc.devRef .tc main_c_21) = constantI S_ 32 0#32 := by
  after_results
set_option maxHeartbeats 400000 in
theorem hostOps7_1_v108 (V : Valuation τ sig (Elt Ideal)) {z : FVec Ideal S100000x128 .f32} (h_z : V (Proc.devRef .tc main_v103) = z) (h_k0 : V (Proc.devRef .tc main_c_21) = constantI S_ 32 0#32) :
    StableHlo.after hostOps7_1 V (Proc.devRef .tc main_v108) = kVar z := by
  subst h_z
  after_results_simp
  rw [h_k0]
  rfl
set_option maxHeartbeats 400000 in
theorem hostOps2_v19 (V : Valuation τ sig (Elt Ideal)) {dst : IVec S1600000 32} (h_dst : V (Proc.devRef .tc main_v3) = dst) :
    StableHlo.after hostOps2 V (Proc.devRef .tc main_v19) = kCntOf dst := by
  subst h_dst
  after_results_simp
  rfl
set_option maxHeartbeats 400000 in
theorem hostOps2_v31 (V : Valuation τ sig (Elt Ideal)) {h : FVec Ideal S100000x128 .f32} {src : IVec S1600000 32} {dst : IVec S1600000 32} (h_h : V (Proc.devRef .tc main_v13) = h) (h_src : V (Proc.devRef .tc main_v1) = src) (h_dst : V (Proc.devRef .tc main_v3) = dst) :
    StableHlo.after hostOps2 V (Proc.devRef .tc main_v31) = kAggOf h src dst (kCntOf dst) := by
  subst h_h; subst h_src; subst h_dst
  after_results_simp
  rfl
set_option maxHeartbeats 400000 in
theorem hostOps4_v63 (V : Valuation τ sig (Elt Ideal)) {h : FVec Ideal S100000x128 .f32} {src : IVec S1600000 32} {dst : IVec S1600000 32} {cnt : FVec Ideal S100000x1 .f32} (h_h : V (Proc.devRef .tc main_v51) = h) (h_src : V (Proc.devRef .tc main_v1) = src) (h_dst : V (Proc.devRef .tc main_v3) = dst) (h_cnt : V (Proc.devRef .tc main_v19) = cnt) :
    StableHlo.after hostOps4 V (Proc.devRef .tc main_v63) = kAggOf h src dst cnt := by
  subst h_h; subst h_src; subst h_dst; subst h_cnt
  after_results_simp
  rfl
set_option maxHeartbeats 400000 in
theorem hostOps6_v95 (V : Valuation τ sig (Elt Ideal)) {h : FVec Ideal S100000x128 .f32} {src : IVec S1600000 32} {dst : IVec S1600000 32} {cnt : FVec Ideal S100000x1 .f32} (h_h : V (Proc.devRef .tc main_v83) = h) (h_src : V (Proc.devRef .tc main_v1) = src) (h_dst : V (Proc.devRef .tc main_v3) = dst) (h_cnt : V (Proc.devRef .tc main_v19) = cnt) :
    StableHlo.after hostOps6 V (Proc.devRef .tc main_v95) = kAggOf h src dst cnt := by
  subst h_h; subst h_src; subst h_dst; subst h_cnt
  after_results_simp
  rfl
set_option maxHeartbeats 400000 in
theorem hostOps8_v127 (V : Valuation τ sig (Elt Ideal)) {h : FVec Ideal S100000x128 .f32} {src : IVec S1600000 32} {dst : IVec S1600000 32} {cnt : FVec Ideal S100000x1 .f32} (h_h : V (Proc.devRef .tc main_v115) = h) (h_src : V (Proc.devRef .tc main_v1) = src) (h_dst : V (Proc.devRef .tc main_v3) = dst) (h_cnt : V (Proc.devRef .tc main_v19) = cnt) :
    StableHlo.after hostOps8 V (Proc.devRef .tc main_v127) = kAggOf h src dst cnt := by
  subst h_h; subst h_src; subst h_dst; subst h_cnt
  after_results_simp
  rfl
set_option maxHeartbeats 400000 in
theorem hostOps2_v33 (V : Valuation τ sig (Elt Ideal)) {W : FVec Ideal S4x128x128 .f32} (h_W : V (Proc.devRef .tc main_arg5) = W) :
    StableHlo.after hostOps2 V (Proc.devRef .tc main_v33) = kMat0 W := by
  subst h_W
  after_results_simp
  rfl
set_option maxHeartbeats 400000 in
theorem hostOps2_v35 (V : Valuation τ sig (Elt Ideal)) {W : FVec Ideal S4x128x128 .f32} (h_W : V (Proc.devRef .tc main_arg7) = W) :
    StableHlo.after hostOps2 V (Proc.devRef .tc main_v35) = kMat0 W := by
  subst h_W
  after_results_simp
  rfl
set_option maxHeartbeats 400000 in
theorem hostOps2_v38 (V : Valuation τ sig (Elt Ideal)) {B : FVec Ideal S4x128 .f32} (h_B : V (Proc.devRef .tc main_arg6) = B) :
    StableHlo.after hostOps2 V (Proc.devRef .tc main_v38) = kReshapeRow (kRow0 B) := by
  subst h_B
  after_results_simp
  rfl
set_option maxHeartbeats 400000 in
theorem hostOps4_v65 (V : Valuation τ sig (Elt Ideal)) {W : FVec Ideal S4x128x128 .f32} (h_W : V (Proc.devRef .tc main_arg5) = W) :
    StableHlo.after hostOps4 V (Proc.devRef .tc main_v65) = kMat1 W := by
  subst h_W
  after_results_simp
  rfl
set_option maxHeartbeats 400000 in
theorem hostOps4_v67 (V : Valuation τ sig (Elt Ideal)) {W : FVec Ideal S4x128x128 .f32} (h_W : V (Proc.devRef .tc main_arg7) = W) :
    StableHlo.after hostOps4 V (Proc.devRef .tc main_v67) = kMat1 W := by
  subst h_W
  after_results_simp
  rfl
set_option maxHeartbeats 400000 in
theorem hostOps4_v70 (V : Valuation τ sig (Elt Ideal)) {B : FVec Ideal S4x128 .f32} (h_B : V (Proc.devRef .tc main_arg6) = B) :
    StableHlo.after hostOps4 V (Proc.devRef .tc main_v70) = kReshapeRow (kRow1 B) := by
  subst h_B
  after_results_simp
  rfl
set_option maxHeartbeats 400000 in
theorem hostOps6_v97 (V : Valuation τ sig (Elt Ideal)) {W : FVec Ideal S4x128x128 .f32} (h_W : V (Proc.devRef .tc main_arg5) = W) :
    StableHlo.after hostOps6 V (Proc.devRef .tc main_v97) = kMat2 W := by
  subst h_W
  after_results_simp
  rfl
set_option maxHeartbeats 400000 in
theorem hostOps6_v99 (V : Valuation τ sig (Elt Ideal)) {W : FVec Ideal S4x128x128 .f32} (h_W : V (Proc.devRef .tc main_arg7) = W) :
    StableHlo.after hostOps6 V (Proc.devRef .tc main_v99) = kMat2 W := by
  subst h_W
  after_results_simp
  rfl
set_option maxHeartbeats 400000 in
theorem hostOps6_v102 (V : Valuation τ sig (Elt Ideal)) {B : FVec Ideal S4x128 .f32} (h_B : V (Proc.devRef .tc main_arg6) = B) :
    StableHlo.after hostOps6 V (Proc.devRef .tc main_v102) = kReshapeRow (kRow2 B) := by
  subst h_B
  after_results_simp
  rfl
set_option maxHeartbeats 400000 in
theorem hostOps8_v129 (V : Valuation τ sig (Elt Ideal)) {W : FVec Ideal S4x128x128 .f32} (h_W : V (Proc.devRef .tc main_arg5) = W) :
    StableHlo.after hostOps8 V (Proc.devRef .tc main_v129) = kMat3 W := by
  subst h_W
  after_results_simp
  rfl
set_option maxHeartbeats 400000 in
theorem hostOps8_v131 (V : Valuation τ sig (Elt Ideal)) {W : FVec Ideal S4x128x128 .f32} (h_W : V (Proc.devRef .tc main_arg7) = W) :
    StableHlo.after hostOps8 V (Proc.devRef .tc main_v131) = kMat3 W := by
  subst h_W
  after_results_simp
  rfl
set_option maxHeartbeats 400000 in
theorem hostOps8_v134 (V : Valuation τ sig (Elt Ideal)) {B : FVec Ideal S4x128 .f32} (h_B : V (Proc.devRef .tc main_arg6) = B) :
    StableHlo.after hostOps8 V (Proc.devRef .tc main_v134) = kReshapeRow (kRow3 B) := by
  subst h_B
  after_results_simp
  rfl
theorem hostOps3_2_v49 (V : Valuation τ sig (Elt Ideal)) {B : FVec Ideal S4x128 .f32} (h_B : V (Proc.devRef .tc main_arg8) = B) :
    StableHlo.after hostOps3_2 V (Proc.devRef .tc main_v49) = kReshapeRow (kRow0 B) := by
  subst h_B
  after_results
  rfl
theorem hostOps3_2_v50 (V : Valuation τ sig (Elt Ideal)) {B : FVec Ideal S4x128 .f32} (h_B : V (Proc.devRef .tc main_arg9) = B) :
    StableHlo.after hostOps3_2 V (Proc.devRef .tc main_v50) = kReshapeRow (kRow0 B) := by
  subst h_B
  after_results
  rfl
theorem hostOps5_2_v81 (V : Valuation τ sig (Elt Ideal)) {B : FVec Ideal S4x128 .f32} (h_B : V (Proc.devRef .tc main_arg8) = B) :
    StableHlo.after hostOps5_2 V (Proc.devRef .tc main_v81) = kReshapeRow (kRow1 B) := by
  subst h_B
  after_results
  rfl
theorem hostOps5_2_v82 (V : Valuation τ sig (Elt Ideal)) {B : FVec Ideal S4x128 .f32} (h_B : V (Proc.devRef .tc main_arg9) = B) :
    StableHlo.after hostOps5_2 V (Proc.devRef .tc main_v82) = kReshapeRow (kRow1 B) := by
  subst h_B
  after_results
  rfl
theorem hostOps7_2_v113 (V : Valuation τ sig (Elt Ideal)) {B : FVec Ideal S4x128 .f32} (h_B : V (Proc.devRef .tc main_arg8) = B) :
    StableHlo.after hostOps7_2 V (Proc.devRef .tc main_v113) = kReshapeRow (kRow2 B) := by
  subst h_B
  after_results
  rfl
theorem hostOps7_2_v114 (V : Valuation τ sig (Elt Ideal)) {B : FVec Ideal S4x128 .f32} (h_B : V (Proc.devRef .tc main_arg9) = B) :
    StableHlo.after hostOps7_2 V (Proc.devRef .tc main_v114) = kReshapeRow (kRow2 B) := by
  subst h_B
  after_results
  rfl
theorem hostOps9_v136 (V : Valuation τ sig (Elt Ideal)) {v : FVec Ideal S40 .f32} (h_v : V (Proc.devRef .tc main_arg11) = v) :
    StableHlo.after hostOps9 V (Proc.devRef .tc main_v136) = kReshapeRow40 v := by
  subst h_v
  after_results
  rfl

end Cert.KernelIdeal.Stages

end
-- ==== Proof.KernelStages.lean ====
import proofs.«119291_j39402029973518_1_alg».proof.Proof.KernelCarry
import proofs.«119291_j39402029973518_1_alg».proof.Proof.KernelStageTerms

/-! Every array a region of the idealized kernel program reads, at the region's entry, as a term over the launch arguments and the arrays earlier regions left; and every array a region writes, at the region's exit, as what its pipeline leaves. -/

set_option maxRecDepth 16384

noncomputable section

namespace Cert.KernelIdeal.Stages

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.StableHlo

variable (m : (ℓ : Loc nD τ sig) → Buf (Elt Ideal) ℓ) (ρ : Dev nD → PrngReg) (c : Dev nD)

/-! ## Region 0: entry contents `Gen.V1`, exit contents `Gen.V2` -/

theorem carry_arg0_0_1 : Gen.W1 m ρ c (Proc.devRef .tc main_arg0) = Gen.W0 m ρ c (Proc.devRef .tc main_arg0) :=
  W1_of m ρ c main_arg0 (by decide)
theorem W1_arg0 : Gen.W1 m ρ c (Proc.devRef .tc main_arg0) = m ((c.tc : Thread nD τ).loc main_arg0) :=
  (carry_arg0_0_1 m ρ c).trans rfl
theorem carry_arg1_0_1 : Gen.W1 m ρ c (Proc.devRef .tc main_arg1) = Gen.W0 m ρ c (Proc.devRef .tc main_arg1) :=
  W1_of m ρ c main_arg1 (by decide)
theorem W1_arg1 : Gen.W1 m ρ c (Proc.devRef .tc main_arg1) = m ((c.tc : Thread nD τ).loc main_arg1) :=
  (carry_arg1_0_1 m ρ c).trans rfl
theorem W0_arg2 : Gen.W0 m ρ c (Proc.devRef .tc main_arg2) = m ((c.tc : Thread nD τ).loc main_arg2) :=
  rfl
theorem W1_v4 : Gen.W1 m ρ c (Proc.devRef .tc main_v4) = kReshapeRow (m ((c.tc : Thread nD τ).loc main_arg2)) :=
  hostOps0_v4 (Gen.W0 m ρ c) (W0_arg2 m ρ c)
theorem arr0_0 : Pipeline.arrRef spec0 (0 : Fin 4) = main_arg0 := rfl
theorem arr0_1 : Pipeline.arrRef spec0 (1 : Fin 4) = main_arg1 := rfl
theorem arr0_2 : Pipeline.arrRef spec0 (2 : Fin 4) = main_v4 := rfl
theorem arr0_3 : Pipeline.arrRef spec0 (3 : Fin 4) = main_v5 := rfl
theorem in0_0 : Gen.V1 m ρ c main_arg0 = m ((c.tc : Thread nD τ).loc main_arg0) :=
  W1_arg0 m ρ c
theorem in0_1 : Gen.V1 m ρ c main_arg1 = m ((c.tc : Thread nD τ).loc main_arg1) :=
  W1_arg1 m ρ c
theorem in0_2 : Gen.V1 m ρ c main_v4 = kReshapeRow (m ((c.tc : Thread nD τ).loc main_arg2)) :=
  W1_v4 m ρ c
theorem out0 : Gen.V2 m ρ c (Pipeline.arrRef spec0 (3 : Fin 4)) = (dat0 (Gen.V1 m ρ) c).arrAt (3 : Fin 4) cfg0.N :=
  (Gen.hF0 m ρ c (3 : Fin 4)).symm
theorem out0' : Gen.V2 m ρ c main_v5 = (dat0 (Gen.V1 m ρ) c).arrAt (3 : Fin 4) cfg0.N :=
  out0 m ρ c

/-! ## Region 1: entry contents `Gen.V5`, exit contents `Gen.V6` -/

theorem carry_v5_2_3 : Gen.W3 m ρ c (Proc.devRef .tc main_v5) = Gen.W2 m ρ c (Proc.devRef .tc main_v5) :=
  W3_of m ρ c main_v5 (by decide)
theorem carry_v5_2_4 : Gen.W4 m ρ c (Proc.devRef .tc main_v5) = Gen.W2 m ρ c (Proc.devRef .tc main_v5) :=
  (W4_of m ρ c main_v5 (by decide)).trans (carry_v5_2_3 m ρ c)
theorem carry_v5_2_5 : Gen.W5 m ρ c (Proc.devRef .tc main_v5) = Gen.W2 m ρ c (Proc.devRef .tc main_v5) :=
  (W5_of m ρ c main_v5 (by decide)).trans (carry_v5_2_4 m ρ c)
theorem W5_v5 : Gen.W5 m ρ c (Proc.devRef .tc main_v5) = Gen.V2 m ρ c main_v5 :=
  carry_v5_2_5 m ρ c
theorem carry_arg3_0_1 : Gen.W1 m ρ c (Proc.devRef .tc main_arg3) = Gen.W0 m ρ c (Proc.devRef .tc main_arg3) :=
  W1_of m ρ c main_arg3 (by decide)
theorem carry_arg3_0_2 : Gen.W2 m ρ c (Proc.devRef .tc main_arg3) = Gen.W0 m ρ c (Proc.devRef .tc main_arg3) :=
  (W2_of m ρ c main_arg3 (by decide)).trans (carry_arg3_0_1 m ρ c)
theorem carry_arg3_0_3 : Gen.W3 m ρ c (Proc.devRef .tc main_arg3) = Gen.W0 m ρ c (Proc.devRef .tc main_arg3) :=
  (W3_of m ρ c main_arg3 (by decide)).trans (carry_arg3_0_2 m ρ c)
theorem carry_arg3_0_4 : Gen.W4 m ρ c (Proc.devRef .tc main_arg3) = Gen.W0 m ρ c (Proc.devRef .tc main_arg3) :=
  (W4_of m ρ c main_arg3 (by decide)).trans (carry_arg3_0_3 m ρ c)
theorem W4_arg3 : Gen.W4 m ρ c (Proc.devRef .tc main_arg3) = m ((c.tc : Thread nD τ).loc main_arg3) :=
  (carry_arg3_0_4 m ρ c).trans rfl
theorem W5_v11 : Gen.W5 m ρ c (Proc.devRef .tc main_v11) = kReshapeRow (m ((c.tc : Thread nD τ).loc main_arg3)) :=
  hostOps1_2_v11 (Gen.W4 m ρ c) (W4_arg3 m ρ c)
theorem carry_arg4_0_1 : Gen.W1 m ρ c (Proc.devRef .tc main_arg4) = Gen.W0 m ρ c (Proc.devRef .tc main_arg4) :=
  W1_of m ρ c main_arg4 (by decide)
theorem carry_arg4_0_2 : Gen.W2 m ρ c (Proc.devRef .tc main_arg4) = Gen.W0 m ρ c (Proc.devRef .tc main_arg4) :=
  (W2_of m ρ c main_arg4 (by decide)).trans (carry_arg4_0_1 m ρ c)
theorem carry_arg4_0_3 : Gen.W3 m ρ c (Proc.devRef .tc main_arg4) = Gen.W0 m ρ c (Proc.devRef .tc main_arg4) :=
  (W3_of m ρ c main_arg4 (by decide)).trans (carry_arg4_0_2 m ρ c)
theorem carry_arg4_0_4 : Gen.W4 m ρ c (Proc.devRef .tc main_arg4) = Gen.W0 m ρ c (Proc.devRef .tc main_arg4) :=
  (W4_of m ρ c main_arg4 (by decide)).trans (carry_arg4_0_3 m ρ c)
theorem W4_arg4 : Gen.W4 m ρ c (Proc.devRef .tc main_arg4) = m ((c.tc : Thread nD τ).loc main_arg4) :=
  (carry_arg4_0_4 m ρ c).trans rfl
theorem W5_v12 : Gen.W5 m ρ c (Proc.devRef .tc main_v12) = kReshapeRow (m ((c.tc : Thread nD τ).loc main_arg4)) :=
  hostOps1_2_v12 (Gen.W4 m ρ c) (W4_arg4 m ρ c)
theorem W2_v5 : Gen.W2 m ρ c (Proc.devRef .tc main_v5) = Gen.V2 m ρ c main_v5 :=
  rfl
theorem carry_v9_3_4 : Gen.W4 m ρ c (Proc.devRef .tc main_v9) = Gen.W3 m ρ c (Proc.devRef .tc main_v9) :=
  W4_of m ρ c main_v9 (by decide)
theorem carry_v9_3_5 : Gen.W5 m ρ c (Proc.devRef .tc main_v9) = Gen.W3 m ρ c (Proc.devRef .tc main_v9) :=
  (W5_of m ρ c main_v9 (by decide)).trans (carry_v9_3_4 m ρ c)
theorem W5_v9 : Gen.W5 m ρ c (Proc.devRef .tc main_v9) = kMean (Gen.V2 m ρ c main_v5) :=
  (carry_v9_3_5 m ρ c).trans (hostOps1_v9 (Gen.W2 m ρ c) (W2_v5 m ρ c))
theorem W3_v5 : Gen.W3 m ρ c (Proc.devRef .tc main_v5) = Gen.V2 m ρ c main_v5 :=
  carry_v5_2_3 m ρ c
theorem W3_c : Gen.W3 m ρ c (Proc.devRef .tc main_c) = constantI S_ 32 0#32 :=
  hostOps1_c (Gen.W2 m ρ c)
theorem carry_v10_4_5 : Gen.W5 m ρ c (Proc.devRef .tc main_v10) = Gen.W4 m ρ c (Proc.devRef .tc main_v10) :=
  W5_of m ρ c main_v10 (by decide)
theorem W5_v10 : Gen.W5 m ρ c (Proc.devRef .tc main_v10) = kVar (Gen.V2 m ρ c main_v5) :=
  (carry_v10_4_5 m ρ c).trans (hostOps1_1_v10 (Gen.W3 m ρ c) (W3_v5 m ρ c) (W3_c m ρ c))
theorem arr1_0 : Pipeline.arrRef spec1 (0 : Fin 6) = main_v5 := rfl
theorem arr1_1 : Pipeline.arrRef spec1 (1 : Fin 6) = main_v11 := rfl
theorem arr1_2 : Pipeline.arrRef spec1 (2 : Fin 6) = main_v12 := rfl
theorem arr1_3 : Pipeline.arrRef spec1 (3 : Fin 6) = main_v9 := rfl
theorem arr1_4 : Pipeline.arrRef spec1 (4 : Fin 6) = main_v10 := rfl
theorem arr1_5 : Pipeline.arrRef spec1 (5 : Fin 6) = main_v13 := rfl
theorem in1_0 : Gen.V5 m ρ c main_v5 = Gen.V2 m ρ c main_v5 :=
  W5_v5 m ρ c
theorem in1_1 : Gen.V5 m ρ c main_v11 = kReshapeRow (m ((c.tc : Thread nD τ).loc main_arg3)) :=
  W5_v11 m ρ c
theorem in1_2 : Gen.V5 m ρ c main_v12 = kReshapeRow (m ((c.tc : Thread nD τ).loc main_arg4)) :=
  W5_v12 m ρ c
theorem in1_3 : Gen.V5 m ρ c main_v9 = kMean (Gen.V2 m ρ c main_v5) :=
  W5_v9 m ρ c
theorem in1_4 : Gen.V5 m ρ c main_v10 = kVar (Gen.V2 m ρ c main_v5) :=
  W5_v10 m ρ c
theorem out1 : Gen.V6 m ρ c (Pipeline.arrRef spec1 (5 : Fin 6)) = (dat1 (Gen.V5 m ρ) c).arrAt (5 : Fin 6) cfg1.N :=
  (Gen.hF1 m ρ c (5 : Fin 6)).symm
theorem out1' : Gen.V6 m ρ c main_v13 = (dat1 (Gen.V5 m ρ) c).arrAt (5 : Fin 6) cfg1.N :=
  out1 m ρ c

/-! ## Region 2: entry contents `Gen.V7`, exit contents `Gen.V8` -/

theorem W6_v13 : Gen.W6 m ρ c (Proc.devRef .tc main_v13) = Gen.V6 m ρ c main_v13 :=
  rfl
theorem W0_arg12 : Gen.W0 m ρ c (Proc.devRef .tc main_arg12) = m ((c.tc : Thread nD τ).loc main_arg12) :=
  rfl
theorem carry_v1_1_2 : Gen.W2 m ρ c (Proc.devRef .tc main_v1) = Gen.W1 m ρ c (Proc.devRef .tc main_v1) :=
  W2_of m ρ c main_v1 (by decide)
theorem carry_v1_1_3 : Gen.W3 m ρ c (Proc.devRef .tc main_v1) = Gen.W1 m ρ c (Proc.devRef .tc main_v1) :=
  (W3_of m ρ c main_v1 (by decide)).trans (carry_v1_1_2 m ρ c)
theorem carry_v1_1_4 : Gen.W4 m ρ c (Proc.devRef .tc main_v1) = Gen.W1 m ρ c (Proc.devRef .tc main_v1) :=
  (W4_of m ρ c main_v1 (by decide)).trans (carry_v1_1_3 m ρ c)
theorem carry_v1_1_5 : Gen.W5 m ρ c (Proc.devRef .tc main_v1) = Gen.W1 m ρ c (Proc.devRef .tc main_v1) :=
  (W5_of m ρ c main_v1 (by decide)).trans (carry_v1_1_4 m ρ c)
theorem carry_v1_1_6 : Gen.W6 m ρ c (Proc.devRef .tc main_v1) = Gen.W1 m ρ c (Proc.devRef .tc main_v1) :=
  (W6_of m ρ c main_v1 (by decide)).trans (carry_v1_1_5 m ρ c)
theorem W6_v1 : Gen.W6 m ρ c (Proc.devRef .tc main_v1) = kSrc (m ((c.tc : Thread nD τ).loc main_arg12)) :=
  (carry_v1_1_6 m ρ c).trans (hostOps0_v1 (Gen.W0 m ρ c) (W0_arg12 m ρ c))
theorem carry_v3_1_2 : Gen.W2 m ρ c (Proc.devRef .tc main_v3) = Gen.W1 m ρ c (Proc.devRef .tc main_v3) :=
  W2_of m ρ c main_v3 (by decide)
theorem carry_v3_1_3 : Gen.W3 m ρ c (Proc.devRef .tc main_v3) = Gen.W1 m ρ c (Proc.devRef .tc main_v3) :=
  (W3_of m ρ c main_v3 (by decide)).trans (carry_v3_1_2 m ρ c)
theorem carry_v3_1_4 : Gen.W4 m ρ c (Proc.devRef .tc main_v3) = Gen.W1 m ρ c (Proc.devRef .tc main_v3) :=
  (W4_of m ρ c main_v3 (by decide)).trans (carry_v3_1_3 m ρ c)
theorem carry_v3_1_5 : Gen.W5 m ρ c (Proc.devRef .tc main_v3) = Gen.W1 m ρ c (Proc.devRef .tc main_v3) :=
  (W5_of m ρ c main_v3 (by decide)).trans (carry_v3_1_4 m ρ c)
theorem carry_v3_1_6 : Gen.W6 m ρ c (Proc.devRef .tc main_v3) = Gen.W1 m ρ c (Proc.devRef .tc main_v3) :=
  (W6_of m ρ c main_v3 (by decide)).trans (carry_v3_1_5 m ρ c)
theorem W6_v3 : Gen.W6 m ρ c (Proc.devRef .tc main_v3) = kDst (m ((c.tc : Thread nD τ).loc main_arg12)) :=
  (carry_v3_1_6 m ρ c).trans (hostOps0_v3 (Gen.W0 m ρ c) (W0_arg12 m ρ c))
theorem W7_v31 : Gen.W7 m ρ c (Proc.devRef .tc main_v31) = kAggOf (Gen.V6 m ρ c main_v13) (kSrc (m ((c.tc : Thread nD τ).loc main_arg12))) (kDst (m ((c.tc : Thread nD τ).loc main_arg12))) (kCntOf (kDst (m ((c.tc : Thread nD τ).loc main_arg12)))) :=
  hostOps2_v31 (Gen.W6 m ρ c) (W6_v13 m ρ c) (W6_v1 m ρ c) (W6_v3 m ρ c)
theorem carry_v13_6_7 : Gen.W7 m ρ c (Proc.devRef .tc main_v13) = Gen.W6 m ρ c (Proc.devRef .tc main_v13) :=
  W7_of m ρ c main_v13 (by decide)
theorem W7_v13 : Gen.W7 m ρ c (Proc.devRef .tc main_v13) = Gen.V6 m ρ c main_v13 :=
  carry_v13_6_7 m ρ c
theorem carry_arg5_0_1 : Gen.W1 m ρ c (Proc.devRef .tc main_arg5) = Gen.W0 m ρ c (Proc.devRef .tc main_arg5) :=
  W1_of m ρ c main_arg5 (by decide)
theorem carry_arg5_0_2 : Gen.W2 m ρ c (Proc.devRef .tc main_arg5) = Gen.W0 m ρ c (Proc.devRef .tc main_arg5) :=
  (W2_of m ρ c main_arg5 (by decide)).trans (carry_arg5_0_1 m ρ c)
theorem carry_arg5_0_3 : Gen.W3 m ρ c (Proc.devRef .tc main_arg5) = Gen.W0 m ρ c (Proc.devRef .tc main_arg5) :=
  (W3_of m ρ c main_arg5 (by decide)).trans (carry_arg5_0_2 m ρ c)
theorem carry_arg5_0_4 : Gen.W4 m ρ c (Proc.devRef .tc main_arg5) = Gen.W0 m ρ c (Proc.devRef .tc main_arg5) :=
  (W4_of m ρ c main_arg5 (by decide)).trans (carry_arg5_0_3 m ρ c)
theorem carry_arg5_0_5 : Gen.W5 m ρ c (Proc.devRef .tc main_arg5) = Gen.W0 m ρ c (Proc.devRef .tc main_arg5) :=
  (W5_of m ρ c main_arg5 (by decide)).trans (carry_arg5_0_4 m ρ c)
theorem carry_arg5_0_6 : Gen.W6 m ρ c (Proc.devRef .tc main_arg5) = Gen.W0 m ρ c (Proc.devRef .tc main_arg5) :=
  (W6_of m ρ c main_arg5 (by decide)).trans (carry_arg5_0_5 m ρ c)
theorem W6_arg5 : Gen.W6 m ρ c (Proc.devRef .tc main_arg5) = m ((c.tc : Thread nD τ).loc main_arg5) :=
  (carry_arg5_0_6 m ρ c).trans rfl
theorem W7_v33 : Gen.W7 m ρ c (Proc.devRef .tc main_v33) = kMat0 (m ((c.tc : Thread nD τ).loc main_arg5)) :=
  hostOps2_v33 (Gen.W6 m ρ c) (W6_arg5 m ρ c)
theorem carry_arg7_0_1 : Gen.W1 m ρ c (Proc.devRef .tc main_arg7) = Gen.W0 m ρ c (Proc.devRef .tc main_arg7) :=
  W1_of m ρ c main_arg7 (by decide)
theorem carry_arg7_0_2 : Gen.W2 m ρ c (Proc.devRef .tc main_arg7) = Gen.W0 m ρ c (Proc.devRef .tc main_arg7) :=
  (W2_of m ρ c main_arg7 (by decide)).trans (carry_arg7_0_1 m ρ c)
theorem carry_arg7_0_3 : Gen.W3 m ρ c (Proc.devRef .tc main_arg7) = Gen.W0 m ρ c (Proc.devRef .tc main_arg7) :=
  (W3_of m ρ c main_arg7 (by decide)).trans (carry_arg7_0_2 m ρ c)
theorem carry_arg7_0_4 : Gen.W4 m ρ c (Proc.devRef .tc main_arg7) = Gen.W0 m ρ c (Proc.devRef .tc main_arg7) :=
  (W4_of m ρ c main_arg7 (by decide)).trans (carry_arg7_0_3 m ρ c)
theorem carry_arg7_0_5 : Gen.W5 m ρ c (Proc.devRef .tc main_arg7) = Gen.W0 m ρ c (Proc.devRef .tc main_arg7) :=
  (W5_of m ρ c main_arg7 (by decide)).trans (carry_arg7_0_4 m ρ c)
theorem carry_arg7_0_6 : Gen.W6 m ρ c (Proc.devRef .tc main_arg7) = Gen.W0 m ρ c (Proc.devRef .tc main_arg7) :=
  (W6_of m ρ c main_arg7 (by decide)).trans (carry_arg7_0_5 m ρ c)
theorem W6_arg7 : Gen.W6 m ρ c (Proc.devRef .tc main_arg7) = m ((c.tc : Thread nD τ).loc main_arg7) :=
  (carry_arg7_0_6 m ρ c).trans rfl
theorem W7_v35 : Gen.W7 m ρ c (Proc.devRef .tc main_v35) = kMat0 (m ((c.tc : Thread nD τ).loc main_arg7)) :=
  hostOps2_v35 (Gen.W6 m ρ c) (W6_arg7 m ρ c)
theorem carry_arg6_0_1 : Gen.W1 m ρ c (Proc.devRef .tc main_arg6) = Gen.W0 m ρ c (Proc.devRef .tc main_arg6) :=
  W1_of m ρ c main_arg6 (by decide)
theorem carry_arg6_0_2 : Gen.W2 m ρ c (Proc.devRef .tc main_arg6) = Gen.W0 m ρ c (Proc.devRef .tc main_arg6) :=
  (W2_of m ρ c main_arg6 (by decide)).trans (carry_arg6_0_1 m ρ c)
theorem carry_arg6_0_3 : Gen.W3 m ρ c (Proc.devRef .tc main_arg6) = Gen.W0 m ρ c (Proc.devRef .tc main_arg6) :=
  (W3_of m ρ c main_arg6 (by decide)).trans (carry_arg6_0_2 m ρ c)
theorem carry_arg6_0_4 : Gen.W4 m ρ c (Proc.devRef .tc main_arg6) = Gen.W0 m ρ c (Proc.devRef .tc main_arg6) :=
  (W4_of m ρ c main_arg6 (by decide)).trans (carry_arg6_0_3 m ρ c)
theorem carry_arg6_0_5 : Gen.W5 m ρ c (Proc.devRef .tc main_arg6) = Gen.W0 m ρ c (Proc.devRef .tc main_arg6) :=
  (W5_of m ρ c main_arg6 (by decide)).trans (carry_arg6_0_4 m ρ c)
theorem carry_arg6_0_6 : Gen.W6 m ρ c (Proc.devRef .tc main_arg6) = Gen.W0 m ρ c (Proc.devRef .tc main_arg6) :=
  (W6_of m ρ c main_arg6 (by decide)).trans (carry_arg6_0_5 m ρ c)
theorem W6_arg6 : Gen.W6 m ρ c (Proc.devRef .tc main_arg6) = m ((c.tc : Thread nD τ).loc main_arg6) :=
  (carry_arg6_0_6 m ρ c).trans rfl
theorem W7_v38 : Gen.W7 m ρ c (Proc.devRef .tc main_v38) = kReshapeRow (kRow0 (m ((c.tc : Thread nD τ).loc main_arg6))) :=
  hostOps2_v38 (Gen.W6 m ρ c) (W6_arg6 m ρ c)
theorem arr2_0 : Pipeline.arrRef spec2 (0 : Fin 6) = main_v31 := rfl
theorem arr2_1 : Pipeline.arrRef spec2 (1 : Fin 6) = main_v13 := rfl
theorem arr2_2 : Pipeline.arrRef spec2 (2 : Fin 6) = main_v33 := rfl
theorem arr2_3 : Pipeline.arrRef spec2 (3 : Fin 6) = main_v35 := rfl
theorem arr2_4 : Pipeline.arrRef spec2 (4 : Fin 6) = main_v38 := rfl
theorem arr2_5 : Pipeline.arrRef spec2 (5 : Fin 6) = main_v39 := rfl
theorem in2_0 : Gen.V7 m ρ c main_v31 = kAgg (Gen.V6 m ρ c main_v13) (m ((c.tc : Thread nD τ).loc main_arg12)) :=
  W7_v31 m ρ c
theorem in2_1 : Gen.V7 m ρ c main_v13 = Gen.V6 m ρ c main_v13 :=
  W7_v13 m ρ c
theorem in2_2 : Gen.V7 m ρ c main_v33 = kMat0 (m ((c.tc : Thread nD τ).loc main_arg5)) :=
  W7_v33 m ρ c
theorem in2_3 : Gen.V7 m ρ c main_v35 = kMat0 (m ((c.tc : Thread nD τ).loc main_arg7)) :=
  W7_v35 m ρ c
theorem in2_4 : Gen.V7 m ρ c main_v38 = kReshapeRow (kRow0 (m ((c.tc : Thread nD τ).loc main_arg6))) :=
  W7_v38 m ρ c
theorem out2 : Gen.V8 m ρ c (Pipeline.arrRef spec2 (5 : Fin 6)) = (dat2 (Gen.V7 m ρ) c).arrAt (5 : Fin 6) cfg2.N :=
  (Gen.hF2 m ρ c (5 : Fin 6)).symm
theorem out2' : Gen.V8 m ρ c main_v39 = (dat2 (Gen.V7 m ρ) c).arrAt (5 : Fin 6) cfg2.N :=
  out2 m ρ c

/-! ## Region 3: entry contents `Gen.V11`, exit contents `Gen.V12` -/

theorem carry_v39_8_9 : Gen.W9 m ρ c (Proc.devRef .tc main_v39) = Gen.W8 m ρ c (Proc.devRef .tc main_v39) :=
  W9_of m ρ c main_v39 (by decide)
theorem carry_v39_8_10 : Gen.W10 m ρ c (Proc.devRef .tc main_v39) = Gen.W8 m ρ c (Proc.devRef .tc main_v39) :=
  (W10_of m ρ c main_v39 (by decide)).trans (carry_v39_8_9 m ρ c)
theorem carry_v39_8_11 : Gen.W11 m ρ c (Proc.devRef .tc main_v39) = Gen.W8 m ρ c (Proc.devRef .tc main_v39) :=
  (W11_of m ρ c main_v39 (by decide)).trans (carry_v39_8_10 m ρ c)
theorem W11_v39 : Gen.W11 m ρ c (Proc.devRef .tc main_v39) = Gen.V8 m ρ c main_v39 :=
  carry_v39_8_11 m ρ c
theorem carry_arg8_0_1 : Gen.W1 m ρ c (Proc.devRef .tc main_arg8) = Gen.W0 m ρ c (Proc.devRef .tc main_arg8) :=
  W1_of m ρ c main_arg8 (by decide)
theorem carry_arg8_0_2 : Gen.W2 m ρ c (Proc.devRef .tc main_arg8) = Gen.W0 m ρ c (Proc.devRef .tc main_arg8) :=
  (W2_of m ρ c main_arg8 (by decide)).trans (carry_arg8_0_1 m ρ c)
theorem carry_arg8_0_3 : Gen.W3 m ρ c (Proc.devRef .tc main_arg8) = Gen.W0 m ρ c (Proc.devRef .tc main_arg8) :=
  (W3_of m ρ c main_arg8 (by decide)).trans (carry_arg8_0_2 m ρ c)
theorem carry_arg8_0_4 : Gen.W4 m ρ c (Proc.devRef .tc main_arg8) = Gen.W0 m ρ c (Proc.devRef .tc main_arg8) :=
  (W4_of m ρ c main_arg8 (by decide)).trans (carry_arg8_0_3 m ρ c)
theorem carry_arg8_0_5 : Gen.W5 m ρ c (Proc.devRef .tc main_arg8) = Gen.W0 m ρ c (Proc.devRef .tc main_arg8) :=
  (W5_of m ρ c main_arg8 (by decide)).trans (carry_arg8_0_4 m ρ c)
theorem carry_arg8_0_6 : Gen.W6 m ρ c (Proc.devRef .tc main_arg8) = Gen.W0 m ρ c (Proc.devRef .tc main_arg8) :=
  (W6_of m ρ c main_arg8 (by decide)).trans (carry_arg8_0_5 m ρ c)
theorem carry_arg8_0_7 : Gen.W7 m ρ c (Proc.devRef .tc main_arg8) = Gen.W0 m ρ c (Proc.devRef .tc main_arg8) :=
  (W7_of m ρ c main_arg8 (by decide)).trans (carry_arg8_0_6 m ρ c)
theorem carry_arg8_0_8 : Gen.W8 m ρ c (Proc.devRef .tc main_arg8) = Gen.W0 m ρ c (Proc.devRef .tc main_arg8) :=
  (W8_of m ρ c main_arg8 (by decide)).trans (carry_arg8_0_7 m ρ c)
theorem carry_arg8_0_9 : Gen.W9 m ρ c (Proc.devRef .tc main_arg8) = Gen.W0 m ρ c (Proc.devRef .tc main_arg8) :=
  (W9_of m ρ c main_arg8 (by decide)).trans (carry_arg8_0_8 m ρ c)
theorem carry_arg8_0_10 : Gen.W10 m ρ c (Proc.devRef .tc main_arg8) = Gen.W0 m ρ c (Proc.devRef .tc main_arg8) :=
  (W10_of m ρ c main_arg8 (by decide)).trans (carry_arg8_0_9 m ρ c)
theorem W10_arg8 : Gen.W10 m ρ c (Proc.devRef .tc main_arg8) = m ((c.tc : Thread nD τ).loc main_arg8) :=
  (carry_arg8_0_10 m ρ c).trans rfl
theorem W11_v49 : Gen.W11 m ρ c (Proc.devRef .tc main_v49) = kReshapeRow (kRow0 (m ((c.tc : Thread nD τ).loc main_arg8))) :=
  hostOps3_2_v49 (Gen.W10 m ρ c) (W10_arg8 m ρ c)
theorem carry_arg9_0_1 : Gen.W1 m ρ c (Proc.devRef .tc main_arg9) = Gen.W0 m ρ c (Proc.devRef .tc main_arg9) :=
  W1_of m ρ c main_arg9 (by decide)
theorem carry_arg9_0_2 : Gen.W2 m ρ c (Proc.devRef .tc main_arg9) = Gen.W0 m ρ c (Proc.devRef .tc main_arg9) :=
  (W2_of m ρ c main_arg9 (by decide)).trans (carry_arg9_0_1 m ρ c)
theorem carry_arg9_0_3 : Gen.W3 m ρ c (Proc.devRef .tc main_arg9) = Gen.W0 m ρ c (Proc.devRef .tc main_arg9) :=
  (W3_of m ρ c main_arg9 (by decide)).trans (carry_arg9_0_2 m ρ c)
theorem carry_arg9_0_4 : Gen.W4 m ρ c (Proc.devRef .tc main_arg9) = Gen.W0 m ρ c (Proc.devRef .tc main_arg9) :=
  (W4_of m ρ c main_arg9 (by decide)).trans (carry_arg9_0_3 m ρ c)
theorem carry_arg9_0_5 : Gen.W5 m ρ c (Proc.devRef .tc main_arg9) = Gen.W0 m ρ c (Proc.devRef .tc main_arg9) :=
  (W5_of m ρ c main_arg9 (by decide)).trans (carry_arg9_0_4 m ρ c)
theorem carry_arg9_0_6 : Gen.W6 m ρ c (Proc.devRef .tc main_arg9) = Gen.W0 m ρ c (Proc.devRef .tc main_arg9) :=
  (W6_of m ρ c main_arg9 (by decide)).trans (carry_arg9_0_5 m ρ c)
theorem carry_arg9_0_7 : Gen.W7 m ρ c (Proc.devRef .tc main_arg9) = Gen.W0 m ρ c (Proc.devRef .tc main_arg9) :=
  (W7_of m ρ c main_arg9 (by decide)).trans (carry_arg9_0_6 m ρ c)
theorem carry_arg9_0_8 : Gen.W8 m ρ c (Proc.devRef .tc main_arg9) = Gen.W0 m ρ c (Proc.devRef .tc main_arg9) :=
  (W8_of m ρ c main_arg9 (by decide)).trans (carry_arg9_0_7 m ρ c)
theorem carry_arg9_0_9 : Gen.W9 m ρ c (Proc.devRef .tc main_arg9) = Gen.W0 m ρ c (Proc.devRef .tc main_arg9) :=
  (W9_of m ρ c main_arg9 (by decide)).trans (carry_arg9_0_8 m ρ c)
theorem carry_arg9_0_10 : Gen.W10 m ρ c (Proc.devRef .tc main_arg9) = Gen.W0 m ρ c (Proc.devRef .tc main_arg9) :=
  (W10_of m ρ c main_arg9 (by decide)).trans (carry_arg9_0_9 m ρ c)
theorem W10_arg9 : Gen.W10 m ρ c (Proc.devRef .tc main_arg9) = m ((c.tc : Thread nD τ).loc main_arg9) :=
  (carry_arg9_0_10 m ρ c).trans rfl
theorem W11_v50 : Gen.W11 m ρ c (Proc.devRef .tc main_v50) = kReshapeRow (kRow0 (m ((c.tc : Thread nD τ).loc main_arg9))) :=
  hostOps3_2_v50 (Gen.W10 m ρ c) (W10_arg9 m ρ c)
theorem W8_v39 : Gen.W8 m ρ c (Proc.devRef .tc main_v39) = Gen.V8 m ρ c main_v39 :=
  rfl
theorem carry_v43_9_10 : Gen.W10 m ρ c (Proc.devRef .tc main_v43) = Gen.W9 m ρ c (Proc.devRef .tc main_v43) :=
  W10_of m ρ c main_v43 (by decide)
theorem carry_v43_9_11 : Gen.W11 m ρ c (Proc.devRef .tc main_v43) = Gen.W9 m ρ c (Proc.devRef .tc main_v43) :=
  (W11_of m ρ c main_v43 (by decide)).trans (carry_v43_9_10 m ρ c)
theorem W11_v43 : Gen.W11 m ρ c (Proc.devRef .tc main_v43) = kMean (Gen.V8 m ρ c main_v39) :=
  (carry_v43_9_11 m ρ c).trans (hostOps3_v43 (Gen.W8 m ρ c) (W8_v39 m ρ c))
theorem W9_v39 : Gen.W9 m ρ c (Proc.devRef .tc main_v39) = Gen.V8 m ρ c main_v39 :=
  carry_v39_8_9 m ρ c
theorem W9_c_9 : Gen.W9 m ρ c (Proc.devRef .tc main_c_9) = constantI S_ 32 0#32 :=
  hostOps3_c_9 (Gen.W8 m ρ c)
theorem carry_v44_10_11 : Gen.W11 m ρ c (Proc.devRef .tc main_v44) = Gen.W10 m ρ c (Proc.devRef .tc main_v44) :=
  W11_of m ρ c main_v44 (by decide)
theorem W11_v44 : Gen.W11 m ρ c (Proc.devRef .tc main_v44) = kVar (Gen.V8 m ρ c main_v39) :=
  (carry_v44_10_11 m ρ c).trans (hostOps3_1_v44 (Gen.W9 m ρ c) (W9_v39 m ρ c) (W9_c_9 m ρ c))
theorem arr3_0 : Pipeline.arrRef spec3 (0 : Fin 6) = main_v39 := rfl
theorem arr3_1 : Pipeline.arrRef spec3 (1 : Fin 6) = main_v49 := rfl
theorem arr3_2 : Pipeline.arrRef spec3 (2 : Fin 6) = main_v50 := rfl
theorem arr3_3 : Pipeline.arrRef spec3 (3 : Fin 6) = main_v43 := rfl
theorem arr3_4 : Pipeline.arrRef spec3 (4 : Fin 6) = main_v44 := rfl
theorem arr3_5 : Pipeline.arrRef spec3 (5 : Fin 6) = main_v51 := rfl
theorem in3_0 : Gen.V11 m ρ c main_v39 = Gen.V8 m ρ c main_v39 :=
  W11_v39 m ρ c
theorem in3_1 : Gen.V11 m ρ c main_v49 = kReshapeRow (kRow0 (m ((c.tc : Thread nD τ).loc main_arg8))) :=
  W11_v49 m ρ c
theorem in3_2 : Gen.V11 m ρ c main_v50 = kReshapeRow (kRow0 (m ((c.tc : Thread nD τ).loc main_arg9))) :=
  W11_v50 m ρ c
theorem in3_3 : Gen.V11 m ρ c main_v43 = kMean (Gen.V8 m ρ c main_v39) :=
  W11_v43 m ρ c
theorem in3_4 : Gen.V11 m ρ c main_v44 = kVar (Gen.V8 m ρ c main_v39) :=
  W11_v44 m ρ c
theorem out3 : Gen.V12 m ρ c (Pipeline.arrRef spec3 (5 : Fin 6)) = (dat3 (Gen.V11 m ρ) c).arrAt (5 : Fin 6) cfg3.N :=
  (Gen.hF3 m ρ c (5 : Fin 6)).symm
theorem out3' : Gen.V12 m ρ c main_v51 = (dat3 (Gen.V11 m ρ) c).arrAt (5 : Fin 6) cfg3.N :=
  out3 m ρ c

/-! ## Region 4: entry contents `Gen.V13`, exit contents `Gen.V14` -/

theorem W12_v51 : Gen.W12 m ρ c (Proc.devRef .tc main_v51) = Gen.V12 m ρ c main_v51 :=
  rfl
theorem carry_v1_1_7 : Gen.W7 m ρ c (Proc.devRef .tc main_v1) = Gen.W1 m ρ c (Proc.devRef .tc main_v1) :=
  (W7_of m ρ c main_v1 (by decide)).trans (carry_v1_1_6 m ρ c)
theorem carry_v1_1_8 : Gen.W8 m ρ c (Proc.devRef .tc main_v1) = Gen.W1 m ρ c (Proc.devRef .tc main_v1) :=
  (W8_of m ρ c main_v1 (by decide)).trans (carry_v1_1_7 m ρ c)
theorem carry_v1_1_9 : Gen.W9 m ρ c (Proc.devRef .tc main_v1) = Gen.W1 m ρ c (Proc.devRef .tc main_v1) :=
  (W9_of m ρ c main_v1 (by decide)).trans (carry_v1_1_8 m ρ c)
theorem carry_v1_1_10 : Gen.W10 m ρ c (Proc.devRef .tc main_v1) = Gen.W1 m ρ c (Proc.devRef .tc main_v1) :=
  (W10_of m ρ c main_v1 (by decide)).trans (carry_v1_1_9 m ρ c)
theorem carry_v1_1_11 : Gen.W11 m ρ c (Proc.devRef .tc main_v1) = Gen.W1 m ρ c (Proc.devRef .tc main_v1) :=
  (W11_of m ρ c main_v1 (by decide)).trans (carry_v1_1_10 m ρ c)
theorem carry_v1_1_12 : Gen.W12 m ρ c (Proc.devRef .tc main_v1) = Gen.W1 m ρ c (Proc.devRef .tc main_v1) :=
  (W12_of m ρ c main_v1 (by decide)).trans (carry_v1_1_11 m ρ c)
theorem W12_v1 : Gen.W12 m ρ c (Proc.devRef .tc main_v1) = kSrc (m ((c.tc : Thread nD τ).loc main_arg12)) :=
  (carry_v1_1_12 m ρ c).trans (hostOps0_v1 (Gen.W0 m ρ c) (W0_arg12 m ρ c))
theorem carry_v3_1_7 : Gen.W7 m ρ c (Proc.devRef .tc main_v3) = Gen.W1 m ρ c (Proc.devRef .tc main_v3) :=
  (W7_of m ρ c main_v3 (by decide)).trans (carry_v3_1_6 m ρ c)
theorem carry_v3_1_8 : Gen.W8 m ρ c (Proc.devRef .tc main_v3) = Gen.W1 m ρ c (Proc.devRef .tc main_v3) :=
  (W8_of m ρ c main_v3 (by decide)).trans (carry_v3_1_7 m ρ c)
theorem carry_v3_1_9 : Gen.W9 m ρ c (Proc.devRef .tc main_v3) = Gen.W1 m ρ c (Proc.devRef .tc main_v3) :=
  (W9_of m ρ c main_v3 (by decide)).trans (carry_v3_1_8 m ρ c)
theorem carry_v3_1_10 : Gen.W10 m ρ c (Proc.devRef .tc main_v3) = Gen.W1 m ρ c (Proc.devRef .tc main_v3) :=
  (W10_of m ρ c main_v3 (by decide)).trans (carry_v3_1_9 m ρ c)
theorem carry_v3_1_11 : Gen.W11 m ρ c (Proc.devRef .tc main_v3) = Gen.W1 m ρ c (Proc.devRef .tc main_v3) :=
  (W11_of m ρ c main_v3 (by decide)).trans (carry_v3_1_10 m ρ c)
theorem carry_v3_1_12 : Gen.W12 m ρ c (Proc.devRef .tc main_v3) = Gen.W1 m ρ c (Proc.devRef .tc main_v3) :=
  (W12_of m ρ c main_v3 (by decide)).trans (carry_v3_1_11 m ρ c)
theorem W12_v3 : Gen.W12 m ρ c (Proc.devRef .tc main_v3) = kDst (m ((c.tc : Thread nD τ).loc main_arg12)) :=
  (carry_v3_1_12 m ρ c).trans (hostOps0_v3 (Gen.W0 m ρ c) (W0_arg12 m ρ c))
theorem carry_v19_7_8 : Gen.W8 m ρ c (Proc.devRef .tc main_v19) = Gen.W7 m ρ c (Proc.devRef .tc main_v19) :=
  W8_of m ρ c main_v19 (by decide)
theorem carry_v19_7_9 : Gen.W9 m ρ c (Proc.devRef .tc main_v19) = Gen.W7 m ρ c (Proc.devRef .tc main_v19) :=
  (W9_of m ρ c main_v19 (by decide)).trans (carry_v19_7_8 m ρ c)
theorem carry_v19_7_10 : Gen.W10 m ρ c (Proc.devRef .tc main_v19) = Gen.W7 m ρ c (Proc.devRef .tc main_v19) :=
  (W10_of m ρ c main_v19 (by decide)).trans (carry_v19_7_9 m ρ c)
theorem carry_v19_7_11 : Gen.W11 m ρ c (Proc.devRef .tc main_v19) = Gen.W7 m ρ c (Proc.devRef .tc main_v19) :=
  (W11_of m ρ c main_v19 (by decide)).trans (carry_v19_7_10 m ρ c)
theorem carry_v19_7_12 : Gen.W12 m ρ c (Proc.devRef .tc main_v19) = Gen.W7 m ρ c (Proc.devRef .tc main_v19) :=
  (W12_of m ρ c main_v19 (by decide)).trans (carry_v19_7_11 m ρ c)
theorem W12_v19 : Gen.W12 m ρ c (Proc.devRef .tc main_v19) = kCntOf (kDst (m ((c.tc : Thread nD τ).loc main_arg12))) :=
  (carry_v19_7_12 m ρ c).trans (hostOps2_v19 (Gen.W6 m ρ c) (W6_v3 m ρ c))
theorem W13_v63 : Gen.W13 m ρ c (Proc.devRef .tc main_v63) = kAggOf (Gen.V12 m ρ c main_v51) (kSrc (m ((c.tc : Thread nD τ).loc main_arg12))) (kDst (m ((c.tc : Thread nD τ).loc main_arg12))) (kCntOf (kDst (m ((c.tc : Thread nD τ).loc main_arg12)))) :=
  hostOps4_v63 (Gen.W12 m ρ c) (W12_v51 m ρ c) (W12_v1 m ρ c) (W12_v3 m ρ c) (W12_v19 m ρ c)
theorem carry_v51_12_13 : Gen.W13 m ρ c (Proc.devRef .tc main_v51) = Gen.W12 m ρ c (Proc.devRef .tc main_v51) :=
  W13_of m ρ c main_v51 (by decide)
theorem W13_v51 : Gen.W13 m ρ c (Proc.devRef .tc main_v51) = Gen.V12 m ρ c main_v51 :=
  carry_v51_12_13 m ρ c
theorem carry_arg5_0_7 : Gen.W7 m ρ c (Proc.devRef .tc main_arg5) = Gen.W0 m ρ c (Proc.devRef .tc main_arg5) :=
  (W7_of m ρ c main_arg5 (by decide)).trans (carry_arg5_0_6 m ρ c)
theorem carry_arg5_0_8 : Gen.W8 m ρ c (Proc.devRef .tc main_arg5) = Gen.W0 m ρ c (Proc.devRef .tc main_arg5) :=
  (W8_of m ρ c main_arg5 (by decide)).trans (carry_arg5_0_7 m ρ c)
theorem carry_arg5_0_9 : Gen.W9 m ρ c (Proc.devRef .tc main_arg5) = Gen.W0 m ρ c (Proc.devRef .tc main_arg5) :=
  (W9_of m ρ c main_arg5 (by decide)).trans (carry_arg5_0_8 m ρ c)
theorem carry_arg5_0_10 : Gen.W10 m ρ c (Proc.devRef .tc main_arg5) = Gen.W0 m ρ c (Proc.devRef .tc main_arg5) :=
  (W10_of m ρ c main_arg5 (by decide)).trans (carry_arg5_0_9 m ρ c)
theorem carry_arg5_0_11 : Gen.W11 m ρ c (Proc.devRef .tc main_arg5) = Gen.W0 m ρ c (Proc.devRef .tc main_arg5) :=
  (W11_of m ρ c main_arg5 (by decide)).trans (carry_arg5_0_10 m ρ c)
theorem carry_arg5_0_12 : Gen.W12 m ρ c (Proc.devRef .tc main_arg5) = Gen.W0 m ρ c (Proc.devRef .tc main_arg5) :=
  (W12_of m ρ c main_arg5 (by decide)).trans (carry_arg5_0_11 m ρ c)
theorem W12_arg5 : Gen.W12 m ρ c (Proc.devRef .tc main_arg5) = m ((c.tc : Thread nD τ).loc main_arg5) :=
  (carry_arg5_0_12 m ρ c).trans rfl
theorem W13_v65 : Gen.W13 m ρ c (Proc.devRef .tc main_v65) = kMat1 (m ((c.tc : Thread nD τ).loc main_arg5)) :=
  hostOps4_v65 (Gen.W12 m ρ c) (W12_arg5 m ρ c)
theorem carry_arg7_0_7 : Gen.W7 m ρ c (Proc.devRef .tc main_arg7) = Gen.W0 m ρ c (Proc.devRef .tc main_arg7) :=
  (W7_of m ρ c main_arg7 (by decide)).trans (carry_arg7_0_6 m ρ c)
theorem carry_arg7_0_8 : Gen.W8 m ρ c (Proc.devRef .tc main_arg7) = Gen.W0 m ρ c (Proc.devRef .tc main_arg7) :=
  (W8_of m ρ c main_arg7 (by decide)).trans (carry_arg7_0_7 m ρ c)
theorem carry_arg7_0_9 : Gen.W9 m ρ c (Proc.devRef .tc main_arg7) = Gen.W0 m ρ c (Proc.devRef .tc main_arg7) :=
  (W9_of m ρ c main_arg7 (by decide)).trans (carry_arg7_0_8 m ρ c)
theorem carry_arg7_0_10 : Gen.W10 m ρ c (Proc.devRef .tc main_arg7) = Gen.W0 m ρ c (Proc.devRef .tc main_arg7) :=
  (W10_of m ρ c main_arg7 (by decide)).trans (carry_arg7_0_9 m ρ c)
theorem carry_arg7_0_11 : Gen.W11 m ρ c (Proc.devRef .tc main_arg7) = Gen.W0 m ρ c (Proc.devRef .tc main_arg7) :=
  (W11_of m ρ c main_arg7 (by decide)).trans (carry_arg7_0_10 m ρ c)
theorem carry_arg7_0_12 : Gen.W12 m ρ c (Proc.devRef .tc main_arg7) = Gen.W0 m ρ c (Proc.devRef .tc main_arg7) :=
  (W12_of m ρ c main_arg7 (by decide)).trans (carry_arg7_0_11 m ρ c)
theorem W12_arg7 : Gen.W12 m ρ c (Proc.devRef .tc main_arg7) = m ((c.tc : Thread nD τ).loc main_arg7) :=
  (carry_arg7_0_12 m ρ c).trans rfl
theorem W13_v67 : Gen.W13 m ρ c (Proc.devRef .tc main_v67) = kMat1 (m ((c.tc : Thread nD τ).loc main_arg7)) :=
  hostOps4_v67 (Gen.W12 m ρ c) (W12_arg7 m ρ c)
theorem carry_arg6_0_7 : Gen.W7 m ρ c (Proc.devRef .tc main_arg6) = Gen.W0 m ρ c (Proc.devRef .tc main_arg6) :=
  (W7_of m ρ c main_arg6 (by decide)).trans (carry_arg6_0_6 m ρ c)
theorem carry_arg6_0_8 : Gen.W8 m ρ c (Proc.devRef .tc main_arg6) = Gen.W0 m ρ c (Proc.devRef .tc main_arg6) :=
  (W8_of m ρ c main_arg6 (by decide)).trans (carry_arg6_0_7 m ρ c)
theorem carry_arg6_0_9 : Gen.W9 m ρ c (Proc.devRef .tc main_arg6) = Gen.W0 m ρ c (Proc.devRef .tc main_arg6) :=
  (W9_of m ρ c main_arg6 (by decide)).trans (carry_arg6_0_8 m ρ c)
theorem carry_arg6_0_10 : Gen.W10 m ρ c (Proc.devRef .tc main_arg6) = Gen.W0 m ρ c (Proc.devRef .tc main_arg6) :=
  (W10_of m ρ c main_arg6 (by decide)).trans (carry_arg6_0_9 m ρ c)
theorem carry_arg6_0_11 : Gen.W11 m ρ c (Proc.devRef .tc main_arg6) = Gen.W0 m ρ c (Proc.devRef .tc main_arg6) :=
  (W11_of m ρ c main_arg6 (by decide)).trans (carry_arg6_0_10 m ρ c)
theorem carry_arg6_0_12 : Gen.W12 m ρ c (Proc.devRef .tc main_arg6) = Gen.W0 m ρ c (Proc.devRef .tc main_arg6) :=
  (W12_of m ρ c main_arg6 (by decide)).trans (carry_arg6_0_11 m ρ c)
theorem W12_arg6 : Gen.W12 m ρ c (Proc.devRef .tc main_arg6) = m ((c.tc : Thread nD τ).loc main_arg6) :=
  (carry_arg6_0_12 m ρ c).trans rfl
theorem W13_v70 : Gen.W13 m ρ c (Proc.devRef .tc main_v70) = kReshapeRow (kRow1 (m ((c.tc : Thread nD τ).loc main_arg6))) :=
  hostOps4_v70 (Gen.W12 m ρ c) (W12_arg6 m ρ c)
theorem arr4_0 : Pipeline.arrRef spec4 (0 : Fin 6) = main_v63 := rfl
theorem arr4_1 : Pipeline.arrRef spec4 (1 : Fin 6) = main_v51 := rfl
theorem arr4_2 : Pipeline.arrRef spec4 (2 : Fin 6) = main_v65 := rfl
theorem arr4_3 : Pipeline.arrRef spec4 (3 : Fin 6) = main_v67 := rfl
theorem arr4_4 : Pipeline.arrRef spec4 (4 : Fin 6) = main_v70 := rfl
theorem arr4_5 : Pipeline.arrRef spec4 (5 : Fin 6) = main_v71 := rfl
theorem in4_0 : Gen.V13 m ρ c main_v63 = kAgg (Gen.V12 m ρ c main_v51) (m ((c.tc : Thread nD τ).loc main_arg12)) :=
  W13_v63 m ρ c
theorem in4_1 : Gen.V13 m ρ c main_v51 = Gen.V12 m ρ c main_v51 :=
  W13_v51 m ρ c
theorem in4_2 : Gen.V13 m ρ c main_v65 = kMat1 (m ((c.tc : Thread nD τ).loc main_arg5)) :=
  W13_v65 m ρ c
theorem in4_3 : Gen.V13 m ρ c main_v67 = kMat1 (m ((c.tc : Thread nD τ).loc main_arg7)) :=
  W13_v67 m ρ c
theorem in4_4 : Gen.V13 m ρ c main_v70 = kReshapeRow (kRow1 (m ((c.tc : Thread nD τ).loc main_arg6))) :=
  W13_v70 m ρ c
theorem out4 : Gen.V14 m ρ c (Pipeline.arrRef spec4 (5 : Fin 6)) = (dat4 (Gen.V13 m ρ) c).arrAt (5 : Fin 6) cfg4.N :=
  (Gen.hF4 m ρ c (5 : Fin 6)).symm
theorem out4' : Gen.V14 m ρ c main_v71 = (dat4 (Gen.V13 m ρ) c).arrAt (5 : Fin 6) cfg4.N :=
  out4 m ρ c

/-! ## Region 5: entry contents `Gen.V17`, exit contents `Gen.V18` -/

theorem carry_v71_14_15 : Gen.W15 m ρ c (Proc.devRef .tc main_v71) = Gen.W14 m ρ c (Proc.devRef .tc main_v71) :=
  W15_of m ρ c main_v71 (by decide)
theorem carry_v71_14_16 : Gen.W16 m ρ c (Proc.devRef .tc main_v71) = Gen.W14 m ρ c (Proc.devRef .tc main_v71) :=
  (W16_of m ρ c main_v71 (by decide)).trans (carry_v71_14_15 m ρ c)
theorem carry_v71_14_17 : Gen.W17 m ρ c (Proc.devRef .tc main_v71) = Gen.W14 m ρ c (Proc.devRef .tc main_v71) :=
  (W17_of m ρ c main_v71 (by decide)).trans (carry_v71_14_16 m ρ c)
theorem W17_v71 : Gen.W17 m ρ c (Proc.devRef .tc main_v71) = Gen.V14 m ρ c main_v71 :=
  carry_v71_14_17 m ρ c
theorem carry_arg8_0_11 : Gen.W11 m ρ c (Proc.devRef .tc main_arg8) = Gen.W0 m ρ c (Proc.devRef .tc main_arg8) :=
  (W11_of m ρ c main_arg8 (by decide)).trans (carry_arg8_0_10 m ρ c)
theorem carry_arg8_0_12 : Gen.W12 m ρ c (Proc.devRef .tc main_arg8) = Gen.W0 m ρ c (Proc.devRef .tc main_arg8) :=
  (W12_of m ρ c main_arg8 (by decide)).trans (carry_arg8_0_11 m ρ c)
theorem carry_arg8_0_13 : Gen.W13 m ρ c (Proc.devRef .tc main_arg8) = Gen.W0 m ρ c (Proc.devRef .tc main_arg8) :=
  (W13_of m ρ c main_arg8 (by decide)).trans (carry_arg8_0_12 m ρ c)
theorem carry_arg8_0_14 : Gen.W14 m ρ c (Proc.devRef .tc main_arg8) = Gen.W0 m ρ c (Proc.devRef .tc main_arg8) :=
  (W14_of m ρ c main_arg8 (by decide)).trans (carry_arg8_0_13 m ρ c)
theorem carry_arg8_0_15 : Gen.W15 m ρ c (Proc.devRef .tc main_arg8) = Gen.W0 m ρ c (Proc.devRef .tc main_arg8) :=
  (W15_of m ρ c main_arg8 (by decide)).trans (carry_arg8_0_14 m ρ c)
theorem carry_arg8_0_16 : Gen.W16 m ρ c (Proc.devRef .tc main_arg8) = Gen.W0 m ρ c (Proc.devRef .tc main_arg8) :=
  (W16_of m ρ c main_arg8 (by decide)).trans (carry_arg8_0_15 m ρ c)
theorem W16_arg8 : Gen.W16 m ρ c (Proc.devRef .tc main_arg8) = m ((c.tc : Thread nD τ).loc main_arg8) :=
  (carry_arg8_0_16 m ρ c).trans rfl
theorem W17_v81 : Gen.W17 m ρ c (Proc.devRef .tc main_v81) = kReshapeRow (kRow1 (m ((c.tc : Thread nD τ).loc main_arg8))) :=
  hostOps5_2_v81 (Gen.W16 m ρ c) (W16_arg8 m ρ c)
theorem carry_arg9_0_11 : Gen.W11 m ρ c (Proc.devRef .tc main_arg9) = Gen.W0 m ρ c (Proc.devRef .tc main_arg9) :=
  (W11_of m ρ c main_arg9 (by decide)).trans (carry_arg9_0_10 m ρ c)
theorem carry_arg9_0_12 : Gen.W12 m ρ c (Proc.devRef .tc main_arg9) = Gen.W0 m ρ c (Proc.devRef .tc main_arg9) :=
  (W12_of m ρ c main_arg9 (by decide)).trans (carry_arg9_0_11 m ρ c)
theorem carry_arg9_0_13 : Gen.W13 m ρ c (Proc.devRef .tc main_arg9) = Gen.W0 m ρ c (Proc.devRef .tc main_arg9) :=
  (W13_of m ρ c main_arg9 (by decide)).trans (carry_arg9_0_12 m ρ c)
theorem carry_arg9_0_14 : Gen.W14 m ρ c (Proc.devRef .tc main_arg9) = Gen.W0 m ρ c (Proc.devRef .tc main_arg9) :=
  (W14_of m ρ c main_arg9 (by decide)).trans (carry_arg9_0_13 m ρ c)
theorem carry_arg9_0_15 : Gen.W15 m ρ c (Proc.devRef .tc main_arg9) = Gen.W0 m ρ c (Proc.devRef .tc main_arg9) :=
  (W15_of m ρ c main_arg9 (by decide)).trans (carry_arg9_0_14 m ρ c)
theorem carry_arg9_0_16 : Gen.W16 m ρ c (Proc.devRef .tc main_arg9) = Gen.W0 m ρ c (Proc.devRef .tc main_arg9) :=
  (W16_of m ρ c main_arg9 (by decide)).trans (carry_arg9_0_15 m ρ c)
theorem W16_arg9 : Gen.W16 m ρ c (Proc.devRef .tc main_arg9) = m ((c.tc : Thread nD τ).loc main_arg9) :=
  (carry_arg9_0_16 m ρ c).trans rfl
theorem W17_v82 : Gen.W17 m ρ c (Proc.devRef .tc main_v82) = kReshapeRow (kRow1 (m ((c.tc : Thread nD τ).loc main_arg9))) :=
  hostOps5_2_v82 (Gen.W16 m ρ c) (W16_arg9 m ρ c)
theorem W14_v71 : Gen.W14 m ρ c (Proc.devRef .tc main_v71) = Gen.V14 m ρ c main_v71 :=
  rfl
theorem carry_v75_15_16 : Gen.W16 m ρ c (Proc.devRef .tc main_v75) = Gen.W15 m ρ c (Proc.devRef .tc main_v75) :=
  W16_of m ρ c main_v75 (by decide)
theorem carry_v75_15_17 : Gen.W17 m ρ c (Proc.devRef .tc main_v75) = Gen.W15 m ρ c (Proc.devRef .tc main_v75) :=
  (W17_of m ρ c main_v75 (by decide)).trans (carry_v75_15_16 m ρ c)
theorem W17_v75 : Gen.W17 m ρ c (Proc.devRef .tc main_v75) = kMean (Gen.V14 m ρ c main_v71) :=
  (carry_v75_15_17 m ρ c).trans (hostOps5_v75 (Gen.W14 m ρ c) (W14_v71 m ρ c))
theorem W15_v71 : Gen.W15 m ρ c (Proc.devRef .tc main_v71) = Gen.V14 m ρ c main_v71 :=
  carry_v71_14_15 m ρ c
theorem W15_c_15 : Gen.W15 m ρ c (Proc.devRef .tc main_c_15) = constantI S_ 32 0#32 :=
  hostOps5_c_15 (Gen.W14 m ρ c)
theorem carry_v76_16_17 : Gen.W17 m ρ c (Proc.devRef .tc main_v76) = Gen.W16 m ρ c (Proc.devRef .tc main_v76) :=
  W17_of m ρ c main_v76 (by decide)
theorem W17_v76 : Gen.W17 m ρ c (Proc.devRef .tc main_v76) = kVar (Gen.V14 m ρ c main_v71) :=
  (carry_v76_16_17 m ρ c).trans (hostOps5_1_v76 (Gen.W15 m ρ c) (W15_v71 m ρ c) (W15_c_15 m ρ c))
theorem arr5_0 : Pipeline.arrRef spec5 (0 : Fin 6) = main_v71 := rfl
theorem arr5_1 : Pipeline.arrRef spec5 (1 : Fin 6) = main_v81 := rfl
theorem arr5_2 : Pipeline.arrRef spec5 (2 : Fin 6) = main_v82 := rfl
theorem arr5_3 : Pipeline.arrRef spec5 (3 : Fin 6) = main_v75 := rfl
theorem arr5_4 : Pipeline.arrRef spec5 (4 : Fin 6) = main_v76 := rfl
theorem arr5_5 : Pipeline.arrRef spec5 (5 : Fin 6) = main_v83 := rfl
theorem in5_0 : Gen.V17 m ρ c main_v71 = Gen.V14 m ρ c main_v71 :=
  W17_v71 m ρ c
theorem in5_1 : Gen.V17 m ρ c main_v81 = kReshapeRow (kRow1 (m ((c.tc : Thread nD τ).loc main_arg8))) :=
  W17_v81 m ρ c
theorem in5_2 : Gen.V17 m ρ c main_v82 = kReshapeRow (kRow1 (m ((c.tc : Thread nD τ).loc main_arg9))) :=
  W17_v82 m ρ c
theorem in5_3 : Gen.V17 m ρ c main_v75 = kMean (Gen.V14 m ρ c main_v71) :=
  W17_v75 m ρ c
theorem in5_4 : Gen.V17 m ρ c main_v76 = kVar (Gen.V14 m ρ c main_v71) :=
  W17_v76 m ρ c
theorem out5 : Gen.V18 m ρ c (Pipeline.arrRef spec5 (5 : Fin 6)) = (dat5 (Gen.V17 m ρ) c).arrAt (5 : Fin 6) cfg5.N :=
  (Gen.hF5 m ρ c (5 : Fin 6)).symm
theorem out5' : Gen.V18 m ρ c main_v83 = (dat5 (Gen.V17 m ρ) c).arrAt (5 : Fin 6) cfg5.N :=
  out5 m ρ c

/-! ## Region 6: entry contents `Gen.V19`, exit contents `Gen.V20` -/

theorem W18_v83 : Gen.W18 m ρ c (Proc.devRef .tc main_v83) = Gen.V18 m ρ c main_v83 :=
  rfl
theorem carry_v1_1_13 : Gen.W13 m ρ c (Proc.devRef .tc main_v1) = Gen.W1 m ρ c (Proc.devRef .tc main_v1) :=
  (W13_of m ρ c main_v1 (by decide)).trans (carry_v1_1_12 m ρ c)
theorem carry_v1_1_14 : Gen.W14 m ρ c (Proc.devRef .tc main_v1) = Gen.W1 m ρ c (Proc.devRef .tc main_v1) :=
  (W14_of m ρ c main_v1 (by decide)).trans (carry_v1_1_13 m ρ c)
theorem carry_v1_1_15 : Gen.W15 m ρ c (Proc.devRef .tc main_v1) = Gen.W1 m ρ c (Proc.devRef .tc main_v1) :=
  (W15_of m ρ c main_v1 (by decide)).trans (carry_v1_1_14 m ρ c)
theorem carry_v1_1_16 : Gen.W16 m ρ c (Proc.devRef .tc main_v1) = Gen.W1 m ρ c (Proc.devRef .tc main_v1) :=
  (W16_of m ρ c main_v1 (by decide)).trans (carry_v1_1_15 m ρ c)
theorem carry_v1_1_17 : Gen.W17 m ρ c (Proc.devRef .tc main_v1) = Gen.W1 m ρ c (Proc.devRef .tc main_v1) :=
  (W17_of m ρ c main_v1 (by decide)).trans (carry_v1_1_16 m ρ c)
theorem carry_v1_1_18 : Gen.W18 m ρ c (Proc.devRef .tc main_v1) = Gen.W1 m ρ c (Proc.devRef .tc main_v1) :=
  (W18_of m ρ c main_v1 (by decide)).trans (carry_v1_1_17 m ρ c)
theorem W18_v1 : Gen.W18 m ρ c (Proc.devRef .tc main_v1) = kSrc (m ((c.tc : Thread nD τ).loc main_arg12)) :=
  (carry_v1_1_18 m ρ c).trans (hostOps0_v1 (Gen.W0 m ρ c) (W0_arg12 m ρ c))
theorem carry_v3_1_13 : Gen.W13 m ρ c (Proc.devRef .tc main_v3) = Gen.W1 m ρ c (Proc.devRef .tc main_v3) :=
  (W13_of m ρ c main_v3 (by decide)).trans (carry_v3_1_12 m ρ c)
theorem carry_v3_1_14 : Gen.W14 m ρ c (Proc.devRef .tc main_v3) = Gen.W1 m ρ c (Proc.devRef .tc main_v3) :=
  (W14_of m ρ c main_v3 (by decide)).trans (carry_v3_1_13 m ρ c)
theorem carry_v3_1_15 : Gen.W15 m ρ c (Proc.devRef .tc main_v3) = Gen.W1 m ρ c (Proc.devRef .tc main_v3) :=
  (W15_of m ρ c main_v3 (by decide)).trans (carry_v3_1_14 m ρ c)
theorem carry_v3_1_16 : Gen.W16 m ρ c (Proc.devRef .tc main_v3) = Gen.W1 m ρ c (Proc.devRef .tc main_v3) :=
  (W16_of m ρ c main_v3 (by decide)).trans (carry_v3_1_15 m ρ c)
theorem carry_v3_1_17 : Gen.W17 m ρ c (Proc.devRef .tc main_v3) = Gen.W1 m ρ c (Proc.devRef .tc main_v3) :=
  (W17_of m ρ c main_v3 (by decide)).trans (carry_v3_1_16 m ρ c)
theorem carry_v3_1_18 : Gen.W18 m ρ c (Proc.devRef .tc main_v3) = Gen.W1 m ρ c (Proc.devRef .tc main_v3) :=
  (W18_of m ρ c main_v3 (by decide)).trans (carry_v3_1_17 m ρ c)
theorem W18_v3 : Gen.W18 m ρ c (Proc.devRef .tc main_v3) = kDst (m ((c.tc : Thread nD τ).loc main_arg12)) :=
  (carry_v3_1_18 m ρ c).trans (hostOps0_v3 (Gen.W0 m ρ c) (W0_arg12 m ρ c))
theorem carry_v19_7_13 : Gen.W13 m ρ c (Proc.devRef .tc main_v19) = Gen.W7 m ρ c (Proc.devRef .tc main_v19) :=
  (W13_of m ρ c main_v19 (by decide)).trans (carry_v19_7_12 m ρ c)
theorem carry_v19_7_14 : Gen.W14 m ρ c (Proc.devRef .tc main_v19) = Gen.W7 m ρ c (Proc.devRef .tc main_v19) :=
  (W14_of m ρ c main_v19 (by decide)).trans (carry_v19_7_13 m ρ c)
theorem carry_v19_7_15 : Gen.W15 m ρ c (Proc.devRef .tc main_v19) = Gen.W7 m ρ c (Proc.devRef .tc main_v19) :=
  (W15_of m ρ c main_v19 (by decide)).trans (carry_v19_7_14 m ρ c)
theorem carry_v19_7_16 : Gen.W16 m ρ c (Proc.devRef .tc main_v19) = Gen.W7 m ρ c (Proc.devRef .tc main_v19) :=
  (W16_of m ρ c main_v19 (by decide)).trans (carry_v19_7_15 m ρ c)
theorem carry_v19_7_17 : Gen.W17 m ρ c (Proc.devRef .tc main_v19) = Gen.W7 m ρ c (Proc.devRef .tc main_v19) :=
  (W17_of m ρ c main_v19 (by decide)).trans (carry_v19_7_16 m ρ c)
theorem carry_v19_7_18 : Gen.W18 m ρ c (Proc.devRef .tc main_v19) = Gen.W7 m ρ c (Proc.devRef .tc main_v19) :=
  (W18_of m ρ c main_v19 (by decide)).trans (carry_v19_7_17 m ρ c)
theorem W18_v19 : Gen.W18 m ρ c (Proc.devRef .tc main_v19) = kCntOf (kDst (m ((c.tc : Thread nD τ).loc main_arg12))) :=
  (carry_v19_7_18 m ρ c).trans (hostOps2_v19 (Gen.W6 m ρ c) (W6_v3 m ρ c))
theorem W19_v95 : Gen.W19 m ρ c (Proc.devRef .tc main_v95) = kAggOf (Gen.V18 m ρ c main_v83) (kSrc (m ((c.tc : Thread nD τ).loc main_arg12))) (kDst (m ((c.tc : Thread nD τ).loc main_arg12))) (kCntOf (kDst (m ((c.tc : Thread nD τ).loc main_arg12)))) :=
  hostOps6_v95 (Gen.W18 m ρ c) (W18_v83 m ρ c) (W18_v1 m ρ c) (W18_v3 m ρ c) (W18_v19 m ρ c)
theorem carry_v83_18_19 : Gen.W19 m ρ c (Proc.devRef .tc main_v83) = Gen.W18 m ρ c (Proc.devRef .tc main_v83) :=
  W19_of m ρ c main_v83 (by decide)
theorem W19_v83 : Gen.W19 m ρ c (Proc.devRef .tc main_v83) = Gen.V18 m ρ c main_v83 :=
  carry_v83_18_19 m ρ c
theorem carry_arg5_0_13 : Gen.W13 m ρ c (Proc.devRef .tc main_arg5) = Gen.W0 m ρ c (Proc.devRef .tc main_arg5) :=
  (W13_of m ρ c main_arg5 (by decide)).trans (carry_arg5_0_12 m ρ c)
theorem carry_arg5_0_14 : Gen.W14 m ρ c (Proc.devRef .tc main_arg5) = Gen.W0 m ρ c (Proc.devRef .tc main_arg5) :=
  (W14_of m ρ c main_arg5 (by decide)).trans (carry_arg5_0_13 m ρ c)
theorem carry_arg5_0_15 : Gen.W15 m ρ c (Proc.devRef .tc main_arg5) = Gen.W0 m ρ c (Proc.devRef .tc main_arg5) :=
  (W15_of m ρ c main_arg5 (by decide)).trans (carry_arg5_0_14 m ρ c)
theorem carry_arg5_0_16 : Gen.W16 m ρ c (Proc.devRef .tc main_arg5) = Gen.W0 m ρ c (Proc.devRef .tc main_arg5) :=
  (W16_of m ρ c main_arg5 (by decide)).trans (carry_arg5_0_15 m ρ c)
theorem carry_arg5_0_17 : Gen.W17 m ρ c (Proc.devRef .tc main_arg5) = Gen.W0 m ρ c (Proc.devRef .tc main_arg5) :=
  (W17_of m ρ c main_arg5 (by decide)).trans (carry_arg5_0_16 m ρ c)
theorem carry_arg5_0_18 : Gen.W18 m ρ c (Proc.devRef .tc main_arg5) = Gen.W0 m ρ c (Proc.devRef .tc main_arg5) :=
  (W18_of m ρ c main_arg5 (by decide)).trans (carry_arg5_0_17 m ρ c)
theorem W18_arg5 : Gen.W18 m ρ c (Proc.devRef .tc main_arg5) = m ((c.tc : Thread nD τ).loc main_arg5) :=
  (carry_arg5_0_18 m ρ c).trans rfl
theorem W19_v97 : Gen.W19 m ρ c (Proc.devRef .tc main_v97) = kMat2 (m ((c.tc : Thread nD τ).loc main_arg5)) :=
  hostOps6_v97 (Gen.W18 m ρ c) (W18_arg5 m ρ c)
theorem carry_arg7_0_13 : Gen.W13 m ρ c (Proc.devRef .tc main_arg7) = Gen.W0 m ρ c (Proc.devRef .tc main_arg7) :=
  (W13_of m ρ c main_arg7 (by decide)).trans (carry_arg7_0_12 m ρ c)
theorem carry_arg7_0_14 : Gen.W14 m ρ c (Proc.devRef .tc main_arg7) = Gen.W0 m ρ c (Proc.devRef .tc main_arg7) :=
  (W14_of m ρ c main_arg7 (by decide)).trans (carry_arg7_0_13 m ρ c)
theorem carry_arg7_0_15 : Gen.W15 m ρ c (Proc.devRef .tc main_arg7) = Gen.W0 m ρ c (Proc.devRef .tc main_arg7) :=
  (W15_of m ρ c main_arg7 (by decide)).trans (carry_arg7_0_14 m ρ c)
theorem carry_arg7_0_16 : Gen.W16 m ρ c (Proc.devRef .tc main_arg7) = Gen.W0 m ρ c (Proc.devRef .tc main_arg7) :=
  (W16_of m ρ c main_arg7 (by decide)).trans (carry_arg7_0_15 m ρ c)
theorem carry_arg7_0_17 : Gen.W17 m ρ c (Proc.devRef .tc main_arg7) = Gen.W0 m ρ c (Proc.devRef .tc main_arg7) :=
  (W17_of m ρ c main_arg7 (by decide)).trans (carry_arg7_0_16 m ρ c)
theorem carry_arg7_0_18 : Gen.W18 m ρ c (Proc.devRef .tc main_arg7) = Gen.W0 m ρ c (Proc.devRef .tc main_arg7) :=
  (W18_of m ρ c main_arg7 (by decide)).trans (carry_arg7_0_17 m ρ c)
theorem W18_arg7 : Gen.W18 m ρ c (Proc.devRef .tc main_arg7) = m ((c.tc : Thread nD τ).loc main_arg7) :=
  (carry_arg7_0_18 m ρ c).trans rfl
theorem W19_v99 : Gen.W19 m ρ c (Proc.devRef .tc main_v99) = kMat2 (m ((c.tc : Thread nD τ).loc main_arg7)) :=
  hostOps6_v99 (Gen.W18 m ρ c) (W18_arg7 m ρ c)
theorem carry_arg6_0_13 : Gen.W13 m ρ c (Proc.devRef .tc main_arg6) = Gen.W0 m ρ c (Proc.devRef .tc main_arg6) :=
  (W13_of m ρ c main_arg6 (by decide)).trans (carry_arg6_0_12 m ρ c)
theorem carry_arg6_0_14 : Gen.W14 m ρ c (Proc.devRef .tc main_arg6) = Gen.W0 m ρ c (Proc.devRef .tc main_arg6) :=
  (W14_of m ρ c main_arg6 (by decide)).trans (carry_arg6_0_13 m ρ c)
theorem carry_arg6_0_15 : Gen.W15 m ρ c (Proc.devRef .tc main_arg6) = Gen.W0 m ρ c (Proc.devRef .tc main_arg6) :=
  (W15_of m ρ c main_arg6 (by decide)).trans (carry_arg6_0_14 m ρ c)
theorem carry_arg6_0_16 : Gen.W16 m ρ c (Proc.devRef .tc main_arg6) = Gen.W0 m ρ c (Proc.devRef .tc main_arg6) :=
  (W16_of m ρ c main_arg6 (by decide)).trans (carry_arg6_0_15 m ρ c)
theorem carry_arg6_0_17 : Gen.W17 m ρ c (Proc.devRef .tc main_arg6) = Gen.W0 m ρ c (Proc.devRef .tc main_arg6) :=
  (W17_of m ρ c main_arg6 (by decide)).trans (carry_arg6_0_16 m ρ c)
theorem carry_arg6_0_18 : Gen.W18 m ρ c (Proc.devRef .tc main_arg6) = Gen.W0 m ρ c (Proc.devRef .tc main_arg6) :=
  (W18_of m ρ c main_arg6 (by decide)).trans (carry_arg6_0_17 m ρ c)
theorem W18_arg6 : Gen.W18 m ρ c (Proc.devRef .tc main_arg6) = m ((c.tc : Thread nD τ).loc main_arg6) :=
  (carry_arg6_0_18 m ρ c).trans rfl
theorem W19_v102 : Gen.W19 m ρ c (Proc.devRef .tc main_v102) = kReshapeRow (kRow2 (m ((c.tc : Thread nD τ).loc main_arg6))) :=
  hostOps6_v102 (Gen.W18 m ρ c) (W18_arg6 m ρ c)
theorem arr6_0 : Pipeline.arrRef spec6 (0 : Fin 6) = main_v95 := rfl
theorem arr6_1 : Pipeline.arrRef spec6 (1 : Fin 6) = main_v83 := rfl
theorem arr6_2 : Pipeline.arrRef spec6 (2 : Fin 6) = main_v97 := rfl
theorem arr6_3 : Pipeline.arrRef spec6 (3 : Fin 6) = main_v99 := rfl
theorem arr6_4 : Pipeline.arrRef spec6 (4 : Fin 6) = main_v102 := rfl
theorem arr6_5 : Pipeline.arrRef spec6 (5 : Fin 6) = main_v103 := rfl
theorem in6_0 : Gen.V19 m ρ c main_v95 = kAgg (Gen.V18 m ρ c main_v83) (m ((c.tc : Thread nD τ).loc main_arg12)) :=
  W19_v95 m ρ c
theorem in6_1 : Gen.V19 m ρ c main_v83 = Gen.V18 m ρ c main_v83 :=
  W19_v83 m ρ c
theorem in6_2 : Gen.V19 m ρ c main_v97 = kMat2 (m ((c.tc : Thread nD τ).loc main_arg5)) :=
  W19_v97 m ρ c
theorem in6_3 : Gen.V19 m ρ c main_v99 = kMat2 (m ((c.tc : Thread nD τ).loc main_arg7)) :=
  W19_v99 m ρ c
theorem in6_4 : Gen.V19 m ρ c main_v102 = kReshapeRow (kRow2 (m ((c.tc : Thread nD τ).loc main_arg6))) :=
  W19_v102 m ρ c
theorem out6 : Gen.V20 m ρ c (Pipeline.arrRef spec6 (5 : Fin 6)) = (dat6 (Gen.V19 m ρ) c).arrAt (5 : Fin 6) cfg6.N :=
  (Gen.hF6 m ρ c (5 : Fin 6)).symm
theorem out6' : Gen.V20 m ρ c main_v103 = (dat6 (Gen.V19 m ρ) c).arrAt (5 : Fin 6) cfg6.N :=
  out6 m ρ c

/-! ## Region 7: entry contents `Gen.V23`, exit contents `Gen.V24` -/

theorem carry_v103_20_21 : Gen.W21 m ρ c (Proc.devRef .tc main_v103) = Gen.W20 m ρ c (Proc.devRef .tc main_v103) :=
  W21_of m ρ c main_v103 (by decide)
theorem carry_v103_20_22 : Gen.W22 m ρ c (Proc.devRef .tc main_v103) = Gen.W20 m ρ c (Proc.devRef .tc main_v103) :=
  (W22_of m ρ c main_v103 (by decide)).trans (carry_v103_20_21 m ρ c)
theorem carry_v103_20_23 : Gen.W23 m ρ c (Proc.devRef .tc main_v103) = Gen.W20 m ρ c (Proc.devRef .tc main_v103) :=
  (W23_of m ρ c main_v103 (by decide)).trans (carry_v103_20_22 m ρ c)
theorem W23_v103 : Gen.W23 m ρ c (Proc.devRef .tc main_v103) = Gen.V20 m ρ c main_v103 :=
  carry_v103_20_23 m ρ c
theorem carry_arg8_0_17 : Gen.W17 m ρ c (Proc.devRef .tc main_arg8) = Gen.W0 m ρ c (Proc.devRef .tc main_arg8) :=
  (W17_of m ρ c main_arg8 (by decide)).trans (carry_arg8_0_16 m ρ c)
theorem carry_arg8_0_18 : Gen.W18 m ρ c (Proc.devRef .tc main_arg8) = Gen.W0 m ρ c (Proc.devRef .tc main_arg8) :=
  (W18_of m ρ c main_arg8 (by decide)).trans (carry_arg8_0_17 m ρ c)
theorem carry_arg8_0_19 : Gen.W19 m ρ c (Proc.devRef .tc main_arg8) = Gen.W0 m ρ c (Proc.devRef .tc main_arg8) :=
  (W19_of m ρ c main_arg8 (by decide)).trans (carry_arg8_0_18 m ρ c)
theorem carry_arg8_0_20 : Gen.W20 m ρ c (Proc.devRef .tc main_arg8) = Gen.W0 m ρ c (Proc.devRef .tc main_arg8) :=
  (W20_of m ρ c main_arg8 (by decide)).trans (carry_arg8_0_19 m ρ c)
theorem carry_arg8_0_21 : Gen.W21 m ρ c (Proc.devRef .tc main_arg8) = Gen.W0 m ρ c (Proc.devRef .tc main_arg8) :=
  (W21_of m ρ c main_arg8 (by decide)).trans (carry_arg8_0_20 m ρ c)
theorem carry_arg8_0_22 : Gen.W22 m ρ c (Proc.devRef .tc main_arg8) = Gen.W0 m ρ c (Proc.devRef .tc main_arg8) :=
  (W22_of m ρ c main_arg8 (by decide)).trans (carry_arg8_0_21 m ρ c)
theorem W22_arg8 : Gen.W22 m ρ c (Proc.devRef .tc main_arg8) = m ((c.tc : Thread nD τ).loc main_arg8) :=
  (carry_arg8_0_22 m ρ c).trans rfl
theorem W23_v113 : Gen.W23 m ρ c (Proc.devRef .tc main_v113) = kReshapeRow (kRow2 (m ((c.tc : Thread nD τ).loc main_arg8))) :=
  hostOps7_2_v113 (Gen.W22 m ρ c) (W22_arg8 m ρ c)
theorem carry_arg9_0_17 : Gen.W17 m ρ c (Proc.devRef .tc main_arg9) = Gen.W0 m ρ c (Proc.devRef .tc main_arg9) :=
  (W17_of m ρ c main_arg9 (by decide)).trans (carry_arg9_0_16 m ρ c)
theorem carry_arg9_0_18 : Gen.W18 m ρ c (Proc.devRef .tc main_arg9) = Gen.W0 m ρ c (Proc.devRef .tc main_arg9) :=
  (W18_of m ρ c main_arg9 (by decide)).trans (carry_arg9_0_17 m ρ c)
theorem carry_arg9_0_19 : Gen.W19 m ρ c (Proc.devRef .tc main_arg9) = Gen.W0 m ρ c (Proc.devRef .tc main_arg9) :=
  (W19_of m ρ c main_arg9 (by decide)).trans (carry_arg9_0_18 m ρ c)
theorem carry_arg9_0_20 : Gen.W20 m ρ c (Proc.devRef .tc main_arg9) = Gen.W0 m ρ c (Proc.devRef .tc main_arg9) :=
  (W20_of m ρ c main_arg9 (by decide)).trans (carry_arg9_0_19 m ρ c)
theorem carry_arg9_0_21 : Gen.W21 m ρ c (Proc.devRef .tc main_arg9) = Gen.W0 m ρ c (Proc.devRef .tc main_arg9) :=
  (W21_of m ρ c main_arg9 (by decide)).trans (carry_arg9_0_20 m ρ c)
theorem carry_arg9_0_22 : Gen.W22 m ρ c (Proc.devRef .tc main_arg9) = Gen.W0 m ρ c (Proc.devRef .tc main_arg9) :=
  (W22_of m ρ c main_arg9 (by decide)).trans (carry_arg9_0_21 m ρ c)
theorem W22_arg9 : Gen.W22 m ρ c (Proc.devRef .tc main_arg9) = m ((c.tc : Thread nD τ).loc main_arg9) :=
  (carry_arg9_0_22 m ρ c).trans rfl
theorem W23_v114 : Gen.W23 m ρ c (Proc.devRef .tc main_v114) = kReshapeRow (kRow2 (m ((c.tc : Thread nD τ).loc main_arg9))) :=
  hostOps7_2_v114 (Gen.W22 m ρ c) (W22_arg9 m ρ c)
theorem W20_v103 : Gen.W20 m ρ c (Proc.devRef .tc main_v103) = Gen.V20 m ρ c main_v103 :=
  rfl
theorem carry_v107_21_22 : Gen.W22 m ρ c (Proc.devRef .tc main_v107) = Gen.W21 m ρ c (Proc.devRef .tc main_v107) :=
  W22_of m ρ c main_v107 (by decide)
theorem carry_v107_21_23 : Gen.W23 m ρ c (Proc.devRef .tc main_v107) = Gen.W21 m ρ c (Proc.devRef .tc main_v107) :=
  (W23_of m ρ c main_v107 (by decide)).trans (carry_v107_21_22 m ρ c)
theorem W23_v107 : Gen.W23 m ρ c (Proc.devRef .tc main_v107) = kMean (Gen.V20 m ρ c main_v103) :=
  (carry_v107_21_23 m ρ c).trans (hostOps7_v107 (Gen.W20 m ρ c) (W20_v103 m ρ c))
theorem W21_v103 : Gen.W21 m ρ c (Proc.devRef .tc main_v103) = Gen.V20 m ρ c main_v103 :=
  carry_v103_20_21 m ρ c
theorem W21_c_21 : Gen.W21 m ρ c (Proc.devRef .tc main_c_21) = constantI S_ 32 0#32 :=
  hostOps7_c_21 (Gen.W20 m ρ c)
theorem carry_v108_22_23 : Gen.W23 m ρ c (Proc.devRef .tc main_v108) = Gen.W22 m ρ c (Proc.devRef .tc main_v108) :=
  W23_of m ρ c main_v108 (by decide)
theorem W23_v108 : Gen.W23 m ρ c (Proc.devRef .tc main_v108) = kVar (Gen.V20 m ρ c main_v103) :=
  (carry_v108_22_23 m ρ c).trans (hostOps7_1_v108 (Gen.W21 m ρ c) (W21_v103 m ρ c) (W21_c_21 m ρ c))
theorem arr7_0 : Pipeline.arrRef spec7 (0 : Fin 6) = main_v103 := rfl
theorem arr7_1 : Pipeline.arrRef spec7 (1 : Fin 6) = main_v113 := rfl
theorem arr7_2 : Pipeline.arrRef spec7 (2 : Fin 6) = main_v114 := rfl
theorem arr7_3 : Pipeline.arrRef spec7 (3 : Fin 6) = main_v107 := rfl
theorem arr7_4 : Pipeline.arrRef spec7 (4 : Fin 6) = main_v108 := rfl
theorem arr7_5 : Pipeline.arrRef spec7 (5 : Fin 6) = main_v115 := rfl
theorem in7_0 : Gen.V23 m ρ c main_v103 = Gen.V20 m ρ c main_v103 :=
  W23_v103 m ρ c
theorem in7_1 : Gen.V23 m ρ c main_v113 = kReshapeRow (kRow2 (m ((c.tc : Thread nD τ).loc main_arg8))) :=
  W23_v113 m ρ c
theorem in7_2 : Gen.V23 m ρ c main_v114 = kReshapeRow (kRow2 (m ((c.tc : Thread nD τ).loc main_arg9))) :=
  W23_v114 m ρ c
theorem in7_3 : Gen.V23 m ρ c main_v107 = kMean (Gen.V20 m ρ c main_v103) :=
  W23_v107 m ρ c
theorem in7_4 : Gen.V23 m ρ c main_v108 = kVar (Gen.V20 m ρ c main_v103) :=
  W23_v108 m ρ c
theorem out7 : Gen.V24 m ρ c (Pipeline.arrRef spec7 (5 : Fin 6)) = (dat7 (Gen.V23 m ρ) c).arrAt (5 : Fin 6) cfg7.N :=
  (Gen.hF7 m ρ c (5 : Fin 6)).symm
theorem out7' : Gen.V24 m ρ c main_v115 = (dat7 (Gen.V23 m ρ) c).arrAt (5 : Fin 6) cfg7.N :=
  out7 m ρ c

/-! ## Region 8: entry contents `Gen.V25`, exit contents `Gen.V26` -/

theorem W24_v115 : Gen.W24 m ρ c (Proc.devRef .tc main_v115) = Gen.V24 m ρ c main_v115 :=
  rfl
theorem carry_v1_1_19 : Gen.W19 m ρ c (Proc.devRef .tc main_v1) = Gen.W1 m ρ c (Proc.devRef .tc main_v1) :=
  (W19_of m ρ c main_v1 (by decide)).trans (carry_v1_1_18 m ρ c)
theorem carry_v1_1_20 : Gen.W20 m ρ c (Proc.devRef .tc main_v1) = Gen.W1 m ρ c (Proc.devRef .tc main_v1) :=
  (W20_of m ρ c main_v1 (by decide)).trans (carry_v1_1_19 m ρ c)
theorem carry_v1_1_21 : Gen.W21 m ρ c (Proc.devRef .tc main_v1) = Gen.W1 m ρ c (Proc.devRef .tc main_v1) :=
  (W21_of m ρ c main_v1 (by decide)).trans (carry_v1_1_20 m ρ c)
theorem carry_v1_1_22 : Gen.W22 m ρ c (Proc.devRef .tc main_v1) = Gen.W1 m ρ c (Proc.devRef .tc main_v1) :=
  (W22_of m ρ c main_v1 (by decide)).trans (carry_v1_1_21 m ρ c)
theorem carry_v1_1_23 : Gen.W23 m ρ c (Proc.devRef .tc main_v1) = Gen.W1 m ρ c (Proc.devRef .tc main_v1) :=
  (W23_of m ρ c main_v1 (by decide)).trans (carry_v1_1_22 m ρ c)
theorem carry_v1_1_24 : Gen.W24 m ρ c (Proc.devRef .tc main_v1) = Gen.W1 m ρ c (Proc.devRef .tc main_v1) :=
  (W24_of m ρ c main_v1 (by decide)).trans (carry_v1_1_23 m ρ c)
theorem W24_v1 : Gen.W24 m ρ c (Proc.devRef .tc main_v1) = kSrc (m ((c.tc : Thread nD τ).loc main_arg12)) :=
  (carry_v1_1_24 m ρ c).trans (hostOps0_v1 (Gen.W0 m ρ c) (W0_arg12 m ρ c))
theorem carry_v3_1_19 : Gen.W19 m ρ c (Proc.devRef .tc main_v3) = Gen.W1 m ρ c (Proc.devRef .tc main_v3) :=
  (W19_of m ρ c main_v3 (by decide)).trans (carry_v3_1_18 m ρ c)
theorem carry_v3_1_20 : Gen.W20 m ρ c (Proc.devRef .tc main_v3) = Gen.W1 m ρ c (Proc.devRef .tc main_v3) :=
  (W20_of m ρ c main_v3 (by decide)).trans (carry_v3_1_19 m ρ c)
theorem carry_v3_1_21 : Gen.W21 m ρ c (Proc.devRef .tc main_v3) = Gen.W1 m ρ c (Proc.devRef .tc main_v3) :=
  (W21_of m ρ c main_v3 (by decide)).trans (carry_v3_1_20 m ρ c)
theorem carry_v3_1_22 : Gen.W22 m ρ c (Proc.devRef .tc main_v3) = Gen.W1 m ρ c (Proc.devRef .tc main_v3) :=
  (W22_of m ρ c main_v3 (by decide)).trans (carry_v3_1_21 m ρ c)
theorem carry_v3_1_23 : Gen.W23 m ρ c (Proc.devRef .tc main_v3) = Gen.W1 m ρ c (Proc.devRef .tc main_v3) :=
  (W23_of m ρ c main_v3 (by decide)).trans (carry_v3_1_22 m ρ c)
theorem carry_v3_1_24 : Gen.W24 m ρ c (Proc.devRef .tc main_v3) = Gen.W1 m ρ c (Proc.devRef .tc main_v3) :=
  (W24_of m ρ c main_v3 (by decide)).trans (carry_v3_1_23 m ρ c)
theorem W24_v3 : Gen.W24 m ρ c (Proc.devRef .tc main_v3) = kDst (m ((c.tc : Thread nD τ).loc main_arg12)) :=
  (carry_v3_1_24 m ρ c).trans (hostOps0_v3 (Gen.W0 m ρ c) (W0_arg12 m ρ c))
theorem carry_v19_7_19 : Gen.W19 m ρ c (Proc.devRef .tc main_v19) = Gen.W7 m ρ c (Proc.devRef .tc main_v19) :=
  (W19_of m ρ c main_v19 (by decide)).trans (carry_v19_7_18 m ρ c)
theorem carry_v19_7_20 : Gen.W20 m ρ c (Proc.devRef .tc main_v19) = Gen.W7 m ρ c (Proc.devRef .tc main_v19) :=
  (W20_of m ρ c main_v19 (by decide)).trans (carry_v19_7_19 m ρ c)
theorem carry_v19_7_21 : Gen.W21 m ρ c (Proc.devRef .tc main_v19) = Gen.W7 m ρ c (Proc.devRef .tc main_v19) :=
  (W21_of m ρ c main_v19 (by decide)).trans (carry_v19_7_20 m ρ c)
theorem carry_v19_7_22 : Gen.W22 m ρ c (Proc.devRef .tc main_v19) = Gen.W7 m ρ c (Proc.devRef .tc main_v19) :=
  (W22_of m ρ c main_v19 (by decide)).trans (carry_v19_7_21 m ρ c)
theorem carry_v19_7_23 : Gen.W23 m ρ c (Proc.devRef .tc main_v19) = Gen.W7 m ρ c (Proc.devRef .tc main_v19) :=
  (W23_of m ρ c main_v19 (by decide)).trans (carry_v19_7_22 m ρ c)
theorem carry_v19_7_24 : Gen.W24 m ρ c (Proc.devRef .tc main_v19) = Gen.W7 m ρ c (Proc.devRef .tc main_v19) :=
  (W24_of m ρ c main_v19 (by decide)).trans (carry_v19_7_23 m ρ c)
theorem W24_v19 : Gen.W24 m ρ c (Proc.devRef .tc main_v19) = kCntOf (kDst (m ((c.tc : Thread nD τ).loc main_arg12))) :=
  (carry_v19_7_24 m ρ c).trans (hostOps2_v19 (Gen.W6 m ρ c) (W6_v3 m ρ c))
theorem W25_v127 : Gen.W25 m ρ c (Proc.devRef .tc main_v127) = kAggOf (Gen.V24 m ρ c main_v115) (kSrc (m ((c.tc : Thread nD τ).loc main_arg12))) (kDst (m ((c.tc : Thread nD τ).loc main_arg12))) (kCntOf (kDst (m ((c.tc : Thread nD τ).loc main_arg12)))) :=
  hostOps8_v127 (Gen.W24 m ρ c) (W24_v115 m ρ c) (W24_v1 m ρ c) (W24_v3 m ρ c) (W24_v19 m ρ c)
theorem carry_v115_24_25 : Gen.W25 m ρ c (Proc.devRef .tc main_v115) = Gen.W24 m ρ c (Proc.devRef .tc main_v115) :=
  W25_of m ρ c main_v115 (by decide)
theorem W25_v115 : Gen.W25 m ρ c (Proc.devRef .tc main_v115) = Gen.V24 m ρ c main_v115 :=
  carry_v115_24_25 m ρ c
theorem carry_arg5_0_19 : Gen.W19 m ρ c (Proc.devRef .tc main_arg5) = Gen.W0 m ρ c (Proc.devRef .tc main_arg5) :=
  (W19_of m ρ c main_arg5 (by decide)).trans (carry_arg5_0_18 m ρ c)
theorem carry_arg5_0_20 : Gen.W20 m ρ c (Proc.devRef .tc main_arg5) = Gen.W0 m ρ c (Proc.devRef .tc main_arg5) :=
  (W20_of m ρ c main_arg5 (by decide)).trans (carry_arg5_0_19 m ρ c)
theorem carry_arg5_0_21 : Gen.W21 m ρ c (Proc.devRef .tc main_arg5) = Gen.W0 m ρ c (Proc.devRef .tc main_arg5) :=
  (W21_of m ρ c main_arg5 (by decide)).trans (carry_arg5_0_20 m ρ c)
theorem carry_arg5_0_22 : Gen.W22 m ρ c (Proc.devRef .tc main_arg5) = Gen.W0 m ρ c (Proc.devRef .tc main_arg5) :=
  (W22_of m ρ c main_arg5 (by decide)).trans (carry_arg5_0_21 m ρ c)
theorem carry_arg5_0_23 : Gen.W23 m ρ c (Proc.devRef .tc main_arg5) = Gen.W0 m ρ c (Proc.devRef .tc main_arg5) :=
  (W23_of m ρ c main_arg5 (by decide)).trans (carry_arg5_0_22 m ρ c)
theorem carry_arg5_0_24 : Gen.W24 m ρ c (Proc.devRef .tc main_arg5) = Gen.W0 m ρ c (Proc.devRef .tc main_arg5) :=
  (W24_of m ρ c main_arg5 (by decide)).trans (carry_arg5_0_23 m ρ c)
theorem W24_arg5 : Gen.W24 m ρ c (Proc.devRef .tc main_arg5) = m ((c.tc : Thread nD τ).loc main_arg5) :=
  (carry_arg5_0_24 m ρ c).trans rfl
theorem W25_v129 : Gen.W25 m ρ c (Proc.devRef .tc main_v129) = kMat3 (m ((c.tc : Thread nD τ).loc main_arg5)) :=
  hostOps8_v129 (Gen.W24 m ρ c) (W24_arg5 m ρ c)
theorem carry_arg7_0_19 : Gen.W19 m ρ c (Proc.devRef .tc main_arg7) = Gen.W0 m ρ c (Proc.devRef .tc main_arg7) :=
  (W19_of m ρ c main_arg7 (by decide)).trans (carry_arg7_0_18 m ρ c)
theorem carry_arg7_0_20 : Gen.W20 m ρ c (Proc.devRef .tc main_arg7) = Gen.W0 m ρ c (Proc.devRef .tc main_arg7) :=
  (W20_of m ρ c main_arg7 (by decide)).trans (carry_arg7_0_19 m ρ c)
theorem carry_arg7_0_21 : Gen.W21 m ρ c (Proc.devRef .tc main_arg7) = Gen.W0 m ρ c (Proc.devRef .tc main_arg7) :=
  (W21_of m ρ c main_arg7 (by decide)).trans (carry_arg7_0_20 m ρ c)
theorem carry_arg7_0_22 : Gen.W22 m ρ c (Proc.devRef .tc main_arg7) = Gen.W0 m ρ c (Proc.devRef .tc main_arg7) :=
  (W22_of m ρ c main_arg7 (by decide)).trans (carry_arg7_0_21 m ρ c)
theorem carry_arg7_0_23 : Gen.W23 m ρ c (Proc.devRef .tc main_arg7) = Gen.W0 m ρ c (Proc.devRef .tc main_arg7) :=
  (W23_of m ρ c main_arg7 (by decide)).trans (carry_arg7_0_22 m ρ c)
theorem carry_arg7_0_24 : Gen.W24 m ρ c (Proc.devRef .tc main_arg7) = Gen.W0 m ρ c (Proc.devRef .tc main_arg7) :=
  (W24_of m ρ c main_arg7 (by decide)).trans (carry_arg7_0_23 m ρ c)
theorem W24_arg7 : Gen.W24 m ρ c (Proc.devRef .tc main_arg7) = m ((c.tc : Thread nD τ).loc main_arg7) :=
  (carry_arg7_0_24 m ρ c).trans rfl
theorem W25_v131 : Gen.W25 m ρ c (Proc.devRef .tc main_v131) = kMat3 (m ((c.tc : Thread nD τ).loc main_arg7)) :=
  hostOps8_v131 (Gen.W24 m ρ c) (W24_arg7 m ρ c)
theorem carry_arg6_0_19 : Gen.W19 m ρ c (Proc.devRef .tc main_arg6) = Gen.W0 m ρ c (Proc.devRef .tc main_arg6) :=
  (W19_of m ρ c main_arg6 (by decide)).trans (carry_arg6_0_18 m ρ c)
theorem carry_arg6_0_20 : Gen.W20 m ρ c (Proc.devRef .tc main_arg6) = Gen.W0 m ρ c (Proc.devRef .tc main_arg6) :=
  (W20_of m ρ c main_arg6 (by decide)).trans (carry_arg6_0_19 m ρ c)
theorem carry_arg6_0_21 : Gen.W21 m ρ c (Proc.devRef .tc main_arg6) = Gen.W0 m ρ c (Proc.devRef .tc main_arg6) :=
  (W21_of m ρ c main_arg6 (by decide)).trans (carry_arg6_0_20 m ρ c)
theorem carry_arg6_0_22 : Gen.W22 m ρ c (Proc.devRef .tc main_arg6) = Gen.W0 m ρ c (Proc.devRef .tc main_arg6) :=
  (W22_of m ρ c main_arg6 (by decide)).trans (carry_arg6_0_21 m ρ c)
theorem carry_arg6_0_23 : Gen.W23 m ρ c (Proc.devRef .tc main_arg6) = Gen.W0 m ρ c (Proc.devRef .tc main_arg6) :=
  (W23_of m ρ c main_arg6 (by decide)).trans (carry_arg6_0_22 m ρ c)
theorem carry_arg6_0_24 : Gen.W24 m ρ c (Proc.devRef .tc main_arg6) = Gen.W0 m ρ c (Proc.devRef .tc main_arg6) :=
  (W24_of m ρ c main_arg6 (by decide)).trans (carry_arg6_0_23 m ρ c)
theorem W24_arg6 : Gen.W24 m ρ c (Proc.devRef .tc main_arg6) = m ((c.tc : Thread nD τ).loc main_arg6) :=
  (carry_arg6_0_24 m ρ c).trans rfl
theorem W25_v134 : Gen.W25 m ρ c (Proc.devRef .tc main_v134) = kReshapeRow (kRow3 (m ((c.tc : Thread nD τ).loc main_arg6))) :=
  hostOps8_v134 (Gen.W24 m ρ c) (W24_arg6 m ρ c)
theorem arr8_0 : Pipeline.arrRef spec8 (0 : Fin 6) = main_v127 := rfl
theorem arr8_1 : Pipeline.arrRef spec8 (1 : Fin 6) = main_v115 := rfl
theorem arr8_2 : Pipeline.arrRef spec8 (2 : Fin 6) = main_v129 := rfl
theorem arr8_3 : Pipeline.arrRef spec8 (3 : Fin 6) = main_v131 := rfl
theorem arr8_4 : Pipeline.arrRef spec8 (4 : Fin 6) = main_v134 := rfl
theorem arr8_5 : Pipeline.arrRef spec8 (5 : Fin 6) = main_v135 := rfl
theorem in8_0 : Gen.V25 m ρ c main_v127 = kAgg (Gen.V24 m ρ c main_v115) (m ((c.tc : Thread nD τ).loc main_arg12)) :=
  W25_v127 m ρ c
theorem in8_1 : Gen.V25 m ρ c main_v115 = Gen.V24 m ρ c main_v115 :=
  W25_v115 m ρ c
theorem in8_2 : Gen.V25 m ρ c main_v129 = kMat3 (m ((c.tc : Thread nD τ).loc main_arg5)) :=
  W25_v129 m ρ c
theorem in8_3 : Gen.V25 m ρ c main_v131 = kMat3 (m ((c.tc : Thread nD τ).loc main_arg7)) :=
  W25_v131 m ρ c
theorem in8_4 : Gen.V25 m ρ c main_v134 = kReshapeRow (kRow3 (m ((c.tc : Thread nD τ).loc main_arg6))) :=
  W25_v134 m ρ c
theorem out8 : Gen.V26 m ρ c (Pipeline.arrRef spec8 (5 : Fin 6)) = (dat8 (Gen.V25 m ρ) c).arrAt (5 : Fin 6) cfg8.N :=
  (Gen.hF8 m ρ c (5 : Fin 6)).symm
theorem out8' : Gen.V26 m ρ c main_v135 = (dat8 (Gen.V25 m ρ) c).arrAt (5 : Fin 6) cfg8.N :=
  out8 m ρ c

/-! ## Region 9: entry contents `Gen.V27`, exit contents `Gen.V28` -/

theorem carry_v135_26_27 : Gen.W27 m ρ c (Proc.devRef .tc main_v135) = Gen.W26 m ρ c (Proc.devRef .tc main_v135) :=
  W27_of m ρ c main_v135 (by decide)
theorem W27_v135 : Gen.W27 m ρ c (Proc.devRef .tc main_v135) = Gen.V26 m ρ c main_v135 :=
  carry_v135_26_27 m ρ c
theorem carry_arg10_0_1 : Gen.W1 m ρ c (Proc.devRef .tc main_arg10) = Gen.W0 m ρ c (Proc.devRef .tc main_arg10) :=
  W1_of m ρ c main_arg10 (by decide)
theorem carry_arg10_0_2 : Gen.W2 m ρ c (Proc.devRef .tc main_arg10) = Gen.W0 m ρ c (Proc.devRef .tc main_arg10) :=
  (W2_of m ρ c main_arg10 (by decide)).trans (carry_arg10_0_1 m ρ c)
theorem carry_arg10_0_3 : Gen.W3 m ρ c (Proc.devRef .tc main_arg10) = Gen.W0 m ρ c (Proc.devRef .tc main_arg10) :=
  (W3_of m ρ c main_arg10 (by decide)).trans (carry_arg10_0_2 m ρ c)
theorem carry_arg10_0_4 : Gen.W4 m ρ c (Proc.devRef .tc main_arg10) = Gen.W0 m ρ c (Proc.devRef .tc main_arg10) :=
  (W4_of m ρ c main_arg10 (by decide)).trans (carry_arg10_0_3 m ρ c)
theorem carry_arg10_0_5 : Gen.W5 m ρ c (Proc.devRef .tc main_arg10) = Gen.W0 m ρ c (Proc.devRef .tc main_arg10) :=
  (W5_of m ρ c main_arg10 (by decide)).trans (carry_arg10_0_4 m ρ c)
theorem carry_arg10_0_6 : Gen.W6 m ρ c (Proc.devRef .tc main_arg10) = Gen.W0 m ρ c (Proc.devRef .tc main_arg10) :=
  (W6_of m ρ c main_arg10 (by decide)).trans (carry_arg10_0_5 m ρ c)
theorem carry_arg10_0_7 : Gen.W7 m ρ c (Proc.devRef .tc main_arg10) = Gen.W0 m ρ c (Proc.devRef .tc main_arg10) :=
  (W7_of m ρ c main_arg10 (by decide)).trans (carry_arg10_0_6 m ρ c)
theorem carry_arg10_0_8 : Gen.W8 m ρ c (Proc.devRef .tc main_arg10) = Gen.W0 m ρ c (Proc.devRef .tc main_arg10) :=
  (W8_of m ρ c main_arg10 (by decide)).trans (carry_arg10_0_7 m ρ c)
theorem carry_arg10_0_9 : Gen.W9 m ρ c (Proc.devRef .tc main_arg10) = Gen.W0 m ρ c (Proc.devRef .tc main_arg10) :=
  (W9_of m ρ c main_arg10 (by decide)).trans (carry_arg10_0_8 m ρ c)
theorem carry_arg10_0_10 : Gen.W10 m ρ c (Proc.devRef .tc main_arg10) = Gen.W0 m ρ c (Proc.devRef .tc main_arg10) :=
  (W10_of m ρ c main_arg10 (by decide)).trans (carry_arg10_0_9 m ρ c)
theorem carry_arg10_0_11 : Gen.W11 m ρ c (Proc.devRef .tc main_arg10) = Gen.W0 m ρ c (Proc.devRef .tc main_arg10) :=
  (W11_of m ρ c main_arg10 (by decide)).trans (carry_arg10_0_10 m ρ c)
theorem carry_arg10_0_12 : Gen.W12 m ρ c (Proc.devRef .tc main_arg10) = Gen.W0 m ρ c (Proc.devRef .tc main_arg10) :=
  (W12_of m ρ c main_arg10 (by decide)).trans (carry_arg10_0_11 m ρ c)
theorem carry_arg10_0_13 : Gen.W13 m ρ c (Proc.devRef .tc main_arg10) = Gen.W0 m ρ c (Proc.devRef .tc main_arg10) :=
  (W13_of m ρ c main_arg10 (by decide)).trans (carry_arg10_0_12 m ρ c)
theorem carry_arg10_0_14 : Gen.W14 m ρ c (Proc.devRef .tc main_arg10) = Gen.W0 m ρ c (Proc.devRef .tc main_arg10) :=
  (W14_of m ρ c main_arg10 (by decide)).trans (carry_arg10_0_13 m ρ c)
theorem carry_arg10_0_15 : Gen.W15 m ρ c (Proc.devRef .tc main_arg10) = Gen.W0 m ρ c (Proc.devRef .tc main_arg10) :=
  (W15_of m ρ c main_arg10 (by decide)).trans (carry_arg10_0_14 m ρ c)
theorem carry_arg10_0_16 : Gen.W16 m ρ c (Proc.devRef .tc main_arg10) = Gen.W0 m ρ c (Proc.devRef .tc main_arg10) :=
  (W16_of m ρ c main_arg10 (by decide)).trans (carry_arg10_0_15 m ρ c)
theorem carry_arg10_0_17 : Gen.W17 m ρ c (Proc.devRef .tc main_arg10) = Gen.W0 m ρ c (Proc.devRef .tc main_arg10) :=
  (W17_of m ρ c main_arg10 (by decide)).trans (carry_arg10_0_16 m ρ c)
theorem carry_arg10_0_18 : Gen.W18 m ρ c (Proc.devRef .tc main_arg10) = Gen.W0 m ρ c (Proc.devRef .tc main_arg10) :=
  (W18_of m ρ c main_arg10 (by decide)).trans (carry_arg10_0_17 m ρ c)
theorem carry_arg10_0_19 : Gen.W19 m ρ c (Proc.devRef .tc main_arg10) = Gen.W0 m ρ c (Proc.devRef .tc main_arg10) :=
  (W19_of m ρ c main_arg10 (by decide)).trans (carry_arg10_0_18 m ρ c)
theorem carry_arg10_0_20 : Gen.W20 m ρ c (Proc.devRef .tc main_arg10) = Gen.W0 m ρ c (Proc.devRef .tc main_arg10) :=
  (W20_of m ρ c main_arg10 (by decide)).trans (carry_arg10_0_19 m ρ c)
theorem carry_arg10_0_21 : Gen.W21 m ρ c (Proc.devRef .tc main_arg10) = Gen.W0 m ρ c (Proc.devRef .tc main_arg10) :=
  (W21_of m ρ c main_arg10 (by decide)).trans (carry_arg10_0_20 m ρ c)
theorem carry_arg10_0_22 : Gen.W22 m ρ c (Proc.devRef .tc main_arg10) = Gen.W0 m ρ c (Proc.devRef .tc main_arg10) :=
  (W22_of m ρ c main_arg10 (by decide)).trans (carry_arg10_0_21 m ρ c)
theorem carry_arg10_0_23 : Gen.W23 m ρ c (Proc.devRef .tc main_arg10) = Gen.W0 m ρ c (Proc.devRef .tc main_arg10) :=
  (W23_of m ρ c main_arg10 (by decide)).trans (carry_arg10_0_22 m ρ c)
theorem carry_arg10_0_24 : Gen.W24 m ρ c (Proc.devRef .tc main_arg10) = Gen.W0 m ρ c (Proc.devRef .tc main_arg10) :=
  (W24_of m ρ c main_arg10 (by decide)).trans (carry_arg10_0_23 m ρ c)
theorem carry_arg10_0_25 : Gen.W25 m ρ c (Proc.devRef .tc main_arg10) = Gen.W0 m ρ c (Proc.devRef .tc main_arg10) :=
  (W25_of m ρ c main_arg10 (by decide)).trans (carry_arg10_0_24 m ρ c)
theorem carry_arg10_0_26 : Gen.W26 m ρ c (Proc.devRef .tc main_arg10) = Gen.W0 m ρ c (Proc.devRef .tc main_arg10) :=
  (W26_of m ρ c main_arg10 (by decide)).trans (carry_arg10_0_25 m ρ c)
theorem carry_arg10_0_27 : Gen.W27 m ρ c (Proc.devRef .tc main_arg10) = Gen.W0 m ρ c (Proc.devRef .tc main_arg10) :=
  (W27_of m ρ c main_arg10 (by decide)).trans (carry_arg10_0_26 m ρ c)
theorem W27_arg10 : Gen.W27 m ρ c (Proc.devRef .tc main_arg10) = m ((c.tc : Thread nD τ).loc main_arg10) :=
  (carry_arg10_0_27 m ρ c).trans rfl
theorem carry_arg11_0_1 : Gen.W1 m ρ c (Proc.devRef .tc main_arg11) = Gen.W0 m ρ c (Proc.devRef .tc main_arg11) :=
  W1_of m ρ c main_arg11 (by decide)
theorem carry_arg11_0_2 : Gen.W2 m ρ c (Proc.devRef .tc main_arg11) = Gen.W0 m ρ c (Proc.devRef .tc main_arg11) :=
  (W2_of m ρ c main_arg11 (by decide)).trans (carry_arg11_0_1 m ρ c)
theorem carry_arg11_0_3 : Gen.W3 m ρ c (Proc.devRef .tc main_arg11) = Gen.W0 m ρ c (Proc.devRef .tc main_arg11) :=
  (W3_of m ρ c main_arg11 (by decide)).trans (carry_arg11_0_2 m ρ c)
theorem carry_arg11_0_4 : Gen.W4 m ρ c (Proc.devRef .tc main_arg11) = Gen.W0 m ρ c (Proc.devRef .tc main_arg11) :=
  (W4_of m ρ c main_arg11 (by decide)).trans (carry_arg11_0_3 m ρ c)
theorem carry_arg11_0_5 : Gen.W5 m ρ c (Proc.devRef .tc main_arg11) = Gen.W0 m ρ c (Proc.devRef .tc main_arg11) :=
  (W5_of m ρ c main_arg11 (by decide)).trans (carry_arg11_0_4 m ρ c)
theorem carry_arg11_0_6 : Gen.W6 m ρ c (Proc.devRef .tc main_arg11) = Gen.W0 m ρ c (Proc.devRef .tc main_arg11) :=
  (W6_of m ρ c main_arg11 (by decide)).trans (carry_arg11_0_5 m ρ c)
theorem carry_arg11_0_7 : Gen.W7 m ρ c (Proc.devRef .tc main_arg11) = Gen.W0 m ρ c (Proc.devRef .tc main_arg11) :=
  (W7_of m ρ c main_arg11 (by decide)).trans (carry_arg11_0_6 m ρ c)
theorem carry_arg11_0_8 : Gen.W8 m ρ c (Proc.devRef .tc main_arg11) = Gen.W0 m ρ c (Proc.devRef .tc main_arg11) :=
  (W8_of m ρ c main_arg11 (by decide)).trans (carry_arg11_0_7 m ρ c)
theorem carry_arg11_0_9 : Gen.W9 m ρ c (Proc.devRef .tc main_arg11) = Gen.W0 m ρ c (Proc.devRef .tc main_arg11) :=
  (W9_of m ρ c main_arg11 (by decide)).trans (carry_arg11_0_8 m ρ c)
theorem carry_arg11_0_10 : Gen.W10 m ρ c (Proc.devRef .tc main_arg11) = Gen.W0 m ρ c (Proc.devRef .tc main_arg11) :=
  (W10_of m ρ c main_arg11 (by decide)).trans (carry_arg11_0_9 m ρ c)
theorem carry_arg11_0_11 : Gen.W11 m ρ c (Proc.devRef .tc main_arg11) = Gen.W0 m ρ c (Proc.devRef .tc main_arg11) :=
  (W11_of m ρ c main_arg11 (by decide)).trans (carry_arg11_0_10 m ρ c)
theorem carry_arg11_0_12 : Gen.W12 m ρ c (Proc.devRef .tc main_arg11) = Gen.W0 m ρ c (Proc.devRef .tc main_arg11) :=
  (W12_of m ρ c main_arg11 (by decide)).trans (carry_arg11_0_11 m ρ c)
theorem carry_arg11_0_13 : Gen.W13 m ρ c (Proc.devRef .tc main_arg11) = Gen.W0 m ρ c (Proc.devRef .tc main_arg11) :=
  (W13_of m ρ c main_arg11 (by decide)).trans (carry_arg11_0_12 m ρ c)
theorem carry_arg11_0_14 : Gen.W14 m ρ c (Proc.devRef .tc main_arg11) = Gen.W0 m ρ c (Proc.devRef .tc main_arg11) :=
  (W14_of m ρ c main_arg11 (by decide)).trans (carry_arg11_0_13 m ρ c)
theorem carry_arg11_0_15 : Gen.W15 m ρ c (Proc.devRef .tc main_arg11) = Gen.W0 m ρ c (Proc.devRef .tc main_arg11) :=
  (W15_of m ρ c main_arg11 (by decide)).trans (carry_arg11_0_14 m ρ c)
theorem carry_arg11_0_16 : Gen.W16 m ρ c (Proc.devRef .tc main_arg11) = Gen.W0 m ρ c (Proc.devRef .tc main_arg11) :=
  (W16_of m ρ c main_arg11 (by decide)).trans (carry_arg11_0_15 m ρ c)
theorem carry_arg11_0_17 : Gen.W17 m ρ c (Proc.devRef .tc main_arg11) = Gen.W0 m ρ c (Proc.devRef .tc main_arg11) :=
  (W17_of m ρ c main_arg11 (by decide)).trans (carry_arg11_0_16 m ρ c)
theorem carry_arg11_0_18 : Gen.W18 m ρ c (Proc.devRef .tc main_arg11) = Gen.W0 m ρ c (Proc.devRef .tc main_arg11) :=
  (W18_of m ρ c main_arg11 (by decide)).trans (carry_arg11_0_17 m ρ c)
theorem carry_arg11_0_19 : Gen.W19 m ρ c (Proc.devRef .tc main_arg11) = Gen.W0 m ρ c (Proc.devRef .tc main_arg11) :=
  (W19_of m ρ c main_arg11 (by decide)).trans (carry_arg11_0_18 m ρ c)
theorem carry_arg11_0_20 : Gen.W20 m ρ c (Proc.devRef .tc main_arg11) = Gen.W0 m ρ c (Proc.devRef .tc main_arg11) :=
  (W20_of m ρ c main_arg11 (by decide)).trans (carry_arg11_0_19 m ρ c)
theorem carry_arg11_0_21 : Gen.W21 m ρ c (Proc.devRef .tc main_arg11) = Gen.W0 m ρ c (Proc.devRef .tc main_arg11) :=
  (W21_of m ρ c main_arg11 (by decide)).trans (carry_arg11_0_20 m ρ c)
theorem carry_arg11_0_22 : Gen.W22 m ρ c (Proc.devRef .tc main_arg11) = Gen.W0 m ρ c (Proc.devRef .tc main_arg11) :=
  (W22_of m ρ c main_arg11 (by decide)).trans (carry_arg11_0_21 m ρ c)
theorem carry_arg11_0_23 : Gen.W23 m ρ c (Proc.devRef .tc main_arg11) = Gen.W0 m ρ c (Proc.devRef .tc main_arg11) :=
  (W23_of m ρ c main_arg11 (by decide)).trans (carry_arg11_0_22 m ρ c)
theorem carry_arg11_0_24 : Gen.W24 m ρ c (Proc.devRef .tc main_arg11) = Gen.W0 m ρ c (Proc.devRef .tc main_arg11) :=
  (W24_of m ρ c main_arg11 (by decide)).trans (carry_arg11_0_23 m ρ c)
theorem carry_arg11_0_25 : Gen.W25 m ρ c (Proc.devRef .tc main_arg11) = Gen.W0 m ρ c (Proc.devRef .tc main_arg11) :=
  (W25_of m ρ c main_arg11 (by decide)).trans (carry_arg11_0_24 m ρ c)
theorem carry_arg11_0_26 : Gen.W26 m ρ c (Proc.devRef .tc main_arg11) = Gen.W0 m ρ c (Proc.devRef .tc main_arg11) :=
  (W26_of m ρ c main_arg11 (by decide)).trans (carry_arg11_0_25 m ρ c)
theorem W26_arg11 : Gen.W26 m ρ c (Proc.devRef .tc main_arg11) = m ((c.tc : Thread nD τ).loc main_arg11) :=
  (carry_arg11_0_26 m ρ c).trans rfl
theorem W27_v136 : Gen.W27 m ρ c (Proc.devRef .tc main_v136) = kReshapeRow40 (m ((c.tc : Thread nD τ).loc main_arg11)) :=
  hostOps9_v136 (Gen.W26 m ρ c) (W26_arg11 m ρ c)
theorem arr9_0 : Pipeline.arrRef spec9 (0 : Fin 4) = main_v135 := rfl
theorem arr9_1 : Pipeline.arrRef spec9 (1 : Fin 4) = main_arg10 := rfl
theorem arr9_2 : Pipeline.arrRef spec9 (2 : Fin 4) = main_v136 := rfl
theorem arr9_3 : Pipeline.arrRef spec9 (3 : Fin 4) = main_v137 := rfl
theorem in9_0 : Gen.V27 m ρ c main_v135 = Gen.V26 m ρ c main_v135 :=
  W27_v135 m ρ c
theorem in9_1 : Gen.V27 m ρ c main_arg10 = m ((c.tc : Thread nD τ).loc main_arg10) :=
  W27_arg10 m ρ c
theorem in9_2 : Gen.V27 m ρ c main_v136 = kReshapeRow40 (m ((c.tc : Thread nD τ).loc main_arg11)) :=
  W27_v136 m ρ c
theorem out9 : Gen.V28 m ρ c (Pipeline.arrRef spec9 (3 : Fin 4)) = (dat9 (Gen.V27 m ρ) c).arrAt (3 : Fin 4) cfg9.N :=
  (Gen.hF9 m ρ c (3 : Fin 4)).symm
theorem out9' : Gen.V28 m ρ c main_v137 = (dat9 (Gen.V27 m ρ) c).arrAt (3 : Fin 4) cfg9.N :=
  out9 m ρ c

end Cert.KernelIdeal.Stages

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibRowExtras.lean ====
/-
  More row readings of two-dimensional arrays over the extended reals, beside LibRowLayers:
  entry-by-entry maps (a product, tanh, exp, on the device and on the host) read on a row; a vector given a
  unit leading axis, read as its one row; and three arrays set side by side along the columns, read on a row
  as a join of a join.
-/
import proofs.«119291_j39402029973518_1_alg».proof.Proof.LibRowLayers

noncomputable section

namespace Cert.RowLayers

open Idealize.ShloMosaic Idealize.ShloMosaic.ValueIdx

/-- A vector [n] as a function of its one coordinate. -/
def vec {α : Type} {n : ℕ} (x : (⟨1, ![n]⟩ : Shape).Idx → α) : Fin n → α := fun j => x (ix1 j)

section Maps
variable {a b : ℕ} {φ : FTy}

/-- A product of arrays, on a row. -/
theorem rowOf_mulf (x y : FVec Ideal ⟨2, ![a, b]⟩ φ) (p : Fin a) : rowOf (mulf x y) p = fun j => rowOf x p j * rowOf y p j := rfl

/-- The device's tanh, on a row. -/
theorem rowOf_tanh (x : FVec Ideal ⟨2, ![a, b]⟩ φ) (p : Fin a) : rowOf (tanh x) p = fun j => Ideal.tanh (rowOf x p j) := rfl

/-- The device's exp, on a row. -/
theorem rowOf_exp (x : FVec Ideal ⟨2, ![a, b]⟩ φ) (p : Fin a) : rowOf (exp x) p = fun j => Ideal.exp (rowOf x p j) := rfl

/-- The host's tanh, on a row: the same function. -/
theorem rowOf_hostTanh (x : FVec Ideal ⟨2, ![a, b]⟩ φ) (p : Fin a) : rowOf (Host.tanh x) p = fun j => Ideal.tanh (rowOf x p j) := rfl

/-- The host's exp, on a row: the same function. -/
theorem rowOf_hostExp (x : FVec Ideal ⟨2, ![a, b]⟩ φ) (p : Fin a) : rowOf (Host.exp x) p = fun j => Ideal.exp (rowOf x p j) := rfl

/-- A splat scalar, on a row. -/
theorem rowOf_broadcast (z : Ideal φ) (p : Fin a) : rowOf (broadcast (⟨2, ![a, b]⟩ : Shape) z) p = fun _ => z := rfl

/-- A rank-0 constant broadcast over the array, on a row. -/
theorem rowOf_broadcastInDim_const {s : Shape} (w : BitVec φ.bits) (dims : Fin s.rank → Fin 2)
    (h : s.BroadcastsInDim ⟨2, ![a, b]⟩ dims) (p : Fin a) :
    rowOf (broadcastInDim ⟨2, ![a, b]⟩ dims h (constant (F := Ideal) s φ w)) p = fun _ => Ideal.ofBits φ w := rfl

end Maps

/-- A vector [n] viewed as [1, n]: its one row is the vector. -/
theorem rowOf_shapeCast_lead {α : Type} {n : ℕ} (x : (⟨1, ![n]⟩ : Shape).Idx → α)
    (h : (⟨1, ![n]⟩ : Shape).ShapeCasts ⟨2, ![1, n]⟩) : rowOf (shapeCast ⟨2, ![1, n]⟩ x h) 0 = vec x :=
  funext fun j => shapeCast_a_1a_apply x h 0 j

/-- Three arrays concatenated along the columns: each row is the three rows side by side. -/
theorem rowOf_concat3_cols {α : Type} {a A B C E D : ℕ} (x : (⟨2, ![a, A]⟩ : Shape).Idx → α) (y : (⟨2, ![a, B]⟩ : Shape).Idx → α)
    (z : (⟨2, ![a, C]⟩ : Shape).Idx → α)
    (h : Shape.Concatenates [(⟨2, ![a, A]⟩ : Shape), ⟨2, ![a, B]⟩, ⟨2, ![a, C]⟩] ⟨2, ![a, D]⟩ 1) (hE : E = A + B) (hD : D = E + C) (p : Fin a) :
    rowOf (concatenate ⟨2, ![a, D]⟩ 1 [⟨⟨2, ![a, A]⟩, x⟩, ⟨⟨2, ![a, B]⟩, y⟩, ⟨⟨2, ![a, C]⟩, z⟩] h) p
      = join hD (join hE (rowOf x p) (rowOf y p)) (rowOf z p) := by
  funext k
  show concatenate ⟨2, ![a, D]⟩ 1 [⟨⟨2, ![a, A]⟩, x⟩, ⟨⟨2, ![a, B]⟩, y⟩, ⟨⟨2, ![a, C]⟩, z⟩] h (ix2 p k) = _
  unfold join
  by_cases hk : k.val < E
  · rw [dif_pos hk]
    by_cases hk' : k.val < A
    · rw [dif_pos hk']
      exact concatenate_apply_piece 1 [⟨⟨2, ![a, A]⟩, x⟩, ⟨⟨2, ![a, B]⟩, y⟩, ⟨⟨2, ![a, C]⟩, z⟩] h (ix2 p k) 0 (by show 0 < 3; omega) _ x rfl rfl 0 rfl (ix2 p ⟨k.val, hk'⟩)
        (fun ax hne => by
          match ax with
          | ⟨0, _⟩ => rfl
          | ⟨1, _⟩ => exact absurd rfl hne)
        (by show 0 + k.val = k.val; omega)
    · rw [dif_neg hk']
      exact concatenate_apply_piece 1 [⟨⟨2, ![a, A]⟩, x⟩, ⟨⟨2, ![a, B]⟩, y⟩, ⟨⟨2, ![a, C]⟩, z⟩] h (ix2 p k) 1 (by show 1 < 3; omega) _ y rfl rfl A rfl (ix2 p ⟨k.val - A, by omega⟩)
        (fun ax hne => by
          match ax with
          | ⟨0, _⟩ => rfl
          | ⟨1, _⟩ => exact absurd rfl hne)
        (by show A + (k.val - A) = k.val; omega)
  · rw [dif_neg hk]
    exact concatenate_apply_piece 1 [⟨⟨2, ![a, A]⟩, x⟩, ⟨⟨2, ![a, B]⟩, y⟩, ⟨⟨2, ![a, C]⟩, z⟩] h (ix2 p k) 2 (by show 2 < 3; omega) _ z rfl rfl E (by subst hE; rfl) (ix2 p ⟨k.val - E, by have := k.isLt; omega⟩)
      (fun ax hne => by
        match ax with
        | ⟨0, _⟩ => rfl
        | ⟨1, _⟩ => exact absurd rfl hne)
      (by show E + (k.val - E) = k.val; omega)

end Cert.RowLayers

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibRowBlocks.lean ====
/-
  Row-wise layers over the extended reals, on a block of rows and on the whole array alike.

  A dense layer sends row `r` of its input to `q ↦ (∑ k, x[r, k] · w[k, q]) + b[0, q]` (`denseRows`); a graph layer's
  rectified combination at node `r` and column `q` is `leaky (agg[r, q] + ht[r, q] · s[r, 0] + b[0, q])` with a
  per-node factor column `s` and a bias row `b` (`actRows`; `leakyE` is the leaky rectifier on one extended real,
  spelt with the comparison and selection the programs use). Both are stated for arrays with ANY number of rows, so
  one function describes a block of rows and the whole array. Read here: the device's block computation — a product
  into a zero accumulator (a change of float format is the identity) plus a broadcast bias row; the sum, product,
  comparison and selection of the combination — as these functions (`device_dense`, `device_act`); and, for a block
  holding rows `R·n …` of an array, the block's layer at `(p, q)` as the array's layer at `(R·n + p, q)`
  (`dense_block`, `act_block`): the step from a tiled region's blocks to one whole-array function.
-/
import proofs.«119291_j39402029973518_1_alg».proof.Proof.LibRowExtras
import proofs.«119291_j39402029973518_1_alg».proof.Proof.LibColumnBroadcast
import Idealize.ShloMosaic.PureOps.Ideal.Laws

noncomputable section

namespace Cert.Layers

open Idealize.ShloMosaic Idealize.ShloMosaic.ValueIdx Cert.RowLayers

/-! ## The leaky rectifier on one extended real -/

/-- `x` where `x ≥ 0`, else `slope · x`, with the comparison and the selection as the programs spell them. -/
def leakyE (x : EReal) : EReal :=
  Scalar.select (FloatOps.cmpf (F := Ideal) (φ := .f32) .oge x (Ideal.ofBits .f32 0x00000000#32)) x
    (Ideal.ofBits .f32 0x3C23D70A#32 * x)

/-! ## The stages on arrays of any number of rows -/

/-- A dense layer row by row: entry `(r, q)` is `(∑ k, x[r, k] · w[k, q]) + b[0, q]`. -/
def denseRows {a K b : ℕ} (x : (⟨2, ![a, K]⟩ : Shape).Idx → EReal) (w : (⟨2, ![K, b]⟩ : Shape).Idx → EReal)
    (bias : (⟨2, ![1, b]⟩ : Shape).Idx → EReal) : (⟨2, ![a, b]⟩ : Shape).Idx → EReal :=
  fun i => dense (rowOf x (i 0)) w (rowOf bias 0) (i 1)

theorem denseRows_ix2 {a K b : ℕ} (x : (⟨2, ![a, K]⟩ : Shape).Idx → EReal) (w : (⟨2, ![K, b]⟩ : Shape).Idx → EReal)
    (bias : (⟨2, ![1, b]⟩ : Shape).Idx → EReal) (r : Fin a) (q : Fin b) :
    denseRows x w bias (ix2 r q) = (∑ k : Fin K, x (ix2 r k) * w (ix2 k q)) + bias (ix2 (0 : Fin 1) q) := rfl

/-- The graph layer's combination entry by entry: `leaky (agg[r, q] + ht[r, q] · s[r, 0] + b[0, q])`. -/
def actRows {a b : ℕ} (agg ht : (⟨2, ![a, b]⟩ : Shape).Idx → EReal) (s : (⟨2, ![a, 1]⟩ : Shape).Idx → EReal)
    (bias : (⟨2, ![1, b]⟩ : Shape).Idx → EReal) : (⟨2, ![a, b]⟩ : Shape).Idx → EReal :=
  fun i => leakyE ((agg i + ht i * s (ix2 (i 0) (0 : Fin 1))) + bias (ix2 (0 : Fin 1) (i 1)))

theorem actRows_ix2 {a b : ℕ} (agg ht : (⟨2, ![a, b]⟩ : Shape).Idx → EReal) (s : (⟨2, ![a, 1]⟩ : Shape).Idx → EReal)
    (bias : (⟨2, ![1, b]⟩ : Shape).Idx → EReal) (r : Fin a) (q : Fin b) :
    actRows agg ht s bias (ix2 r q)
      = leakyE ((agg (ix2 r q) + ht (ix2 r q) * s (ix2 r (0 : Fin 1))) + bias (ix2 (0 : Fin 1) q)) := rfl

/-! ## The device's block computations are these functions -/

/-- The device's dense layer on a block: a product into a zero accumulator (the operands' change of format is the
    identity here) plus the bias row broadcast down the rows. -/
theorem device_dense {a K b : ℕ} {d : DotDims ⟨2, ![a, K]⟩ ⟨2, ![K, b]⟩ ⟨2, ![a, b]⟩} (H : RowsTimesCols d)
    (x : FVec Ideal ⟨2, ![a, K]⟩ .f32) (w : FVec Ideal ⟨2, ![K, b]⟩ .f32) (bias : FVec Ideal ⟨2, ![1, b]⟩ .f32)
    (hx : FTy.bf16.bits < FTy.f32.bits) (hB : (⟨2, ![1, b]⟩ : Shape).Broadcasts ⟨2, ![a, b]⟩) :
    addf (matmul d none (truncf .bf16 x hx) (truncf .bf16 w hx) (constant (F := Ideal) ⟨2, ![a, b]⟩ .f32 0x00000000#32))
        (broadcastTo ⟨2, ![a, b]⟩ bias hB)
      = denseRows x w bias := by
  funext i
  obtain ⟨r, q, rfl⟩ : ∃ (r : Fin a) (q : Fin b), i = ix2 r q := ⟨i 0, i 1, eq_ix2 i⟩
  exact congrFun (rowOf_dense_device H none (truncf .bf16 x hx) (truncf .bf16 w hx) bias hB r) q

/-- The device's combination on a block. -/
theorem device_act {a b : ℕ} (agg ht : FVec Ideal ⟨2, ![a, b]⟩ .f32) (s : FVec Ideal ⟨2, ![a, 1]⟩ .f32)
    (bias : FVec Ideal ⟨2, ![1, b]⟩ .f32) (hS : (⟨2, ![a, 1]⟩ : Shape).Broadcasts ⟨2, ![a, b]⟩)
    (hB : (⟨2, ![1, b]⟩ : Shape).Broadcasts ⟨2, ![a, b]⟩) :
    select (cmpf .oge (addf (addf agg (mulf ht (broadcastTo ⟨2, ![a, b]⟩ s hS))) (broadcastTo ⟨2, ![a, b]⟩ bias hB))
          (broadcast ⟨2, ![a, b]⟩ (Scalar.ofBits (F := Ideal) .f32 0x00000000#32)))
        (addf (addf agg (mulf ht (broadcastTo ⟨2, ![a, b]⟩ s hS))) (broadcastTo ⟨2, ![a, b]⟩ bias hB))
        (mulf (broadcast ⟨2, ![a, b]⟩ (Scalar.ofBits (F := Ideal) .f32 0x3C23D70A#32))
          (addf (addf agg (mulf ht (broadcastTo ⟨2, ![a, b]⟩ s hS))) (broadcastTo ⟨2, ![a, b]⟩ bias hB)))
      = actRows agg ht s bias := by
  funext i
  obtain ⟨r, q, rfl⟩ : ∃ (r : Fin a) (q : Fin b), i = ix2 r q := ⟨i 0, i 1, eq_ix2 i⟩
  rw [actRows_ix2]
  simp only [select_apply, cmpf_apply, mulf_apply, addf_apply, broadcast_apply,
    Cert.ColumnBroadcast.broadcastTo_a1_ab_apply, broadcastTo_1b_ab_apply]
  rfl

/-! ## A block of rows against the whole array -/

/-- If a block `x0` holds rows `R·n …` of `X`, the dense layer of the block at `(p, q)` is the dense layer of `X` at
    `(R·n + p, q)`. -/
theorem dense_block {A a K b R : ℕ} (X : (⟨2, ![A, K]⟩ : Shape).Idx → EReal) (W : (⟨2, ![K, b]⟩ : Shape).Idx → EReal)
    (B : (⟨2, ![1, b]⟩ : Shape).Idx → EReal) (x0 : (⟨2, ![a, K]⟩ : Shape).Idx → EReal) (n : ℕ)
    (h0 : ∀ (y : (⟨2, ![a, K]⟩ : Shape).Idx) (k : (⟨2, ![A, K]⟩ : Shape).Idx),
      (k 0).val = R * n + (y 0).val → (k 1).val = (y 1).val → x0 y = X k)
    (y : (⟨2, ![a, b]⟩ : Shape).Idx) (i : (⟨2, ![A, b]⟩ : Shape).Idx)
    (hi0 : (i 0).val = R * n + (y 0).val) (hi1 : (i 1).val = (y 1).val) :
    denseRows x0 W B y = denseRows X W B i := by
  obtain ⟨p, q, rfl⟩ : ∃ (p : Fin a) (q : Fin b), y = ix2 p q := ⟨y 0, y 1, eq_ix2 y⟩
  obtain ⟨r, q', rfl⟩ : ∃ (r : Fin A) (q' : Fin b), i = ix2 r q' := ⟨i 0, i 1, eq_ix2 i⟩
  obtain rfl : q' = q := Fin.ext hi1
  rw [denseRows_ix2, denseRows_ix2]
  congr 1
  exact Finset.sum_congr rfl fun k _ => by rw [h0 (ix2 p k) (ix2 r k) hi0 rfl]

/-- The same for the combination: blocks of the aggregate, of the projected features and of the per-node factor
    holding rows `R·n …` of their arrays. -/
theorem act_block {A a b R : ℕ} (AGG HT : (⟨2, ![A, b]⟩ : Shape).Idx → EReal) (S : (⟨2, ![A, 1]⟩ : Shape).Idx → EReal)
    (B : (⟨2, ![1, b]⟩ : Shape).Idx → EReal) (x0 x1 : (⟨2, ![a, b]⟩ : Shape).Idx → EReal)
    (x2 : (⟨2, ![a, 1]⟩ : Shape).Idx → EReal) (n : ℕ)
    (h0 : ∀ (y : (⟨2, ![a, b]⟩ : Shape).Idx) (k : (⟨2, ![A, b]⟩ : Shape).Idx),
      (k 0).val = R * n + (y 0).val → (k 1).val = (y 1).val → x0 y = AGG k)
    (h1 : ∀ (y : (⟨2, ![a, b]⟩ : Shape).Idx) (k : (⟨2, ![A, b]⟩ : Shape).Idx),
      (k 0).val = R * n + (y 0).val → (k 1).val = (y 1).val → x1 y = HT k)
    (h2 : ∀ (y : (⟨2, ![a, 1]⟩ : Shape).Idx) (k : (⟨2, ![A, 1]⟩ : Shape).Idx),
      (k 0).val = R * n + (y 0).val → (k 1).val = (y 1).val → x2 y = S k)
    (y : (⟨2, ![a, b]⟩ : Shape).Idx) (i : (⟨2, ![A, b]⟩ : Shape).Idx)
    (hi0 : (i 0).val = R * n + (y 0).val) (hi1 : (i 1).val = (y 1).val) :
    actRows x0 x1 x2 B y = actRows AGG HT S B i := by
  obtain ⟨p, q, rfl⟩ : ∃ (p : Fin a) (q : Fin b), y = ix2 p q := ⟨y 0, y 1, eq_ix2 y⟩
  obtain ⟨r, q', rfl⟩ : ∃ (r : Fin A) (q' : Fin b), i = ix2 r q' := ⟨i 0, i 1, eq_ix2 i⟩
  obtain rfl : q' = q := Fin.ext hi1
  rw [actRows_ix2, actRows_ix2, h0 (ix2 p q') (ix2 r q') hi0 rfl, h1 (ix2 p q') (ix2 r q') hi0 rfl,
    h2 (ix2 p (0 : Fin 1)) (ix2 r (0 : Fin 1)) hi0 rfl]

end Cert.Layers

end
-- ==== Proof.LibChebRows.lean ====
/-
  Rows of a two-term Chebyshev graph layer and of a row-wise log-softmax, over the extended reals.

  A Chebyshev convolution of order two treats every node alone once the graph has been applied: node features `h` go
  through a first weight matrix, the features `t` propagated along the edges through a second one, and a bias is
  added — entry `j` of the node's new row is `(∑ k, h k · w₀[k, j]) + (∑ k, t k · w₁[k, j]) + b j` (`cheb`). The
  network's head sends a row `f` to `j ↦ (f j − M) − log (∑ k, exp (f k − M))`, `M` the row's largest entry
  (`logSoftmax`; `M` is a fold of `max` from a start value `z`, which both programs take to be −∞).
  This file names those row functions and reads, ROW BY ROW and for any number of rows, the array operations that
  compute them in the two forms a program may take: two matrix products into zero accumulators, a `[1, b]` bias row
  broadcast down the rows, lane reductions whose result is re-laid as a column and broadcast back (the device's);
  two `dot_general`s, a `[b]` bias given a unit axis and broadcast, host reductions broadcast back through a unit
  column (the host's). Both forms are the same row functions, which is all that joins the two programs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«119291_j39402029973518_1_alg».proof.Proof.LibRowLayers
import proofs.«119291_j39402029973518_1_alg».proof.Proof.LibColumnBroadcast

noncomputable section

namespace Cert.ChebRows

open Idealize.ShloMosaic Idealize.ShloMosaic.ValueIdx Cert.RowLayers

/-! ## The row functions -/

/-- One Chebyshev layer of order two on a node: its own features `h` through `w0`, the propagated features `t`
    through `w1`, plus the bias. -/
def cheb {K J : ℕ} (h t : Fin K → EReal) (w0 w1 : (⟨2, ![K, J]⟩ : Shape).Idx → EReal) (b : Fin J → EReal) : Fin J → EReal :=
  fun j => ((∑ k : Fin K, h k * w0 (ix2 k j)) + (∑ k : Fin K, t k * w1 (ix2 k j))) + b j

/-- The largest entry of a row, taken as a fold of `max` from a start value `z`. -/
def rowMax {n : ℕ} (z : EReal) (f : Fin n → EReal) : EReal := (Finset.univ : Finset (Fin n)).fold max z f

/-- The start value is below the fold, so taking the maximum with it once more changes nothing. -/
theorem max_rowMax {n : ℕ} (z : EReal) (f : Fin n → EReal) : max z (rowMax z f) = rowMax z f :=
  max_eq_right ((Finset.le_fold_max z).mpr (Or.inl le_rfl))

/-- log-softmax of a row: the row shifted by its largest entry, minus the logarithm of the sum of the exponentials of
    the shifted row. -/
def logSoftmax {n : ℕ} (z : EReal) (f : Fin n → EReal) : Fin n → EReal :=
  fun j => (f j - rowMax z f) - Ideal.log (∑ k : Fin n, Ideal.exp (f k - rowMax z f))

/-! ## The Chebyshev layer as each program prints it -/

section Layer
variable {a K b : ℕ} {d : DotDims ⟨2, ![a, K]⟩ ⟨2, ![K, b]⟩ ⟨2, ![a, b]⟩} {φ₁ φ₂ : FTy}

/-- The device's layer — two products into zero accumulators, added, plus a `[1, b]` bias row broadcast down the
    rows — sends rows `p` of the two inputs to `cheb` of them. -/
theorem rowOf_cheb_device (H : RowsTimesCols d) (prec : Option ContractPrecision)
    (h t : FVec Ideal ⟨2, ![a, K]⟩ φ₁) (w0 w1 : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (addf (matmul d prec h w0 (constant (F := Ideal) ⟨2, ![a, b]⟩ .f32 0x00000000#32))
                      (matmul d prec t w1 (constant (F := Ideal) ⟨2, ![a, b]⟩ .f32 0x00000000#32)))
                (broadcastTo ⟨2, ![a, b]⟩ bias hB)) p
      = cheb (rowOf h p) (rowOf t p) w0 w1 (rowOf bias 0) := by
  rw [rowOf_addf, rowOf_addf, rowOf_matmul_zero H, rowOf_matmul_zero H, rowOf_broadcastTo]
  rfl

/-- The host's layer — two `dot_general`s, added, plus a `[b]` bias given a unit leading axis and broadcast down the
    rows — sends rows `p` of the two inputs to `cheb` of them. -/
theorem rowOf_cheb_host (H : RowsTimesCols d) (prec : Option ContractPrecision)
    (h t : FVec Ideal ⟨2, ![a, K]⟩ φ₁) (w0 w1 : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (addf (Host.dotGeneral (F := Ideal) d prec h w0) (Host.dotGeneral (F := Ideal) d prec t w1))
                (broadcastInDim ⟨2, ![a, b]⟩ ![0, 1] h2 (broadcastInDim ⟨2, ![1, b]⟩ ![1] h1 bias))) p
      = cheb (rowOf h p) (rowOf t p) w0 w1 (fun j => bias (ix1 j)) := by
  rw [rowOf_addf, rowOf_addf, rowOf_dotGeneral H, rowOf_dotGeneral H, rowOf_broadcastInDim_vec]
  rfl

end Layer

/-! ## Reductions along the lanes, read on a row -/

section Reductions
variable {a n : ℕ} {φ : FTy}

/-- The reduced index `p` with lane `k` put back is `(p, k)`. -/
theorem lift_lane (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- The device's maximum along the lanes, at row `p`: the fold of `max` over that row from the accumulator's value. -/
theorem multiReduction_max_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.maximumf.neutral φ hφ) (p : Fin a) :
    multiReduction .maximumf [1] ⟨1, ![a]⟩ src acc h hφ hacc (ix1 p) = rowMax (Ideal.ofBits φ acc) (rowOf src p) := by
  rw [Ideal.multiReduction_maximumf_single]
  have hf : (src ∘ h.lift (ix1 p)) = fun k : Fin n => src (ix2 p k) := funext fun k => congrArg src (lift_lane h p k)
  exact congrArg (fun f => Finset.fold max (Ideal.ofBits φ acc) f (Finset.univ : Finset (Fin n))) hf

/-- The device's sum along the lanes, at row `p`: the sum of that row. -/
theorem multiReduction_add_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.add.neutral φ hφ) (p : Fin a) :
    multiReduction .add [1] ⟨1, ![a]⟩ src acc h hφ hacc (ix1 p) = ∑ k : Fin n, src (ix2 p k) := by
  rw [Ideal.multiReduction_add_single]
  show (∑ k : Fin n, src (h.lift (ix1 p) k)) = _
  exact Finset.sum_congr rfl fun k _ => congrArg src (lift_lane h p k)

/-- The host's reduce with a maximum body along the lanes, at row `p`: the fold of `max` over that row from the initial value. -/
theorem hostReduce_max_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf x init h' hu (ix1 p) = rowMax (init (Shape.Idx.first hu)) (rowOf x p) := by
  rw [Host.reduce_eq_fold_single FloatOps.maximumf x init h' h hu]
  have hf : (x ∘ h.lift (ix1 p)) = fun k : Fin n => x (ix2 p k) := funext fun k => congrArg x (lift_lane h p k)
  exact congrArg (fun f => Finset.fold max (init (Shape.Idx.first hu)) f (Finset.univ : Finset (Fin n))) hf

/-- The host's float sum along the lanes, at row `p`: the initial value plus the sum of that row. -/
theorem hostReduceAdd_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) ?_
  show (∑ k : Fin n, x (h.lift (ix1 p) k)) = _
  exact Finset.sum_congr rfl fun k _ => congrArg x (lift_lane h p k)

end Reductions

/-! ## A per-row value re-laid as a column and broadcast along the lanes -/

section Column
variable {α : Type} {a n : ℕ}

/-- An `[a]` array cast to `[a, 1]` reads, at `(i, u)`, the operand at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The device's keep-dims form: an `[a]` array cast to a column and broadcast to `[a, n]` reads, at `(p, j)`, entry `p`. -/
theorem column_device_apply (v : (⟨1, ![a]⟩ : Shape).Idx → α) (hc : (⟨1, ![a]⟩ : Shape).ShapeCasts ⟨2, ![a, 1]⟩)
    (hb : (⟨2, ![a, 1]⟩ : Shape).Broadcasts ⟨2, ![a, n]⟩) (p : Fin a) (j : Fin n) :
    broadcastTo ⟨2, ![a, n]⟩ (shapeCast ⟨2, ![a, 1]⟩ v hc) hb (ix2 p j) = v (ix1 p) :=
  (Cert.ColumnBroadcast.broadcastTo_a1_ab_apply _ hb p j).trans (shapeCast_a_a1_apply v hc p 0)

/-- The host's first step: an `[a]` array given a trailing unit axis reads, at `(p, u)`, entry `p`. -/
theorem column_host_apply (v : (⟨1, ![a]⟩ : Shape).Idx → α) (h1 : (⟨1, ![a]⟩ : Shape).BroadcastsInDim ⟨2, ![a, 1]⟩ ![0])
    (p : Fin a) (u : Fin 1) : broadcastInDim ⟨2, ![a, 1]⟩ ![0] h1 v (ix2 p u) = v (ix1 p) :=
  broadcastInDim_apply ![0] h1 v (ix2 p u) (ix1 p) (fun ax => by
    match ax with
    | ⟨0, _⟩ =>
      show p.val = if a = 1 then 0 else p.val
      split
      · have := p.isLt; omega
      · rfl)

/-- The host's second step: an `[a, 1]` column broadcast to `[a, n]` reads, at `(p, j)`, the column at `(p, 0)`. -/
theorem lanes_host_apply (w : (⟨2, ![a, 1]⟩ : Shape).Idx → α) (h2 : (⟨2, ![a, 1]⟩ : Shape).BroadcastsInDim ⟨2, ![a, n]⟩ ![0, 1])
    (p : Fin a) (j : Fin n) : broadcastInDim ⟨2, ![a, n]⟩ ![0, 1] h2 w (ix2 p j) = w (ix2 p (0 : Fin 1)) :=
  broadcastInDim_apply ![0, 1] h2 w (ix2 p j) (ix2 p (0 : Fin 1)) (fun ax => by
    match ax with
    | ⟨0, _⟩ =>
      show p.val = if a = 1 then 0 else p.val
      split
      · have := p.isLt; omega
      · rfl
    | ⟨1, _⟩ => rfl)

end Column

/-! ## Arrays given row by row -/

section Arrays
variable {a K J : ℕ}

/-- Plane `o` of a stack of two `[K, J]` weight matrices. -/
def plane (W : (⟨3, ![2, K, J]⟩ : Shape).Idx → EReal) (o : Fin 2) : (⟨2, ![K, J]⟩ : Shape).Idx → EReal :=
  fun kj => W (ix3 o (kj 0) (kj 1))

theorem plane_apply (W : (⟨3, ![2, K, J]⟩ : Shape).Idx → EReal) (o : Fin 2) (k : Fin K) (j : Fin J) :
    plane W o (ix2 k j) = W (ix3 o k j) := rfl

/-- `cheb` reads its weight matrices at `(k, j)` only: matrices that agree there give the same row. -/
theorem cheb_congr (h t : Fin K → EReal) {w0 w1 w0' w1' : (⟨2, ![K, J]⟩ : Shape).Idx → EReal} (b : Fin J → EReal)
    (e0 : ∀ (k : Fin K) (j : Fin J), w0 (ix2 k j) = w0' (ix2 k j)) (e1 : ∀ (k : Fin K) (j : Fin J), w1 (ix2 k j) = w1' (ix2 k j)) :
    cheb h t w0 w1 b = cheb h t w0' w1' b := by
  funext j
  unfold cheb
  simp only [e0, e1]

/-- The hidden layer of every node: the rectified Chebyshev layer of the node's rows of `x` and of the propagated `tx`. -/
def chebReluArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => relu z (cheb (rowOf x (i 0)) (rowOf tx (i 0)) w0 w1 b) (i 1)

/-- The output layer of every node: the log-softmax of the Chebyshev layer of the node's rows. -/
def chebLogSoftmaxArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => logSoftmax z (cheb (rowOf x (i 0)) (rowOf tx (i 0)) w0 w1 b) (i 1)

theorem chebReluArr_ix2 (z : EReal) (x tx : (⟨2, ![a, K]⟩ : Shape).Idx → EReal) (w0 w1 : (⟨2, ![K, J]⟩ : Shape).Idx → EReal)
    (b : Fin J → EReal) (p : Fin a) (q : Fin J) :
    chebReluArr z x tx w0 w1 b (ix2 p q) = relu z (cheb (rowOf x p) (rowOf tx p) w0 w1 b) q := rfl

theorem chebLogSoftmaxArr_ix2 (z : EReal) (x tx : (⟨2, ![a, K]⟩ : Shape).Idx → EReal) (w0 w1 : (⟨2, ![K, J]⟩ : Shape).Idx → EReal)
    (b : Fin J → EReal) (p : Fin a) (q : Fin J) :
    chebLogSoftmaxArr z x tx w0 w1 b (ix2 p q) = logSoftmax z (cheb (rowOf x p) (rowOf tx p) w0 w1 b) q := rfl

/-- An array whose every row is the rectified layer of the inputs' rows IS the hidden-layer array. -/
theorem eq_chebReluArr_of_rows (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ p : Fin a, rowOf A p = relu z (cheb (rowOf x p) (rowOf tx p) w0 w1 b)) : A = chebReluArr z x tx w0 w1 b :=
  funext fun i => (apply_eq_rowOf A i).trans (congrFun (hA (i 0)) (i 1))

/-- An array whose every entry is the log-softmax of the layer of the inputs' rows IS the output-layer array. -/
theorem eq_chebLogSoftmaxArr_of_entries (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ (p : Fin a) (q : Fin J), A (ix2 p q) = logSoftmax z (cheb (rowOf x p) (rowOf tx p) w0 w1 b) q) :
    A = chebLogSoftmaxArr z x tx w0 w1 b :=
  funext fun i => (congrArg A (eq_ix2 i)).trans (hA (i 0) (i 1))

end Arrays

end Cert.ChebRows

end
-- ==== Proof.LibNormSageRows.lean ====
/-
  The network's row-wise stages as functions on whole arrays over the extended reals.

  Three kinds of stage send row `r` of their input to a row of their output. A dense layer is `denseRows` of the
  row library: entry `(r, q)` is `(∑ k, x[r, k] · w[k, q]) + b[0, q]`. Batch normalisation followed by the
  rectifier, with the column statistics given as rows `mean`, `var` of shape `[1, b]`, is `bnRows`: entry
  `(r, q)` is `max ((g[0, q] · (z[r, q] − mean[0, q])) · rsqrt (var[0, q] + ε) + β[0, q]) 0`. A graph layer that
  adds the aggregated neighbours through one matrix and the node's own features through another is `sageRows`:
  entry `(r, q)` is `((∑ k, agg[r, k] · wl[k, q]) + (∑ k, h[r, k] · wr[k, q])) + bl[0, q]`.

  Each is stated for arrays of ANY number of rows, so that one function describes a block of rows and the whole
  array: `bn_block` and `sage_block` say that the stage of a block holding rows `R·n …` of an array, read at
  `(p, q)`, is the stage of the array read at `(R·n + p, q)`. The device's spellings of the two new stages
  (`device_bn`, `device_sage`) and the host's (`host_bn`, `host_sage`: parameters broadcast from vectors; the
  bias added between the two products, which over the extended reals is the same sum) are read as these functions.
-/
import proofs.«119291_j39402029973518_1_alg».proof.Proof.LibRowBlocks
import proofs.«119291_j39402029973518_1_alg».proof.Proof.LibChebRows

noncomputable section

namespace Cert.Spec

open Idealize.ShloMosaic Idealize.ShloMosaic.ValueIdx Cert.RowLayers Cert.Layers Cert.ChebRows

/-- An `[a, b]` array of extended reals. -/
abbrev A2 (a b : ℕ) : Type := (⟨2, ![a, b]⟩ : Shape).Idx → EReal

/-! ## A vector viewed as one row -/

/-- The `[1, b]` array whose one row is the vector `v`. -/
def rowVec {b : ℕ} (v : (⟨1, ![b]⟩ : Shape).Idx → EReal) : A2 1 b := fun j => v (ix1 (j 1))

theorem rowVec_ix2 {b : ℕ} (v : (⟨1, ![b]⟩ : Shape).Idx → EReal) (u : Fin 1) (q : Fin b) :
    rowVec v (ix2 u q) = v (ix1 q) := rfl

/-! ## Batch normalisation and rectifier, row by row -/

/-- Entry `(r, q)`: `max ((g[0, q] · (z[r, q] − mean[0, q])) · rsqrt (var[0, q] + ε) + β[0, q]) zero`. -/
def bnRows {a b : ℕ} (eps zero : EReal) (z : A2 a b) (g beta mean var : A2 1 b) : A2 a b :=
  fun i => max (((g (ix2 (0 : Fin 1) (i 1)) * (z i - mean (ix2 (0 : Fin 1) (i 1))))
      * Ideal.rsqrt (var (ix2 (0 : Fin 1) (i 1)) + eps)) + beta (ix2 (0 : Fin 1) (i 1))) zero

theorem bnRows_ix2 {a b : ℕ} (eps zero : EReal) (z : A2 a b) (g beta mean var : A2 1 b) (r : Fin a) (q : Fin b) :
    bnRows eps zero z g beta mean var (ix2 r q)
      = max (((g (ix2 (0 : Fin 1) q) * (z (ix2 r q) - mean (ix2 (0 : Fin 1) q)))
          * Ideal.rsqrt (var (ix2 (0 : Fin 1) q) + eps)) + beta (ix2 (0 : Fin 1) q)) zero := rfl

/-- A block holding rows `R·n …` of `Z`: the stage of the block at `(p, q)` is the stage of `Z` at `(R·n + p, q)`. -/
theorem bn_block {A a b R : ℕ} (eps zero : EReal) (Z : A2 A b) (g beta mean var : A2 1 b) (x0 : A2 a b) (n : ℕ)
    (h0 : ∀ (y : (⟨2, ![a, b]⟩ : Shape).Idx) (k : (⟨2, ![A, b]⟩ : Shape).Idx),
      (k 0).val = R * n + (y 0).val → (k 1).val = (y 1).val → x0 y = Z k)
    (y : (⟨2, ![a, b]⟩ : Shape).Idx) (i : (⟨2, ![A, b]⟩ : Shape).Idx)
    (hi0 : (i 0).val = R * n + (y 0).val) (hi1 : (i 1).val = (y 1).val) :
    bnRows eps zero x0 g beta mean var y = bnRows eps zero Z g beta mean var i := by
  obtain ⟨p, q, rfl⟩ : ∃ (p : Fin a) (q : Fin b), y = ix2 p q := ⟨y 0, y 1, eq_ix2 y⟩
  obtain ⟨r, q', rfl⟩ : ∃ (r : Fin A) (q' : Fin b), i = ix2 r q' := ⟨i 0, i 1, eq_ix2 i⟩
  obtain rfl : q' = q := Fin.ext hi1
  rw [bnRows_ix2, bnRows_ix2, h0 (ix2 p q') (ix2 r q') hi0 rfl]

/-! ## The graph layer's combination, row by row -/

/-- Entry `(r, q)`: `((∑ k, agg[r, k] · wl[k, q]) + (∑ k, h[r, k] · wr[k, q])) + bl[0, q]`. -/
def sageRows {a K b : ℕ} (agg h : A2 a K) (wl wr : A2 K b) (bl : A2 1 b) : A2 a b :=
  fun i => cheb (rowOf agg (i 0)) (rowOf h (i 0)) wl wr (rowOf bl 0) (i 1)

theorem sageRows_ix2 {a K b : ℕ} (agg h : A2 a K) (wl wr : A2 K b) (bl : A2 1 b) (r : Fin a) (q : Fin b) :
    sageRows agg h wl wr bl (ix2 r q) = cheb (rowOf agg r) (rowOf h r) wl wr (rowOf bl 0) q := rfl

/-- Blocks of the aggregate and of the features holding rows `R·n …` of their arrays. -/
theorem sage_block {A a K b R : ℕ} (AGG H : A2 A K) (wl wr : A2 K b) (bl : A2 1 b) (x0 x1 : A2 a K) (n : ℕ)
    (h0 : ∀ (y : (⟨2, ![a, K]⟩ : Shape).Idx) (k : (⟨2, ![A, K]⟩ : Shape).Idx),
      (k 0).val = R * n + (y 0).val → (k 1).val = (y 1).val → x0 y = AGG k)
    (h1 : ∀ (y : (⟨2, ![a, K]⟩ : Shape).Idx) (k : (⟨2, ![A, K]⟩ : Shape).Idx),
      (k 0).val = R * n + (y 0).val → (k 1).val = (y 1).val → x1 y = H k)
    (y : (⟨2, ![a, b]⟩ : Shape).Idx) (i : (⟨2, ![A, b]⟩ : Shape).Idx)
    (hi0 : (i 0).val = R * n + (y 0).val) (hi1 : (i 1).val = (y 1).val) :
    sageRows x0 x1 wl wr bl y = sageRows AGG H wl wr bl i := by
  obtain ⟨p, q, rfl⟩ : ∃ (p : Fin a) (q : Fin b), y = ix2 p q := ⟨y 0, y 1, eq_ix2 y⟩
  obtain ⟨r, q', rfl⟩ : ∃ (r : Fin A) (q' : Fin b), i = ix2 r q' := ⟨i 0, i 1, eq_ix2 i⟩
  obtain rfl : q' = q := Fin.ext hi1
  rw [sageRows_ix2, sageRows_ix2]
  have e0 : rowOf x0 p = rowOf AGG r := funext fun k => h0 (ix2 p k) (ix2 r k) hi0 rfl
  have e1 : rowOf x1 p = rowOf H r := funext fun k => h1 (ix2 p k) (ix2 r k) hi0 rfl
  rw [e0, e1]

end Cert.Spec

end
-- ==== Proof.LibNormSageForms.lean ====
/-
  The device's and the host's spellings of the row-wise stages, read as the stage functions.

  On a block the device computes batch normalisation as products and sums of the block with rows broadcast down it,
  the reciprocal square root taken on the `[1, b]` row; the host computes it on the whole array with the parameters
  broadcast from vectors `[b] → [1, b] → [a, b]` and the reciprocal square root taken on the vector. Both are `bnRows`
  (with the vectors viewed as rows). The graph layer's combination is two products into zero accumulators plus the
  bias row on the device, and on the host `(agg·Wl + bl) + h·Wr`, which is the same sum re-associated: addition of
  extended reals is commutative and associative.
-/
import proofs.«119291_j39402029973518_1_alg».proof.Proof.LibNormSageRows

noncomputable section

namespace Cert.Spec

open Idealize.ShloMosaic Idealize.ShloMosaic.ValueIdx Cert.RowLayers Cert.Layers Cert.ChebRows

/-! ## The device's block computations -/

/-- Batch normalisation and rectifier on a block, as the device spells it. -/
theorem device_bn {a b : ℕ} (we wz : BitVec 32) (x : FVec Ideal ⟨2, ![a, b]⟩ .f32) (g beta mean var : FVec Ideal ⟨2, ![1, b]⟩ .f32)
    (hB : (⟨2, ![1, b]⟩ : Shape).Broadcasts ⟨2, ![a, b]⟩) :
    maximumf (addf (mulf (mulf (broadcastTo ⟨2, ![a, b]⟩ g hB) (subf x (broadcastTo ⟨2, ![a, b]⟩ mean hB)))
          (broadcastTo ⟨2, ![a, b]⟩ (rsqrt (addf var (broadcast ⟨2, ![1, b]⟩ (Scalar.ofBits (F := Ideal) .f32 we)))) hB))
        (broadcastTo ⟨2, ![a, b]⟩ beta hB)) (broadcast ⟨2, ![a, b]⟩ (Scalar.ofBits (F := Ideal) .f32 wz))
      = bnRows (Ideal.ofBits .f32 we) (Ideal.ofBits .f32 wz) x g beta mean var := by
  funext i
  obtain ⟨r, q, rfl⟩ : ∃ (r : Fin a) (q : Fin b), i = ix2 r q := ⟨i 0, i 1, eq_ix2 i⟩
  rw [bnRows_ix2]
  simp only [maximumf_apply, addf_apply, mulf_apply, subf_apply, broadcast_apply, broadcastTo_1b_ab_apply]
  rfl

/-- The graph layer's combination on a block, as the device spells it. -/
theorem device_sage {a K b : ℕ} {d : DotDims ⟨2, ![a, K]⟩ ⟨2, ![K, b]⟩ ⟨2, ![a, b]⟩} (H : RowsTimesCols d)
    (agg h : FVec Ideal ⟨2, ![a, K]⟩ .f32) (wl wr : FVec Ideal ⟨2, ![K, b]⟩ .f32) (bl : FVec Ideal ⟨2, ![1, b]⟩ .f32)
    (hx : FTy.bf16.bits < FTy.f32.bits) (hB : (⟨2, ![1, b]⟩ : Shape).Broadcasts ⟨2, ![a, b]⟩) :
    addf (addf (matmul d none (truncf .bf16 agg hx) (truncf .bf16 wl hx) (constant (F := Ideal) ⟨2, ![a, b]⟩ .f32 0x00000000#32))
               (matmul d none (truncf .bf16 h hx) (truncf .bf16 wr hx) (constant (F := Ideal) ⟨2, ![a, b]⟩ .f32 0x00000000#32)))
         (broadcastTo ⟨2, ![a, b]⟩ bl hB)
      = sageRows agg h wl wr bl := by
  funext i
  obtain ⟨r, q, rfl⟩ : ∃ (r : Fin a) (q : Fin b), i = ix2 r q := ⟨i 0, i 1, eq_ix2 i⟩
  exact congrFun (rowOf_cheb_device H none (truncf .bf16 agg hx) (truncf .bf16 h hx) (truncf .bf16 wl hx) (truncf .bf16 wr hx) bl hB r) q

/-! ## The host's whole-array computations -/

/-- The host's dense layer: a `dot_general` plus the bias vector broadcast `[b] → [1, b] → [a, b]`. -/
theorem host_dense {a K b : ℕ} {d : DotDims ⟨2, ![a, K]⟩ ⟨2, ![K, b]⟩ ⟨2, ![a, b]⟩} (H : RowsTimesCols d)
    (x : FVec Ideal ⟨2, ![a, K]⟩ .f32) (w : FVec Ideal ⟨2, ![K, b]⟩ .f32) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) :
    addf (Host.dotGeneral (F := Ideal) d none x w) (broadcastInDim ⟨2, ![a, b]⟩ ![0, 1] h2 (broadcastInDim ⟨2, ![1, b]⟩ ![1] h1 bias))
      = denseRows x w (rowVec bias) := by
  funext i
  obtain ⟨r, q, rfl⟩ : ∃ (r : Fin a) (q : Fin b), i = ix2 r q := ⟨i 0, i 1, eq_ix2 i⟩
  exact congrFun (rowOf_dense_host H none x w bias h1 h2 r) q

/-- A vector broadcast `[b] → [1, b] → [a, b]` read at `(r, q)` is the vector at `q`. -/
theorem bcast2_apply {a b : ℕ} (v : (⟨1, ![b]⟩ : Shape).Idx → EReal)
    (h1 : (⟨1, ![b]⟩ : Shape).BroadcastsInDim ⟨2, ![1, b]⟩ ![1]) (h2 : (⟨2, ![1, b]⟩ : Shape).BroadcastsInDim ⟨2, ![a, b]⟩ ![0, 1])
    (r : Fin a) (q : Fin b) :
    broadcastInDim ⟨2, ![a, b]⟩ ![0, 1] h2 (broadcastInDim ⟨2, ![1, b]⟩ ![1] h1 v) (ix2 r q) = v (ix1 q) :=
  congrFun (rowOf_broadcastInDim_vec v h1 h2 r) q

/-- The host's graph layer `(agg·Wl + bl) + h·Wr` is the combination: the same three terms, re-associated. -/
theorem host_sage {a K b : ℕ} {d : DotDims ⟨2, ![a, K]⟩ ⟨2, ![K, b]⟩ ⟨2, ![a, b]⟩} (H : RowsTimesCols d)
    (agg h : FVec Ideal ⟨2, ![a, K]⟩ .f32) (wl wr : FVec Ideal ⟨2, ![K, b]⟩ .f32) (bl : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) :
    addf (addf (Host.dotGeneral (F := Ideal) d none agg wl) (broadcastInDim ⟨2, ![a, b]⟩ ![0, 1] h2 (broadcastInDim ⟨2, ![1, b]⟩ ![1] h1 bl)))
         (Host.dotGeneral (F := Ideal) d none h wr)
      = sageRows agg h wl wr (rowVec bl) := by
  funext i
  obtain ⟨r, q, rfl⟩ : ∃ (r : Fin a) (q : Fin b), i = ix2 r q := ⟨i 0, i 1, eq_ix2 i⟩
  have e := congrFun (rowOf_cheb_host H none agg h wl wr bl h1 h2 r) q
  rw [sageRows_ix2]
  refine Eq.trans ?_ e
  show (Host.dotGeneral (F := Ideal) d none agg wl (ix2 r q) + broadcastInDim ⟨2, ![a, b]⟩ ![0, 1] h2 (broadcastInDim ⟨2, ![1, b]⟩ ![1] h1 bl) (ix2 r q))
        + Host.dotGeneral (F := Ideal) d none h wr (ix2 r q)
      = (Host.dotGeneral (F := Ideal) d none agg wl (ix2 r q) + Host.dotGeneral (F := Ideal) d none h wr (ix2 r q))
        + broadcastInDim ⟨2, ![a, b]⟩ ![0, 1] h2 (broadcastInDim ⟨2, ![1, b]⟩ ![1] h1 bl) (ix2 r q)
  exact add_right_comm _ _ _

end Cert.Spec

end
-- ==== Proof.RegionCommon.lean ====
/-
  Facts shared by the ten regions: the two matrix products' dimension numbers say "rows times columns".
-/
import proofs.«119291_j39402029973518_1_alg».proof.Proof.Gen.KernelIdeal.Frame
import proofs.«119291_j39402029973518_1_alg».proof.Proof.LibNormSageRows
import proofs.«119291_j39402029973518_1_alg».proof.Proof.LibNormSageForms

noncomputable section

namespace Cert.KernelIdeal.RegionVal

open Idealize.ShloMosaic Idealize.ShloMosaic.ValueIdx Cert.KernelIdeal Cert.RowLayers

theorem hz2 : (![0, 0] : Fin 2 → Nat) = fun _ => 0 := funext fun a => by fin_cases a <;> rfl

/-- A block of 5000 rows times a 128 × 128 matrix. -/
theorem rtc128 : RowsTimesCols dot_S5000x128_S128x128_S5000x128_1_0_0_1_n_n where
  rank := rfl
  size := rfl
  lhs0 := fun _ _ => rfl
  lhs1 := fun _ _ => rfl
  rhs0 := fun _ _ => rfl
  rhs1 := fun _ _ => rfl

/-- A block of 5000 rows times a 128 × 40 matrix. -/
theorem rtc40 : RowsTimesCols dot_S5000x128_S128x40_S5000x40_1_0_0_1_n_n where
  rank := rfl
  size := rfl
  lhs0 := fun _ _ => rfl
  lhs1 := fun _ _ => rfl
  rhs0 := fun _ _ => rfl
  rhs1 := fun _ _ => rfl

end Cert.KernelIdeal.RegionVal

end
-- ==== Proof.Region0.lean ====
/-
  Region 0 (the input projection): the array its pipeline leaves is the dense layer of the arrays it finds.

  The region's grid has 20 points; point `t` stages rows `5000·t …` of the node features, the whole weight matrix
  and the whole bias row, and writes back rows `5000·t …` of the result. The body's value on a block is the dense
  layer of the block (`device_dense`), a block's dense layer is the array's dense layer on those rows
  (`dense_block`), and the 20 blocks cover the 100000 rows.
-/
import proofs.«119291_j39402029973518_1_alg».proof.Proof.RegionCommon

set_option maxRecDepth 16384

noncomputable section

namespace Cert.KernelIdeal.RegionVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers Cert.RowLayers Cert.Spec

variable (V : (c : Dev nD) → (b : Ref sig .tc) → Buf (Elt Ideal) ((c : Thread nD τ).loc b))

/-- The body's value on a block is the dense layer of the block. -/
theorem pay0 (x0 : Vec Ideal S5000x128 .f32) (x1 : Vec Ideal S128x128 .f32) (x2 : Vec Ideal S1x128 .f32) :
    k0_pay1 x0 x1 x2 = denseRows x0 x1 x2 := by
  unfold k0_pay1
  simp only [shapeCast_self]
  exact device_dense rtc128 x0 x1 x2 bitsLt_bf16_f32 broadcasts_S1x128_S5000x128

/-- The printed index maps over the grid: the row-tiled windows move with the point, the others stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t`'s block of the features holds rows `5000·t …`. -/
theorem blk0_0 (c : Dev nD) (t : Fin cfg0.N) (y : S5000x128.Idx) (k : S100000x128.Idx)
    (h0 : (k 0).val = 5000 * t.val + (y 0).val) (h1 : (k 1).val = (y 1).val) :
    iblk0 V c 0 t y = V c (Pipeline.arrRef spec0 0) k := by
  obtain ⟨e0, e1, -⟩ := idx_facts0 t
  show V c (Pipeline.arrRef spec0 0) (((cfg0.win 0).blk t).view.emb y) = V c (Pipeline.arrRef spec0 0) k
  refine congrArg _ (funext fun a => Fin.ext ?_)
  match a with
  | ⟨0, _⟩ => show win0_0.index t (0 : Fin 2) * 5000 + 1 * (y 0).val = (k 0).val; omega
  | ⟨1, _⟩ => show win0_0.index t (1 : Fin 2) * 128 + 1 * (y 1).val = (k 1).val; omega

/-- The weight matrix is staged whole at every point. -/
theorem blk0_1 (c : Dev nD) (t : Fin cfg0.N) :
    (iblk0 V c 1 t : S128x128.Idx → EReal) = V c (Pipeline.arrRef spec0 1) := by
  obtain ⟨-, -, e0, e1, -⟩ := idx_facts0 t
  funext y
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias row is staged whole at every point. -/
theorem blk0_2 (c : Dev nD) (t : Fin cfg0.N) :
    (iblk0 V c 2 t : S1x128.Idx → EReal) = V c (Pipeline.arrRef spec0 2) := by
  obtain ⟨-, -, -, -, e0, e1, -⟩ := idx_facts0 t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- What point `t` writes back is block `t` of the dense layer of the arrays the region finds. -/
theorem flushed0 (c : Dev nD) (t : Fin cfg0.N) :
    (dat0 V c).flushed 3 t = ((cfg0.win 3).blk t).view.read (Elt Ideal)
      (denseRows (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S1x128) hz2]
  rw [pay0, blk0_1 V c t, blk0_2 V c t]
  obtain ⟨-, -, -, -, -, -, e0, e1⟩ := idx_facts0 t
  funext j
  show denseRows (iblk0 V c 0 t) (V c (Pipeline.arrRef spec0 1)) (V c (Pipeline.arrRef spec0 2)) j
    = denseRows (V c (Pipeline.arrRef spec0 0)) (V c (Pipeline.arrRef spec0 1)) (V c (Pipeline.arrRef spec0 2)) (((cfg0.win 3).blk t).view.emb j)
  refine dense_block (R := 5000) (V c (Pipeline.arrRef spec0 0)) (V c (Pipeline.arrRef spec0 1)) (V c (Pipeline.arrRef spec0 2))
    (iblk0 V c 0 t) t.val (fun y k h0 h1 => blk0_0 V c t y k h0 h1) j _ ?_ ?_
  · show win0_3.index t (0 : Fin 2) * 5000 + 1 * (j 0).val = 5000 * t.val + (j 0).val; omega
  · show win0_3.index t (1 : Fin 2) * 128 + 1 * (j 1).val = (j 1).val; omega

/-- An index of the result is in point `t`'s block iff each coordinate is in the block's range. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole (Pipeline.arrRef spec0 3)).slice (win0_3.rect t)).set ↔ _
  rw [View.set_slice_whole, Rect.mem_set_unit]
  exact Iff.rfl

/-- The 20 blocks of 5000 rows cover the result. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_3 _, ?_⟩
  rw [mem_blk0]
  obtain ⟨-, -, -, -, -, -, e0, e1⟩ := idx_facts0 ⟨(i 0).val / 5000, by rw [hN]; omega⟩
  intro a
  match a with
  | ⟨0, _⟩ => show win0_3.index _ (0 : Fin 2) * 5000 ≤ (i 0).val ∧ (i 0).val < win0_3.index _ (0 : Fin 2) * 5000 + 5000; rw [e0]; show (i 0).val / 5000 * 5000 ≤ (i 0).val ∧ (i 0).val < (i 0).val / 5000 * 5000 + 5000; omega
  | ⟨1, _⟩ => show win0_3.index _ (1 : Fin 2) * 128 ≤ (i 1).val ∧ (i 1).val < win0_3.index _ (1 : Fin 2) * 128 + 128; rw [e1]; omega

/-- THE ARRAY region 0 leaves: the dense layer of the arrays it finds. -/
theorem arr0 (c : Dev nD) :
    (dat0 V c).arrAt 3 cfg0.N
      = denseRows (V c (Pipeline.arrRef spec0 0)) (V c (Pipeline.arrRef spec0 1)) (V c (Pipeline.arrRef spec0 2)) :=
  (dat0 V c).arrAt_eq_of_cover 3 _ (fun t _ => flushed0 V c t) cover0

end Cert.KernelIdeal.RegionVal

end
-- ==== Proof.Region1.lean ====
/-
  Region 1 (batch normalisation and rectifier after the input projection): the array its pipeline leaves is
  `bnRows` of the arrays it finds.

  Point `t` of the 20 stages rows `5000·t …` of the features and, whole, the four rows of shape `[1, 128]` — scale,
  shift, column mean, column variance — and writes back rows `5000·t …` of the result.
-/
import proofs.«119291_j39402029973518_1_alg».proof.Proof.RegionCommon

set_option maxRecDepth 16384

noncomputable section

namespace Cert.KernelIdeal.RegionVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers Cert.RowLayers Cert.Spec

variable (V : (c : Dev nD) → (b : Ref sig .tc) → Buf (Elt Ideal) ((c : Thread nD τ).loc b))

/-- The body's value on a block is the normalisation of the block. -/
theorem pay1 (x0 : Vec Ideal S5000x128 .f32) (x1 x2 x3 x4 : Vec Ideal S1x128 .f32) :
    k1_pay1 x0 x1 x2 x3 x4
      = bnRows (Ideal.ofBits .f32 0x3727C5AC#32) (Ideal.ofBits .f32 0x00000000#32) x0 x1 x2 x3 x4 := by
  unfold k1_pay1
  simp only [shapeCast_self]
  exact device_bn 0x3727C5AC#32 0x00000000#32 x0 x1 x2 x3 x4 broadcasts_S1x128_S5000x128

/-- The printed index maps over the grid: the row-tiled windows move with the point, the four rows stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Point `t`'s block of the features holds rows `5000·t …`. -/
theorem blk1_0 (c : Dev nD) (t : Fin cfg1.N) (y : S5000x128.Idx) (k : S100000x128.Idx)
    (h0 : (k 0).val = 5000 * t.val + (y 0).val) (h1 : (k 1).val = (y 1).val) :
    iblk1 V c 0 t y = V c (Pipeline.arrRef spec1 0) k := by
  obtain ⟨e0, e1, -⟩ := idx_facts1 t
  show V c (Pipeline.arrRef spec1 0) (((cfg1.win 0).blk t).view.emb y) = V c (Pipeline.arrRef spec1 0) k
  refine congrArg _ (funext fun a => Fin.ext ?_)
  match a with
  | ⟨0, _⟩ => show win1_0.index t (0 : Fin 2) * 5000 + 1 * (y 0).val = (k 0).val; omega
  | ⟨1, _⟩ => show win1_0.index t (1 : Fin 2) * 128 + 1 * (y 1).val = (k 1).val; omega

/-- The scale row is staged whole at every point. -/
theorem blk1_1 (c : Dev nD) (t : Fin cfg1.N) :
    (iblk1 V c 1 t : S1x128.Idx → EReal) = V c (Pipeline.arrRef spec1 1) := by
  obtain ⟨-, -, e0, e1, -⟩ := idx_facts1 t
  funext y
  show V c (Pipeline.arrRef spec1 1) (((cfg1.win 1).blk t).view.emb y) = V c (Pipeline.arrRef spec1 1) y
  refine congrArg _ (funext fun a => Fin.ext ?_)
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- The shift row is staged whole at every point. -/
theorem blk1_2 (c : Dev nD) (t : Fin cfg1.N) :
    (iblk1 V c 2 t : S1x128.Idx → EReal) = V c (Pipeline.arrRef spec1 2) := by
  obtain ⟨-, -, -, -, e0, e1, -⟩ := idx_facts1 t
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The row of column means is staged whole at every point. -/
theorem blk1_3 (c : Dev nD) (t : Fin cfg1.N) :
    (iblk1 V c 3 t : S1x128.Idx → EReal) = V c (Pipeline.arrRef spec1 3) := by
  obtain ⟨-, -, -, -, -, -, e0, e1, -⟩ := idx_facts1 t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The row of column variances is staged whole at every point. -/
theorem blk1_4 (c : Dev nD) (t : Fin cfg1.N) :
    (iblk1 V c 4 t : S1x128.Idx → EReal) = V c (Pipeline.arrRef spec1 4) := by
  obtain ⟨-, -, -, -, -, -, -, -, e0, e1, -⟩ := idx_facts1 t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

set_option maxHeartbeats 1600000 in
/-- What point `t` writes back is block `t` of the normalisation of the arrays the region finds. -/
theorem flushed1 (c : Dev nD) (t : Fin cfg1.N) :
    (dat1 V c).flushed 5 t = ((cfg1.win 5).blk t).view.read (Elt Ideal)
      (bnRows (Ideal.ofBits .f32 0x3727C5AC#32) (Ideal.ofBits .f32 0x00000000#32) (V c (Pipeline.arrRef spec1 0))
        (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S1x128) hz2]
  rw [pay1, blk1_1 V c t, blk1_2 V c t, blk1_3 V c t, blk1_4 V c t]
  obtain ⟨-, -, -, -, -, -, -, -, -, -, e0, e1⟩ := idx_facts1 t
  funext j
  show bnRows (Ideal.ofBits .f32 0x3727C5AC#32) (Ideal.ofBits .f32 0x00000000#32) (iblk1 V c 0 t)
        (V c (Pipeline.arrRef spec1 1)) (V c (Pipeline.arrRef spec1 2)) (V c (Pipeline.arrRef spec1 3)) (V c (Pipeline.arrRef spec1 4)) j
    = bnRows (Ideal.ofBits .f32 0x3727C5AC#32) (Ideal.ofBits .f32 0x00000000#32) (V c (Pipeline.arrRef spec1 0))
        (V c (Pipeline.arrRef spec1 1)) (V c (Pipeline.arrRef spec1 2)) (V c (Pipeline.arrRef spec1 3)) (V c (Pipeline.arrRef spec1 4))
        (((cfg1.win 5).blk t).view.emb j)
  refine bn_block (R := 5000) _ _ (V c (Pipeline.arrRef spec1 0)) (V c (Pipeline.arrRef spec1 1)) (V c (Pipeline.arrRef spec1 2))
    (V c (Pipeline.arrRef spec1 3)) (V c (Pipeline.arrRef spec1 4))
    (iblk1 V c 0 t) t.val (fun y k h0 h1 => blk1_0 V c t y k h0 h1) j _ ?_ ?_
  · show win1_5.index t (0 : Fin 2) * 5000 + 1 * (j 0).val = 5000 * t.val + (j 0).val; omega
  · show win1_5.index t (1 : Fin 2) * 128 + 1 * (j 1).val = (j 1).val; omega

/-- An index of the result is in point `t`'s block iff each coordinate is in the block's range. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole (Pipeline.arrRef spec1 5)).slice (win1_5.rect t)).set ↔ _
  rw [View.set_slice_whole, Rect.mem_set_unit]
  exact Iff.rfl

/-- The 20 blocks of 5000 rows cover the result. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  rw [mem_blk1]
  obtain ⟨-, -, -, -, -, -, -, -, -, -, e0, e1⟩ := idx_facts1 ⟨(i 0).val / 5000, by rw [hN]; omega⟩
  intro a
  match a with
  | ⟨0, _⟩ => show win1_5.index _ (0 : Fin 2) * 5000 ≤ (i 0).val ∧ (i 0).val < win1_5.index _ (0 : Fin 2) * 5000 + 5000; rw [e0]; show (i 0).val / 5000 * 5000 ≤ (i 0).val ∧ (i 0).val < (i 0).val / 5000 * 5000 + 5000; omega
  | ⟨1, _⟩ => show win1_5.index _ (1 : Fin 2) * 128 ≤ (i 1).val ∧ (i 1).val < win1_5.index _ (1 : Fin 2) * 128 + 128; rw [e1]; omega

/-- THE ARRAY region 1 leaves: the normalisation of the arrays it finds. -/
theorem arr1 (c : Dev nD) :
    (dat1 V c).arrAt 5 cfg1.N
      = bnRows (Ideal.ofBits .f32 0x3727C5AC#32) (Ideal.ofBits .f32 0x00000000#32) (V c (Pipeline.arrRef spec1 0))
          (V c (Pipeline.arrRef spec1 1)) (V c (Pipeline.arrRef spec1 2)) (V c (Pipeline.arrRef spec1 3)) (V c (Pipeline.arrRef spec1 4)) :=
  (dat1 V c).arrAt_eq_of_cover 5 _ (fun t _ => flushed1 V c t) cover1

end Cert.KernelIdeal.RegionVal

end
-- ==== Proof.Region2.lean ====
/-
  Region 2 (the first graph layer's combination): the array its pipeline leaves is `sageRows` of the arrays it
  finds.

  Point `t` of the 20 stages rows `5000·t …` of the aggregated neighbours and of the node features and, whole,
  the two 128 × 128 weight matrices and the bias row, and writes back rows `5000·t …` of the result.
-/
import proofs.«119291_j39402029973518_1_alg».proof.Proof.RegionCommon

set_option maxRecDepth 16384

noncomputable section

namespace Cert.KernelIdeal.RegionVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers Cert.RowLayers Cert.Spec

variable (V : (c : Dev nD) → (b : Ref sig .tc) → Buf (Elt Ideal) ((c : Thread nD τ).loc b))

/-- The body's value on a block is the combination of the blocks. -/
theorem pay2 (x0 x1 : Vec Ideal S5000x128 .f32) (x2 x3 : Vec Ideal S128x128 .f32) (x4 : Vec Ideal S1x128 .f32) :
    k2_pay1 x0 x1 x2 x3 x4 = sageRows x0 x1 x2 x3 x4 := by
  unfold k2_pay1
  simp only [shapeCast_self]
  exact device_sage rtc128 x0 x1 x2 x3 x4 bitsLt_bf16_f32 broadcasts_S1x128_S5000x128

/-- The printed index maps over the grid: the row-tiled windows move with the point, the others stay. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Point `t`'s block of the aggregate holds rows `5000·t …`. -/
theorem blk2_0 (c : Dev nD) (t : Fin cfg2.N) (y : S5000x128.Idx) (k : S100000x128.Idx)
    (h0 : (k 0).val = 5000 * t.val + (y 0).val) (h1 : (k 1).val = (y 1).val) :
    iblk2 V c 0 t y = V c (Pipeline.arrRef spec2 0) k := by
  obtain ⟨e0, e1, -⟩ := idx_facts2 t
  show V c (Pipeline.arrRef spec2 0) (((cfg2.win 0).blk t).view.emb y) = V c (Pipeline.arrRef spec2 0) k
  refine congrArg _ (funext fun a => Fin.ext ?_)
  match a with
  | ⟨0, _⟩ => show win2_0.index t (0 : Fin 2) * 5000 + 1 * (y 0).val = (k 0).val; omega
  | ⟨1, _⟩ => show win2_0.index t (1 : Fin 2) * 128 + 1 * (y 1).val = (k 1).val; omega

/-- Point `t`'s block of the features holds rows `5000·t …`. -/
theorem blk2_1 (c : Dev nD) (t : Fin cfg2.N) (y : S5000x128.Idx) (k : S100000x128.Idx)
    (h0 : (k 0).val = 5000 * t.val + (y 0).val) (h1 : (k 1).val = (y 1).val) :
    iblk2 V c 1 t y = V c (Pipeline.arrRef spec2 1) k := by
  obtain ⟨-, -, e0, e1, -⟩ := idx_facts2 t
  show V c (Pipeline.arrRef spec2 1) (((cfg2.win 1).blk t).view.emb y) = V c (Pipeline.arrRef spec2 1) k
  refine congrArg _ (funext fun a => Fin.ext ?_)
  match a with
  | ⟨0, _⟩ => show win2_1.index t (0 : Fin 2) * 5000 + 1 * (y 0).val = (k 0).val; omega
  | ⟨1, _⟩ => show win2_1.index t (1 : Fin 2) * 128 + 1 * (y 1).val = (k 1).val; omega

/-- The neighbours' weight matrix is staged whole at every point. -/
theorem blk2_2 (c : Dev nD) (t : Fin cfg2.N) :
    (iblk2 V c 2 t : S128x128.Idx → EReal) = V c (Pipeline.arrRef spec2 2) := by
  obtain ⟨-, -, -, -, e0, e1, -⟩ := idx_facts2 t
  funext y
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The node's own weight matrix is staged whole at every point. -/
theorem blk2_3 (c : Dev nD) (t : Fin cfg2.N) :
    (iblk2 V c 3 t : S128x128.Idx → EReal) = V c (Pipeline.arrRef spec2 3) := by
  obtain ⟨-, -, -, -, -, -, e0, e1, -⟩ := idx_facts2 t
  funext y
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The bias row is staged whole at every point. -/
theorem blk2_4 (c : Dev nD) (t : Fin cfg2.N) :
    (iblk2 V c 4 t : S1x128.Idx → EReal) = V c (Pipeline.arrRef spec2 4) := by
  obtain ⟨-, -, -, -, -, -, -, -, e0, e1, -⟩ := idx_facts2 t
  funext y
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

set_option maxHeartbeats 1600000 in
/-- What point `t` writes back is block `t` of the combination of the arrays the region finds. -/
theorem flushed2 (c : Dev nD) (t : Fin cfg2.N) :
    (dat2 V c).flushed 5 t = ((cfg2.win 5).blk t).view.read (Elt Ideal)
      (sageRows (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128x128) hz2, View.ld_unit_zero (S := S1x128) hz2]
  rw [pay2, blk2_2 V c t, blk2_3 V c t, blk2_4 V c t]
  obtain ⟨-, -, -, -, -, -, -, -, -, -, e0, e1⟩ := idx_facts2 t
  funext j
  show sageRows (iblk2 V c 0 t) (iblk2 V c 1 t) (V c (Pipeline.arrRef spec2 2)) (V c (Pipeline.arrRef spec2 3)) (V c (Pipeline.arrRef spec2 4)) j
    = sageRows (V c (Pipeline.arrRef spec2 0)) (V c (Pipeline.arrRef spec2 1)) (V c (Pipeline.arrRef spec2 2))
        (V c (Pipeline.arrRef spec2 3)) (V c (Pipeline.arrRef spec2 4)) (((cfg2.win 5).blk t).view.emb j)
  refine sage_block (R := 5000) (V c (Pipeline.arrRef spec2 0)) (V c (Pipeline.arrRef spec2 1)) (V c (Pipeline.arrRef spec2 2))
    (V c (Pipeline.arrRef spec2 3)) (V c (Pipeline.arrRef spec2 4))
    (iblk2 V c 0 t) (iblk2 V c 1 t) t.val (fun y k h0 h1 => blk2_0 V c t y k h0 h1) (fun y k h0 h1 => blk2_1 V c t y k h0 h1) j _ ?_ ?_
  · show win2_5.index t (0 : Fin 2) * 5000 + 1 * (j 0).val = 5000 * t.val + (j 0).val; omega
  · show win2_5.index t (1 : Fin 2) * 128 + 1 * (j 1).val = (j 1).val; omega

/-- An index of the result is in point `t`'s block iff each coordinate is in the block's range. -/
theorem mem_blk2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole (Pipeline.arrRef spec2 5)).slice (win2_5.rect t)).set ↔ _
  rw [View.set_slice_whole, Rect.mem_set_unit]
  exact Iff.rfl

/-- The 20 blocks of 5000 rows cover the result. -/
theorem cover2 (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_5 _, ?_⟩
  rw [mem_blk2]
  obtain ⟨-, -, -, -, -, -, -, -, -, -, e0, e1⟩ := idx_facts2 ⟨(i 0).val / 5000, by rw [hN]; omega⟩
  intro a
  match a with
  | ⟨0, _⟩ => show win2_5.index _ (0 : Fin 2) * 5000 ≤ (i 0).val ∧ (i 0).val < win2_5.index _ (0 : Fin 2) * 5000 + 5000; rw [e0]; show (i 0).val / 5000 * 5000 ≤ (i 0).val ∧ (i 0).val < (i 0).val / 5000 * 5000 + 5000; omega
  | ⟨1, _⟩ => show win2_5.index _ (1 : Fin 2) * 128 ≤ (i 1).val ∧ (i 1).val < win2_5.index _ (1 : Fin 2) * 128 + 128; rw [e1]; omega

/-- THE ARRAY region 2 leaves: the combination of the arrays it finds. -/
theorem arr2 (c : Dev nD) :
    (dat2 V c).arrAt 5 cfg2.N
      = sageRows (V c (Pipeline.arrRef spec2 0)) (V c (Pipeline.arrRef spec2 1)) (V c (Pipeline.arrRef spec2 2))
          (V c (Pipeline.arrRef spec2 3)) (V c (Pipeline.arrRef spec2 4)) :=
  (dat2 V c).arrAt_eq_of_cover 5 _ (fun t _ => flushed2 V c t) cover2

end Cert.KernelIdeal.RegionVal

end
-- ==== Proof.Region3.lean ====
/-
  Region 3 (batch normalisation and rectifier after the first graph layer): the array its pipeline leaves is
  `bnRows` of the arrays it finds.

  Point `t` of the 20 stages rows `5000·t …` of the features and, whole, the four rows of shape `[1, 128]` — scale,
  shift, column mean, column variance — and writes back rows `5000·t …` of the result.
-/
import proofs.«119291_j39402029973518_1_alg».proof.Proof.RegionCommon

set_option maxRecDepth 16384

noncomputable section

namespace Cert.KernelIdeal.RegionVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers Cert.RowLayers Cert.Spec

variable (V : (c : Dev nD) → (b : Ref sig .tc) → Buf (Elt Ideal) ((c : Thread nD τ).loc b))

/-- The body's value on a block is the normalisation of the block. -/
theorem pay3 (x0 : Vec Ideal S5000x128 .f32) (x1 x2 x3 x4 : Vec Ideal S1x128 .f32) :
    k3_pay1 x0 x1 x2 x3 x4
      = bnRows (Ideal.ofBits .f32 0x3727C5AC#32) (Ideal.ofBits .f32 0x00000000#32) x0 x1 x2 x3 x4 := by
  unfold k3_pay1
  simp only [shapeCast_self]
  exact device_bn 0x3727C5AC#32 0x00000000#32 x0 x1 x2 x3 x4 broadcasts_S1x128_S5000x128

/-- The printed index maps over the grid: the row-tiled windows move with the point, the four rows stay. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Point `t`'s block of the features holds rows `5000·t …`. -/
theorem blk3_0 (c : Dev nD) (t : Fin cfg3.N) (y : S5000x128.Idx) (k : S100000x128.Idx)
    (h0 : (k 0).val = 5000 * t.val + (y 0).val) (h1 : (k 1).val = (y 1).val) :
    iblk3 V c 0 t y = V c (Pipeline.arrRef spec3 0) k := by
  obtain ⟨e0, e1, -⟩ := idx_facts3 t
  show V c (Pipeline.arrRef spec3 0) (((cfg3.win 0).blk t).view.emb y) = V c (Pipeline.arrRef spec3 0) k
  refine congrArg _ (funext fun a => Fin.ext ?_)
  match a with
  | ⟨0, _⟩ => show win3_0.index t (0 : Fin 2) * 5000 + 1 * (y 0).val = (k 0).val; omega
  | ⟨1, _⟩ => show win3_0.index t (1 : Fin 2) * 128 + 1 * (y 1).val = (k 1).val; omega

/-- The scale row is staged whole at every point. -/
theorem blk3_1 (c : Dev nD) (t : Fin cfg3.N) :
    (iblk3 V c 1 t : S1x128.Idx → EReal) = V c (Pipeline.arrRef spec3 1) := by
  obtain ⟨-, -, e0, e1, -⟩ := idx_facts3 t
  funext y
  show V c (Pipeline.arrRef spec3 1) (((cfg3.win 1).blk t).view.emb y) = V c (Pipeline.arrRef spec3 1) y
  refine congrArg _ (funext fun a => Fin.ext ?_)
  match a with
  | ⟨0, _⟩ => show win3_1.index t (0 : Fin 2) * 1 + 1 * (y 0).val = (y 0).val; omega
  | ⟨1, _⟩ => show win3_1.index t (1 : Fin 2) * 128 + 1 * (y 1).val = (y 1).val; omega

/-- The shift row is staged whole at every point. -/
theorem blk3_2 (c : Dev nD) (t : Fin cfg3.N) :
    (iblk3 V c 2 t : S1x128.Idx → EReal) = V c (Pipeline.arrRef spec3 2) := by
  obtain ⟨-, -, -, -, e0, e1, -⟩ := idx_facts3 t
  funext y
  show V c (Pipeline.arrRef spec3 2) (((cfg3.win 2).blk t).view.emb y) = V c (Pipeline.arrRef spec3 2) y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- The row of column means is staged whole at every point. -/
theorem blk3_3 (c : Dev nD) (t : Fin cfg3.N) :
    (iblk3 V c 3 t : S1x128.Idx → EReal) = V c (Pipeline.arrRef spec3 3) := by
  obtain ⟨-, -, -, -, -, -, e0, e1, -⟩ := idx_facts3 t
  funext y
  show V c (Pipeline.arrRef spec3 3) (((cfg3.win 3).blk t).view.emb y) = V c (Pipeline.arrRef spec3 3) y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- The row of column variances is staged whole at every point. -/
theorem blk3_4 (c : Dev nD) (t : Fin cfg3.N) :
    (iblk3 V c 4 t : S1x128.Idx → EReal) = V c (Pipeline.arrRef spec3 4) := by
  obtain ⟨-, -, -, -, -, -, -, -, e0, e1, -⟩ := idx_facts3 t
  funext y
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

set_option maxHeartbeats 1600000 in
/-- What point `t` writes back is block `t` of the normalisation of the arrays the region finds. -/
theorem flushed3 (c : Dev nD) (t : Fin cfg3.N) :
    (dat3 V c).flushed 5 t = ((cfg3.win 5).blk t).view.read (Elt Ideal)
      (bnRows (Ideal.ofBits .f32 0x3727C5AC#32) (Ideal.ofBits .f32 0x00000000#32) (V c (Pipeline.arrRef spec3 0))
        (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero hz2]
  simp only [View.ld_unit_zero (S := S5000x128) hz2, View.ld_unit_zero (S := S1x128) hz2]
  rw [pay3, blk3_1 V c t, blk3_2 V c t, blk3_3 V c t, blk3_4 V c t]
  obtain ⟨-, -, -, -, -, -, -, -, -, -, e0, e1⟩ := idx_facts3 t
  funext j
  show bnRows (Ideal.ofBits .f32 0x3727C5AC#32) (Ideal.ofBits .f32 0x00000000#32) (iblk3 V c 0 t)
        (V c (Pipeline.arrRef spec3 1)) (V c (Pipeline.arrRef spec3 2)) (V c (Pipeline.arrRef spec3 3)) (V c (Pipeline.arrRef spec3 4)) j
    = bnRows (Ideal.ofBits .f32 0x3727C5AC#32) (Ideal.ofBits .f32 0x00000000#32) (V c (Pipeline.arrRef spec3 0))
        (V c (Pipeline.arrRef spec3 1)) (V c (Pipeline.arrRef spec3 2)) (V c (Pipeline.arrRef spec3 3)) (V c (Pipeline.arrRef spec3 4))
        (((cfg3.win 5).blk t).view.emb j)
  refine bn_block (R := 5000) _ _ (V c (Pipeline.arrRef spec3 0)) (V c (Pipeline.arrRef spec3 1)) (V c (Pipeline.arrRef spec3 2))
    (V c (Pipeline.arrRef spec3 3)) (V c (Pipeline.arrRef spec3 4))
    (iblk3 V c 0 t) t.val (fun y k h0 h1 => blk3_0 V c t y k h0 h1) j _ ?_ ?_
  · show win3_5.index t (0 : Fin 2) * 5000 + 1 * (j 0).val = 5000 * t.val + (j 0).val; omega
  · show win3_5.index t (1 : Fin 2) * 128 + 1 * (j 1).val = (j 1).val; omega

/-- An index of the result is in point `t`'s block iff each coordinate is in the block's range. -/
theorem mem_blk3 (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole (Pipeline.arrRef spec3 5)).slice (win3_5.rect t)).set ↔ _
  rw [View.set_slice_whole, Rect.mem_set_unit]
  exact Iff.rfl

/-- The 20 blocks of 5000 rows cover the result. -/
theorem cover3 (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  refine ⟨⟨(i 0).val / 5000, by rw [hN]; omega⟩, flush3_5 _, ?_⟩
  rw [mem_blk3]
  obtain ⟨-, -, -, -, -, -, -, -, -, -, e0, e1⟩ := idx_facts3 ⟨(i 0).val / 5000, by rw [hN]; omega⟩
  intro a
  match a with
  | ⟨0, _⟩ => show win3_5.index _ (0 : Fin 2) * 5000 ≤ (i 0).val ∧ (i 0).val < win3_5.index _ (0 : Fin 2) * 5000 + 5000; rw [e0]; show (i 0).val / 5000 * 5000 ≤ (i 0).val ∧ (i 0).val < (i 0).val / 5000 * 5000 + 5000; omega
  | ⟨1, _⟩ => show win3_5.index _ (1 : Fin 2) * 128 ≤ (i 1).val ∧ (i 1).val < win3_5.index _ (1 : Fin 2) * 128 + 128; rw [e1]; omega

/-- THE ARRAY region 3 leaves: the normalisation of the arrays it finds. -/
theorem arr3 (c : Dev nD) :
    (dat3 V c).arrAt 5 cfg3.N
      = bnRows (Ideal.ofBits .f32 0x3727C5AC#32) (Ideal.ofBits .f32 0x00000000#32) (V c (Pipeline.arrRef spec3 0))
          (V c (Pipeline.arrRef spec3 1)) (V c (Pipeline.arrRef spec3 2)) (V c (Pipeline.arrRef spec3 3)) (V c (Pipeline.arrRef spec3 4)) :=
  (dat3 V c).arrAt_eq_of_cover 5 _ (fun t _ => flushed3 V c t) cover3

end Cert.KernelIdeal.RegionVal

end
-- ==== Proof.Region4.lean ====
/-
  Region 4 (the second graph layer's combination): the array its pipeline leaves is `sageRows` of the arrays it
  finds.

  Point `t` of the 20 stages rows `5000·t …` of the aggregated neighbours and of the node features and, whole,
  the two 128 × 128 weight matrices and the bias row, and writes back rows `5000·t …` of the result.
-/
import proofs.«119291_j39402029973518_1_alg».proof.Proof.RegionCommon

set_option maxRecDepth 16384

noncomputable section

namespace Cert.KernelIdeal.RegionVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers Cert.RowLayers Cert.Spec

variable (V : (c : Dev nD) → (b : Ref sig .tc) → Buf (Elt Ideal) ((c : Thread nD τ).loc b))

/-- The body's value on a block is the combination of the blocks. -/
theorem pay4 (x0 x1 : Vec Ideal S5000x128 .f32) (x2 x3 : Vec Ideal S128x128 .f32) (x4 : Vec Ideal S1x128 .f32) :
    k4_pay1 x0 x1 x2 x3 x4 = sageRows x0 x1 x2 x3 x4 := by
  unfold k4_pay1
  simp only [shapeCast_self]
  exact device_sage rtc128 x0 x1 x2 x3 x4 bitsLt_bf16_f32 broadcasts_S1x128_S5000x128

/-- The printed index maps over the grid: the row-tiled windows move with the point, the others stay. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Point `t`'s block of the aggregate holds rows `5000·t …`. -/
theorem blk4_0 (c : Dev nD) (t : Fin cfg4.N) (y : S5000x128.Idx) (k : S100000x128.Idx)
    (h0 : (k 0).val = 5000 * t.val + (y 0).val) (h1 : (k 1).val = (y 1).val) :
    iblk4 V c 0 t y = V c (Pipeline.arrRef spec4 0) k := by
  obtain ⟨e0, e1, -⟩ := idx_facts4 t
  show V c (Pipeline.arrRef spec4 0) (((cfg4.win 0).blk t).view.emb y) = V c (Pipeline.arrRef spec4 0) k
  refine congrArg _ (funext fun a => Fin.ext ?_)
  match a with
  | ⟨0, _⟩ => show win4_0.index t (0 : Fin 2) * 5000 + 1 * (y 0).val = (k 0).val; omega
  | ⟨1, _⟩ => show win4_0.index t (1 : Fin 2) * 128 + 1 * (y 1).val = (k 1).val; omega

/-- Point `t`'s block of the features holds rows `5000·t …`. -/
theorem blk4_1 (c : Dev nD) (t : Fin cfg4.N) (y : S5000x128.Idx) (k : S100000x128.Idx)
    (h0 : (k 0).val = 5000 * t.val + (y 0).val) (h1 : (k 1).val = (y 1).val) :
    iblk4 V c 1 t y = V c (Pipeline.arrRef spec4 1) k := by
  obtain ⟨-, -, e0, e1, -⟩ := idx_facts4 t
  show V c (Pipeline.arrRef spec4 1) (((cfg4.win 1).blk t).view.emb y) = V c (Pipeline.arrRef spec4 1) k
  refine congrArg _ (funext fun a => Fin.ext ?_)
  match a with
  | ⟨0, _⟩ => show win4_1.index t (0 : Fin 2) * 5000 + 1 * (y 0).val = (k 0).val; omega
  | ⟨1, _⟩ => show win4_1.index t (1 : Fin 2) * 128 + 1 * (y 1).val = (k 1).val; omega

/-- The neighbours' weight matrix is staged whole at every point. -/
theorem blk4_2 (c : Dev nD) (t : Fin cfg4.N) :
    (iblk4 V c 2 t : S128x128.Idx → EReal) = V c (Pipeline.arrRef spec4 2) := by
  obtain ⟨-, -, -, -, e0, e1, -⟩ := idx_facts4 t
  funext y
  show V c (Pipeline.arrRef spec4 2) (((cfg4.win 2).blk t).view.emb y) = V c (Pipeline.arrRef spec4 2) y
  refine congrArg _ (funext fun a => Fin.ext ?_)
  match a with
  | ⟨0, _⟩ => show win4_2.index t (0 : Fin 2) * 128 + 1 * (y 0).val = (y 0).val; omega
  | ⟨1, _⟩ => show win4_2.index t (1 : Fin 2) * 128 + 1 * (y 1).val = (y 1).val; omega

/-- The node's own weight matrix is staged whole at every point. -/
theorem blk4_3 (c : Dev nD) (t : Fin cfg4.N) :
    (iblk4 V c 3 t : S128x128.Idx → EReal) = V c (Pipeline.arrRef spec4 3) := by
  obtain ⟨-, -, -, -, -, -, e0, e1, -⟩ := idx_facts4 t
  funext y
  show V c (Pipeline.arrRef spec4 3) (((cfg4.win 3).blk t).view.emb y) = V c (Pipeline.arrRef spec4 3) y
  refine congrArg _ (funext fun a => Fin.ext ?_)
  match a with
  | ⟨0, _⟩ => show win4_3.index t (0 : Fin 2) * 128 + 1 * (y 0).val = (y 0).val; omega
  | ⟨1, _⟩ => show win4_3.index t (1 : Fin 2) * 128 + 1 * (y 1).val = (y 1).val; omega

/-- The bias row is staged whole at every point. -/
theorem blk4_4 (c : Dev nD) (t : Fin cfg4.N) :
    (iblk4 V c 4 t : S1x128.Idx → EReal) = V c (Pipeline.arrRef spec4 4) := by
  obtain ⟨-, -, -, -, -, -, -, -, e0, e1, -⟩ := idx_facts4 t
  funext y
  show V c (Pipeline.arrRef spec4 4) (((cfg4.win 4).blk t).view.emb y) = V c (Pipeline.arrRef spec4 4) y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 128 + 1 * (y 1).val = (y 1).val; omega

set_option maxHeartbeats 1600000 in
/-- What point `t` writes back is block `t` of the combination of the arrays the region finds. -/
theorem flushed4 (c : Dev nD) (t : Fin cfg4.N) :
    (dat4 V c).flushed 5 t = ((cfg4.win 5).blk t).view.read (Elt Ideal)
      (sageRows (V c (Pipeline.arrRef spec4 0)) (V c (Pipeline.arrRef spec4 1)) (V c (Pipeline.arrRef spec4 2))
        (V c (Pipeline.arrRef spec4 3)) (V c (Pipeline.arrRef spec4 4))) := by
  show (cfg4.win 5).cut (grid4.coords t) ((dat4 V c).after 5 t) = _
  rw [after4_5]
  unfold out4_5
  rw [View.canon_unit_zero hz2]
  simp only [View.ld_unit_zero (S := S5000x128) hz2, View.ld_unit_zero (S := S128x128) hz2, View.ld_unit_zero (S := S1x128) hz2]
  rw [pay4, blk4_2 V c t, blk4_3 V c t, blk4_4 V c t]
  obtain ⟨-, -, -, -, -, -, -, -, -, -, e0, e1⟩ := idx_facts4 t
  funext j
  show sageRows (iblk4 V c 0 t) (iblk4 V c 1 t) (V c (Pipeline.arrRef spec4 2)) (V c (Pipeline.arrRef spec4 3)) (V c (Pipeline.arrRef spec4 4)) j
    = sageRows (V c (Pipeline.arrRef spec4 0)) (V c (Pipeline.arrRef spec4 1)) (V c (Pipeline.arrRef spec4 2))
        (V c (Pipeline.arrRef spec4 3)) (V c (Pipeline.arrRef spec4 4)) (((cfg4.win 5).blk t).view.emb j)
  refine sage_block (R := 5000) (V c (Pipeline.arrRef spec4 0)) (V c (Pipeline.arrRef spec4 1)) (V c (Pipeline.arrRef spec4 2))
    (V c (Pipeline.arrRef spec4 3)) (V c (Pipeline.arrRef spec4 4))
    (iblk4 V c 0 t) (iblk4 V c 1 t) t.val (fun y k h0 h1 => blk4_0 V c t y k h0 h1) (fun y k h0 h1 => blk4_1 V c t y k h0 h1) j _ ?_ ?_
  · show win4_5.index t (0 : Fin 2) * 5000 + 1 * (j 0).val = 5000 * t.val + (j 0).val; omega
  · show win4_5.index t (1 : Fin 2) * 128 + 1 * (j 1).val = (j 1).val; omega

/-- An index of the result is in point `t`'s block iff each coordinate is in the block's range. -/
theorem mem_blk4 (t : Fin cfg4.N) (i : S100000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole (Pipeline.arrRef spec4 5)).slice (win4_5.rect t)).set ↔ _
  rw [View.set_slice_whole, Rect.mem_set_unit]
  exact Iff.rfl

/-- The 20 blocks of 5000 rows cover the result. -/
theorem cover4 (i : S100000x128.Idx) : ∃ t : Fin cfg4.N, (cfg4.win 5).flush t = true ∧ i ∈ ((cfg4.win 5).blk t).view.set := by
  have hi0 : (i 0).val < 100000 := (i 0).isLt
  have hi1 : (i 1).val < 128 := (i 1).isLt
  have hN : cfg4.N = 20 := N_4
  refine ⟨⟨(i 0).val / 5000, by rw [hN]; omega⟩, flush4_5 _, ?_⟩
  rw [mem_blk4]
  obtain ⟨-, -, -, -, -, -, -, -, -, -, e0, e1⟩ := idx_facts4 ⟨(i 0).val / 5000, by rw [hN]; omega⟩
  intro a
  match a with
  | ⟨0, _⟩ => show win4_5.index _ (0 : Fin 2) * 5000 ≤ (i 0).val ∧ (i 0).val < win4_5.index _ (0 : Fin 2) * 5000 + 5000; rw [e0]; show (i 0).val / 5000 * 5000 ≤ (i 0).val ∧ (i 0).val < (i 0).val / 5000 * 5000 + 5000; omega
  | ⟨1, _⟩ => show win4_5.index _ (1 : Fin 2) * 128 ≤ (i 1).val ∧ (i 1).val < win4_5.index _ (1 : Fin 2) * 128 + 128; rw [e1]; omega

/-- THE ARRAY region 4 leaves: the combination of the arrays it finds. -/
theorem arr4 (c : Dev nD) :
    (dat4 V c).arrAt 5 cfg4.N
      = sageRows (V c (Pipeline.arrRef spec4 0)) (V c (Pipeline.arrRef spec4 1)) (V c (Pipeline.arrRef spec4 2))
          (V c (Pipeline.arrRef spec4 3)) (V c (Pipeline.arrRef spec4 4)) :=
  (dat4 V c).arrAt_eq_of_cover 5 _ (fun t _ => flushed4 V c t) cover4

end Cert.KernelIdeal.RegionVal

end
-- ==== Proof.Region5.lean ====
/-
  Region 5 (batch normalisation and rectifier after the second graph layer): the array its pipeline leaves is
  `bnRows` of the arrays it finds.

  Point `t` of the 20 stages rows `5000·t …` of the features and, whole, the four rows of shape `[1, 128]` — scale,
  shift, column mean, column variance — and writes back rows `5000·t …` of the result.
-/
import proofs.«119291_j39402029973518_1_alg».proof.Proof.RegionCommon

set_option maxRecDepth 16384

noncomputable section

namespace Cert.KernelIdeal.RegionVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers Cert.RowLayers Cert.Spec

variable (V : (c : Dev nD) → (b : Ref sig .tc) → Buf (Elt Ideal) ((c : Thread nD τ).loc b))

/-- The body's value on a block is the normalisation of the block. -/
theorem pay5 (x0 : Vec Ideal S5000x128 .f32) (x1 x2 x3 x4 : Vec Ideal S1x128 .f32) :
    k5_pay1 x0 x1 x2 x3 x4
      = bnRows (Ideal.ofBits .f32 0x3727C5AC#32) (Ideal.ofBits .f32 0x00000000#32) x0 x1 x2 x3 x4 := by
  unfold k5_pay1
  simp only [shapeCast_self]
  exact device_bn 0x3727C5AC#32 0x00000000#32 x0 x1 x2 x3 x4 broadcasts_S1x128_S5000x128

/-- The printed index maps over the grid: the row-tiled windows move with the point, the four rows stay. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Point `t`'s block of the features holds rows `5000·t …`. -/
theorem blk5_0 (c : Dev nD) (t : Fin cfg5.N) (y : S5000x128.Idx) (k : S100000x128.Idx)
    (h0 : (k 0).val = 5000 * t.val + (y 0).val) (h1 : (k 1).val = (y 1).val) :
    iblk5 V c 0 t y = V c (Pipeline.arrRef spec5 0) k := by
  obtain ⟨e0, e1, -⟩ := idx_facts5 t
  show V c (Pipeline.arrRef spec5 0) (((cfg5.win 0).blk t).view.emb y) = V c (Pipeline.arrRef spec5 0) k
  refine congrArg _ (funext fun a => Fin.ext ?_)
  match a with
  | ⟨0, _⟩ => show win5_0.index t (0 : Fin 2) * 5000 + 1 * (y 0).val = (k 0).val; omega
  | ⟨1, _⟩ => show win5_0.index t (1 : Fin 2) * 128 + 1 * (y 1).val = (k 1).val; omega

/-- The scale row is staged whole at every point. -/
theorem blk5_1 (c : Dev nD) (t : Fin cfg5.N) :
    (iblk5 V c 1 t : S1x128.Idx → EReal) = V c (Pipeline.arrRef spec5 1) := by
  obtain ⟨-, -, e0, e1, -⟩ := idx_facts5 t
  funext y
  show V c (Pipeline.arrRef spec5 1) (((cfg5.win 1).blk t).view.emb y) = V c (Pipeline.arrRef spec5 1) y
  refine congrArg _ (funext fun a => Fin.ext ?_)
  match a with
  | ⟨0, _⟩ => show win5_1.index t (0 : Fin 2) * 1 + 1 * (y 0).val = (y 0).val; omega
  | ⟨1, _⟩ => show win5_1.index t (1 : Fin 2) * 128 + 1 * (y 1).val = (y 1).val; omega

/-- The shift row is staged whole at every point. -/
theorem blk5_2 (c : Dev nD) (t : Fin cfg5.N) :
    (iblk5 V c 2 t : S1x128.Idx → EReal) = V c (Pipeline.arrRef spec5 2) := by
  obtain ⟨-, -, -, -, e0, e1, -⟩ := idx_facts5 t
  funext y
  show V c (Pipeline.arrRef spec5 2) (((cfg5.win 2).blk t).view.emb y) = V c (Pipeline.arrRef spec5 2) y
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 128 + 1 * (y 1).val = (y 1).val; omega

/-- The row of column means is staged whole at every point. -/
theorem blk5_3 (c : Dev nD) (t : Fin cfg5.N) :
    (iblk5 V c 3 t : S1x128.Idx → EReal) = V c (Pipeline.arrRef spec5 3) := by
  obtain ⟨-, -, -, -, -, -, e0, e1, -⟩ := idx_facts5 t
  funext y
  show V c (Pipeline.arrRef spec5 3) (((cfg5.win 3).blk t).view.emb y) = V c (Pipeline.arrRef spec5 3) y
  refine congrArg _ (funext fun a => Fin.ext ?_)
  match a with
  | ⟨0, _⟩ => show win5_3.index t (0 : Fin 2) * 1 + 1 * (y 0).val = (y 0).val; omega
  | ⟨1, _⟩ => show win5_3.index t (1 : Fin 2) * 128 + 1 * (y 1).val = (y 1).val; omega

/-- The row of column variances is staged whole at every point. -/
theorem blk5_4 (c : Dev nD) (t : Fin cfg5.N) :
    (iblk5 V c 4 t : S1x128.Idx → EReal) = V c (Pipeline.arrRef spec5 4) := by
  obtain ⟨-, -, -, -, -, -, -, -, e0, e1, -⟩ := idx_facts5 t
  funext y
  show V c (Pipeline.arrRef spec5 4) (((cfg5.win 4).blk t).view.emb y) = V c (Pipeline.arrRef spec5 4) y
  refine congrArg _ (funext fun a => Fin.ext ?_)
  match a with
  | ⟨0, _⟩ => show win5_4.index t (0 : Fin 2) * 1 + 1 * (y 0).val = (y 0).val; omega
  | ⟨1, _⟩ => show win5_4.index t (1 : Fin 2) * 128 + 1 * (y 1).val = (y 1).val; omega

set_option maxHeartbeats 1600000 in
/-- What point `t` writes back is block `t` of the normalisation of the arrays the region finds. -/
theorem flushed5 (c : Dev nD) (t : Fin cfg5.N) :
    (dat5 V c).flushed 5 t = ((cfg5.win 5).blk t).view.read (Elt Ideal)
      (bnRows (Ideal.ofBits .f32 0x3727C5AC#32) (Ideal.ofBits .f32 0x00000000#32) (V c (Pipeline.arrRef spec5 0))
        (V c (Pipeline.arrRef spec5 1)) (V c (Pipeline.arrRef spec5 2)) (V c (Pipeline.arrRef spec5 3)) (V c (Pipeline.arrRef spec5 4))) := by
  show (cfg5.win 5).cut (grid5.coords t) ((dat5 V c).after 5 t) = _
  rw [after5_5]
  unfold out5_5
  rw [View.canon_unit_zero hz2]
  simp only [View.ld_unit_zero (S := S5000x128) hz2, View.ld_unit_zero (S := S1x128) hz2]
  rw [pay5, blk5_1 V c t, blk5_2 V c t, blk5_3 V c t, blk5_4 V c t]
  obtain ⟨-, -, -, -, -, -, -, -, -, -, e0, e1⟩ := idx_facts5 t
  funext j
  show bnRows (Ideal.ofBits .f32 0x3727C5AC#32) (Ideal.ofBits .f32 0x00000000#32) (iblk5 V c 0 t)
        (V c (Pipeline.arrRef spec5 1)) (V c (Pipeline.arrRef spec5 2)) (V c (Pipeline.arrRef spec5 3)) (V c (Pipeline.arrRef spec5 4)) j
    = bnRows (Ideal.ofBits .f32 0x3727C5AC#32) (Ideal.ofBits .f32 0x00000000#32) (V c (Pipeline.arrRef spec5 0))
        (V c (Pipeline.arrRef spec5 1)) (V c (Pipeline.arrRef spec5 2)) (V c (Pipeline.arrRef spec5 3)) (V c (Pipeline.arrRef spec5 4))
        (((cfg5.win 5).blk t).view.emb j)
  refine bn_block (R := 5000) _ _ (V c (Pipeline.arrRef spec5 0)) (V c (Pipeline.arrRef spec5 1)) (V c (Pipeline.arrRef spec5 2))
    (V c (Pipeline.arrRef spec5 3)) (V c (Pipeline.arrRef spec5 4))
    (iblk5 V c 0 t) t.val (fun y k h0 h1 => blk5_0 V c t y k h0 h1) j _ ?_ ?_
  · show win5_5.index t (0 : Fin 2) * 5000 + 1 * (j 0).val = 5000 * t.val + (j 0).val; omega
  · show win5_5.index t (1 : Fin 2) * 128 + 1 * (j 1).val = (j 1).val; omega

/-- An index of the result is in point `t`'s block iff each coordinate is in the block's range. -/
theorem mem_blk5 (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole (Pipeline.arrRef spec5 5)).slice (win5_5.rect t)).set ↔ _
  rw [View.set_slice_whole, Rect.mem_set_unit]
  exact Iff.rfl

/-- The 20 blocks of 5000 rows cover the result. -/
theorem cover5 (i : S100000x128.Idx) : ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  refine ⟨⟨(i 0).val / 5000, by rw [hN]; omega⟩, flush5_5 _, ?_⟩
  rw [mem_blk5]
  obtain ⟨-, -, -, -, -, -, -, -, -, -, e0, e1⟩ := idx_facts5 ⟨(i 0).val / 5000, by rw [hN]; omega⟩
  intro a
  match a with
  | ⟨0, _⟩ => show win5_5.index _ (0 : Fin 2) * 5000 ≤ (i 0).val ∧ (i 0).val < win5_5.index _ (0 : Fin 2) * 5000 + 5000; rw [e0]; show (i 0).val / 5000 * 5000 ≤ (i 0).val ∧ (i 0).val < (i 0).val / 5000 * 5000 + 5000; omega
  | ⟨1, _⟩ => show win5_5.index _ (1 : Fin 2) * 128 ≤ (i 1).val ∧ (i 1).val < win5_5.index _ (1 : Fin 2) * 128 + 128; rw [e1]; omega

/-- THE ARRAY region 5 leaves: the normalisation of the arrays it finds. -/
theorem arr5 (c : Dev nD) :
    (dat5 V c).arrAt 5 cfg5.N
      = bnRows (Ideal.ofBits .f32 0x3727C5AC#32) (Ideal.ofBits .f32 0x00000000#32) (V c (Pipeline.arrRef spec5 0))
          (V c (Pipeline.arrRef spec5 1)) (V c (Pipeline.arrRef spec5 2)) (V c (Pipeline.arrRef spec5 3)) (V c (Pipeline.arrRef spec5 4)) :=
  (dat5 V c).arrAt_eq_of_cover 5 _ (fun t _ => flushed5 V c t) cover5

end Cert.KernelIdeal.RegionVal

end
-- ==== Proof.Region6.lean ====
/-
  Region 6 (the third graph layer's combination): the array its pipeline leaves is `sageRows` of the arrays it
  finds.

  Point `t` of the 20 stages rows `5000·t …` of the aggregated neighbours and of the node features and, whole,
  the two 128 × 128 weight matrices and the bias row, and writes back rows `5000·t …` of the result.
-/
import proofs.«119291_j39402029973518_1_alg».proof.Proof.RegionCommon

set_option maxRecDepth 16384

noncomputable section

namespace Cert.KernelIdeal.RegionVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers Cert.RowLayers Cert.Spec

variable (V : (c : Dev nD) → (b : Ref sig .tc) → Buf (Elt Ideal) ((c : Thread nD τ).loc b))

/-- The body's value on a block is the combination of the blocks. -/
theorem pay6 (x0 x1 : Vec Ideal S5000x128 .f32) (x2 x3 : Vec Ideal S128x128 .f32) (x4 : Vec Ideal S1x128 .f32) :
    k6_pay1 x0 x1 x2 x3 x4 = sageRows x0 x1 x2 x3 x4 := by
  unfold k6_pay1
  simp only [shapeCast_self]
  exact device_sage rtc128 x0 x1 x2 x3 x4 bitsLt_bf16_f32 broadcasts_S1x128_S5000x128

/-- The printed index maps over the grid: the row-tiled windows move with the point, the others stay. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Point `t`'s block of the aggregate holds rows `5000·t …`. -/
theorem blk6_0 (c : Dev nD) (t : Fin cfg6.N) (y : S5000x128.Idx) (k : S100000x128.Idx)
    (h0 : (k 0).val = 5000 * t.val + (y 0).val) (h1 : (k 1).val = (y 1).val) :
    iblk6 V c 0 t y = V c (Pipeline.arrRef spec6 0) k := by
  obtain ⟨e0, e1, -⟩ := idx_facts6 t
  show V c (Pipeline.arrRef spec6 0) (((cfg6.win 0).blk t).view.emb y) = V c (Pipeline.arrRef spec6 0) k
  refine congrArg _ (funext fun a => Fin.ext ?_)
  match a with
  | ⟨0, _⟩ => show win6_0.index t (0 : Fin 2) * 5000 + 1 * (y 0).val = (k 0).val; omega
  | ⟨1, _⟩ => show win6_0.index t (1 : Fin 2) * 128 + 1 * (y 1).val = (k 1).val; omega

/-- Point `t`'s block of the features holds rows `5000·t …`. -/
theorem blk6_1 (c : Dev nD) (t : Fin cfg6.N) (y : S5000x128.Idx) (k : S100000x128.Idx)
    (h0 : (k 0).val = 5000 * t.val + (y 0).val) (h1 : (k 1).val = (y 1).val) :
    iblk6 V c 1 t y = V c (Pipeline.arrRef spec6 1) k := by
  obtain ⟨-, -, e0, e1, -⟩ := idx_facts6 t
  show V c (Pipeline.arrRef spec6 1) (((cfg6.win 1).blk t).view.emb y) = V c (Pipeline.arrRef spec6 1) k
  refine congrArg _ (funext fun a => Fin.ext ?_)
  match a with
  | ⟨0, _⟩ => show win6_1.index t (0 : Fin 2) * 5000 + 1 * (y 0).val = (k 0).val; omega
  | ⟨1, _⟩ => show win6_1.index t (1 : Fin 2) * 128 + 1 * (y 1).val = (k 1).val; omega

/-- The neighbours' weight matrix is staged whole at every point. -/
theorem blk6_2 (c : Dev nD) (t : Fin cfg6.N) :
    (iblk6 V c 2 t : S128x128.Idx → EReal) = V c (Pipeline.arrRef spec6 2) := by
  obtain ⟨-, -, -, -, e0, e1, -⟩ := idx_facts6 t
  funext y
  show V c (Pipeline.arrRef spec6 2) (((cfg6.win 2).blk t).view.emb y) = V c (Pipeline.arrRef spec6 2) y
  refine congrArg _ (funext fun a => Fin.ext ?_)
  match a with
  | ⟨0, _⟩ => show win6_2.index t (0 : Fin 2) * 128 + 1 * (y 0).val = (y 0).val; omega
  | ⟨1, _⟩ => show win6_2.index t (1 : Fin 2) * 128 + 1 * (y 1).val = (y 1).val; omega

/-- The node's own weight matrix is staged whole at every point. -/
theorem blk6_3 (c : Dev nD) (t : Fin cfg6.N) :
    (iblk6 V c 3 t : S128x128.Idx → EReal) = V c (Pipeline.arrRef spec6 3) := by
  obtain ⟨-, -, -, -, -, -, e0, e1, -⟩ := idx_facts6 t
  funext y
  show V c (Pipeline.arrRef spec6 3) (((cfg6.win 3).blk t).view.emb y) = V c (Pipeline.arrRef spec6 3) y
  refine congrArg _ (funext fun a => Fin.ext ?_)
  match a with
  | ⟨0, _⟩ => show win6_3.index t (0 : Fin 2) * 128 + 1 * (y 0).val = (y 0).val; omega
  | ⟨1, _⟩ => show win6_3.index t (1 : Fin 2) * 128 + 1 * (y 1).val = (y 1).val; omega

/-- The bias row is staged whole at every point. -/
theorem blk6_4 (c : Dev nD) (t : Fin cfg6.N) :
    (iblk6 V c 4 t : S1x128.Idx → EReal) = V c (Pipeline.arrRef spec6 4) := by
  obtain ⟨-, -, -, -, -, -, -, -, e0, e1, -⟩ := idx_facts6 t
  funext y
  show V c (Pipeline.arrRef spec6 4) (((cfg6.win 4).blk t).view.emb y) = V c (Pipeline.arrRef spec6 4) y
  refine congrArg _ (funext fun a => Fin.ext ?_)
  match a with
  | ⟨0, _⟩ => show win6_4.index t (0 : Fin 2) * 1 + 1 * (y 0).val = (y 0).val; omega
  | ⟨1, _⟩ => show win6_4.index t (1 : Fin 2) * 128 + 1 * (y 1).val = (y 1).val; omega

set_option maxHeartbeats 1600000 in
/-- What point `t` writes back is block `t` of the combination of the arrays the region finds. -/
theorem flushed6 (c : Dev nD) (t : Fin cfg6.N) :
    (dat6 V c).flushed 5 t = ((cfg6.win 5).blk t).view.read (Elt Ideal)
      (sageRows (V c (Pipeline.arrRef spec6 0)) (V c (Pipeline.arrRef spec6 1)) (V c (Pipeline.arrRef spec6 2))
        (V c (Pipeline.arrRef spec6 3)) (V c (Pipeline.arrRef spec6 4))) := by
  show (cfg6.win 5).cut (grid6.coords t) ((dat6 V c).after 5 t) = _
  rw [after6_5]
  unfold out6_5
  rw [View.canon_unit_zero hz2]
  simp only [View.ld_unit_zero (S := S5000x128) hz2, View.ld_unit_zero (S := S128x128) hz2, View.ld_unit_zero (S := S1x128) hz2]
  rw [pay6, blk6_2 V c t, blk6_3 V c t, blk6_4 V c t]
  obtain ⟨-, -, -, -, -, -, -, -, -, -, e0, e1⟩ := idx_facts6 t
  funext j
  show sageRows (iblk6 V c 0 t) (iblk6 V c 1 t) (V c (Pipeline.arrRef spec6 2)) (V c (Pipeline.arrRef spec6 3)) (V c (Pipeline.arrRef spec6 4)) j
    = sageRows (V c (Pipeline.arrRef spec6 0)) (V c (Pipeline.arrRef spec6 1)) (V c (Pipeline.arrRef spec6 2))
        (V c (Pipeline.arrRef spec6 3)) (V c (Pipeline.arrRef spec6 4)) (((cfg6.win 5).blk t).view.emb j)
  refine sage_block (R := 5000) (V c (Pipeline.arrRef spec6 0)) (V c (Pipeline.arrRef spec6 1)) (V c (Pipeline.arrRef spec6 2))
    (V c (Pipeline.arrRef spec6 3)) (V c (Pipeline.arrRef spec6 4))
    (iblk6 V c 0 t) (iblk6 V c 1 t) t.val (fun y k h0 h1 => blk6_0 V c t y k h0 h1) (fun y k h0 h1 => blk6_1 V c t y k h0 h1) j _ ?_ ?_
  · show win6_5.index t (0 : Fin 2) * 5000 + 1 * (j 0).val = 5000 * t.val + (j 0).val; omega
  · show win6_5.index t (1 : Fin 2) * 128 + 1 * (j 1).val = (j 1).val; omega

/-- An index of the result is in point `t`'s block iff each coordinate is in the block's range. -/
theorem mem_blk6 (t : Fin cfg6.N) (i : S100000x128.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole (Pipeline.arrRef spec6 5)).slice (win6_5.rect t)).set ↔ _
  rw [View.set_slice_whole, Rect.mem_set_unit]
  exact Iff.rfl

/-- The 20 blocks of 5000 rows cover the result. -/
theorem cover6 (i : S100000x128.Idx) : ∃ t : Fin cfg6.N, (cfg6.win 5).flush t = true ∧ i ∈ ((cfg6.win 5).blk t).view.set := by
  have hi0 : (i 0).val < 100000 := (i 0).isLt
  have hi1 : (i 1).val < 128 := (i 1).isLt
  have hN : cfg6.N = 20 := N_6
  refine ⟨⟨(i 0).val / 5000, by rw [hN]; omega⟩, flush6_5 _, ?_⟩
  rw [mem_blk6]
  obtain ⟨-, -, -, -, -, -, -, -, -, -, e0, e1⟩ := idx_facts6 ⟨(i 0).val / 5000, by rw [hN]; omega⟩
  intro a
  match a with
  | ⟨0, _⟩ => show win6_5.index _ (0 : Fin 2) * 5000 ≤ (i 0).val ∧ (i 0).val < win6_5.index _ (0 : Fin 2) * 5000 + 5000; rw [e0]; show (i 0).val / 5000 * 5000 ≤ (i 0).val ∧ (i 0).val < (i 0).val / 5000 * 5000 + 5000; omega
  | ⟨1, _⟩ => show win6_5.index _ (1 : Fin 2) * 128 ≤ (i 1).val ∧ (i 1).val < win6_5.index _ (1 : Fin 2) * 128 + 128; rw [e1]; omega

/-- THE ARRAY region 6 leaves: the combination of the arrays it finds. -/
theorem arr6 (c : Dev nD) :
    (dat6 V c).arrAt 5 cfg6.N
      = sageRows (V c (Pipeline.arrRef spec6 0)) (V c (Pipeline.arrRef spec6 1)) (V c (Pipeline.arrRef spec6 2))
          (V c (Pipeline.arrRef spec6 3)) (V c (Pipeline.arrRef spec6 4)) :=
  (dat6 V c).arrAt_eq_of_cover 5 _ (fun t _ => flushed6 V c t) cover6

end Cert.KernelIdeal.RegionVal

end
-- ==== Proof.Region7.lean ====
/-
  Region 7 (batch normalisation and rectifier after the third graph layer): the array its pipeline leaves is
  `bnRows` of the arrays it finds.

  Point `t` of the 20 stages rows `5000·t …` of the features and, whole, the four rows of shape `[1, 128]` — scale,
  shift, column mean, column variance — and writes back rows `5000·t …` of the result.
-/
import proofs.«119291_j39402029973518_1_alg».proof.Proof.RegionCommon

set_option maxRecDepth 16384

noncomputable section

namespace Cert.KernelIdeal.RegionVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers Cert.RowLayers Cert.Spec

variable (V : (c : Dev nD) → (b : Ref sig .tc) → Buf (Elt Ideal) ((c : Thread nD τ).loc b))

/-- The body's value on a block is the normalisation of the block. -/
theorem pay7 (x0 : Vec Ideal S5000x128 .f32) (x1 x2 x3 x4 : Vec Ideal S1x128 .f32) :
    k7_pay1 x0 x1 x2 x3 x4
      = bnRows (Ideal.ofBits .f32 0x3727C5AC#32) (Ideal.ofBits .f32 0x00000000#32) x0 x1 x2 x3 x4 := by
  unfold k7_pay1
  simp only [shapeCast_self]
  exact device_bn 0x3727C5AC#32 0x00000000#32 x0 x1 x2 x3 x4 broadcasts_S1x128_S5000x128

/-- The printed index maps over the grid: the row-tiled windows move with the point, the four rows stay. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- Point `t`'s block of the features holds rows `5000·t …`. -/
theorem blk7_0 (c : Dev nD) (t : Fin cfg7.N) (y : S5000x128.Idx) (k : S100000x128.Idx)
    (h0 : (k 0).val = 5000 * t.val + (y 0).val) (h1 : (k 1).val = (y 1).val) :
    iblk7 V c 0 t y = V c (Pipeline.arrRef spec7 0) k := by
  obtain ⟨e0, e1, -⟩ := idx_facts7 t
  show V c (Pipeline.arrRef spec7 0) (((cfg7.win 0).blk t).view.emb y) = V c (Pipeline.arrRef spec7 0) k
  refine congrArg _ (funext fun a => Fin.ext ?_)
  match a with
  | ⟨0, _⟩ => show win7_0.index t (0 : Fin 2) * 5000 + 1 * (y 0).val = (k 0).val; omega
  | ⟨1, _⟩ => show win7_0.index t (1 : Fin 2) * 128 + 1 * (y 1).val = (k 1).val; omega

/-- The scale row is staged whole at every point. -/
theorem blk7_1 (c : Dev nD) (t : Fin cfg7.N) :
    (iblk7 V c 1 t : S1x128.Idx → EReal) = V c (Pipeline.arrRef spec7 1) := by
  obtain ⟨-, -, e0, e1, -⟩ := idx_facts7 t
  funext y
  show V c (Pipeline.arrRef spec7 1) (((cfg7.win 1).blk t).view.emb y) = V c (Pipeline.arrRef spec7 1) y
  refine congrArg _ (funext fun a => Fin.ext ?_)
  match a with
  | ⟨0, _⟩ => show win7_1.index t (0 : Fin 2) * 1 + 1 * (y 0).val = (y 0).val; omega
  | ⟨1, _⟩ => show win7_1.index t (1 : Fin 2) * 128 + 1 * (y 1).val = (y 1).val; omega

/-- The shift row is staged whole at every point. -/
theorem blk7_2 (c : Dev nD) (t : Fin cfg7.N) :
    (iblk7 V c 2 t : S1x128.Idx → EReal) = V c (Pipeline.arrRef spec7 2) := by
  obtain ⟨-, -, -, -, e0, e1, -⟩ := idx_facts7 t
  funext y
  show V c (Pipeline.arrRef spec7 2) (((cfg7.win 2).blk t).view.emb y) = V c (Pipeline.arrRef spec7 2) y
  refine congrArg _ (funext fun a => Fin.ext ?_)
  match a with
  | ⟨0, _⟩ => show win7_2.index t (0 : Fin 2) * 1 + 1 * (y 0).val = (y 0).val; omega
  | ⟨1, _⟩ => show win7_2.index t (1 : Fin 2) * 128 + 1 * (y 1).val = (y 1).val; omega

/-- The row of column means is staged whole at every point. -/
theorem blk7_3 (c : Dev nD) (t : Fin cfg7.N) :
    (iblk7 V c 3 t : S1x128.Idx → EReal) = V c (Pipeline.arrRef spec7 3) := by
  obtain ⟨-, -, -, -, -, -, e0, e1, -⟩ := idx_facts7 t
  funext y
  show V c (Pipeline.arrRef spec7 3) (((cfg7.win 3).blk t).view.emb y) = V c (Pipeline.arrRef spec7 3) y
  refine congrArg _ (funext fun a => Fin.ext ?_)
  match a with
  | ⟨0, _⟩ => show win7_3.index t (0 : Fin 2) * 1 + 1 * (y 0).val = (y 0).val; omega
  | ⟨1, _⟩ => show win7_3.index t (1 : Fin 2) * 128 + 1 * (y 1).val = (y 1).val; omega

/-- The row of column variances is staged whole at every point. -/
theorem blk7_4 (c : Dev nD) (t : Fin cfg7.N) :
    (iblk7 V c 4 t : S1x128.Idx → EReal) = V c (Pipeline.arrRef spec7 4) := by
  obtain ⟨-, -, -, -, -, -, -, -, e0, e1, -⟩ := idx_facts7 t
  funext y
  show V c (Pipeline.arrRef spec7 4) (((cfg7.win 4).blk t).view.emb y) = V c (Pipeline.arrRef spec7 4) y
  refine congrArg _ (funext fun a => Fin.ext ?_)
  match a with
  | ⟨0, _⟩ => show win7_4.index t (0 : Fin 2) * 1 + 1 * (y 0).val = (y 0).val; omega
  | ⟨1, _⟩ => show win7_4.index t (1 : Fin 2) * 128 + 1 * (y 1).val = (y 1).val; omega

set_option maxHeartbeats 1600000 in
/-- What point `t` writes back is block `t` of the normalisation of the arrays the region finds. -/
theorem flushed7 (c : Dev nD) (t : Fin cfg7.N) :
    (dat7 V c).flushed 5 t = ((cfg7.win 5).blk t).view.read (Elt Ideal)
      (bnRows (Ideal.ofBits .f32 0x3727C5AC#32) (Ideal.ofBits .f32 0x00000000#32) (V c (Pipeline.arrRef spec7 0))
        (V c (Pipeline.arrRef spec7 1)) (V c (Pipeline.arrRef spec7 2)) (V c (Pipeline.arrRef spec7 3)) (V c (Pipeline.arrRef spec7 4))) := by
  show (cfg7.win 5).cut (grid7.coords t) ((dat7 V c).after 5 t) = _
  rw [after7_5]
  unfold out7_5
  rw [View.canon_unit_zero hz2]
  simp only [View.ld_unit_zero (S := S5000x128) hz2, View.ld_unit_zero (S := S1x128) hz2]
  rw [pay7, blk7_1 V c t, blk7_2 V c t, blk7_3 V c t, blk7_4 V c t]
  obtain ⟨-, -, -, -, -, -, -, -, -, -, e0, e1⟩ := idx_facts7 t
  funext j
  show bnRows (Ideal.ofBits .f32 0x3727C5AC#32) (Ideal.ofBits .f32 0x00000000#32) (iblk7 V c 0 t)
        (V c (Pipeline.arrRef spec7 1)) (V c (Pipeline.arrRef spec7 2)) (V c (Pipeline.arrRef spec7 3)) (V c (Pipeline.arrRef spec7 4)) j
    = bnRows (Ideal.ofBits .f32 0x3727C5AC#32) (Ideal.ofBits .f32 0x00000000#32) (V c (Pipeline.arrRef spec7 0))
        (V c (Pipeline.arrRef spec7 1)) (V c (Pipeline.arrRef spec7 2)) (V c (Pipeline.arrRef spec7 3)) (V c (Pipeline.arrRef spec7 4))
        (((cfg7.win 5).blk t).view.emb j)
  refine bn_block (R := 5000) _ _ (V c (Pipeline.arrRef spec7 0)) (V c (Pipeline.arrRef spec7 1)) (V c (Pipeline.arrRef spec7 2))
    (V c (Pipeline.arrRef spec7 3)) (V c (Pipeline.arrRef spec7 4))
    (iblk7 V c 0 t) t.val (fun y k h0 h1 => blk7_0 V c t y k h0 h1) j _ ?_ ?_
  · show win7_5.index t (0 : Fin 2) * 5000 + 1 * (j 0).val = 5000 * t.val + (j 0).val; omega
  · show win7_5.index t (1 : Fin 2) * 128 + 1 * (j 1).val = (j 1).val; omega

/-- An index of the result is in point `t`'s block iff each coordinate is in the block's range. -/
theorem mem_blk7 (t : Fin cfg7.N) (i : S100000x128.Idx) :
    i ∈ ((cfg7.win 5).blk t).view.set ↔ ∀ a : Fin 2, win7_5.index t a * S5000x128.size a ≤ (i a).val ∧ (i a).val < win7_5.index t a * S5000x128.size a + S5000x128.size a := by
  show i ∈ ((View.whole (Pipeline.arrRef spec7 5)).slice (win7_5.rect t)).set ↔ _
  rw [View.set_slice_whole, Rect.mem_set_unit]
  exact Iff.rfl

/-- The 20 blocks of 5000 rows cover the result. -/
theorem cover7 (i : S100000x128.Idx) : ∃ t : Fin cfg7.N, (cfg7.win 5).flush t = true ∧ i ∈ ((cfg7.win 5).blk t).view.set := by
  have hi0 : (i 0).val < 100000 := (i 0).isLt
  have hi1 : (i 1).val < 128 := (i 1).isLt
  have hN : cfg7.N = 20 := N_7
  refine ⟨⟨(i 0).val / 5000, by rw [hN]; omega⟩, flush7_5 _, ?_⟩
  rw [mem_blk7]
  obtain ⟨-, -, -, -, -, -, -, -, -, -, e0, e1⟩ := idx_facts7 ⟨(i 0).val / 5000, by rw [hN]; omega⟩
  intro a
  match a with
  | ⟨0, _⟩ => show win7_5.index _ (0 : Fin 2) * 5000 ≤ (i 0).val ∧ (i 0).val < win7_5.index _ (0 : Fin 2) * 5000 + 5000; rw [e0]; show (i 0).val / 5000 * 5000 ≤ (i 0).val ∧ (i 0).val < (i 0).val / 5000 * 5000 + 5000; omega
  | ⟨1, _⟩ => show win7_5.index _ (1 : Fin 2) * 128 ≤ (i 1).val ∧ (i 1).val < win7_5.index _ (1 : Fin 2) * 128 + 128; rw [e1]; omega

/-- THE ARRAY region 7 leaves: the normalisation of the arrays it finds. -/
theorem arr7 (c : Dev nD) :
    (dat7 V c).arrAt 5 cfg7.N
      = bnRows (Ideal.ofBits .f32 0x3727C5AC#32) (Ideal.ofBits .f32 0x00000000#32) (V c (Pipeline.arrRef spec7 0))
          (V c (Pipeline.arrRef spec7 1)) (V c (Pipeline.arrRef spec7 2)) (V c (Pipeline.arrRef spec7 3)) (V c (Pipeline.arrRef spec7 4)) :=
  (dat7 V c).arrAt_eq_of_cover 5 _ (fun t _ => flushed7 V c t) cover7

end Cert.KernelIdeal.RegionVal

end
-- ==== Proof.Region8.lean ====
/-
  Region 8 (the fourth graph layer's combination): the array its pipeline leaves is `sageRows` of the arrays it
  finds.

  Point `t` of the 20 stages rows `5000·t …` of the aggregated neighbours and of the node features and, whole,
  the two 128 × 128 weight matrices and the bias row, and writes back rows `5000·t …` of the result.
-/
import proofs.«119291_j39402029973518_1_alg».proof.Proof.RegionCommon

set_option maxRecDepth 16384

noncomputable section

namespace Cert.KernelIdeal.RegionVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers Cert.RowLayers Cert.Spec

variable (V : (c : Dev nD) → (b : Ref sig .tc) → Buf (Elt Ideal) ((c : Thread nD τ).loc b))

/-- The body's value on a block is the combination of the blocks. -/
theorem pay8 (x0 x1 : Vec Ideal S5000x128 .f32) (x2 x3 : Vec Ideal S128x128 .f32) (x4 : Vec Ideal S1x128 .f32) :
    k8_pay1 x0 x1 x2 x3 x4 = sageRows x0 x1 x2 x3 x4 := by
  unfold k8_pay1
  simp only [shapeCast_self]
  exact device_sage rtc128 x0 x1 x2 x3 x4 bitsLt_bf16_f32 broadcasts_S1x128_S5000x128

/-- The printed index maps over the grid: the row-tiled windows move with the point, the others stay. -/
theorem idx_facts8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- Point `t`'s block of the aggregate holds rows `5000·t …`. -/
theorem blk8_0 (c : Dev nD) (t : Fin cfg8.N) (y : S5000x128.Idx) (k : S100000x128.Idx)
    (h0 : (k 0).val = 5000 * t.val + (y 0).val) (h1 : (k 1).val = (y 1).val) :
    iblk8 V c 0 t y = V c (Pipeline.arrRef spec8 0) k := by
  obtain ⟨e0, e1, -⟩ := idx_facts8 t
  show V c (Pipeline.arrRef spec8 0) (((cfg8.win 0).blk t).view.emb y) = V c (Pipeline.arrRef spec8 0) k
  refine congrArg _ (funext fun a => Fin.ext ?_)
  match a with
  | ⟨0, _⟩ => show win8_0.index t (0 : Fin 2) * 5000 + 1 * (y 0).val = (k 0).val; omega
  | ⟨1, _⟩ => show win8_0.index t (1 : Fin 2) * 128 + 1 * (y 1).val = (k 1).val; omega

/-- Point `t`'s block of the features holds rows `5000·t …`. -/
theorem blk8_1 (c : Dev nD) (t : Fin cfg8.N) (y : S5000x128.Idx) (k : S100000x128.Idx)
    (h0 : (k 0).val = 5000 * t.val + (y 0).val) (h1 : (k 1).val = (y 1).val) :
    iblk8 V c 1 t y = V c (Pipeline.arrRef spec8 1) k := by
  obtain ⟨-, -, e0, e1, -⟩ := idx_facts8 t
  show V c (Pipeline.arrRef spec8 1) (((cfg8.win 1).blk t).view.emb y) = V c (Pipeline.arrRef spec8 1) k
  refine congrArg _ (funext fun a => Fin.ext ?_)
  match a with
  | ⟨0, _⟩ => show win8_1.index t (0 : Fin 2) * 5000 + 1 * (y 0).val = (k 0).val; omega
  | ⟨1, _⟩ => show win8_1.index t (1 : Fin 2) * 128 + 1 * (y 1).val = (k 1).val; omega

/-- The neighbours' weight matrix is staged whole at every point. -/
theorem blk8_2 (c : Dev nD) (t : Fin cfg8.N) :
    (iblk8 V c 2 t : S128x128.Idx → EReal) = V c (Pipeline.arrRef spec8 2) := by
  obtain ⟨-, -, -, -, e0, e1, -⟩ := idx_facts8 t
  funext y
  show V c (Pipeline.arrRef spec8 2) (((cfg8.win 2).blk t).view.emb y) = V c (Pipeline.arrRef spec8 2) y
  refine congrArg _ (funext fun a => Fin.ext ?_)
  match a with
  | ⟨0, _⟩ => show win8_2.index t (0 : Fin 2) * 128 + 1 * (y 0).val = (y 0).val; omega
  | ⟨1, _⟩ => show win8_2.index t (1 : Fin 2) * 128 + 1 * (y 1).val = (y 1).val; omega

/-- The node's own weight matrix is staged whole at every point. -/
theorem blk8_3 (c : Dev nD) (t : Fin cfg8.N) :
    (iblk8 V c 3 t : S128x128.Idx → EReal) = V c (Pipeline.arrRef spec8 3) := by
  obtain ⟨-, -, -, -, -, -, e0, e1, -⟩ := idx_facts8 t
  funext y
  show V c (Pipeline.arrRef spec8 3) (((cfg8.win 3).blk t).view.emb y) = V c (Pipeline.arrRef spec8 3) y
  refine congrArg _ (funext fun a => Fin.ext ?_)
  match a with
  | ⟨0, _⟩ => show win8_3.index t (0 : Fin 2) * 128 + 1 * (y 0).val = (y 0).val; omega
  | ⟨1, _⟩ => show win8_3.index t (1 : Fin 2) * 128 + 1 * (y 1).val = (y 1).val; omega

/-- The bias row is staged whole at every point. -/
theorem blk8_4 (c : Dev nD) (t : Fin cfg8.N) :
    (iblk8 V c 4 t : S1x128.Idx → EReal) = V c (Pipeline.arrRef spec8 4) := by
  obtain ⟨-, -, -, -, -, -, -, -, e0, e1, -⟩ := idx_facts8 t
  funext y
  show V c (Pipeline.arrRef spec8 4) (((cfg8.win 4).blk t).view.emb y) = V c (Pipeline.arrRef spec8 4) y
  refine congrArg _ (funext fun a => Fin.ext ?_)
  match a with
  | ⟨0, _⟩ => show win8_4.index t (0 : Fin 2) * 1 + 1 * (y 0).val = (y 0).val; omega
  | ⟨1, _⟩ => show win8_4.index t (1 : Fin 2) * 128 + 1 * (y 1).val = (y 1).val; omega

set_option maxHeartbeats 1600000 in
/-- What point `t` writes back is block `t` of the combination of the arrays the region finds. -/
theorem flushed8 (c : Dev nD) (t : Fin cfg8.N) :
    (dat8 V c).flushed 5 t = ((cfg8.win 5).blk t).view.read (Elt Ideal)
      (sageRows (V c (Pipeline.arrRef spec8 0)) (V c (Pipeline.arrRef spec8 1)) (V c (Pipeline.arrRef spec8 2))
        (V c (Pipeline.arrRef spec8 3)) (V c (Pipeline.arrRef spec8 4))) := by
  show (cfg8.win 5).cut (grid8.coords t) ((dat8 V c).after 5 t) = _
  rw [after8_5]
  unfold out8_5
  rw [View.canon_unit_zero hz2]
  simp only [View.ld_unit_zero (S := S5000x128) hz2, View.ld_unit_zero (S := S128x128) hz2, View.ld_unit_zero (S := S1x128) hz2]
  rw [pay8, blk8_2 V c t, blk8_3 V c t, blk8_4 V c t]
  obtain ⟨-, -, -, -, -, -, -, -, -, -, e0, e1⟩ := idx_facts8 t
  funext j
  show sageRows (iblk8 V c 0 t) (iblk8 V c 1 t) (V c (Pipeline.arrRef spec8 2)) (V c (Pipeline.arrRef spec8 3)) (V c (Pipeline.arrRef spec8 4)) j
    = sageRows (V c (Pipeline.arrRef spec8 0)) (V c (Pipeline.arrRef spec8 1)) (V c (Pipeline.arrRef spec8 2))
        (V c (Pipeline.arrRef spec8 3)) (V c (Pipeline.arrRef spec8 4)) (((cfg8.win 5).blk t).view.emb j)
  refine sage_block (R := 5000) (V c (Pipeline.arrRef spec8 0)) (V c (Pipeline.arrRef spec8 1)) (V c (Pipeline.arrRef spec8 2))
    (V c (Pipeline.arrRef spec8 3)) (V c (Pipeline.arrRef spec8 4))
    (iblk8 V c 0 t) (iblk8 V c 1 t) t.val (fun y k h0 h1 => blk8_0 V c t y k h0 h1) (fun y k h0 h1 => blk8_1 V c t y k h0 h1) j _ ?_ ?_
  · show win8_5.index t (0 : Fin 2) * 5000 + 1 * (j 0).val = 5000 * t.val + (j 0).val; omega
  · show win8_5.index t (1 : Fin 2) * 128 + 1 * (j 1).val = (j 1).val; omega

/-- An index of the result is in point `t`'s block iff each coordinate is in the block's range. -/
theorem mem_blk8 (t : Fin cfg8.N) (i : S100000x128.Idx) :
    i ∈ ((cfg8.win 5).blk t).view.set ↔ ∀ a : Fin 2, win8_5.index t a * S5000x128.size a ≤ (i a).val ∧ (i a).val < win8_5.index t a * S5000x128.size a + S5000x128.size a := by
  show i ∈ ((View.whole (Pipeline.arrRef spec8 5)).slice (win8_5.rect t)).set ↔ _
  rw [View.set_slice_whole, Rect.mem_set_unit]
  exact Iff.rfl

/-- The 20 blocks of 5000 rows cover the result. -/
theorem cover8 (i : S100000x128.Idx) : ∃ t : Fin cfg8.N, (cfg8.win 5).flush t = true ∧ i ∈ ((cfg8.win 5).blk t).view.set := by
  have hi0 : (i 0).val < 100000 := (i 0).isLt
  have hi1 : (i 1).val < 128 := (i 1).isLt
  have hN : cfg8.N = 20 := N_8
  refine ⟨⟨(i 0).val / 5000, by rw [hN]; omega⟩, flush8_5 _, ?_⟩
  rw [mem_blk8]
  obtain ⟨-, -, -, -, -, -, -, -, -, -, e0, e1⟩ := idx_facts8 ⟨(i 0).val / 5000, by rw [hN]; omega⟩
  intro a
  match a with
  | ⟨0, _⟩ => show win8_5.index _ (0 : Fin 2) * 5000 ≤ (i 0).val ∧ (i 0).val < win8_5.index _ (0 : Fin 2) * 5000 + 5000; rw [e0]; show (i 0).val / 5000 * 5000 ≤ (i 0).val ∧ (i 0).val < (i 0).val / 5000 * 5000 + 5000; omega
  | ⟨1, _⟩ => show win8_5.index _ (1 : Fin 2) * 128 ≤ (i 1).val ∧ (i 1).val < win8_5.index _ (1 : Fin 2) * 128 + 128; rw [e1]; omega

/-- THE ARRAY region 8 leaves: the combination of the arrays it finds. -/
theorem arr8 (c : Dev nD) :
    (dat8 V c).arrAt 5 cfg8.N
      = sageRows (V c (Pipeline.arrRef spec8 0)) (V c (Pipeline.arrRef spec8 1)) (V c (Pipeline.arrRef spec8 2))
          (V c (Pipeline.arrRef spec8 3)) (V c (Pipeline.arrRef spec8 4)) :=
  (dat8 V c).arrAt_eq_of_cover 5 _ (fun t _ => flushed8 V c t) cover8

end Cert.KernelIdeal.RegionVal

end
-- ==== Proof.Region9.lean ====
/-
  Region 9 (the output projection): the array its pipeline leaves is the dense layer of the arrays it finds.

  Point `t` of the 20 stages rows `5000·t …` of the last hidden features, the whole 128 × 40 weight matrix and the
  whole bias row, and writes back rows `5000·t …` of the 100000 × 40 result.
-/
import proofs.«119291_j39402029973518_1_alg».proof.Proof.RegionCommon

set_option maxRecDepth 16384

noncomputable section

namespace Cert.KernelIdeal.RegionVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers Cert.RowLayers Cert.Spec

variable (V : (c : Dev nD) → (b : Ref sig .tc) → Buf (Elt Ideal) ((c : Thread nD τ).loc b))

/-- The body's value on a block is the dense layer of the block. -/
theorem pay9 (x0 : Vec Ideal S5000x128 .f32) (x1 : Vec Ideal S128x40 .f32) (x2 : Vec Ideal S1x40 .f32) :
    k9_pay1 x0 x1 x2 = denseRows x0 x1 x2 := by
  unfold k9_pay1
  simp only [shapeCast_self]
  exact device_dense rtc40 x0 x1 x2 bitsLt_bf16_f32 broadcasts_S1x40_S5000x40

/-- The printed index maps over the grid: the row-tiled windows move with the point, the others stay. -/
theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- Point `t`'s block of the features holds rows `5000·t …`. -/
theorem blk9_0 (c : Dev nD) (t : Fin cfg9.N) (y : S5000x128.Idx) (k : S100000x128.Idx)
    (h0 : (k 0).val = 5000 * t.val + (y 0).val) (h1 : (k 1).val = (y 1).val) :
    iblk9 V c 0 t y = V c (Pipeline.arrRef spec9 0) k := by
  obtain ⟨e0, e1, -⟩ := idx_facts9 t
  show V c (Pipeline.arrRef spec9 0) (((cfg9.win 0).blk t).view.emb y) = V c (Pipeline.arrRef spec9 0) k
  refine congrArg _ (funext fun a => Fin.ext ?_)
  match a with
  | ⟨0, _⟩ => show win9_0.index t (0 : Fin 2) * 5000 + 1 * (y 0).val = (k 0).val; omega
  | ⟨1, _⟩ => show win9_0.index t (1 : Fin 2) * 128 + 1 * (y 1).val = (k 1).val; omega

/-- The weight matrix is staged whole at every point. -/
theorem blk9_1 (c : Dev nD) (t : Fin cfg9.N) :
    (iblk9 V c 1 t : S128x40.Idx → EReal) = V c (Pipeline.arrRef spec9 1) := by
  obtain ⟨-, -, e0, e1, -⟩ := idx_facts9 t
  funext y
  show V c (Pipeline.arrRef spec9 1) (((cfg9.win 1).blk t).view.emb y) = V c (Pipeline.arrRef spec9 1) y
  refine congrArg _ (funext fun a => Fin.ext ?_)
  match a with
  | ⟨0, _⟩ => show win9_1.index t (0 : Fin 2) * 128 + 1 * (y 0).val = (y 0).val; omega
  | ⟨1, _⟩ => show win9_1.index t (1 : Fin 2) * 40 + 1 * (y 1).val = (y 1).val; omega

/-- The bias row is staged whole at every point. -/
theorem blk9_2 (c : Dev nD) (t : Fin cfg9.N) :
    (iblk9 V c 2 t : S1x40.Idx → EReal) = V c (Pipeline.arrRef spec9 2) := by
  obtain ⟨-, -, -, -, e0, e1, -⟩ := idx_facts9 t
  funext y
  show V c (Pipeline.arrRef spec9 2) (((cfg9.win 2).blk t).view.emb y) = V c (Pipeline.arrRef spec9 2) y
  refine congrArg _ (funext fun a => Fin.ext ?_)
  match a with
  | ⟨0, _⟩ => show win9_2.index t (0 : Fin 2) * 1 + 1 * (y 0).val = (y 0).val; omega
  | ⟨1, _⟩ => show win9_2.index t (1 : Fin 2) * 40 + 1 * (y 1).val = (y 1).val; omega

/-- What point `t` writes back is block `t` of the dense layer of the arrays the region finds. -/
theorem flushed9 (c : Dev nD) (t : Fin cfg9.N) :
    (dat9 V c).flushed 3 t = ((cfg9.win 3).blk t).view.read (Elt Ideal)
      (denseRows (V c (Pipeline.arrRef spec9 0)) (V c (Pipeline.arrRef spec9 1)) (V c (Pipeline.arrRef spec9 2))) := by
  show (cfg9.win 3).cut (grid9.coords t) ((dat9 V c).after 3 t) = _
  rw [after9_3]
  unfold out9_3
  rw [View.canon_unit_zero hz2]
  simp only [View.ld_unit_zero (S := S5000x128) hz2, View.ld_unit_zero (S := S128x40) hz2, View.ld_unit_zero (S := S1x40) hz2]
  rw [pay9, blk9_1 V c t, blk9_2 V c t]
  obtain ⟨-, -, -, -, -, -, e0, e1⟩ := idx_facts9 t
  funext j
  show denseRows (iblk9 V c 0 t) (V c (Pipeline.arrRef spec9 1)) (V c (Pipeline.arrRef spec9 2)) j
    = denseRows (V c (Pipeline.arrRef spec9 0)) (V c (Pipeline.arrRef spec9 1)) (V c (Pipeline.arrRef spec9 2)) (((cfg9.win 3).blk t).view.emb j)
  refine dense_block (R := 5000) (V c (Pipeline.arrRef spec9 0)) (V c (Pipeline.arrRef spec9 1)) (V c (Pipeline.arrRef spec9 2))
    (iblk9 V c 0 t) t.val (fun y k h0 h1 => blk9_0 V c t y k h0 h1) j _ ?_ ?_
  · show win9_3.index t (0 : Fin 2) * 5000 + 1 * (j 0).val = 5000 * t.val + (j 0).val; omega
  · show win9_3.index t (1 : Fin 2) * 40 + 1 * (j 1).val = (j 1).val; omega

/-- An index of the result is in point `t`'s block iff each coordinate is in the block's range. -/
theorem mem_blk9 (t : Fin cfg9.N) (i : S100000x40.Idx) :
    i ∈ ((cfg9.win 3).blk t).view.set ↔ ∀ a : Fin 2, win9_3.index t a * S5000x40.size a ≤ (i a).val ∧ (i a).val < win9_3.index t a * S5000x40.size a + S5000x40.size a := by
  show i ∈ ((View.whole (Pipeline.arrRef spec9 3)).slice (win9_3.rect t)).set ↔ _
  rw [View.set_slice_whole, Rect.mem_set_unit]
  exact Iff.rfl

/-- The 20 blocks of 5000 rows cover the result. -/
theorem cover9 (i : S100000x40.Idx) : ∃ t : Fin cfg9.N, (cfg9.win 3).flush t = true ∧ i ∈ ((cfg9.win 3).blk t).view.set := by
  have hi0 : (i 0).val < 100000 := (i 0).isLt
  have hi1 : (i 1).val < 40 := (i 1).isLt
  have hN : cfg9.N = 20 := N_9
  refine ⟨⟨(i 0).val / 5000, by rw [hN]; omega⟩, flush9_3 _, ?_⟩
  rw [mem_blk9]
  obtain ⟨-, -, -, -, -, -, e0, e1⟩ := idx_facts9 ⟨(i 0).val / 5000, by rw [hN]; omega⟩
  intro a
  match a with
  | ⟨0, _⟩ => show win9_3.index _ (0 : Fin 2) * 5000 ≤ (i 0).val ∧ (i 0).val < win9_3.index _ (0 : Fin 2) * 5000 + 5000; rw [e0]; show (i 0).val / 5000 * 5000 ≤ (i 0).val ∧ (i 0).val < (i 0).val / 5000 * 5000 + 5000; omega
  | ⟨1, _⟩ => show win9_3.index _ (1 : Fin 2) * 40 ≤ (i 1).val ∧ (i 1).val < win9_3.index _ (1 : Fin 2) * 40 + 40; rw [e1]; omega

/-- THE ARRAY region 9 leaves: the dense layer of the arrays it finds. -/
theorem arr9 (c : Dev nD) :
    (dat9 V c).arrAt 3 cfg9.N
      = denseRows (V c (Pipeline.arrRef spec9 0)) (V c (Pipeline.arrRef spec9 1)) (V c (Pipeline.arrRef spec9 2)) :=
  (dat9 V c).arrAt_eq_of_cover 3 _ (fun t _ => flushed9 V c t) cover9

end Cert.KernelIdeal.RegionVal

end
-- ==== Proof.Bridge.lean ====
/-
  The two programs' stage terms are the same functions.

  The kernel program's host stretches hand each region its operands in one spelling (a parameter vector reshaped to a
  row; the column mean and variance kept as `[1, 128]` rows), the reference computes with another (vectors broadcast
  `[128] → [1, 128] → [100000, 128]`; the statistics as `[128]` vectors). Read at an entry they agree: a vector
  reshaped to a row, or broadcast to a row, is `rowVec` of the vector; the kernel program's row of means (variances)
  is `rowVec` of the reference's vector of means (variances), because division, selection and the broadcasts act
  entry by entry and the column sums are the same term. The edge-list stages (gather, scatter-add, count, divide) and
  the slices of the stacked parameters are the same term in both programs. With that, each layer of the kernel
  program — a region's row function of such operands — is the reference's layer of the same arrays.
-/
import proofs.«119291_j39402029973518_1_alg».proof.Proof.KernelStageTerms
import proofs.«119291_j39402029973518_1_alg».proof.Proof.RefStageDefs
import proofs.«119291_j39402029973518_1_alg».proof.Proof.LibNormSageForms

noncomputable section

namespace Cert.Bridge

open Idealize.ShloMosaic Idealize.ShloMosaic.ValueIdx Cert.RowLayers Cert.Layers Cert.Spec
open Cert.KernelIdeal.Stages Cert.ReferenceIdeal.RefStages

/-! ## Reading the small layout operations at an entry -/

/-- A vector broadcast `[b] → [1, b]` read at `(u, q)` is the vector at `q`. -/
theorem bcastRow_apply {α : Type} {b : ℕ} (v : (⟨1, ![b]⟩ : Shape).Idx → α)
    (h1 : (⟨1, ![b]⟩ : Shape).BroadcastsInDim ⟨2, ![1, b]⟩ ![1]) (u : Fin 1) (q : Fin b) :
    broadcastInDim ⟨2, ![1, b]⟩ ![1] h1 v (ix2 u q) = v (ix1 q) :=
  broadcastInDim_apply ![1] h1 v (ix2 u q) (ix1 q) (fun ax => by
    match ax with
    | ⟨0, _⟩ => show q.val = if b = 1 then 0 else q.val; split <;> [(have := q.isLt; omega); rfl])

/-- A rank-0 array broadcast anywhere is its one entry. -/
theorem bcast0_apply {α : Type} {t : Shape} (x : (⟨0, ![]⟩ : Shape).Idx → α)
    (h : (⟨0, ![]⟩ : Shape).BroadcastsInDim t ![]) (j : t.Idx) (k : (⟨0, ![]⟩ : Shape).Idx) :
    broadcastInDim t ![] h x j = x k :=
  broadcastInDim_apply ![] h x j k (fun ax => ax.elim0)

/-- A vector reshaped `[128] → [1, 128]` is the vector as a row. -/
theorem kReshapeRow_eq (v : FVec Ideal ⟨1, ![128]⟩ .f32) : kReshapeRow v = rowVec v := by
  funext j
  obtain ⟨u, q, rfl⟩ : ∃ (u : Fin 1) (q : Fin 128), j = ix2 u q := ⟨j 0, j 1, eq_ix2 j⟩
  obtain rfl : u = 0 := Subsingleton.elim _ _
  exact congrFun (rowOf_shapeCast_lead v Cert.KernelIdeal.Gen.shapeCasts_S128_S1x128) q

/-- A vector reshaped `[40] → [1, 40]` is the vector as a row. -/
theorem kReshapeRow40_eq (v : FVec Ideal ⟨1, ![40]⟩ .f32) : kReshapeRow40 v = rowVec v := by
  funext j
  obtain ⟨u, q, rfl⟩ : ∃ (u : Fin 1) (q : Fin 40), j = ix2 u q := ⟨j 0, j 1, eq_ix2 j⟩
  obtain rfl : u = 0 := Subsingleton.elim _ _
  exact congrFun (rowOf_shapeCast_lead v Cert.KernelIdeal.Gen.shapeCasts_S40_S1x40) q

/-! ## The column statistics -/

/-- The row of column means is the vector of column means, as a row. -/
theorem kMean_eq (z : FVec Ideal ⟨2, ![100000, 128]⟩ .f32) : kMean z = rowVec (stMean z) := by
  funext j
  obtain ⟨u, q, rfl⟩ : ∃ (u : Fin 1) (q : Fin 128), j = ix2 u q := ⟨j 0, j 1, eq_ix2 j⟩
  rw [rowVec_ix2]
  unfold kMean stMean
  show Ideal.div _ _ = Ideal.div _ _
  refine congrArg₂ Ideal.div ?_ ?_
  · exact bcastRow_apply _ _ u q
  · rfl

/-- The row of column variances is the vector of column variances, as a row. -/
theorem kVar_eq (z : FVec Ideal ⟨2, ![100000, 128]⟩ .f32) : kVar z = rowVec (stVar z) := by
  funext j
  obtain ⟨u, q, rfl⟩ : ∃ (u : Fin 1) (q : Fin 128), j = ix2 u q := ⟨j 0, j 1, eq_ix2 j⟩
  rw [rowVec_ix2]
  unfold kVar stVar
  show Scalar.select _ (Ideal.div _ _) _ = Scalar.select _ (Ideal.div _ _) _
  refine congr (congr (congrArg Scalar.select ?_) (congrArg₂ Ideal.div ?_ ?_)) ?_
  · exact (bcast0_apply _ _ _ (fun a => a.elim0)).trans (bcast0_apply _ _ _ (fun a => a.elim0)).symm
  · exact bcastRow_apply _ _ u q
  · exact (bcast0_apply _ _ _ (fun a => a.elim0)).trans (bcast0_apply _ _ _ (fun a => a.elim0)).symm
  · rfl

/-! ## The shared stages are one term -/

theorem kAgg_eq_stAgg (h : FVec Ideal ⟨2, ![100000, 128]⟩ .f32) (e : IVec ⟨2, ![2, 1600000]⟩ 32) : kAgg h e = stAgg h e := rfl
theorem kMat0_eq (W : FVec Ideal ⟨3, ![4, 128, 128]⟩ .f32) : kMat0 W = stMat0 W := rfl
theorem kMat1_eq (W : FVec Ideal ⟨3, ![4, 128, 128]⟩ .f32) : kMat1 W = stMat1 W := rfl
theorem kMat2_eq (W : FVec Ideal ⟨3, ![4, 128, 128]⟩ .f32) : kMat2 W = stMat2 W := rfl
theorem kMat3_eq (W : FVec Ideal ⟨3, ![4, 128, 128]⟩ .f32) : kMat3 W = stMat3 W := rfl
theorem kRow0_eq (B : FVec Ideal ⟨2, ![4, 128]⟩ .f32) : kRow0 B = stRow0 B := rfl
theorem kRow1_eq (B : FVec Ideal ⟨2, ![4, 128]⟩ .f32) : kRow1 B = stRow1 B := rfl
theorem kRow2_eq (B : FVec Ideal ⟨2, ![4, 128]⟩ .f32) : kRow2 B = stRow2 B := rfl
theorem kRow3_eq (B : FVec Ideal ⟨2, ![4, 128]⟩ .f32) : kRow3 B = stRow3 B := rfl

/-! ## The reference's layers are the row functions -/

theorem rtcR128 : RowsTimesCols Cert.ReferenceIdeal.dot_S100000x128_S128x128_S100000x128_1_0_0_1_n_n where
  rank := rfl
  size := rfl
  lhs0 := fun _ _ => rfl
  lhs1 := fun _ _ => rfl
  rhs0 := fun _ _ => rfl
  rhs1 := fun _ _ => rfl

theorem rtcR40 : RowsTimesCols Cert.ReferenceIdeal.dot_S100000x128_S128x40_S100000x40_1_0_0_1_n_n where
  rank := rfl
  size := rfl
  lhs0 := fun _ _ => rfl
  lhs1 := fun _ _ => rfl
  rhs0 := fun _ _ => rfl
  rhs1 := fun _ _ => rfl

theorem stDense_eq (x : FVec Ideal ⟨2, ![100000, 128]⟩ .f32) (W : FVec Ideal ⟨2, ![128, 128]⟩ .f32) (b : FVec Ideal ⟨1, ![128]⟩ .f32) :
    stDense x W b = denseRows x W (rowVec b) :=
  host_dense rtcR128 x W b _ _

theorem stDenseOut_eq (x : FVec Ideal ⟨2, ![100000, 128]⟩ .f32) (W : FVec Ideal ⟨2, ![128, 40]⟩ .f32) (b : FVec Ideal ⟨1, ![40]⟩ .f32) :
    stDenseOut x W b = denseRows x W (rowVec b) :=
  host_dense rtcR40 x W b _ _

theorem stSage_eq (agg h : FVec Ideal ⟨2, ![100000, 128]⟩ .f32) (Wl : FVec Ideal ⟨2, ![128, 128]⟩ .f32) (bl : FVec Ideal ⟨1, ![128]⟩ .f32)
    (Wr : FVec Ideal ⟨2, ![128, 128]⟩ .f32) : stSage agg h Wl bl Wr = sageRows agg h Wl Wr (rowVec bl) :=
  host_sage rtcR128 agg h Wl Wr bl _ _

/-- The host's batch normalisation and rectifier, parameters and statistics broadcast from vectors. -/
theorem stBnRelu_eq (z : FVec Ideal ⟨2, ![100000, 128]⟩ .f32) (g beta mean var : FVec Ideal ⟨1, ![128]⟩ .f32) :
    stBnRelu z g beta mean var
      = bnRows (Ideal.ofBits .f32 0x3727C5AC#32) (Ideal.ofBits .f32 0x00000000#32) z (rowVec g) (rowVec beta) (rowVec mean) (rowVec var) := by
  funext i
  obtain ⟨r, q, rfl⟩ : ∃ (r : Fin 100000) (q : Fin 128), i = ix2 r q := ⟨i 0, i 1, eq_ix2 i⟩
  rw [bnRows_ix2]
  unfold stBnRelu
  have hb : ∀ v : (⟨1, ![128]⟩ : Shape).Idx → EReal,
      broadcastInDim Cert.ReferenceIdeal.S100000x128 ![0, 1] Cert.ReferenceIdeal.Gen.bcast_S1x128_S100000x128_0_1
        (broadcastInDim Cert.ReferenceIdeal.S1x128 ![1] Cert.ReferenceIdeal.Gen.bcast_S128_S1x128_1 v) (ix2 r q) = v (ix1 q) :=
    fun v => bcast2_apply v _ _ r q
  simp only [maximumf_apply, addf_apply, mulf_apply, subf_apply, rowVec_ix2]
  rw [hb, hb, hb, hb]
  rfl

/-! ## A layer of the kernel program is the reference's layer -/

theorem dense_layer (x : FVec Ideal ⟨2, ![100000, 128]⟩ .f32) (W : FVec Ideal ⟨2, ![128, 128]⟩ .f32) (b : FVec Ideal ⟨1, ![128]⟩ .f32) :
    denseRows x W (kReshapeRow b) = stDense x W b := by
  rw [kReshapeRow_eq, stDense_eq]

theorem denseOut_layer (x : FVec Ideal ⟨2, ![100000, 128]⟩ .f32) (W : FVec Ideal ⟨2, ![128, 40]⟩ .f32) (b : FVec Ideal ⟨1, ![40]⟩ .f32) :
    denseRows x W (kReshapeRow40 b) = stDenseOut x W b := by
  rw [kReshapeRow40_eq, stDenseOut_eq]

theorem bn_layer (z : FVec Ideal ⟨2, ![100000, 128]⟩ .f32) (g beta : FVec Ideal ⟨1, ![128]⟩ .f32) :
    bnRows (Ideal.ofBits .f32 0x3727C5AC#32) (Ideal.ofBits .f32 0x00000000#32) z (kReshapeRow g) (kReshapeRow beta) (kMean z) (kVar z)
      = stBnRelu z g beta (stMean z) (stVar z) := by
  rw [kReshapeRow_eq, kReshapeRow_eq, kMean_eq, kVar_eq, stBnRelu_eq]

theorem sage_layer (agg h : FVec Ideal ⟨2, ![100000, 128]⟩ .f32) (Wl Wr : FVec Ideal ⟨2, ![128, 128]⟩ .f32) (bl : FVec Ideal ⟨1, ![128]⟩ .f32) :
    sageRows agg h Wl Wr (kReshapeRow bl) = stSage agg h Wl bl Wr := by
  rw [kReshapeRow_eq, stSage_eq]

end Cert.Bridge

end
-- ==== Proof.KernelChain.lean ====
/-
  The kernel program, stage by stage, in the reference's terms.

  Each region leaves the row function of its operands (the region modules); its operands are the launch arguments
  and earlier regions' results passed through the host stretches (the stage readings); and a row function of operands
  in the kernel program's spelling is the reference's layer of the same arrays (the bridge). So the ten regions'
  results satisfy the reference's own recurrences: input projection, normalisation, and four times a graph layer
  followed (three times) by normalisation, then the output projection.
-/
import proofs.«119291_j39402029973518_1_alg».proof.Proof.KernelStages
import proofs.«119291_j39402029973518_1_alg».proof.Proof.Region0
import proofs.«119291_j39402029973518_1_alg».proof.Proof.Region1
import proofs.«119291_j39402029973518_1_alg».proof.Proof.Region2
import proofs.«119291_j39402029973518_1_alg».proof.Proof.Region3
import proofs.«119291_j39402029973518_1_alg».proof.Proof.Region4
import proofs.«119291_j39402029973518_1_alg».proof.Proof.Region5
import proofs.«119291_j39402029973518_1_alg».proof.Proof.Region6
import proofs.«119291_j39402029973518_1_alg».proof.Proof.Region7
import proofs.«119291_j39402029973518_1_alg».proof.Proof.Region8
import proofs.«119291_j39402029973518_1_alg».proof.Proof.Region9
import proofs.«119291_j39402029973518_1_alg».proof.Proof.Bridge

noncomputable section

namespace Cert.KernelIdeal.Chain

open Idealize.ShloMosaic Idealize.ShloMosaic.TcCoe Idealize.SL.Sem
open Cert.KernelIdeal Cert.KernelIdeal.Gen Cert.KernelIdeal.Stages Cert.Layers Cert.Spec Cert.Bridge
open Cert.ReferenceIdeal.RefStages (stDense stMean stVar stBnRelu stAgg stSage stDenseOut stMat0 stMat1 stMat2 stMat3 stRow0 stRow1 stRow2 stRow3)

variable (m : (ℓ : Loc nD τ sig) → Buf (Elt Ideal) ℓ) (ρ : Dev nD → PrngReg) (c : Dev nD)

/-- Region 0's result is the reference's input projection of the launch arguments. -/
theorem k0 : Gen.V2 m ρ c main_v5 = stDense (m ((c.tc : Thread nD τ).loc main_arg0)) (m ((c.tc : Thread nD τ).loc main_arg1)) (m ((c.tc : Thread nD τ).loc main_arg2)) :=
  (out0' m ρ c).trans <| (RegionVal.arr0 (Gen.V1 m ρ) c).trans <| by
    show denseRows (Gen.V1 m ρ c main_arg0) (Gen.V1 m ρ c main_arg1) (Gen.V1 m ρ c main_v4) = _
    rw [in0_0, in0_1, in0_2, dense_layer]

/-- Region 1's result is the reference's normalisation of region 0's result. -/
theorem k1 : Gen.V6 m ρ c main_v13
    = stBnRelu (Gen.V2 m ρ c main_v5) (m ((c.tc : Thread nD τ).loc main_arg3)) (m ((c.tc : Thread nD τ).loc main_arg4)) (stMean (Gen.V2 m ρ c main_v5)) (stVar (Gen.V2 m ρ c main_v5)) :=
  (out1' m ρ c).trans <| (RegionVal.arr1 (Gen.V5 m ρ) c).trans <| by
    show bnRows (Ideal.ofBits .f32 0x3727C5AC#32) (Ideal.ofBits .f32 0x00000000#32) (Gen.V5 m ρ c main_v5) (Gen.V5 m ρ c main_v11) (Gen.V5 m ρ c main_v12)
      (Gen.V5 m ρ c main_v9) (Gen.V5 m ρ c main_v10) = _
    rw [in1_0, in1_1, in1_2, in1_3, in1_4, bn_layer]

/-- Region 3's result is the reference's normalisation of region 2's result. -/
theorem k3 : Gen.V12 m ρ c main_v51
    = stBnRelu (Gen.V8 m ρ c main_v39) (stRow0 (m ((c.tc : Thread nD τ).loc main_arg8))) (stRow0 (m ((c.tc : Thread nD τ).loc main_arg9))) (stMean (Gen.V8 m ρ c main_v39)) (stVar (Gen.V8 m ρ c main_v39)) :=
  (out3' m ρ c).trans <| (RegionVal.arr3 (Gen.V11 m ρ) c).trans <| by
    show bnRows (Ideal.ofBits .f32 0x3727C5AC#32) (Ideal.ofBits .f32 0x00000000#32) (Gen.V11 m ρ c main_v39) (Gen.V11 m ρ c main_v49) (Gen.V11 m ρ c main_v50)
      (Gen.V11 m ρ c main_v43) (Gen.V11 m ρ c main_v44) = _
    rw [in3_0, in3_1, in3_2, in3_3, in3_4, bn_layer, kRow0_eq, kRow0_eq]

/-- Region 5's result is the reference's normalisation of region 4's result. -/
theorem k5 : Gen.V18 m ρ c main_v83
    = stBnRelu (Gen.V14 m ρ c main_v71) (stRow1 (m ((c.tc : Thread nD τ).loc main_arg8))) (stRow1 (m ((c.tc : Thread nD τ).loc main_arg9))) (stMean (Gen.V14 m ρ c main_v71)) (stVar (Gen.V14 m ρ c main_v71)) :=
  (out5' m ρ c).trans <| (RegionVal.arr5 (Gen.V17 m ρ) c).trans <| by
    show bnRows (Ideal.ofBits .f32 0x3727C5AC#32) (Ideal.ofBits .f32 0x00000000#32) (Gen.V17 m ρ c main_v71) (Gen.V17 m ρ c main_v81) (Gen.V17 m ρ c main_v82)
      (Gen.V17 m ρ c main_v75) (Gen.V17 m ρ c main_v76) = _
    rw [in5_0, in5_1, in5_2, in5_3, in5_4, bn_layer, kRow1_eq, kRow1_eq]

/-- Region 7's result is the reference's normalisation of region 6's result. -/
theorem k7 : Gen.V24 m ρ c main_v115
    = stBnRelu (Gen.V20 m ρ c main_v103) (stRow2 (m ((c.tc : Thread nD τ).loc main_arg8))) (stRow2 (m ((c.tc : Thread nD τ).loc main_arg9))) (stMean (Gen.V20 m ρ c main_v103)) (stVar (Gen.V20 m ρ c main_v103)) :=
  (out7' m ρ c).trans <| (RegionVal.arr7 (Gen.V23 m ρ) c).trans <| by
    show bnRows (Ideal.ofBits .f32 0x3727C5AC#32) (Ideal.ofBits .f32 0x00000000#32) (Gen.V23 m ρ c main_v103) (Gen.V23 m ρ c main_v113) (Gen.V23 m ρ c main_v114)
      (Gen.V23 m ρ c main_v107) (Gen.V23 m ρ c main_v108) = _
    rw [in7_0, in7_1, in7_2, in7_3, in7_4, bn_layer, kRow2_eq, kRow2_eq]

/-- Region 2's result is the reference's graph layer 0 of region 1's result. -/
theorem k2 : Gen.V8 m ρ c main_v39
    = stSage (stAgg (Gen.V6 m ρ c main_v13) (m ((c.tc : Thread nD τ).loc main_arg12))) (Gen.V6 m ρ c main_v13) (stMat0 (m ((c.tc : Thread nD τ).loc main_arg5))) (stRow0 (m ((c.tc : Thread nD τ).loc main_arg6))) (stMat0 (m ((c.tc : Thread nD τ).loc main_arg7))) :=
  (out2' m ρ c).trans <| (RegionVal.arr2 (Gen.V7 m ρ) c).trans <| by
    show sageRows (Gen.V7 m ρ c main_v31) (Gen.V7 m ρ c main_v13) (Gen.V7 m ρ c main_v33)
      (Gen.V7 m ρ c main_v35) (Gen.V7 m ρ c main_v38) = _
    rw [in2_0, in2_1, in2_2, in2_3, in2_4, sage_layer, kAgg_eq_stAgg, kMat0_eq, kMat0_eq, kRow0_eq]

/-- Region 4's result is the reference's graph layer 1 of region 3's result. -/
theorem k4 : Gen.V14 m ρ c main_v71
    = stSage (stAgg (Gen.V12 m ρ c main_v51) (m ((c.tc : Thread nD τ).loc main_arg12))) (Gen.V12 m ρ c main_v51) (stMat1 (m ((c.tc : Thread nD τ).loc main_arg5))) (stRow1 (m ((c.tc : Thread nD τ).loc main_arg6))) (stMat1 (m ((c.tc : Thread nD τ).loc main_arg7))) :=
  (out4' m ρ c).trans <| (RegionVal.arr4 (Gen.V13 m ρ) c).trans <| by
    show sageRows (Gen.V13 m ρ c main_v63) (Gen.V13 m ρ c main_v51) (Gen.V13 m ρ c main_v65)
      (Gen.V13 m ρ c main_v67) (Gen.V13 m ρ c main_v70) = _
    rw [in4_0, in4_1, in4_2, in4_3, in4_4, sage_layer, kAgg_eq_stAgg, kMat1_eq, kMat1_eq, kRow1_eq]

/-- Region 6's result is the reference's graph layer 2 of region 5's result. -/
theorem k6 : Gen.V20 m ρ c main_v103
    = stSage (stAgg (Gen.V18 m ρ c main_v83) (m ((c.tc : Thread nD τ).loc main_arg12))) (Gen.V18 m ρ c main_v83) (stMat2 (m ((c.tc : Thread nD τ).loc main_arg5))) (stRow2 (m ((c.tc : Thread nD τ).loc main_arg6))) (stMat2 (m ((c.tc : Thread nD τ).loc main_arg7))) :=
  (out6' m ρ c).trans <| (RegionVal.arr6 (Gen.V19 m ρ) c).trans <| by
    show sageRows (Gen.V19 m ρ c main_v95) (Gen.V19 m ρ c main_v83) (Gen.V19 m ρ c main_v97)
      (Gen.V19 m ρ c main_v99) (Gen.V19 m ρ c main_v102) = _
    rw [in6_0, in6_1, in6_2, in6_3, in6_4, sage_layer, kAgg_eq_stAgg, kMat2_eq, kMat2_eq, kRow2_eq]

/-- Region 8's result is the reference's graph layer 3 of region 7's result. -/
theorem k8 : Gen.V26 m ρ c main_v135
    = stSage (stAgg (Gen.V24 m ρ c main_v115) (m ((c.tc : Thread nD τ).loc main_arg12))) (Gen.V24 m ρ c main_v115) (stMat3 (m ((c.tc : Thread nD τ).loc main_arg5))) (stRow3 (m ((c.tc : Thread nD τ).loc main_arg6))) (stMat3 (m ((c.tc : Thread nD τ).loc main_arg7))) :=
  (out8' m ρ c).trans <| (RegionVal.arr8 (Gen.V25 m ρ) c).trans <| by
    show sageRows (Gen.V25 m ρ c main_v127) (Gen.V25 m ρ c main_v115) (Gen.V25 m ρ c main_v129)
      (Gen.V25 m ρ c main_v131) (Gen.V25 m ρ c main_v134) = _
    rw [in8_0, in8_1, in8_2, in8_3, in8_4, sage_layer, kAgg_eq_stAgg, kMat3_eq, kMat3_eq, kRow3_eq]

/-- Region 9's result is the reference's output projection of region 8's result. -/
theorem k9 : Gen.V28 m ρ c main_v137 = stDenseOut (Gen.V26 m ρ c main_v135) (m ((c.tc : Thread nD τ).loc main_arg10)) (m ((c.tc : Thread nD τ).loc main_arg11)) :=
  (out9' m ρ c).trans <| (RegionVal.arr9 (Gen.V27 m ρ) c).trans <| by
    show denseRows (Gen.V27 m ρ c main_v135) (Gen.V27 m ρ c main_arg10) (Gen.V27 m ρ c main_v136) = _
    rw [in9_0, in9_1, in9_2, denseOut_layer]

end Cert.KernelIdeal.Chain

end
-- ==== Proof.Final.lean ====
/-
  The two programs' results are equal.

  The kernel program's regions satisfy the reference's recurrences (the kernel chain), the reference's buffers satisfy
  them by the reading of its own operations, and the launch arguments agree; so, stage by stage — input projection,
  normalisation, four graph layers with three normalisations between them, output projection — the array a region
  leaves equals the reference's buffer of the same stage, and the last pair are the two results.
-/
import proofs.«119291_j39402029973518_1_alg».proof.Proof.KernelChain
import proofs.«119291_j39402029973518_1_alg».proof.Proof.RefStages

noncomputable section

namespace Cert.Final

open Idealize.ShloMosaic Idealize.ShloMosaic.TcCoe Idealize.SL.Sem
open Cert.KernelIdeal.Chain
open Cert.ReferenceIdeal.RefStages

/-- From memories that agree on the thirteen arguments, the reference's result buffer holds what the kernel
    program's last region leaves. -/
theorem out_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    R m' c Cert.ReferenceIdeal.main_v223 = Cert.KernelIdeal.Gen.W28 m ρ c (Proc.devRef .tc Cert.KernelIdeal.main_v137) := by
  obtain ⟨h0, h1, h2, h3, h4, h5, h6, h7, h8, h9, h10, h11, h12⟩ := h
  have a0 : R m' c Cert.ReferenceIdeal.main_arg0 = m ((c.tc : Thread Cert.KernelIdeal.nD Cert.KernelIdeal.τ).loc Cert.KernelIdeal.main_arg0) := (R_main_arg0 m' c).trans h0
  have a1 : R m' c Cert.ReferenceIdeal.main_arg1 = m ((c.tc : Thread Cert.KernelIdeal.nD Cert.KernelIdeal.τ).loc Cert.KernelIdeal.main_arg1) := (R_main_arg1 m' c).trans h1
  have a2 : R m' c Cert.ReferenceIdeal.main_arg2 = m ((c.tc : Thread Cert.KernelIdeal.nD Cert.KernelIdeal.τ).loc Cert.KernelIdeal.main_arg2) := (R_main_arg2 m' c).trans h2
  have a3 : R m' c Cert.ReferenceIdeal.main_arg3 = m ((c.tc : Thread Cert.KernelIdeal.nD Cert.KernelIdeal.τ).loc Cert.KernelIdeal.main_arg3) := (R_main_arg3 m' c).trans h3
  have a4 : R m' c Cert.ReferenceIdeal.main_arg4 = m ((c.tc : Thread Cert.KernelIdeal.nD Cert.KernelIdeal.τ).loc Cert.KernelIdeal.main_arg4) := (R_main_arg4 m' c).trans h4
  have a5 : R m' c Cert.ReferenceIdeal.main_arg5 = m ((c.tc : Thread Cert.KernelIdeal.nD Cert.KernelIdeal.τ).loc Cert.KernelIdeal.main_arg5) := (R_main_arg5 m' c).trans h5
  have a6 : R m' c Cert.ReferenceIdeal.main_arg6 = m ((c.tc : Thread Cert.KernelIdeal.nD Cert.KernelIdeal.τ).loc Cert.KernelIdeal.main_arg6) := (R_main_arg6 m' c).trans h6
  have a7 : R m' c Cert.ReferenceIdeal.main_arg7 = m ((c.tc : Thread Cert.KernelIdeal.nD Cert.KernelIdeal.τ).loc Cert.KernelIdeal.main_arg7) := (R_main_arg7 m' c).trans h7
  have a8 : R m' c Cert.ReferenceIdeal.main_arg8 = m ((c.tc : Thread Cert.KernelIdeal.nD Cert.KernelIdeal.τ).loc Cert.KernelIdeal.main_arg8) := (R_main_arg8 m' c).trans h8
  have a9 : R m' c Cert.ReferenceIdeal.main_arg9 = m ((c.tc : Thread Cert.KernelIdeal.nD Cert.KernelIdeal.τ).loc Cert.KernelIdeal.main_arg9) := (R_main_arg9 m' c).trans h9
  have a10 : R m' c Cert.ReferenceIdeal.main_arg10 = m ((c.tc : Thread Cert.KernelIdeal.nD Cert.KernelIdeal.τ).loc Cert.KernelIdeal.main_arg10) := (R_main_arg10 m' c).trans h10
  have a11 : R m' c Cert.ReferenceIdeal.main_arg11 = m ((c.tc : Thread Cert.KernelIdeal.nD Cert.KernelIdeal.τ).loc Cert.KernelIdeal.main_arg11) := (R_main_arg11 m' c).trans h11
  have a12 : R m' c Cert.ReferenceIdeal.main_arg12 = m ((c.tc : Thread Cert.KernelIdeal.nD Cert.KernelIdeal.τ).loc Cert.KernelIdeal.main_arg12) := (R_main_arg12 m' c).trans h12
  have E0 : Cert.KernelIdeal.Gen.V2 m ρ c Cert.KernelIdeal.main_v5 = R m' c Cert.ReferenceIdeal.main_v7 := by
    rw [k0 m ρ c, R_main_v7 m' c, a0, a1, a2]
  have E1 : Cert.KernelIdeal.Gen.V6 m ρ c Cert.KernelIdeal.main_v13 = R m' c Cert.ReferenceIdeal.main_v27 := by
    rw [k1 m ρ c, R_main_v27 m' c, R_main_v10 m' c, R_main_v11 m' c, a3, a4, E0]
  have E2 : Cert.KernelIdeal.Gen.V8 m ρ c Cert.KernelIdeal.main_v39 = R m' c Cert.ReferenceIdeal.main_v57 := by
    rw [k2 m ρ c, R_main_v57 m' c, R_main_v51 m' c, R_main_v29 m' c, R_main_v31 m' c, R_main_v33 m' c, a12, a5, a6, a7, E1]
  have E3 : Cert.KernelIdeal.Gen.V12 m ρ c Cert.KernelIdeal.main_v51 = R m' c Cert.ReferenceIdeal.main_v81 := by
    rw [k3 m ρ c, R_main_v81 m' c, R_main_v59 m' c, R_main_v61 m' c, R_main_v64 m' c, R_main_v65 m' c, a8, a9, E2]
  have E4 : Cert.KernelIdeal.Gen.V14 m ρ c Cert.KernelIdeal.main_v71 = R m' c Cert.ReferenceIdeal.main_v111 := by
    rw [k4 m ρ c, R_main_v111 m' c, R_main_v105 m' c, R_main_v83 m' c, R_main_v85 m' c, R_main_v87 m' c, a12, a5, a6, a7, E3]
  have E5 : Cert.KernelIdeal.Gen.V18 m ρ c Cert.KernelIdeal.main_v83 = R m' c Cert.ReferenceIdeal.main_v135 := by
    rw [k5 m ρ c, R_main_v135 m' c, R_main_v113 m' c, R_main_v115 m' c, R_main_v118 m' c, R_main_v119 m' c, a8, a9, E4]
  have E6 : Cert.KernelIdeal.Gen.V20 m ρ c Cert.KernelIdeal.main_v103 = R m' c Cert.ReferenceIdeal.main_v165 := by
    rw [k6 m ρ c, R_main_v165 m' c, R_main_v159 m' c, R_main_v137 m' c, R_main_v139 m' c, R_main_v141 m' c, a12, a5, a6, a7, E5]
  have E7 : Cert.KernelIdeal.Gen.V24 m ρ c Cert.KernelIdeal.main_v115 = R m' c Cert.ReferenceIdeal.main_v189 := by
    rw [k7 m ρ c, R_main_v189 m' c, R_main_v167 m' c, R_main_v169 m' c, R_main_v172 m' c, R_main_v173 m' c, a8, a9, E6]
  have E8 : Cert.KernelIdeal.Gen.V26 m ρ c Cert.KernelIdeal.main_v135 = R m' c Cert.ReferenceIdeal.main_v219 := by
    rw [k8 m ρ c, R_main_v219 m' c, R_main_v213 m' c, R_main_v191 m' c, R_main_v193 m' c, R_main_v195 m' c, a12, a5, a6, a7, E7]
  have E9 : Cert.KernelIdeal.Gen.V28 m ρ c Cert.KernelIdeal.main_v137 = R m' c Cert.ReferenceIdeal.main_v223 := by
    rw [k9 m ρ c, R_main_v223 m' c, a10, a11, E8]
  exact E9.symm

end Cert.Final

end
-- ==== Proof.lean ====
/-
  The certificate of a four-layer graph network (input projection, batch normalisation, four neighbourhood-mean
  layers, output projection) computed by ten tiled device regions among host operations, against the same network
  written as plain array operations.

  Over the extended reals the two programs apply the same operations: a region's tiles are restrictions of one
  row-wise function of whole arrays (dense layer, normalisation with rectifier, combination of aggregated and own
  features), the tiled products into zero accumulators are the host's products, a change of float format is the
  identity, the column statistics kept as rows are the reference's vectors, and the one re-association —
  `(agg·Wl + h·Wr) + b` against `(agg·Wl + b) + h·Wr` — holds because addition of extended reals is commutative and
  associative. No finiteness of the inputs is used.

  The three frames: the two device programs by their frame certificates, the reference by its run with the result
  dropped. The idealization rewrote nothing, so `preserves` is trivial. `algebraic`: the kernel program's run with
  its result named, the reference's run, and the equality of the two results stage by stage.
-/
import proofs.«119291_j39402029973518_1_alg».proof.Defs
import proofs.«119291_j39402029973518_1_alg».proof.Proof.Gen.Kernel
import proofs.«119291_j39402029973518_1_alg».proof.Proof.Gen.Kernel.Frame
import proofs.«119291_j39402029973518_1_alg».proof.Proof.Gen.KernelIdeal
import proofs.«119291_j39402029973518_1_alg».proof.Proof.Gen.KernelIdeal.Frame
import proofs.«119291_j39402029973518_1_alg».proof.Proof.Gen.ReferenceIdeal
import proofs.«119291_j39402029973518_1_alg».proof.Proof.Gen.Pre_finite_inputs
import proofs.«119291_j39402029973518_1_alg».proof.Proof.KernelRun
import proofs.«119291_j39402029973518_1_alg».proof.Proof.RefRun
import proofs.«119291_j39402029973518_1_alg».proof.Proof.RefStages
import proofs.«119291_j39402029973518_1_alg».proof.Proof.Final
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its run with everything but the arguments dropped. -/
theorem frame_ri : @Cert.frame_ReferenceIdeal Cert.ReferenceIdeal.Gen.facts Cert.Pre_finite_inputs.Gen.facts :=
  fun m' ρ' _ => (θ_run Cert.ReferenceIdeal.defs _ _).mono (fun _ h c =>
    ⟨(h c Cert.ReferenceIdeal.main_arg0).trans (Cert.ReferenceIdeal.RefStages.R_main_arg0 m' c),
      (h c Cert.ReferenceIdeal.main_arg1).trans (Cert.ReferenceIdeal.RefStages.R_main_arg1 m' c),
      (h c Cert.ReferenceIdeal.main_arg2).trans (Cert.ReferenceIdeal.RefStages.R_main_arg2 m' c),
      (h c Cert.ReferenceIdeal.main_arg3).trans (Cert.ReferenceIdeal.RefStages.R_main_arg3 m' c),
      (h c Cert.ReferenceIdeal.main_arg4).trans (Cert.ReferenceIdeal.RefStages.R_main_arg4 m' c),
      (h c Cert.ReferenceIdeal.main_arg5).trans (Cert.ReferenceIdeal.RefStages.R_main_arg5 m' c),
      (h c Cert.ReferenceIdeal.main_arg6).trans (Cert.ReferenceIdeal.RefStages.R_main_arg6 m' c),
      (h c Cert.ReferenceIdeal.main_arg7).trans (Cert.ReferenceIdeal.RefStages.R_main_arg7 m' c),
      (h c Cert.ReferenceIdeal.main_arg8).trans (Cert.ReferenceIdeal.RefStages.R_main_arg8 m' c),
      (h c Cert.ReferenceIdeal.main_arg9).trans (Cert.ReferenceIdeal.RefStages.R_main_arg9 m' c),
      (h c Cert.ReferenceIdeal.main_arg10).trans (Cert.ReferenceIdeal.RefStages.R_main_arg10 m' c),
      (h c Cert.ReferenceIdeal.main_arg11).trans (Cert.ReferenceIdeal.RefStages.R_main_arg11 m' c),
      (h c Cert.ReferenceIdeal.main_arg12).trans (Cert.ReferenceIdeal.RefStages.R_main_arg12 m' c)⟩)
    (Cert.ReferenceIdeal.RefRun.run (F := Ideal) m' ρ')

theorem preserves : Cert.preserves_Kernel_KernelIdeal := trivial

/-- Both programs run, and the reference's result buffer ends at what the kernel program's last region leaves. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Gen.W28 m ρ c (Proc.devRef .tc Cert.KernelIdeal.main_v137),
    Cert.KernelIdeal.RunVal.run (F := Ideal) m ρ, ?_⟩
  refine (θ_run Cert.ReferenceIdeal.defs _ _).mono (fun _ h c =>
    ⟨(h c Cert.ReferenceIdeal.main_v223).trans (Cert.Final.out_eq m ρ m' c (hagree c)),
      (h c Cert.ReferenceIdeal.main_arg0).trans (Cert.ReferenceIdeal.RefStages.R_main_arg0 m' c),
      (h c Cert.ReferenceIdeal.main_arg1).trans (Cert.ReferenceIdeal.RefStages.R_main_arg1 m' c),
      (h c Cert.ReferenceIdeal.main_arg2).trans (Cert.ReferenceIdeal.RefStages.R_main_arg2 m' c),
      (h c Cert.ReferenceIdeal.main_arg3).trans (Cert.ReferenceIdeal.RefStages.R_main_arg3 m' c),
      (h c Cert.ReferenceIdeal.main_arg4).trans (Cert.ReferenceIdeal.RefStages.R_main_arg4 m' c),
      (h c Cert.ReferenceIdeal.main_arg5).trans (Cert.ReferenceIdeal.RefStages.R_main_arg5 m' c),
      (h c Cert.ReferenceIdeal.main_arg6).trans (Cert.ReferenceIdeal.RefStages.R_main_arg6 m' c),
      (h c Cert.ReferenceIdeal.main_arg7).trans (Cert.ReferenceIdeal.RefStages.R_main_arg7 m' c),
      (h c Cert.ReferenceIdeal.main_arg8).trans (Cert.ReferenceIdeal.RefStages.R_main_arg8 m' c),
      (h c Cert.ReferenceIdeal.main_arg9).trans (Cert.ReferenceIdeal.RefStages.R_main_arg9 m' c),
      (h c Cert.ReferenceIdeal.main_arg10).trans (Cert.ReferenceIdeal.RefStages.R_main_arg10 m' c),
      (h c Cert.ReferenceIdeal.main_arg11).trans (Cert.ReferenceIdeal.RefStages.R_main_arg11 m' c),
      (h c Cert.ReferenceIdeal.main_arg12).trans (Cert.ReferenceIdeal.RefStages.R_main_arg12 m' c)⟩)
    (Cert.ReferenceIdeal.RefRun.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
